-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v106)) (v1 : (c : Dev Cert.KernelIdeal.nD) → Buf (Elt Ideal) ((c.tc : Thread Cert.KernelIdeal.nD Cert.KernelIdeal.τ).loc Cert.KernelIdeal.main_v107)) (v2 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v106) = v0 c
          ∧ r.2.mem ((c.tc : Thread Cert.KernelIdeal.nD Cert.KernelIdeal.τ).loc Cert.KernelIdeal.main_v107) = v1 c
          ∧ r.2.mem ((c.tc : Thread Cert.KernelIdeal.nD Cert.KernelIdeal.τ).loc Cert.KernelIdeal.main_v71) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_v137) = v1 c
          ∧ r.2.mem ((c.tc : Thread Cert.ReferenceIdeal.nD Cert.ReferenceIdeal.τ).loc Cert.ReferenceIdeal.main_v79) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S800000 : Shape := ⟨1, ![800000]⟩
abbrev S200000 : Shape := ⟨1, ![200000]⟩
abbrev S256x512 : Shape := ⟨2, ![256, 512]⟩
abbrev S512 : Shape := ⟨1, ![512]⟩
abbrev S512x256 : Shape := ⟨2, ![512, 256]⟩
abbrev S256 : Shape := ⟨1, ![256]⟩
abbrev S256x160 : Shape := ⟨2, ![256, 160]⟩
abbrev S160 : Shape := ⟨1, ![160]⟩
abbrev S160x80 : Shape := ⟨2, ![160, 80]⟩
abbrev S80 : Shape := ⟨1, ![80]⟩
abbrev S80x40 : Shape := ⟨2, ![80, 40]⟩
abbrev S40 : Shape := ⟨1, ![40]⟩
abbrev S40x1 : Shape := ⟨2, ![40, 1]⟩
abbrev S1 : Shape := ⟨1, ![1]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S800000 : S_.BroadcastsInDim S800000 (![] : Fin 0 → Fin S800000.rank)
  reducesTo_S800000_S_d0 : S800000.ReducesTo [0] S_
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x160 : S_.BroadcastsInDim S256x160 (![] : Fin 0 → Fin S256x160.rank)
  reducesTo_S256x160_S_d0_1 : S256x160.ReducesTo [0, 1] S_
  bcast_S_S160 : S_.BroadcastsInDim S160 (![] : Fin 0 → Fin S160.rank)
  reducesTo_S160_S_d0 : S160.ReducesTo [0] S_
  bcast_S_S160x80 : S_.BroadcastsInDim S160x80 (![] : Fin 0 → Fin S160x80.rank)
  reducesTo_S160x80_S_d0_1 : S160x80.ReducesTo [0, 1] S_
  bcast_S_S80 : S_.BroadcastsInDim S80 (![] : Fin 0 → Fin S80.rank)
  reducesTo_S80_S_d0 : S80.ReducesTo [0] S_
  bcast_S_S80x40 : S_.BroadcastsInDim S80x40 (![] : Fin 0 → Fin S80x40.rank)
  reducesTo_S80x40_S_d0_1 : S80x40.ReducesTo [0, 1] S_
  bcast_S_S40 : S_.BroadcastsInDim S40 (![] : Fin 0 → Fin S40.rank)
  reducesTo_S40_S_d0 : S40.ReducesTo [0] S_
  bcast_S_S40x1 : S_.BroadcastsInDim S40x1 (![] : Fin 0 → Fin S40x1.rank)
  reducesTo_S40x1_S_d0_1 : S40x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg17 : FVec F S40 .f32) (main_arg18 : FVec F S40x1 .f32) (main_arg19 : FVec F S1 .f32) (main_v48 : IVec S_ 1) (main_v49 : FVec F S80x40 .f32) (main_v50 : FVec F S80x40 .f32) : IVec S_ 1 :=
  let main_v51 : IVec S80x40 1 := cmpf .olt main_v49 main_v50
  let main_c_19 : IVec S_ 1 := constantI S_ 1 1#1
  let main_v52 : IVec S_ 1 := (fun x v => Host.reduce IntOp.andi x v reducesTo_S80x40_S_d0_1 h_S_) main_v51 main_c_19
  let main_v53 : IVec S_ 1 := andi main_v48 main_v52
  let main_v54 : FVec F S40 .f32 := Host.absf main_arg17
  let main_cst_20 : FVec F S_ .f32 := constant S_ .f32 0x7F800000#32
  let main_v55 : FVec F S40 .f32 := broadcastInDim S40 ![] bcast_S_S40 main_cst_20
  let main_v56 : IVec S40 1 := cmpf .olt main_v54 main_v55
  let main_c_21 : IVec S_ 1 := constantI S_ 1 1#1
  let main_v57 : IVec S_ 1 := (fun x v => Host.reduce IntOp.andi x v reducesTo_S40_S_d0 h_S_) main_v56 main_c_21
  let main_v58 : IVec S_ 1 := andi main_v53 main_v57
  let main_v59 : FVec F S40x1 .f32 := Host.absf main_arg18
  let main_cst_22 : FVec F S_ .f32 := constant S_ .f32 0x7F800000#32
  let main_v60 : FVec F S40x1 .f32 := broadcastInDim S40x1 ![] bcast_S_S40x1 main_cst_22
  let main_v61 : IVec S40x1 1 := cmpf .olt main_v59 main_v60
  let main_c_23 : IVec S_ 1 := constantI S_ 1 1#1
  let main_v62 : IVec S_ 1 := (fun x v => Host.reduce IntOp.andi x v reducesTo_S40x1_S_d0_1 h_S_) main_v61 main_c_23
  let main_v63 : IVec S_ 1 := andi main_v58 main_v62
  let main_v64 : FVec F S1 .f32 := Host.absf main_arg19
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_v63 main_v67

def fn_part2 {F : FTy → Type} [FloatOps F] (main_arg13 : FVec F S160 .f32) (main_arg14 : FVec F S160x80 .f32) (main_arg15 : FVec F S80 .f32) (main_arg16 : FVec F S80x40 .f32) (main_arg17 : FVec F S40 .f32) (main_arg18 : FVec F S40x1 .f32) (main_arg19 : FVec F S1 .f32) (main_v33 : IVec S_ 1) : IVec S_ 1 :=
  let main_v34 : FVec F S160 .f32 := Host.absf main_arg13
  let main_cst_12 : FVec F S_ .f32 := constant S_ .f32 0x7F800000#32
  let main_v35 : FVec F S160 .f32 := broadcastInDim S160 ![] bcast_S_S160 main_cst_12
  let main_v36 : IVec S160 1 := cmpf .olt main_v34 main_v35
  let main_c_13 : IVec S_ 1 := constantI S_ 1 1#1
  let main_v37 : IVec S_ 1 := (fun x v => Host.reduce IntOp.andi x v reducesTo_S160_S_d0 h_S_) main_v36 main_c_13
  let main_v38 : IVec S_ 1 := andi main_v33 main_v37
  let main_v39 : FVec F S160x80 .f32 := Host.absf main_arg14
  let main_cst_14 : FVec F S_ .f32 := constant S_ .f32 0x7F800000#32
  let main_v40 : FVec F S160x80 .f32 := broadcastInDim S160x80 ![] bcast_S_S160x80 main_cst_14
  let main_v41 : IVec S160x80 1 := cmpf .olt main_v39 main_v40
  let main_c_15 : IVec S_ 1 := constantI S_ 1 1#1
  let main_v42 : IVec S_ 1 := (fun x v => Host.reduce IntOp.andi x v reducesTo_S160x80_S_d0_1 h_S_) main_v41 main_c_15
  let main_v43 : IVec S_ 1 := andi main_v38 main_v42
  let main_v44 : FVec F S80 .f32 := Host.absf main_arg15
  let main_cst_16 : FVec F S_ .f32 := constant S_ .f32 0x7F800000#32
  let main_v45 : FVec F S80 .f32 := broadcastInDim S80 ![] bcast_S_S80 main_cst_16
  let main_v46 : IVec S80 1 := cmpf .olt main_v44 main_v45
  let main_c_17 : IVec S_ 1 := constantI S_ 1 1#1
  let main_v47 : IVec S_ 1 := (fun x v => Host.reduce IntOp.andi x v reducesTo_S80_S_d0 h_S_) main_v46 main_c_17
  let main_v48 : IVec S_ 1 := andi main_v43 main_v47
  let main_v49 : FVec F S80x40 .f32 := Host.absf main_arg16
  let main_cst_18 : FVec F S_ .f32 := constant S_ .f32 0x7F800000#32
  let main_v50 : FVec F S80x40 .f32 := broadcastInDim S80x40 ![] bcast_S_S80x40 main_cst_18
  fn_part3 (F := F) main_arg17 main_arg18 main_arg19 main_v48 main_v49 main_v50

def fn_part1 {F : FTy → Type} [FloatOps F] (main_arg10 : FVec F S512x256 .f32) (main_arg11 : FVec F S256 .f32) (main_arg12 : FVec F S256x160 .f32) (main_arg13 : FVec F S160 .f32) (main_arg14 : FVec F S160x80 .f32) (main_arg15 : FVec F S80 .f32) (main_arg16 : FVec F S80x40 .f32) (main_arg17 : FVec F S40 .f32) (main_arg18 : FVec F S40x1 .f32) (main_arg19 : FVec F S1 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x256 .f32 := Host.absf main_arg10
  let main_cst_6 : FVec F S_ .f32 := constant S_ .f32 0x7F800000#32
  let main_v20 : FVec F S512x256 .f32 := broadcastInDim S512x256 ![] bcast_S_S512x256 main_cst_6
  let main_v21 : IVec S512x256 1 := cmpf .olt main_v19 main_v20
  let main_c_7 : IVec S_ 1 := constantI S_ 1 1#1
  let main_v22 : IVec S_ 1 := (fun x v => Host.reduce IntOp.andi x v reducesTo_S512x256_S_d0_1 h_S_) main_v21 main_c_7
  let main_v23 : IVec S_ 1 := andi main_v18 main_v22
  let main_v24 : FVec F S256 .f32 := Host.absf main_arg11
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x160 .f32 := Host.absf main_arg12
  let main_cst_10 : FVec F S_ .f32 := constant S_ .f32 0x7F800000#32
  let main_v30 : FVec F S256x160 .f32 := broadcastInDim S256x160 ![] bcast_S_S256x160 main_cst_10
  let main_v31 : IVec S256x160 1 := cmpf .olt main_v29 main_v30
  let main_c_11 : IVec S_ 1 := constantI S_ 1 1#1
  let main_v32 : IVec S_ 1 := (fun x v => Host.reduce IntOp.andi x v reducesTo_S256x160_S_d0_1 h_S_) main_v31 main_c_11
  let main_v33 : IVec S_ 1 := andi main_v28 main_v32
  fn_part2 (F := F) main_arg13 main_arg14 main_arg15 main_arg16 main_arg17 main_arg18 main_arg19 main_v33

def fn {F : FTy → Type} [FloatOps F] (main_arg0 : FVec F S50000x256 .f32) (main_arg1 : FVec F S800000 .f32) (main_arg2 : IVec S800000 32) (main_arg3 : IVec S800000 32) (main_arg4 : IVec S200000 32) (main_arg5 : IVec S200000 32) (main_arg6 : IVec S200000 32) (main_arg7 : IVec S200000 32) (main_arg8 : FVec F S256x512 .f32) (main_arg9 : FVec F S512 .f32) (main_arg10 : FVec F S512x256 .f32) (main_arg11 : FVec F S256 .f32) (main_arg12 : FVec F S256x160 .f32) (main_arg13 : FVec F S160 .f32) (main_arg14 : FVec F S160x80 .f32) (main_arg15 : FVec F S80 .f32) (main_arg16 : FVec F S80x40 .f32) (main_arg17 : FVec F S40 .f32) (main_arg18 : FVec F S40x1 .f32) (main_arg19 : FVec F S1 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S800000 .f32 := Host.absf main_arg1
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S256x512 .f32 := Host.absf main_arg8
  let main_cst_2 : FVec F S_ .f32 := constant S_ .f32 0x7F800000#32
  let main_v10 : FVec F S256x512 .f32 := broadcastInDim S256x512 ![] bcast_S_S256x512 main_cst_2
  let main_v11 : IVec S256x512 1 := cmpf .olt main_v9 main_v10
  let main_c_3 : IVec S_ 1 := constantI S_ 1 1#1
  let main_v12 : IVec S_ 1 := (fun x v => Host.reduce IntOp.andi x v reducesTo_S256x512_S_d0_1 h_S_) main_v11 main_c_3
  let main_v13 : IVec S_ 1 := andi main_v8 main_v12
  let main_v14 : FVec F S512 .f32 := Host.absf main_arg9
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg10 main_arg11 main_arg12 main_arg13 main_arg14 main_arg15 main_arg16 main_arg17 main_arg18 main_arg19 main_v13 main_v16
-- ==== Kernel.lean ====
abbrev S50000x256 : Shape := ⟨2, ![50000, 256]⟩
abbrev S800000 : Shape := ⟨1, ![800000]⟩
abbrev S200000 : Shape := ⟨1, ![200000]⟩
abbrev S256x512 : Shape := ⟨2, ![256, 512]⟩
abbrev S512 : Shape := ⟨1, ![512]⟩
abbrev S512x256 : Shape := ⟨2, ![512, 256]⟩
abbrev S256 : Shape := ⟨1, ![256]⟩
abbrev S256x160 : Shape := ⟨2, ![256, 160]⟩
abbrev S160 : Shape := ⟨1, ![160]⟩
abbrev S160x80 : Shape := ⟨2, ![160, 80]⟩
abbrev S80 : Shape := ⟨1, ![80]⟩
abbrev S80x40 : Shape := ⟨2, ![80, 40]⟩
abbrev S40 : Shape := ⟨1, ![40]⟩
abbrev S40x1 : Shape := ⟨2, ![40, 1]⟩
abbrev S1 : Shape := ⟨1, ![1]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S1x256 : Shape := ⟨2, ![1, 256]⟩
abbrev S2000x256 : Shape := ⟨2, ![2000, 256]⟩
abbrev S2000x1 : Shape := ⟨2, ![2000, 1]⟩
abbrev S800000x256 : Shape := ⟨2, ![800000, 256]⟩
abbrev S1x512 : Shape := ⟨2, ![1, 512]⟩
abbrev S50000x512 : Shape := ⟨2, ![50000, 512]⟩
abbrev S2000x512 : Shape := ⟨2, ![2000, 512]⟩
abbrev S1x160 : Shape := ⟨2, ![1, 160]⟩
abbrev S50000x160 : Shape := ⟨2, ![50000, 160]⟩
abbrev S2000x160 : Shape := ⟨2, ![2000, 160]⟩
abbrev S800000x160 : Shape := ⟨2, ![800000, 160]⟩
abbrev S200000x1 : Shape := ⟨2, ![200000, 1]⟩
abbrev S200000x160 : Shape := ⟨2, ![200000, 160]⟩
abbrev S400000x160 : Shape := ⟨2, ![400000, 160]⟩
abbrev S1x80 : Shape := ⟨2, ![1, 80]⟩
abbrev S1x40 : Shape := ⟨2, ![1, 40]⟩
abbrev S1x1 : Shape := ⟨2, ![1, 1]⟩
abbrev S400000x1 : Shape := ⟨2, ![400000, 1]⟩
abbrev S5000x160 : Shape := ⟨2, ![5000, 160]⟩
abbrev S5000x1 : Shape := ⟨2, ![5000, 1]⟩
abbrev S5000x80 : Shape := ⟨2, ![5000, 80]⟩
abbrev S5000x40 : Shape := ⟨2, ![5000, 40]⟩

abbrev nBuf : Space → Nat
  | .hbm => 163
  | .vmem => 71
  | .smem => 0
  | _ => 0

abbrev hbmTy0_0 (i : Nat) : BufTy := match i % 128 with
  | 0 => ⟨S50000x256, .f32⟩
  | 1 => ⟨S800000, .f32⟩
  | 2 => ⟨S800000, .i32⟩
  | 3 => ⟨S800000, .i32⟩
  | 4 => ⟨S200000, .i32⟩
  | 5 => ⟨S200000, .i32⟩
  | 6 => ⟨S200000, .i32⟩
  | 7 => ⟨S200000, .i32⟩
  | 8 => ⟨S256x512, .f32⟩
  | 9 => ⟨S512, .f32⟩
  | 10 => ⟨S512x256, .f32⟩
  | 11 => ⟨S256, .f32⟩
  | 12 => ⟨S256x160, .f32⟩
  | 13 => ⟨S160, .f32⟩
  | 14 => ⟨S160x80, .f32⟩
  | 15 => ⟨S80, .f32⟩
  | 16 => ⟨S80x40, .f32⟩
  | 17 => ⟨S40, .f32⟩
  | 18 => ⟨S40x1, .f32⟩
  | 19 => ⟨S1, .f32⟩
  | 20 => ⟨S_, .f32⟩
  | 21 => ⟨S800000, .f32⟩
  | 22 => ⟨S_, .f32⟩
  | 23 => ⟨S50000, .f32⟩
  | 24 => ⟨S800000x1, .i32⟩
  | 25 => ⟨S50000, .f32⟩
  | 26 => ⟨S_, .f32⟩
  | 27 => ⟨S_, .f32⟩
  | 28 => ⟨S50000, .f32⟩
  | 29 => ⟨S50000, .f32⟩
  | 30 => ⟨S_, .f32⟩
  | 31 => ⟨S50000, .f32⟩
  | 32 => ⟨S800000x1, .i32⟩
  | 33 => ⟨S50000, .f32⟩
  | 34 => ⟨S_, .f32⟩
  | 35 => ⟨S_, .f32⟩
  | 36 => ⟨S50000, .f32⟩
  | 37 => ⟨S50000, .f32⟩
  | 38 => ⟨S_, .f32⟩
  | 39 => ⟨S50000, .f32⟩
  | 40 => ⟨S50000, .f32⟩
  | 41 => ⟨S50000x1, .f32⟩
  | 42 => ⟨S_, .f32⟩
  | 43 => ⟨S50000, .f32⟩
  | 44 => ⟨S50000, .f32⟩
  | 45 => ⟨S50000x1, .f32⟩
  | 46 => ⟨S_, .f32⟩
  | 47 => ⟨S1x256, .f32⟩
  | 48 => ⟨S50000x256, .f32⟩
  | 49 => ⟨S_, .i32⟩
  | 50 => ⟨S800000, .i32⟩
  | 51 => ⟨S800000, .i1⟩
  | 52 => ⟨S_, .i32⟩
  | 53 => ⟨S800000, .i32⟩
  | 54 => ⟨S800000, .i32⟩
  | 55 => ⟨S800000, .i32⟩
  | 56 => ⟨S800000x1, .i32⟩
  | 57 => ⟨S800000x256, .f32⟩
  | 58 => ⟨S800000x1, .f32⟩
  | 59 => ⟨S800000x256, .f32⟩
  | 60 => ⟨S800000x256, .f32⟩
  | 61 => ⟨S_, .f32⟩
  | 62 => ⟨S50000x256, .f32⟩
  | 63 => ⟨S800000x1, .i32⟩
  | 64 => ⟨S50000x256, .f32⟩
  | 65 => ⟨S1x512, .f32⟩
  | 66 => ⟨S50000x512, .f32⟩
  | 67 => ⟨S_, .f32⟩
  | 68 => ⟨S1x512, .f32⟩
  | 69 => ⟨S50000x512, .f32⟩
  | 70 => ⟨S_, .f32⟩
  | 71 => ⟨S50000x1, .f32⟩
  | 72 => ⟨S_, .f32⟩
  | 73 => ⟨S1x256, .f32⟩
  | 74 => ⟨S50000x256, .f32⟩
  | 75 => ⟨S_, .i32⟩
  | 76 => ⟨S800000, .i32⟩
  | 77 => ⟨S800000, .i1⟩
  | 78 => ⟨S_, .i32⟩
  | 79 => ⟨S800000, .i32⟩
  | 80 => ⟨S800000, .i32⟩
  | 81 => ⟨S800000, .i32⟩
  | 82 => ⟨S800000x1, .i32⟩
  | 83 => ⟨S800000x256, .f32⟩
  | 84 => ⟨S800000x1, .f32⟩
  | 85 => ⟨S800000x256, .f32⟩
  | 86 => ⟨S800000x256, .f32⟩
  | 87 => ⟨S_, .f32⟩
  | 88 => ⟨S50000x256, .f32⟩
  | 89 => ⟨S800000x1, .i32⟩
  | 90 => ⟨S50000x256, .f32⟩
  | 91 => ⟨S1x256, .f32⟩
  | 92 => ⟨S50000x256, .f32⟩
  | 93 => ⟨S_, .f32⟩
  | 94 => ⟨S1x256, .f32⟩
  | 95 => ⟨S50000x256, .f32⟩
  | 96 => ⟨S_, .f32⟩
  | 97 => ⟨S50000x1, .f32⟩
  | 98 => ⟨S_, .f32⟩
  | 99 => ⟨S1x160, .f32⟩
  | 100 => ⟨S50000x160, .f32⟩
  | 101 => ⟨S_, .i32⟩
  | 102 => ⟨S800000, .i32⟩
  | 103 => ⟨S800000, .i1⟩
  | 104 => ⟨S_, .i32⟩
  | 105 => ⟨S800000, .i32⟩
  | 106 => ⟨S800000, .i32⟩
  | 107 => ⟨S800000, .i32⟩
  | 108 => ⟨S800000x1, .i32⟩
  | 109 => ⟨S800000x160, .f32⟩
  | 110 => ⟨S800000x1, .f32⟩
  | 111 => ⟨S800000x160, .f32⟩
  | 112 => ⟨S800000x160, .f32⟩
  | 113 => ⟨S_, .f32⟩
  | 114 => ⟨S50000x160, .f32⟩
  | 115 => ⟨S800000x1, .i32⟩
  | 116 => ⟨S50000x160, .f32⟩
  | 117 => ⟨S1x160, .f32⟩
  | 118 => ⟨S50000x160, .f32⟩
  | 119 => ⟨S_, .i32⟩
  | 120 => ⟨S200000, .i32⟩
  | 121 => ⟨S200000, .i1⟩
  | 122 => ⟨S_, .i32⟩
  | 123 => ⟨S200000, .i32⟩
  | 124 => ⟨S200000, .i32⟩
  | 125 => ⟨S200000, .i32⟩
  | 126 => ⟨S200000x1, .i32⟩
  | 127 => ⟨S200000x160, .f32⟩
  | _ => ⟨S50000x256, .f32⟩

abbrev hbmTy0_1 (i : Nat) : BufTy := match i % 128 with
  | 0 => ⟨S_, .i32⟩
  | 1 => ⟨S200000, .i32⟩
  | 2 => ⟨S200000, .i1⟩
  | 3 => ⟨S_, .i32⟩
  | 4 => ⟨S200000, .i32⟩
  | 5 => ⟨S200000, .i32⟩
  | 6 => ⟨S200000, .i32⟩
  | 7 => ⟨S200000x1, .i32⟩
  | 8 => ⟨S200000x160, .f32⟩
  | 9 => ⟨S400000x160, .f32⟩
  | 10 => ⟨S_, .i32⟩
  | 11 => ⟨S200000, .i32⟩
  | 12 => ⟨S200000, .i1⟩
  | 13 => ⟨S_, .i32⟩
  | 14 => ⟨S200000, .i32⟩
  | 15 => ⟨S200000, .i32⟩
  | 16 => ⟨S200000, .i32⟩
  | 17 => ⟨S200000x1, .i32⟩
  | 18 => ⟨S200000x160, .f32⟩
  | 19 => ⟨S_, .i32⟩
  | 20 => ⟨S200000, .i32⟩
  | 21 => ⟨S200000, .i1⟩
  | 22 => ⟨S_, .i32⟩
  | 23 => ⟨S200000, .i32⟩
  | 24 => ⟨S200000, .i32⟩
  | 25 => ⟨S200000, .i32⟩
  | 26 => ⟨S200000x1, .i32⟩
  | 27 => ⟨S200000x160, .f32⟩
  | 28 => ⟨S400000x160, .f32⟩
  | 29 => ⟨S1x80, .f32⟩
  | 30 => ⟨S1x40, .f32⟩
  | 31 => ⟨S1x1, .f32⟩
  | 32 => ⟨S400000x1, .f32⟩
  | 33 => ⟨S200000x1, .f32⟩
  | 34 => ⟨S200000x1, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | .local _ .vmem, ⟨0, _⟩ => ⟨S2000x256, .f32⟩
  | .local _ .vmem, ⟨1, _⟩ => ⟨S2000x256, .f32⟩
  | .local _ .vmem, ⟨2, _⟩ => ⟨S2000x1, .f32⟩
  | .local _ .vmem, ⟨3, _⟩ => ⟨S2000x1, .f32⟩
  | .local _ .vmem, ⟨4, _⟩ => ⟨S1x256, .f32⟩
  | .local _ .vmem, ⟨5, _⟩ => ⟨S2000x256, .f32⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S256x512, .f32⟩
  | .local _ .vmem, ⟨10, _⟩ => ⟨S2000x1, .f32⟩
  | .local _ .vmem, ⟨11, _⟩ => ⟨S2000x1, .f32⟩
  | .local _ .vmem, ⟨12, _⟩ => ⟨S1x512, .f32⟩
  | .local _ .vmem, ⟨13, _⟩ => ⟨S2000x512, .f32⟩
  | .local _ .vmem, ⟨14, _⟩ => ⟨S2000x512, .f32⟩
  | .local _ .vmem, ⟨15, _⟩ => ⟨S2000x512, .f32⟩
  | .local _ .vmem, ⟨16, _⟩ => ⟨S2000x512, .f32⟩
  | .local _ .vmem, ⟨17, _⟩ => ⟨S2000x1, .f32⟩
  | .local _ .vmem, ⟨18, _⟩ => ⟨S2000x1, .f32⟩
  | .local _ .vmem, ⟨19, _⟩ => ⟨S1x512, .f32⟩
  | .local _ .vmem, ⟨20, _⟩ => ⟨S2000x512, .f32⟩
  | .local _ .vmem, ⟨21, _⟩ => ⟨S2000x512, .f32⟩
  | .local _ .vmem, ⟨22, _⟩ => ⟨S2000x512, .f32⟩
  | .local _ .vmem, ⟨23, _⟩ => ⟨S2000x512, .f32⟩
  | .local _ .vmem, ⟨24, _⟩ => ⟨S512x256, .f32⟩
  | .local _ .vmem, ⟨25, _⟩ => ⟨S2000x1, .f32⟩
  | .local _ .vmem, ⟨26, _⟩ => ⟨S2000x1, .f32⟩
  | .local _ .vmem, ⟨27, _⟩ => ⟨S1x256, .f32⟩
  | .local _ .vmem, ⟨28, _⟩ => ⟨S2000x256, .f32⟩
  | .local _ .vmem, ⟨29, _⟩ => ⟨S2000x256, .f32⟩
  | .local _ .vmem, ⟨30, _⟩ => ⟨S2000x256, .f32⟩
  | .local _ .vmem, ⟨31, _⟩ => ⟨S2000x256, .f32⟩
  | .local _ .vmem, ⟨32, _⟩ => ⟨S2000x1, .f32⟩
  | .local _ .vmem, ⟨33, _⟩ => ⟨S2000x1, .f32⟩
  | .local _ .vmem, ⟨34, _⟩ => ⟨S1x256, .f32⟩
  | .local _ .vmem, ⟨35, _⟩ => ⟨S2000x256, .f32⟩
  | .local _ .vmem, ⟨36, _⟩ => ⟨S2000x256, .f32⟩
  | .local _ .vmem, ⟨37, _⟩ => ⟨S2000x256, .f32⟩
  | .local _ .vmem, ⟨38, _⟩ => ⟨S2000x256, .f32⟩
  | .local _ .vmem, ⟨39, _⟩ => ⟨S2000x1, .f32⟩
  | .local _ .vmem, ⟨40, _⟩ => ⟨S2000x1, .f32⟩
  | .local _ .vmem, ⟨41, _⟩ => ⟨S1x256, .f32⟩
  | .local _ .vmem, ⟨42, _⟩ => ⟨S2000x256, .f32⟩
  | .local _ .vmem, ⟨43, _⟩ => ⟨S2000x256, .f32⟩
  | .local _ .vmem, ⟨44, _⟩ => ⟨S2000x256, .f32⟩
  | .local _ .vmem, ⟨45, _⟩ => ⟨S2000x256, .f32⟩
  | .local _ .vmem, ⟨46, _⟩ => ⟨S256x160, .f32⟩
  | .local _ .vmem, ⟨47, _⟩ => ⟨S2000x1, .f32⟩
  | .local _ .vmem, ⟨48, _⟩ => ⟨S2000x1, .f32⟩
  | .local _ .vmem, ⟨49, _⟩ => ⟨S1x160, .f32⟩
  | .local _ .vmem, ⟨50, _⟩ => ⟨S2000x160, .f32⟩
  | .local _ .vmem, ⟨51, _⟩ => ⟨S2000x160, .f32⟩
  | .local _ .vmem, ⟨52, _⟩ => ⟨S2000x160, .f32⟩
  | .local _ .vmem, ⟨53, _⟩ => ⟨S2000x160, .f32⟩
  | .local _ .vmem, ⟨54, _⟩ => ⟨S2000x1, .f32⟩
  | .local _ .vmem, ⟨55, _⟩ => ⟨S2000x1, .f32⟩
  | .local _ .vmem, ⟨56, _⟩ => ⟨S1x160, .f32⟩
  | .local _ .vmem, ⟨57, _⟩ => ⟨S2000x160, .f32⟩
  | .local _ .vmem, ⟨58, _⟩ => ⟨S2000x160, .f32⟩
  | .local _ .vmem, ⟨59, _⟩ => ⟨S5000x160, .f32⟩
  | .local _ .vmem, ⟨60, _⟩ => ⟨S5000x160, .f32⟩
  | .local _ .vmem, ⟨61, _⟩ => ⟨S5000x160, .f32⟩
  | .local _ .vmem, ⟨62, _⟩ => ⟨S5000x160, .f32⟩
  | .local _ .vmem, ⟨63, _⟩ => ⟨S160x80, .f32⟩
  | .local _ .vmem, ⟨64, _⟩ => ⟨S1x80, .f32⟩
  | .local _ .vmem, ⟨65, _⟩ => ⟨S80x40, .f32⟩
  | .local _ .vmem, ⟨66, _⟩ => ⟨S1x40, .f32⟩
  | .local _ .vmem, ⟨67, _⟩ => ⟨S40x1, .f32⟩
  | .local _ .vmem, ⟨68, _⟩ => ⟨S1x1, .f32⟩
  | .local _ .vmem, ⟨69, _⟩ => ⟨S5000x1, .f32⟩
  | .local _ .vmem, ⟨70, _⟩ => ⟨S5000x1, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | _, _ => false

abbrev semScoped : Fin 0 → Bool
  | ⟨_, h⟩ => absurd h (Nat.not_lt_zero _)

abbrev dmaSemScoped : Fin 71 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | _ => false

abbrev sig : RefSig :=
  ofTc nBuf bufTy 0 71 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_cst : Ref sig .tc := ⟨.hbm, 20, rfl⟩
abbrev main_v0 : Ref sig .tc := ⟨.hbm, 21, rfl⟩
abbrev main_cst_0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_cst_1 : Ref sig .tc := ⟨.hbm, 26, rfl⟩
abbrev main_call0_v0 : Ref sig .tc := ⟨.hbm, 27, rfl⟩
abbrev main_call0_v1 : Ref sig .tc := ⟨.hbm, 28, rfl⟩
abbrev main_v4 : Ref sig .tc := ⟨.hbm, 29, rfl⟩
abbrev main_cst_2 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_cst_3 : Ref sig .tc := ⟨.hbm, 34, rfl⟩
abbrev main_call1_v0 : Ref sig .tc := ⟨.hbm, 35, rfl⟩
abbrev main_call1_v1 : Ref sig .tc := ⟨.hbm, 36, rfl⟩
abbrev main_v8 : Ref sig .tc := ⟨.hbm, 37, rfl⟩
abbrev main_cst_4 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_cst_5 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_cst_6 : Ref sig .tc := ⟨.hbm, 46, rfl⟩
abbrev main_v15 : Ref sig .tc := ⟨.hbm, 47, rfl⟩
abbrev main_v16 : Ref sig .tc := ⟨.hbm, 48, rfl⟩
abbrev main_c : Ref sig .tc := ⟨.hbm, 49, rfl⟩
abbrev main_v17 : Ref sig .tc := ⟨.hbm, 50, rfl⟩
abbrev main_v18 : Ref sig .tc := ⟨.hbm, 51, rfl⟩
abbrev main_c_7 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_cst_8 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_cst_9 : Ref sig .tc := ⟨.hbm, 67, rfl⟩
abbrev main_v32 : Ref sig .tc := ⟨.hbm, 68, rfl⟩
abbrev main_v33 : Ref sig .tc := ⟨.hbm, 69, rfl⟩
abbrev main_cst_10 : Ref sig .tc := ⟨.hbm, 70, rfl⟩
abbrev main_v34 : Ref sig .tc := ⟨.hbm, 71, rfl⟩
abbrev main_cst_11 : Ref sig .tc := ⟨.hbm, 72, rfl⟩
abbrev main_v35 : Ref sig .tc := ⟨.hbm, 73, rfl⟩
abbrev main_v36 : Ref sig .tc := ⟨.hbm, 74, rfl⟩
abbrev main_c_12 : Ref sig .tc := ⟨.hbm, 75, rfl⟩
abbrev main_v37 : Ref sig .tc := ⟨.hbm, 76, rfl⟩
abbrev main_v38 : Ref sig .tc := ⟨.hbm, 77, rfl⟩
abbrev main_c_13 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_cst_14 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_cst_15 : Ref sig .tc := ⟨.hbm, 93, rfl⟩
abbrev main_v52 : Ref sig .tc := ⟨.hbm, 94, rfl⟩
abbrev main_v53 : Ref sig .tc := ⟨.hbm, 95, rfl⟩
abbrev main_cst_16 : Ref sig .tc := ⟨.hbm, 96, rfl⟩
abbrev main_v54 : Ref sig .tc := ⟨.hbm, 97, rfl⟩
abbrev main_cst_17 : Ref sig .tc := ⟨.hbm, 98, rfl⟩
abbrev main_v55 : Ref sig .tc := ⟨.hbm, 99, rfl⟩
abbrev main_v56 : Ref sig .tc := ⟨.hbm, 100, rfl⟩
abbrev main_c_18 : Ref sig .tc := ⟨.hbm, 101, rfl⟩
abbrev main_v57 : Ref sig .tc := ⟨.hbm, 102, rfl⟩
abbrev main_v58 : Ref sig .tc := ⟨.hbm, 103, rfl⟩
abbrev main_c_19 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_cst_20 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_c_21 : Ref sig .tc := ⟨.hbm, 119, rfl⟩
abbrev main_v72 : Ref sig .tc := ⟨.hbm, 120, rfl⟩
abbrev main_v73 : Ref sig .tc := ⟨.hbm, 121, rfl⟩
abbrev main_c_22 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_c_23 : Ref sig .tc := ⟨.hbm, 128, rfl⟩
abbrev main_v79 : Ref sig .tc := ⟨.hbm, 129, rfl⟩
abbrev main_v80 : Ref sig .tc := ⟨.hbm, 130, rfl⟩
abbrev main_c_24 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_c_25 : Ref sig .tc := ⟨.hbm, 138, rfl⟩
abbrev main_v87 : Ref sig .tc := ⟨.hbm, 139, rfl⟩
abbrev main_v88 : Ref sig .tc := ⟨.hbm, 140, rfl⟩
abbrev main_c_26 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_c_27 : Ref sig .tc := ⟨.hbm, 147, rfl⟩
abbrev main_v94 : Ref sig .tc := ⟨.hbm, 148, rfl⟩
abbrev main_v95 : Ref sig .tc := ⟨.hbm, 149, rfl⟩
abbrev main_c_28 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg2_1 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg4_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg1_1 : Ref sig .tc := ⟨.vmem, 33, rfl⟩
abbrev cc4_stg2_0 : Ref sig .tc := ⟨.vmem, 34, rfl⟩
abbrev cc4_stg3_0 : Ref sig .tc := ⟨.vmem, 35, rfl⟩
abbrev cc4_stg3_1 : Ref sig .tc := ⟨.vmem, 36, rfl⟩
abbrev cc5_stg0_0 : Ref sig .tc := ⟨.vmem, 37, rfl⟩
abbrev cc5_stg0_1 : Ref sig .tc := ⟨.vmem, 38, rfl⟩
abbrev cc5_stg1_0 : Ref sig .tc := ⟨.vmem, 39, rfl⟩
abbrev cc5_stg1_1 : Ref sig .tc := ⟨.vmem, 40, rfl⟩
abbrev cc5_stg2_0 : Ref sig .tc := ⟨.vmem, 41, rfl⟩
abbrev cc5_stg3_0 : Ref sig .tc := ⟨.vmem, 42, rfl⟩
abbrev cc5_stg3_1 : Ref sig .tc := ⟨.vmem, 43, rfl⟩
abbrev cc6_stg0_0 : Ref sig .tc := ⟨.vmem, 44, rfl⟩
abbrev cc6_stg0_1 : Ref sig .tc := ⟨.vmem, 45, rfl⟩
abbrev cc6_stg1_0 : Ref sig .tc := ⟨.vmem, 46, rfl⟩
abbrev cc6_stg2_0 : Ref sig .tc := ⟨.vmem, 47, rfl⟩
abbrev cc6_stg2_1 : Ref sig .tc := ⟨.vmem, 48, rfl⟩
abbrev cc6_stg3_0 : Ref sig .tc := ⟨.vmem, 49, rfl⟩
abbrev cc6_stg4_0 : Ref sig .tc := ⟨.vmem, 50, rfl⟩
abbrev cc6_stg4_1 : Ref sig .tc := ⟨.vmem, 51, rfl⟩
abbrev cc7_stg0_0 : Ref sig .tc := ⟨.vmem, 52, rfl⟩
abbrev cc7_stg0_1 : Ref sig .tc := ⟨.vmem, 53, rfl⟩
abbrev cc7_stg1_0 : Ref sig .tc := ⟨.vmem, 54, rfl⟩
abbrev cc7_stg1_1 : Ref sig .tc := ⟨.vmem, 55, rfl⟩
abbrev cc7_stg2_0 : Ref sig .tc := ⟨.vmem, 56, rfl⟩
abbrev cc7_stg3_0 : Ref sig .tc := ⟨.vmem, 57, rfl⟩
abbrev cc7_stg3_1 : Ref sig .tc := ⟨.vmem, 58, rfl⟩
abbrev cc8_stg0_0 : Ref sig .tc := ⟨.vmem, 59, rfl⟩
abbrev cc8_stg0_1 : Ref sig .tc := ⟨.vmem, 60, rfl⟩
abbrev cc8_stg1_0 : Ref sig .tc := ⟨.vmem, 61, rfl⟩
abbrev cc8_stg1_1 : Ref sig .tc := ⟨.vmem, 62, rfl⟩
abbrev cc8_stg2_0 : Ref sig .tc := ⟨.vmem, 63, rfl⟩
abbrev cc8_stg3_0 : Ref sig .tc := ⟨.vmem, 64, rfl⟩
abbrev cc8_stg4_0 : Ref sig .tc := ⟨.vmem, 65, rfl⟩
abbrev cc8_stg5_0 : Ref sig .tc := ⟨.vmem, 66, rfl⟩
abbrev cc8_stg6_0 : Ref sig .tc := ⟨.vmem, 67, rfl⟩
abbrev cc8_stg7_0 : Ref sig .tc := ⟨.vmem, 68, rfl⟩
abbrev cc8_stg8_0 : Ref sig .tc := ⟨.vmem, 69, rfl⟩
abbrev cc8_stg8_1 : Ref sig .tc := ⟨.vmem, 70, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem2_1 : DmaSem sig := 26
abbrev cc3_sem3_0 : DmaSem sig := 27
abbrev cc3_sem4_0 : DmaSem sig := 28
abbrev cc3_sem4_1 : DmaSem sig := 29
abbrev cc4_sem0_0 : DmaSem sig := 30
abbrev cc4_sem0_1 : DmaSem sig := 31
abbrev cc4_sem1_0 : DmaSem sig := 32
abbrev cc4_sem1_1 : DmaSem sig := 33
abbrev cc4_sem2_0 : DmaSem sig := 34
abbrev cc4_sem3_0 : DmaSem sig := 35
abbrev cc4_sem3_1 : DmaSem sig := 36
abbrev cc5_sem0_0 : DmaSem sig := 37
abbrev cc5_sem0_1 : DmaSem sig := 38
abbrev cc5_sem1_0 : DmaSem sig := 39
abbrev cc5_sem1_1 : DmaSem sig := 40
abbrev cc5_sem2_0 : DmaSem sig := 41
abbrev cc5_sem3_0 : DmaSem sig := 42
abbrev cc5_sem3_1 : DmaSem sig := 43
abbrev cc6_sem0_0 : DmaSem sig := 44
abbrev cc6_sem0_1 : DmaSem sig := 45
abbrev cc6_sem1_0 : DmaSem sig := 46
abbrev cc6_sem2_0 : DmaSem sig := 47
abbrev cc6_sem2_1 : DmaSem sig := 48
abbrev cc6_sem3_0 : DmaSem sig := 49
abbrev cc6_sem4_0 : DmaSem sig := 50
abbrev cc6_sem4_1 : DmaSem sig := 51
abbrev cc7_sem0_0 : DmaSem sig := 52
abbrev cc7_sem0_1 : DmaSem sig := 53
abbrev cc7_sem1_0 : DmaSem sig := 54
abbrev cc7_sem1_1 : DmaSem sig := 55
abbrev cc7_sem2_0 : DmaSem sig := 56
abbrev cc7_sem3_0 : DmaSem sig := 57
abbrev cc7_sem3_1 : DmaSem sig := 58
abbrev cc8_sem0_0 : DmaSem sig := 59
abbrev cc8_sem0_1 : DmaSem sig := 60
abbrev cc8_sem1_0 : DmaSem sig := 61
abbrev cc8_sem1_1 : DmaSem sig := 62
abbrev cc8_sem2_0 : DmaSem sig := 63
abbrev cc8_sem3_0 : DmaSem sig := 64
abbrev cc8_sem4_0 : DmaSem sig := 65
abbrev cc8_sem5_0 : DmaSem sig := 66
abbrev cc8_sem6_0 : DmaSem sig := 67
abbrev cc8_sem7_0 : DmaSem sig := 68
abbrev cc8_sem8_0 : DmaSem sig := 69
abbrev cc8_sem8_1 : DmaSem sig := 70

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S512x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x256 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x256 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S2000x256 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S256x160 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S2000x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S1x160 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S2000x160 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x160 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S2000x1 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S1x160 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S2000x160 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![80], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_7 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_8 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x160 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S5000x160 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S160x80 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x80 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S80x40 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S1x40 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 1 → Memref sig .tc .vmem S40x1 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

abbrev stage8_7 : Fin 1 → Memref sig .tc .vmem S1x1 .f32 := fun | 0 => Memref.whole cc8_stg7_0 | ⟨_ + 1, h⟩ => absurd h (Nat.not_lt.2 (Nat.le_add_left _ _))
abbrev sem8_7 : Fin 1 → DmaSem sig := fun | 0 => cc8_sem7_0 | ⟨_ + 1, h⟩ => absurd h (Nat.not_lt.2 (Nat.le_add_left _ _))
abbrev reads8_7 : Fin grid8.rank → Bool := ![false]

abbrev stage8_8 : Fin 2 → Memref sig .tc .vmem S5000x1 .f32 := fun | 0 => Memref.whole cc8_stg8_0 | 1 => Memref.whole cc8_stg8_1 | ⟨_ + 2, h⟩ => absurd h (Nat.not_lt.2 (Nat.le_add_left _ _))
abbrev sem8_8 : Fin 2 → DmaSem sig := fun | 0 => cc8_sem8_0 | 1 => cc8_sem8_1 | ⟨_ + 2, h⟩ => absurd h (Nat.not_lt.2 (Nat.le_add_left _ _))
abbrev reads8_8 : Fin grid8.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S1x256 : S_.BroadcastsInDim S1x256 (![] : Fin 0 → Fin S1x256.rank)
  inb_S2000x256_S2000x256_0_0 : ∀ a, (![0, 0] : Fin 2 → Nat) a + S2000x256.size a ≤ S2000x256.size a
  h_S2000x256 : 0 < S2000x256.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  shapeCasts_S512_S1x512 : S512.ShapeCasts S1x512
  shapeCasts_S2000x256_S2000x256 : S2000x256.ShapeCasts S2000x256
  bitsLt_bf16_f32 : FTy.bits .bf16 < FTy.bits .f32
  inb_S256x512_S256x512_0_0 : ∀ a, (![0, 0] : Fin 2 → Nat) a + S256x512.size a ≤ S256x512.size a
  h_S256x512 : 0 < S256x512.numel
  broadcasts_S2000x1_S2000x512 : S2000x1.Broadcasts S2000x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  inb_S2000x512_S2000x512_0_0 : ∀ a, (![0, 0] : Fin 2 → Nat) a + S2000x512.size a ≤ S2000x512.size a
  h_S2000x512 : 0 < S2000x512.numel
  bcast_S_S1x512 : S_.BroadcastsInDim S1x512 (![] : Fin 0 → Fin S1x512.rank)
  shapeCasts_S2000x512_S2000x512 : S2000x512.ShapeCasts S2000x512
  bcast_S_S50000x1 : S_.BroadcastsInDim S50000x1 (![] : Fin 0 → Fin S50000x1.rank)
  inb_S512x256_S512x256_0_0 : ∀ a, (![0, 0] : Fin 2 → Nat) a + S512x256.size a ≤ S512x256.size a
  h_S512x256 : 0 < S512x256.numel
  shapeCasts_S256_S1x256 : S256.ShapeCasts S1x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  bcast_S_S1x160 : S_.BroadcastsInDim S1x160 (![] : Fin 0 → Fin S1x160.rank)
  inb_S256x160_S256x160_0_0 : ∀ a, (![0, 0] : Fin 2 → Nat) a + S256x160.size a ≤ S256x160.size a
  h_S256x160 : 0 < S256x160.numel
  inb_S2000x160_S2000x160_0_0 : ∀ a, (![0, 0] : Fin 2 → Nat) a + S2000x160.size a ≤ S2000x160.size a
  h_S2000x160 : 0 < S2000x160.numel
  bcast_S800000x1_S800000x160_0_1 : S800000x1.BroadcastsInDim S800000x160 (![0, 1] : Fin 2 → Fin S800000x160.rank)
  bcast_S_S50000x160 : S_.BroadcastsInDim S50000x160 (![] : Fin 0 → Fin S50000x160.rank)
  shapeCasts_S160_S1x160 : S160.ShapeCasts S1x160
  shapeCasts_S2000x160_S2000x160 : S2000x160.ShapeCasts S2000x160
  broadcasts_S2000x1_S2000x160 : S2000x1.Broadcasts S2000x160
  inb_S1x160_S1x160_0_0 : ∀ a, (![0, 0] : Fin 2 → Nat) a + S1x160.size a ≤ S1x160.size a
  h_S1x160 : 0 < S1x160.numel
  shapeCasts_S1x160_S1x160 : S1x160.ShapeCasts S1x160
  broadcasts_S1x160_S2000x160 : S1x160.Broadcasts S2000x160
  bcast_S_S200000 : S_.BroadcastsInDim S200000 (![] : Fin 0 → Fin S200000.rank)
  bcast_S200000_S200000x1_0 : S200000.BroadcastsInDim S200000x1 (![0] : Fin 1 → Fin S200000x1.rank)
  concatenates_S200000x160_S200000x160_S400000x160_d0 : Shape.Concatenates [S200000x160, S200000x160] S400000x160 0
  shapeCasts_S80_S1x80 : S80.ShapeCasts S1x80
  shapeCasts_S40_S1x40 : S40.ShapeCasts S1x40
  shapeCasts_S1_S1x1 : S1.ShapeCasts S1x1
  inb_S5000x160_S5000x160_0_0 : ∀ a, (![0, 0] : Fin 2 → Nat) a + S5000x160.size a ≤ S5000x160.size a
  h_S5000x160 : 0 < S5000x160.numel
  shapeCasts_S5000x160_S5000x160 : S5000x160.ShapeCasts S5000x160
  inb_S160x80_S160x80_0_0 : ∀ a, (![0, 0] : Fin 2 → Nat) a + S160x80.size a ≤ S160x80.size a
  h_S160x80 : 0 < S160x80.numel
  inb_S1x80_S1x80_0_0 : ∀ a, (![0, 0] : Fin 2 → Nat) a + S1x80.size a ≤ S1x80.size a
  h_S1x80 : 0 < S1x80.numel
  shapeCasts_S1x80_S1x80 : S1x80.ShapeCasts S1x80
  broadcasts_S1x80_S5000x80 : S1x80.Broadcasts S5000x80
  inb_S80x40_S80x40_0_0 : ∀ a, (![0, 0] : Fin 2 → Nat) a + S80x40.size a ≤ S80x40.size a
  h_S80x40 : 0 < S80x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  inb_S40x1_S40x1_0_0 : ∀ a, (![0, 0] : Fin 2 → Nat) a + S40x1.size a ≤ S40x1.size a
  h_S40x1 : 0 < S40x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  slices_S400000x1_S200000x1_0_0 : S400000x1.Slices ![0, 0] S200000x1
  slices_S400000x1_S200000x1_200000_0 : S400000x1.Slices ![200000, 0] S200000x1
  scatter_S50000_S800000x1_S800000_n_0_0_1_wf : ScatterDims.WF S50000 S800000x1 S800000 [] [0] [0] 1
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x512_S2000x512_1_0_0_1_n_n_wf : DotDims.WF S2000x256 S256x512 S2000x512 [1] [0] [0] [1] [] []
  dot_S2000x512_S512x256_S2000x256_1_0_0_1_n_n_wf : DotDims.WF S2000x512 S512x256 S2000x256 [1] [0] [0] [1] [] []
  dot_S2000x256_S256x160_S2000x160_1_0_0_1_n_n_wf : DotDims.WF S2000x256 S256x160 S2000x160 [1] [0] [0] [1] [] []
  gather_S50000x160_S800000x1_S800000x160_1_0_n_n_0_1_1160_wf : GatherDims.WF S50000x160 S800000x1 S800000x160 [1] [0] [] [0] [] 1 ![1, 160]
  scatter_S50000x160_S800000x1_S800000x160_1_0_0_1_wf : ScatterDims.WF S50000x160 S800000x1 S800000x160 [1] [0] [0] 1
  gather_S50000x160_S200000x1_S200000x160_1_0_n_n_0_1_1160_wf : GatherDims.WF S50000x160 S200000x1 S200000x160 [1] [0] [] [0] [] 1 ![1, 160]
  dot_S5000x160_S160x80_S5000x80_1_0_0_1_n_n_wf : DotDims.WF S5000x160 S160x80 S5000x80 [1] [0] [0] [1] [] []
  dot_S5000x80_S80x40_S5000x40_1_0_0_1_n_n_wf : DotDims.WF S5000x80 S80x40 S5000x40 [1] [0] [0] [1] [] []
  dot_S5000x40_S40x1_S5000x1_1_0_0_1_n_n_wf : DotDims.WF S5000x40 S40x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .f32 = 32 ∨ (Rect.block (s := S50000x1) S2000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S50000x256.size a
  hwx0_3 : ∀ i : grid0.Coords, EltTy.bits .f32 = 32 ∨ (Rect.block (s := S50000x256) S2000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x512.size a ≤ S256x512.size a
  hwx1_1 : ∀ i : grid1.Coords, EltTy.bits .f32 = 32 ∨ (Rect.block (s := S256x512) S256x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x512.size a ≤ S50000x512.size a
  hwx1_4 : ∀ i : grid1.Coords, EltTy.bits .f32 = 32 ∨ (Rect.block (s := S50000x512) S2000x512.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x512.size a ≤ S50000x512.size a
  hwx2_0 : ∀ i : grid2.Coords, EltTy.bits .f32 = 32 ∨ (Rect.block (s := S50000x512) S2000x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S50000x1.size a
  hwx2_1 : ∀ i : grid2.Coords, EltTy.bits .f32 = 32 ∨ (Rect.block (s := S50000x1) S2000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x512.size a ≤ S1x512.size a
  hwx2_2 : ∀ i : grid2.Coords, EltTy.bits .f32 = 32 ∨ (Rect.block (s := S1x512) S1x512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x512.size a ≤ S50000x512.size a
  hwx2_3 : ∀ i : grid2.Coords, EltTy.bits .f32 = 32 ∨ (Rect.block (s := S50000x512) S2000x512.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x512.size a ≤ S50000x512.size a
  hwx3_0 : ∀ i : grid3.Coords, EltTy.bits .f32 = 32 ∨ (Rect.block (s := S50000x512) S2000x512.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S512x256.size a ≤ S512x256.size a
  hwx3_1 : ∀ i : grid3.Coords, EltTy.bits .f32 = 32 ∨ (Rect.block (s := S512x256) S512x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S50000x1.size a
  hwx3_2 : ∀ i : grid3.Coords, EltTy.bits .f32 = 32 ∨ (Rect.block (s := S50000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x256.size a ≤ S50000x256.size a
  hwx3_4 : ∀ i : grid3.Coords, EltTy.bits .f32 = 32 ∨ (Rect.block (s := S50000x256) S2000x256.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S50000x256.size a
  hwx4_0 : ∀ i : grid4.Coords, EltTy.bits .f32 = 32 ∨ (Rect.block (s := S50000x256) S2000x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x1.size a ≤ S50000x1.size a
  hwx4_1 : ∀ i : grid4.Coords, EltTy.bits .f32 = 32 ∨ (Rect.block (s := S50000x1) S2000x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x256.size a
  hwx4_2 : ∀ i : grid4.Coords, EltTy.bits .f32 = 32 ∨ (Rect.block (s := S1x256) S1x256.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x256.size a ≤ S50000x256.size a
  hwx4_3 : ∀ i : grid4.Coords, EltTy.bits .f32 = 32 ∨ (Rect.block (s := S50000x256) S2000x256.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x256.size a ≤ S50000x256.size a
  hwx5_0 : ∀ i : grid5.Coords, EltTy.bits .f32 = 32 ∨ (Rect.block (s := S50000x256) S2000x256.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x1.size a ≤ S50000x1.size a
  hwx5_1 : ∀ i : grid5.Coords, EltTy.bits .f32 = 32 ∨ (Rect.block (s := S50000x1) S2000x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x256.size a ≤ S1x256.size a
  hwx5_2 : ∀ i : grid5.Coords, EltTy.bits .f32 = 32 ∨ (Rect.block (s := S1x256) S1x256.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x256.size a ≤ S50000x256.size a
  hwx5_3 : ∀ i : grid5.Coords, EltTy.bits .f32 = 32 ∨ (Rect.block (s := S50000x256) S2000x256.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x256.size a ≤ S50000x256.size a
  hwx6_0 : ∀ i : grid6.Coords, EltTy.bits .f32 = 32 ∨ (Rect.block (s := S50000x256) S2000x256.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S256x160.size a ≤ S256x160.size a
  hwx6_1 : ∀ i : grid6.Coords, EltTy.bits .f32 = 32 ∨ (Rect.block (s := S256x160) S256x160.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x1.size a ≤ S50000x1.size a
  hwx6_2 : ∀ i : grid6.Coords, EltTy.bits .f32 = 32 ∨ (Rect.block (s := S50000x1) S2000x1.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x160.size a ≤ S1x160.size a
  hwx6_3 : ∀ i : grid6.Coords, EltTy.bits .f32 = 32 ∨ (Rect.block (s := S1x160) S1x160.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S2000x160.size a ≤ S50000x160.size a
  hwx6_4 : ∀ i : grid6.Coords, EltTy.bits .f32 = 32 ∨ (Rect.block (s := S50000x160) S2000x160.size (cc6_transform_4 i) (hinb6_4 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x160.size a ≤ S50000x160.size a
  hwx7_0 : ∀ i : grid7.Coords, EltTy.bits .f32 = 32 ∨ (Rect.block (s := S50000x160) S2000x160.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2000x1.size a ≤ S50000x1.size a
  hwx7_1 : ∀ i : grid7.Coords, EltTy.bits .f32 = 32 ∨ (Rect.block (s := S50000x1) S2000x1.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x160.size a ≤ S1x160.size a
  hwx7_2 : ∀ i : grid7.Coords, EltTy.bits .f32 = 32 ∨ (Rect.block (s := S1x160) S1x160.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S2000x160.size a ≤ S50000x160.size a
  hwx7_3 : ∀ i : grid7.Coords, EltTy.bits .f32 = 32 ∨ (Rect.block (s := S50000x160) S2000x160.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x160.size a ≤ S400000x160.size a
  hwx8_0 : ∀ i : grid8.Coords, EltTy.bits .f32 = 32 ∨ (Rect.block (s := S400000x160) S5000x160.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S5000x160.size a ≤ S400000x160.size a
  hwx8_1 : ∀ i : grid8.Coords, EltTy.bits .f32 = 32 ∨ (Rect.block (s := S400000x160) S5000x160.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S160x80.size a ≤ S160x80.size a
  hwx8_2 : ∀ i : grid8.Coords, EltTy.bits .f32 = 32 ∨ (Rect.block (s := S160x80) S160x80.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x80.size a ≤ S1x80.size a
  hwx8_3 : ∀ i : grid8.Coords, EltTy.bits .f32 = 32 ∨ (Rect.block (s := S1x80) S1x80.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S80x40.size a ≤ S80x40.size a
  hwx8_4 : ∀ i : grid8.Coords, EltTy.bits .f32 = 32 ∨ (Rect.block (s := S80x40) S80x40.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S1x40.size a ≤ S1x40.size a
  hwx8_5 : ∀ i : grid8.Coords, EltTy.bits .f32 = 32 ∨ (Rect.block (s := S1x40) S1x40.size (cc8_transform_5 i) (hinb8_5 i)).WholeWords (EltTy.packing .f32)
  hstage8_6 : ∀ j, (stage8_6 j).IsWhole
  nbuf8_6 : grid8.bufCount reads8_6 true = 1
  hreads8_6 : ∀ i i' : grid8.Coords, (∀ a, reads8_6 a = true → i a = i' a) → cc8_transform_6 i = cc8_transform_6 i'
  hinb8_6 : ∀ (i : grid8.Coords) a, (cc8_transform_6 i a + 1) * S40x1.size a ≤ S40x1.size a
  hwx8_6 : ∀ i : grid8.Coords, EltTy.bits .f32 = 32 ∨ (Rect.block (s := S40x1) S40x1.size (cc8_transform_6 i) (hinb8_6 i)).WholeWords (EltTy.packing .f32)
  hstage8_7 : ∀ j, (stage8_7 j).IsWhole
  nbuf8_7 : grid8.bufCount reads8_7 true = 1
  hreads8_7 : ∀ i i' : grid8.Coords, (∀ a, reads8_7 a = true → i a = i' a) → cc8_transform_7 i = cc8_transform_7 i'
  hinb8_7 : ∀ (i : grid8.Coords) a, (cc8_transform_7 i a + 1) * S1x1.size a ≤ S1x1.size a
  hwx8_7 : ∀ i : grid8.Coords, EltTy.bits .f32 = 32 ∨ (Rect.block (s := S1x1) S1x1.size (cc8_transform_7 i) (hinb8_7 i)).WholeWords (EltTy.packing .f32)
  hstage8_8 : ∀ j, (stage8_8 j).IsWhole
  nbuf8_8 : grid8.bufCount reads8_8 false = 2
  hreads8_8 : ∀ i i' : grid8.Coords, (∀ a, reads8_8 a = true → i a = i' a) → cc8_transform_8 i = cc8_transform_8 i'
  hinb8_8 : ∀ (i : grid8.Coords) a, (cc8_transform_8 i a + 1) * S5000x1.size a ≤ S400000x1.size a
  hwx8_8 : ∀ i : grid8.Coords, EltTy.bits .f32 = 32 ∨ (Rect.block (s := S400000x1) S5000x1.size (cc8_transform_8 i) (hinb8_8 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x512_S2000x512_1_0_0_1_n_n : DotDims S2000x256 S256x512 S2000x512 where
  lhsContracting := [1]
  rhsContracting := [0]
  lhsNonContracting := [0]
  rhsNonContracting := [1]
  lhsBatch := []
  rhsBatch := []
  wf := dot_S2000x256_S256x512_S2000x512_1_0_0_1_n_n_wf
def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def dot_S2000x256_S256x160_S2000x160_1_0_0_1_n_n : DotDims S2000x256 S256x160 S2000x160 where
  lhsContracting := [1]
  rhsContracting := [0]
  lhsNonContracting := [0]
  rhsNonContracting := [1]
  lhsBatch := []
  rhsBatch := []
  wf := dot_S2000x256_S256x160_S2000x160_1_0_0_1_n_n_wf
def gather_S50000x160_S800000x1_S800000x160_1_0_n_n_0_1_1160 : GatherDims S50000x160 S800000x1 S800000x160 where
  offsetDims := [1]
  collapsedSliceDims := [0]
  operandBatchingDims := []
  startIndicesBatchingDims := []
  startIndexMap := [0]
  indexVectorDim := 1
  sliceSizes := ![1, 160]
  wf := gather_S50000x160_S800000x1_S800000x160_1_0_n_n_0_1_1160_wf
def scatter_S50000x160_S800000x1_S800000x160_1_0_0_1 : ScatterDims S50000x160 S800000x1 S800000x160 where
  updateWindowDims := [1]
  insertedWindowDims := [0]
  scatterDimsToOperandDims := [0]
  indexVectorDim := 1
  wf := scatter_S50000x160_S800000x1_S800000x160_1_0_0_1_wf
def gather_S50000x160_S200000x1_S200000x160_1_0_n_n_0_1_1160 : GatherDims S50000x160 S200000x1 S200000x160 where
  offsetDims := [1]
  collapsedSliceDims := [0]
  operandBatchingDims := []
  startIndicesBatchingDims := []
  startIndexMap := [0]
  indexVectorDim := 1
  sliceSizes := ![1, 160]
  wf := gather_S50000x160_S200000x1_S200000x160_1_0_n_n_0_1_1160_wf
def dot_S5000x160_S160x80_S5000x80_1_0_0_1_n_n : DotDims S5000x160 S160x80 S5000x80 where
  lhsContracting := [1]
  rhsContracting := [0]
  lhsNonContracting := [0]
  rhsNonContracting := [1]
  lhsBatch := []
  rhsBatch := []
  wf := dot_S5000x160_S160x80_S5000x80_1_0_0_1_n_n_wf
def dot_S5000x80_S80x40_S5000x40_1_0_0_1_n_n : DotDims S5000x80 S80x40 S5000x40 where
  lhsContracting := [1]
  rhsContracting := [0]
  lhsNonContracting := [0]
  rhsNonContracting := [1]
  lhsBatch := []
  rhsBatch := []
  wf := dot_S5000x80_S80x40_S5000x40_1_0_0_1_n_n_wf
def dot_S5000x40_S40x1_S5000x1_1_0_0_1_n_n : DotDims S5000x40 S40x1 S5000x1 where
  lhsContracting := [1]
  rhsContracting := [0]
  lhsNonContracting := [0]
  rhsNonContracting := [1]
  lhsBatch := []
  rhsBatch := []
  wf := dot_S5000x40_S40x1_S5000x1_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v29) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg8) S256x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v14) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v30) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v31) S2000x512.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v31) S2000x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v11) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v32) S1x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v33) S2000x512.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v33) S2000x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg10) S512x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v34) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v35) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v36) S2000x256.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v49) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v14) S2000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v50) S1x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v51) S2000x256.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v51) S2000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v11) S2000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v52) S1x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v53) S2000x256.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v53) S2000x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg12) S256x160.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v54) S2000x1.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v55) S1x160.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v56) S2000x160.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev win7_0 : Pipeline.Window sig grid7 :=
  Pipeline.Window.ofSpec (Memref.whole main_v69) S2000x160.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v14) S2000x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v70) S1x160.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v71) S2000x160.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v86) S5000x160.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v101) S5000x160.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_arg14) S160x80.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v102) S1x80.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_arg16) S80x40.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v103) S1x40.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_arg18) S40x1.size cc8_transform_6 reads8_6 false true 1 stage8_6 sem8_6
    hrank8 hreads8_6 hinb8_6 nbuf8_6 (Memref.isWhole_whole _) hwx8_6 hstage8_6

abbrev win8_7 : Pipeline.Window sig grid8 :=
  Pipeline.Window.ofSpec (Memref.whole main_v104) S1x1.size cc8_transform_7 reads8_7 false true 1 stage8_7 sem8_7
    hrank8 hreads8_7 hinb8_7 nbuf8_7 (Memref.isWhole_whole _) hwx8_7 hstage8_7

abbrev win8_8 : Pipeline.Window sig grid8 :=
  Pipeline.Window.ofSpec (Memref.whole main_v105) S5000x1.size cc8_transform_8 reads8_8 true false 2 stage8_8 sem8_8
    hrank8 hreads8_8 hinb8_8 nbuf8_8 (Memref.isWhole_whole _) hwx8_8 hstage8_8

abbrev win8 : Fin 9 → Pipeline.Window sig grid8 := fun | 0 => win8_0 | 1 => win8_1 | 2 => win8_2 | 3 => win8_3 | 4 => win8_4 | 5 => win8_5 | 6 => win8_6 | 7 => win8_7 | 8 => win8_8 | ⟨_ + 9, h⟩ => absurd h (Nat.not_lt.2 (Nat.le_add_left _ _))
abbrev spec8 : Fin 9 → Pipeline.WinSpec sig grid8.rank := fun w => (win8 w).toWinSpec

class Facts : Prop extends Facts₀ where

variable [Facts]
-- ==== ReferenceIdeal.lean ====
abbrev S50000x256 : Shape := ⟨2, ![50000, 256]⟩
abbrev S800000 : Shape := ⟨1, ![800000]⟩
abbrev S200000 : Shape := ⟨1, ![200000]⟩
abbrev S256x512 : Shape := ⟨2, ![256, 512]⟩
abbrev S512 : Shape := ⟨1, ![512]⟩
abbrev S512x256 : Shape := ⟨2, ![512, 256]⟩
abbrev S256 : Shape := ⟨1, ![256]⟩
abbrev S256x160 : Shape := ⟨2, ![256, 160]⟩
abbrev S160 : Shape := ⟨1, ![160]⟩
abbrev S160x80 : Shape := ⟨2, ![160, 80]⟩
abbrev S80 : Shape := ⟨1, ![80]⟩
abbrev S80x40 : Shape := ⟨2, ![80, 40]⟩
abbrev S40 : Shape := ⟨1, ![40]⟩
abbrev S40x1 : Shape := ⟨2, ![40, 1]⟩
abbrev S1 : Shape := ⟨1, ![1]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x256 : Shape := ⟨2, ![800000, 256]⟩
abbrev S50000x512 : Shape := ⟨2, ![50000, 512]⟩
abbrev S1x512 : Shape := ⟨2, ![1, 512]⟩
abbrev S1x256 : Shape := ⟨2, ![1, 256]⟩
abbrev S50000x160 : Shape := ⟨2, ![50000, 160]⟩
abbrev S800000x160 : Shape := ⟨2, ![800000, 160]⟩
abbrev S1x160 : Shape := ⟨2, ![1, 160]⟩
abbrev S200000x1 : Shape := ⟨2, ![200000, 1]⟩
abbrev S200000x160 : Shape := ⟨2, ![200000, 160]⟩
abbrev S200000x80 : Shape := ⟨2, ![200000, 80]⟩
abbrev S1x80 : Shape := ⟨2, ![1, 80]⟩
abbrev S200000x40 : Shape := ⟨2, ![200000, 40]⟩
abbrev S1x40 : Shape := ⟨2, ![1, 40]⟩
abbrev S1x1 : Shape := ⟨2, ![1, 1]⟩

abbrev nBuf : Space → Nat
  | .hbm => 218
  | .vmem => 0
  | .smem => 0
  | _ => 0

abbrev hbmTy0_0 (i : Nat) : BufTy := match i % 128 with
  | 0 => ⟨S50000x256, .f32⟩
  | 1 => ⟨S800000, .f32⟩
  | 2 => ⟨S800000, .i32⟩
  | 3 => ⟨S800000, .i32⟩
  | 4 => ⟨S200000, .i32⟩
  | 5 => ⟨S200000, .i32⟩
  | 6 => ⟨S200000, .i32⟩
  | 7 => ⟨S200000, .i32⟩
  | 8 => ⟨S256x512, .f32⟩
  | 9 => ⟨S512, .f32⟩
  | 10 => ⟨S512x256, .f32⟩
  | 11 => ⟨S256, .f32⟩
  | 12 => ⟨S256x160, .f32⟩
  | 13 => ⟨S160, .f32⟩
  | 14 => ⟨S160x80, .f32⟩
  | 15 => ⟨S80, .f32⟩
  | 16 => ⟨S80x40, .f32⟩
  | 17 => ⟨S40, .f32⟩
  | 18 => ⟨S40x1, .f32⟩
  | 19 => ⟨S1, .f32⟩
  | 20 => ⟨S_, .f32⟩
  | 21 => ⟨S800000, .f32⟩
  | 22 => ⟨S_, .f32⟩
  | 23 => ⟨S50000, .f32⟩
  | 24 => ⟨S800000x1, .i32⟩
  | 25 => ⟨S50000, .f32⟩
  | 26 => ⟨S_, .f32⟩
  | 27 => ⟨S_, .f32⟩
  | 28 => ⟨S50000, .f32⟩
  | 29 => ⟨S50000, .f32⟩
  | 30 => ⟨S_, .f32⟩
  | 31 => ⟨S50000, .f32⟩
  | 32 => ⟨S800000x1, .i32⟩
  | 33 => ⟨S50000, .f32⟩
  | 34 => ⟨S_, .f32⟩
  | 35 => ⟨S_, .f32⟩
  | 36 => ⟨S50000, .f32⟩
  | 37 => ⟨S50000, .f32⟩
  | 38 => ⟨S_, .f32⟩
  | 39 => ⟨S50000, .f32⟩
  | 40 => ⟨S50000, .f32⟩
  | 41 => ⟨S50000x1, .f32⟩
  | 42 => ⟨S_, .f32⟩
  | 43 => ⟨S50000, .f32⟩
  | 44 => ⟨S50000, .f32⟩
  | 45 => ⟨S50000x1, .f32⟩
  | 46 => ⟨S50000x256, .f32⟩
  | 47 => ⟨S50000x256, .f32⟩
  | 48 => ⟨S_, .i32⟩
  | 49 => ⟨S800000, .i32⟩
  | 50 => ⟨S800000, .i1⟩
  | 51 => ⟨S_, .i32⟩
  | 52 => ⟨S800000, .i32⟩
  | 53 => ⟨S800000, .i32⟩
  | 54 => ⟨S800000, .i32⟩
  | 55 => ⟨S800000x1, .i32⟩
  | 56 => ⟨S800000x256, .f32⟩
  | 57 => ⟨S800000x1, .f32⟩
  | 58 => ⟨S800000x256, .f32⟩
  | 59 => ⟨S800000x256, .f32⟩
  | 60 => ⟨S_, .f32⟩
  | 61 => ⟨S50000x256, .f32⟩
  | 62 => ⟨S800000x1, .i32⟩
  | 63 => ⟨S50000x256, .f32⟩
  | 64 => ⟨S50000x512, .f32⟩
  | 65 => ⟨S50000x512, .f32⟩
  | 66 => ⟨S50000x512, .f32⟩
  | 67 => ⟨S1x512, .f32⟩
  | 68 => ⟨S50000x512, .f32⟩
  | 69 => ⟨S50000x512, .f32⟩
  | 70 => ⟨S_, .f32⟩
  | 71 => ⟨S50000x512, .f32⟩
  | 72 => ⟨S50000x512, .f32⟩
  | 73 => ⟨S50000x512, .f32⟩
  | 74 => ⟨S50000x512, .f32⟩
  | 75 => ⟨S50000x256, .f32⟩
  | 76 => ⟨S_, .i32⟩
  | 77 => ⟨S800000, .i32⟩
  | 78 => ⟨S800000, .i1⟩
  | 79 => ⟨S_, .i32⟩
  | 80 => ⟨S800000, .i32⟩
  | 81 => ⟨S800000, .i32⟩
  | 82 => ⟨S800000, .i32⟩
  | 83 => ⟨S800000x1, .i32⟩
  | 84 => ⟨S800000x256, .f32⟩
  | 85 => ⟨S800000x1, .f32⟩
  | 86 => ⟨S800000x256, .f32⟩
  | 87 => ⟨S800000x256, .f32⟩
  | 88 => ⟨S_, .f32⟩
  | 89 => ⟨S50000x256, .f32⟩
  | 90 => ⟨S800000x1, .i32⟩
  | 91 => ⟨S50000x256, .f32⟩
  | 92 => ⟨S50000x256, .f32⟩
  | 93 => ⟨S50000x256, .f32⟩
  | 94 => ⟨S1x256, .f32⟩
  | 95 => ⟨S50000x256, .f32⟩
  | 96 => ⟨S50000x256, .f32⟩
  | 97 => ⟨S_, .f32⟩
  | 98 => ⟨S50000x256, .f32⟩
  | 99 => ⟨S50000x256, .f32⟩
  | 100 => ⟨S50000x256, .f32⟩
  | 101 => ⟨S50000x256, .f32⟩
  | 102 => ⟨S50000x160, .f32⟩
  | 103 => ⟨S_, .i32⟩
  | 104 => ⟨S800000, .i32⟩
  | 105 => ⟨S800000, .i1⟩
  | 106 => ⟨S_, .i32⟩
  | 107 => ⟨S800000, .i32⟩
  | 108 => ⟨S800000, .i32⟩
  | 109 => ⟨S800000, .i32⟩
  | 110 => ⟨S800000x1, .i32⟩
  | 111 => ⟨S800000x160, .f32⟩
  | 112 => ⟨S800000x1, .f32⟩
  | 113 => ⟨S800000x160, .f32⟩
  | 114 => ⟨S800000x160, .f32⟩
  | 115 => ⟨S_, .f32⟩
  | 116 => ⟨S50000x160, .f32⟩
  | 117 => ⟨S800000x1, .i32⟩
  | 118 => ⟨S50000x160, .f32⟩
  | 119 => ⟨S50000x160, .f32⟩
  | 120 => ⟨S50000x160, .f32⟩
  | 121 => ⟨S1x160, .f32⟩
  | 122 => ⟨S50000x160, .f32⟩
  | 123 => ⟨S50000x160, .f32⟩
  | 124 => ⟨S_, .i32⟩
  | 125 => ⟨S200000, .i32⟩
  | 126 => ⟨S200000, .i1⟩
  | 127 => ⟨S_, .i32⟩
  | _ => ⟨S50000x256, .f32⟩

abbrev hbmTy0_1 (i : Nat) : BufTy := match i % 128 with
  | 0 => ⟨S200000, .i32⟩
  | 1 => ⟨S200000, .i32⟩
  | 2 => ⟨S200000, .i32⟩
  | 3 => ⟨S200000x1, .i32⟩
  | 4 => ⟨S200000x160, .f32⟩
  | 5 => ⟨S_, .i32⟩
  | 6 => ⟨S200000, .i32⟩
  | 7 => ⟨S200000, .i1⟩
  | 8 => ⟨S_, .i32⟩
  | 9 => ⟨S200000, .i32⟩
  | 10 => ⟨S200000, .i32⟩
  | 11 => ⟨S200000, .i32⟩
  | 12 => ⟨S200000x1, .i32⟩
  | 13 => ⟨S200000x160, .f32⟩
  | 14 => ⟨S200000x160, .f32⟩
  | 15 => ⟨S200000x80, .f32⟩
  | 16 => ⟨S1x80, .f32⟩
  | 17 => ⟨S200000x80, .f32⟩
  | 18 => ⟨S200000x80, .f32⟩
  | 19 => ⟨S_, .f32⟩
  | 20 => ⟨S_, .f32⟩
  | 21 => ⟨S200000x80, .f32⟩
  | 22 => ⟨S200000x80, .i1⟩
  | 23 => ⟨S_, .f32⟩
  | 24 => ⟨S200000x80, .f32⟩
  | 25 => ⟨S200000x80, .f32⟩
  | 26 => ⟨S200000x80, .f32⟩
  | 27 => ⟨S200000x40, .f32⟩
  | 28 => ⟨S1x40, .f32⟩
  | 29 => ⟨S200000x40, .f32⟩
  | 30 => ⟨S200000x40, .f32⟩
  | 31 => ⟨S_, .f32⟩
  | 32 => ⟨S_, .f32⟩
  | 33 => ⟨S200000x40, .f32⟩
  | 34 => ⟨S200000x40, .i1⟩
  | 35 => ⟨S_, .f32⟩
  | 36 => ⟨S200000x40, .f32⟩
  | 37 => ⟨S200000x40, .f32⟩
  | 38 => ⟨S200000x40, .f32⟩
  | 39 => ⟨S200000x1, .f32⟩
  | 40 => ⟨S1x1, .f32⟩
  | 41 => ⟨S200000x1, .f32⟩
  | 42 => ⟨S200000x1, .f32⟩
  | 43 => ⟨S_, .i32⟩
  | 44 => ⟨S200000, .i32⟩
  | 45 => ⟨S200000, .i1⟩
  | 46 => ⟨S_, .i32⟩
  | 47 => ⟨S200000, .i32⟩
  | 48 => ⟨S200000, .i32⟩
  | 49 => ⟨S200000, .i32⟩
  | 50 => ⟨S200000x1, .i32⟩
  | 51 => ⟨S200000x160, .f32⟩
  | 52 => ⟨S_, .i32⟩
  | 53 => ⟨S200000, .i32⟩
  | 54 => ⟨S200000, .i1⟩
  | 55 => ⟨S_, .i32⟩
  | 56 => ⟨S200000, .i32⟩
  | 57 => ⟨S200000, .i32⟩
  | 58 => ⟨S200000, .i32⟩
  | 59 => ⟨S200000x1, .i32⟩
  | 60 => ⟨S200000x160, .f32⟩
  | 61 => ⟨S200000x160, .f32⟩
  | 62 => ⟨S200000x80, .f32⟩
  | 63 => ⟨S1x80, .f32⟩
  | 64 => ⟨S200000x80, .f32⟩
  | 65 => ⟨S200000x80, .f32⟩
  | 66 => ⟨S_, .f32⟩
  | 67 => ⟨S_, .f32⟩
  | 68 => ⟨S200000x80, .f32⟩
  | 69 => ⟨S200000x80, .i1⟩
  | 70 => ⟨S_, .f32⟩
  | 71 => ⟨S200000x80, .f32⟩
  | 72 => ⟨S200000x80, .f32⟩
  | 73 => ⟨S200000x80, .f32⟩
  | 74 => ⟨S200000x40, .f32⟩
  | 75 => ⟨S1x40, .f32⟩
  | 76 => ⟨S200000x40, .f32⟩
  | 77 => ⟨S200000x40, .f32⟩
  | 78 => ⟨S_, .f32⟩
  | 79 => ⟨S_, .f32⟩
  | 80 => ⟨S200000x40, .f32⟩
  | 81 => ⟨S200000x40, .i1⟩
  | 82 => ⟨S_, .f32⟩
  | 83 => ⟨S200000x40, .f32⟩
  | 84 => ⟨S200000x40, .f32⟩
  | 85 => ⟨S200000x40, .f32⟩
  | 86 => ⟨S200000x1, .f32⟩
  | 87 => ⟨S1x1, .f32⟩
  | 88 => ⟨S200000x1, .f32⟩
  | 89 => ⟨S200000x1, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_cst : Ref sig .tc := ⟨.hbm, 20, rfl⟩
abbrev main_v0 : Ref sig .tc := ⟨.hbm, 21, rfl⟩
abbrev main_cst_0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_cst_1 : Ref sig .tc := ⟨.hbm, 26, rfl⟩
abbrev main_call0_v0 : Ref sig .tc := ⟨.hbm, 27, rfl⟩
abbrev main_call0_v1 : Ref sig .tc := ⟨.hbm, 28, rfl⟩
abbrev main_v4 : Ref sig .tc := ⟨.hbm, 29, rfl⟩
abbrev main_cst_2 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_cst_3 : Ref sig .tc := ⟨.hbm, 34, rfl⟩
abbrev main_call1_v0 : Ref sig .tc := ⟨.hbm, 35, rfl⟩
abbrev main_call1_v1 : Ref sig .tc := ⟨.hbm, 36, rfl⟩
abbrev main_v8 : Ref sig .tc := ⟨.hbm, 37, rfl⟩
abbrev main_cst_4 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_cst_5 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_c : Ref sig .tc := ⟨.hbm, 48, rfl⟩
abbrev main_v17 : Ref sig .tc := ⟨.hbm, 49, rfl⟩
abbrev main_v18 : Ref sig .tc := ⟨.hbm, 50, rfl⟩
abbrev main_c_6 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_cst_7 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_call2_cst : Ref sig .tc := ⟨.hbm, 70, rfl⟩
abbrev main_call2_v0 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_c_8 : Ref sig .tc := ⟨.hbm, 76, rfl⟩
abbrev main_v40 : Ref sig .tc := ⟨.hbm, 77, rfl⟩
abbrev main_v41 : Ref sig .tc := ⟨.hbm, 78, rfl⟩
abbrev main_c_9 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_cst_10 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_call3_cst : Ref sig .tc := ⟨.hbm, 97, rfl⟩
abbrev main_call3_v0 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_c_11 : Ref sig .tc := ⟨.hbm, 103, rfl⟩
abbrev main_v62 : Ref sig .tc := ⟨.hbm, 104, rfl⟩
abbrev main_v63 : Ref sig .tc := ⟨.hbm, 105, rfl⟩
abbrev main_c_12 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_cst_13 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_c_14 : Ref sig .tc := ⟨.hbm, 124, rfl⟩
abbrev main_v80 : Ref sig .tc := ⟨.hbm, 125, rfl⟩
abbrev main_v81 : Ref sig .tc := ⟨.hbm, 126, rfl⟩
abbrev main_c_15 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_c_16 : Ref sig .tc := ⟨.hbm, 133, rfl⟩
abbrev main_v87 : Ref sig .tc := ⟨.hbm, 134, rfl⟩
abbrev main_v88 : Ref sig .tc := ⟨.hbm, 135, rfl⟩
abbrev main_c_17 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_cst_18 : Ref sig .tc := ⟨.hbm, 147, rfl⟩
abbrev main_call4_cst : Ref sig .tc := ⟨.hbm, 148, rfl⟩
abbrev main_call4_v0 : Ref sig .tc := ⟨.hbm, 149, rfl⟩
abbrev main_call4_v1 : Ref sig .tc := ⟨.hbm, 150, rfl⟩
abbrev main_call4_v2 : Ref sig .tc := ⟨.hbm, 151, rfl⟩
abbrev main_call4_v3 : Ref sig .tc := ⟨.hbm, 152, rfl⟩
abbrev main_call4_v4 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_cst_19 : Ref sig .tc := ⟨.hbm, 159, rfl⟩
abbrev main_call5_cst : Ref sig .tc := ⟨.hbm, 160, rfl⟩
abbrev main_call5_v0 : Ref sig .tc := ⟨.hbm, 161, rfl⟩
abbrev main_call5_v1 : Ref sig .tc := ⟨.hbm, 162, rfl⟩
abbrev main_call5_v2 : Ref sig .tc := ⟨.hbm, 163, rfl⟩
abbrev main_call5_v3 : Ref sig .tc := ⟨.hbm, 164, rfl⟩
abbrev main_call5_v4 : Ref sig .tc := ⟨.hbm, 165, rfl⟩
abbrev main_v104 : Ref sig .tc := ⟨.hbm, 166, rfl⟩
abbrev main_v105 : Ref sig .tc := ⟨.hbm, 167, rfl⟩
abbrev main_v106 : Ref sig .tc := ⟨.hbm, 168, rfl⟩
abbrev main_v107 : Ref sig .tc := ⟨.hbm, 169, rfl⟩
abbrev main_v108 : Ref sig .tc := ⟨.hbm, 170, rfl⟩
abbrev main_c_20 : Ref sig .tc := ⟨.hbm, 171, rfl⟩
abbrev main_v109 : Ref sig .tc := ⟨.hbm, 172, rfl⟩
abbrev main_v110 : Ref sig .tc := ⟨.hbm, 173, rfl⟩
abbrev main_c_21 : Ref sig .tc := ⟨.hbm, 174, rfl⟩
abbrev main_v111 : Ref sig .tc := ⟨.hbm, 175, rfl⟩
abbrev main_v112 : Ref sig .tc := ⟨.hbm, 176, rfl⟩
abbrev main_v113 : Ref sig .tc := ⟨.hbm, 177, rfl⟩
abbrev main_v114 : Ref sig .tc := ⟨.hbm, 178, rfl⟩
abbrev main_v115 : Ref sig .tc := ⟨.hbm, 179, rfl⟩
abbrev main_c_22 : Ref sig .tc := ⟨.hbm, 180, rfl⟩
abbrev main_v116 : Ref sig .tc := ⟨.hbm, 181, rfl⟩
abbrev main_v117 : Ref sig .tc := ⟨.hbm, 182, rfl⟩
abbrev main_c_23 : Ref sig .tc := ⟨.hbm, 183, rfl⟩
abbrev main_v118 : Ref sig .tc := ⟨.hbm, 184, rfl⟩
abbrev main_v119 : Ref sig .tc := ⟨.hbm, 185, rfl⟩
abbrev main_v120 : Ref sig .tc := ⟨.hbm, 186, rfl⟩
abbrev main_v121 : Ref sig .tc := ⟨.hbm, 187, rfl⟩
abbrev main_v122 : Ref sig .tc := ⟨.hbm, 188, rfl⟩
abbrev main_v123 : Ref sig .tc := ⟨.hbm, 189, rfl⟩
abbrev main_v124 : Ref sig .tc := ⟨.hbm, 190, rfl⟩
abbrev main_v125 : Ref sig .tc := ⟨.hbm, 191, rfl⟩
abbrev main_v126 : Ref sig .tc := ⟨.hbm, 192, rfl⟩
abbrev main_v127 : Ref sig .tc := ⟨.hbm, 193, rfl⟩
abbrev main_cst_24 : Ref sig .tc := ⟨.hbm, 194, rfl⟩
abbrev main_call6_cst : Ref sig .tc := ⟨.hbm, 195, rfl⟩
abbrev main_call6_v0 : Ref sig .tc := ⟨.hbm, 196, rfl⟩
abbrev main_call6_v1 : Ref sig .tc := ⟨.hbm, 197, rfl⟩
abbrev main_call6_v2 : Ref sig .tc := ⟨.hbm, 198, rfl⟩
abbrev main_call6_v3 : Ref sig .tc := ⟨.hbm, 199, rfl⟩
abbrev main_call6_v4 : Ref sig .tc := ⟨.hbm, 200, rfl⟩
abbrev main_v128 : Ref sig .tc := ⟨.hbm, 201, rfl⟩
abbrev main_v129 : Ref sig .tc := ⟨.hbm, 202, rfl⟩
abbrev main_v130 : Ref sig .tc := ⟨.hbm, 203, rfl⟩
abbrev main_v131 : Ref sig .tc := ⟨.hbm, 204, rfl⟩
abbrev main_v132 : Ref sig .tc := ⟨.hbm, 205, rfl⟩
abbrev main_cst_25 : Ref sig .tc := ⟨.hbm, 206, rfl⟩
abbrev main_call7_cst : Ref sig .tc := ⟨.hbm, 207, rfl⟩
abbrev main_call7_v0 : Ref sig .tc := ⟨.hbm, 208, rfl⟩
abbrev main_call7_v1 : Ref sig .tc := ⟨.hbm, 209, rfl⟩
abbrev main_call7_v2 : Ref sig .tc := ⟨.hbm, 210, rfl⟩
abbrev main_call7_v3 : Ref sig .tc := ⟨.hbm, 211, rfl⟩
abbrev main_call7_v4 : Ref sig .tc := ⟨.hbm, 212, rfl⟩
abbrev main_v133 : Ref sig .tc := ⟨.hbm, 213, rfl⟩
abbrev main_v134 : Ref sig .tc := ⟨.hbm, 214, rfl⟩
abbrev main_v135 : Ref sig .tc := ⟨.hbm, 215, rfl⟩
abbrev main_v136 : Ref sig .tc := ⟨.hbm, 216, rfl⟩
abbrev main_v137 : Ref sig .tc := ⟨.hbm, 217, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S50000x1_S50000x512_0_1 : S50000x1.BroadcastsInDim S50000x512 (![0, 1] : Fin 2 → Fin S50000x512.rank)
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  bcast_S_S50000x512 : S_.BroadcastsInDim S50000x512 (![] : Fin 0 → Fin S50000x512.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S800000x1_S800000x160_0_1 : S800000x1.BroadcastsInDim S800000x160 (![0, 1] : Fin 2 → Fin S800000x160.rank)
  bcast_S_S50000x160 : S_.BroadcastsInDim S50000x160 (![] : Fin 0 → Fin S50000x160.rank)
  bcast_S50000x1_S50000x160_0_1 : S50000x1.BroadcastsInDim S50000x160 (![0, 1] : Fin 2 → Fin S50000x160.rank)
  bcast_S160_S1x160_1 : S160.BroadcastsInDim S1x160 (![1] : Fin 1 → Fin S1x160.rank)
  bcast_S1x160_S50000x160_0_1 : S1x160.BroadcastsInDim S50000x160 (![0, 1] : Fin 2 → Fin S50000x160.rank)
  bcast_S_S200000 : S_.BroadcastsInDim S200000 (![] : Fin 0 → Fin S200000.rank)
  bcast_S200000_S200000x1_0 : S200000.BroadcastsInDim S200000x1 (![0] : Fin 1 → Fin S200000x1.rank)
  bcast_S80_S1x80_1 : S80.BroadcastsInDim S1x80 (![1] : Fin 1 → Fin S1x80.rank)
  bcast_S1x80_S200000x80_0_1 : S1x80.BroadcastsInDim S200000x80 (![0, 1] : Fin 2 → Fin S200000x80.rank)
  bcast_S_S200000x80 : S_.BroadcastsInDim S200000x80 (![] : Fin 0 → Fin S200000x80.rank)
  bcast_S40_S1x40_1 : S40.BroadcastsInDim S1x40 (![1] : Fin 1 → Fin S1x40.rank)
  bcast_S1x40_S200000x40_0_1 : S1x40.BroadcastsInDim S200000x40 (![0, 1] : Fin 2 → Fin S200000x40.rank)
  bcast_S_S200000x40 : S_.BroadcastsInDim S200000x40 (![] : Fin 0 → Fin S200000x40.rank)
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  scatter_S50000_S800000x1_S800000_n_0_0_1_wf : ScatterDims.WF S50000 S800000x1 S800000 [] [0] [0] 1
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x512_S50000x512_1_0_0_1_n_n_wf : DotDims.WF S50000x256 S256x512 S50000x512 [1] [0] [0] [1] [] []
  dot_S50000x512_S512x256_S50000x256_1_0_0_1_n_n_wf : DotDims.WF S50000x512 S512x256 S50000x256 [1] [0] [0] [1] [] []
  dot_S50000x256_S256x160_S50000x160_1_0_0_1_n_n_wf : DotDims.WF S50000x256 S256x160 S50000x160 [1] [0] [0] [1] [] []
  gather_S50000x160_S800000x1_S800000x160_1_0_n_n_0_1_1160_wf : GatherDims.WF S50000x160 S800000x1 S800000x160 [1] [0] [] [0] [] 1 ![1, 160]
  scatter_S50000x160_S800000x1_S800000x160_1_0_0_1_wf : ScatterDims.WF S50000x160 S800000x1 S800000x160 [1] [0] [0] 1
  gather_S50000x160_S200000x1_S200000x160_1_0_n_n_0_1_1160_wf : GatherDims.WF S50000x160 S200000x1 S200000x160 [1] [0] [] [0] [] 1 ![1, 160]
  dot_S200000x160_S160x80_S200000x80_1_0_0_1_n_n_wf : DotDims.WF S200000x160 S160x80 S200000x80 [1] [0] [0] [1] [] []
  dot_S200000x80_S80x40_S200000x40_1_0_0_1_n_n_wf : DotDims.WF S200000x80 S80x40 S200000x40 [1] [0] [0] [1] [] []
  dot_S200000x40_S40x1_S200000x1_1_0_0_1_n_n_wf : DotDims.WF S200000x40 S40x1 S200000x1 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x512_S50000x512_1_0_0_1_n_n : DotDims S50000x256 S256x512 S50000x512 where
  lhsContracting := [1]
  rhsContracting := [0]
  lhsNonContracting := [0]
  rhsNonContracting := [1]
  lhsBatch := []
  rhsBatch := []
  wf := dot_S50000x256_S256x512_S50000x512_1_0_0_1_n_n_wf
def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def dot_S50000x256_S256x160_S50000x160_1_0_0_1_n_n : DotDims S50000x256 S256x160 S50000x160 where
  lhsContracting := [1]
  rhsContracting := [0]
  lhsNonContracting := [0]
  rhsNonContracting := [1]
  lhsBatch := []
  rhsBatch := []
  wf := dot_S50000x256_S256x160_S50000x160_1_0_0_1_n_n_wf
def gather_S50000x160_S800000x1_S800000x160_1_0_n_n_0_1_1160 : GatherDims S50000x160 S800000x1 S800000x160 where
  offsetDims := [1]
  collapsedSliceDims := [0]
  operandBatchingDims := []
  startIndicesBatchingDims := []
  startIndexMap := [0]
  indexVectorDim := 1
  sliceSizes := ![1, 160]
  wf := gather_S50000x160_S800000x1_S800000x160_1_0_n_n_0_1_1160_wf
def scatter_S50000x160_S800000x1_S800000x160_1_0_0_1 : ScatterDims S50000x160 S800000x1 S800000x160 where
  updateWindowDims := [1]
  insertedWindowDims := [0]
  scatterDimsToOperandDims := [0]
  indexVectorDim := 1
  wf := scatter_S50000x160_S800000x1_S800000x160_1_0_0_1_wf
def gather_S50000x160_S200000x1_S200000x160_1_0_n_n_0_1_1160 : GatherDims S50000x160 S200000x1 S200000x160 where
  offsetDims := [1]
  collapsedSliceDims := [0]
  operandBatchingDims := []
  startIndicesBatchingDims := []
  startIndexMap := [0]
  indexVectorDim := 1
  sliceSizes := ![1, 160]
  wf := gather_S50000x160_S200000x1_S200000x160_1_0_n_n_0_1_1160_wf
def dot_S200000x160_S160x80_S200000x80_1_0_0_1_n_n : DotDims S200000x160 S160x80 S200000x80 where
  lhsContracting := [1]
  rhsContracting := [0]
  lhsNonContracting := [0]
  rhsNonContracting := [1]
  lhsBatch := []
  rhsBatch := []
  wf := dot_S200000x160_S160x80_S200000x80_1_0_0_1_n_n_wf
def dot_S200000x80_S80x40_S200000x40_1_0_0_1_n_n : DotDims S200000x80 S80x40 S200000x40 where
  lhsContracting := [1]
  rhsContracting := [0]
  lhsNonContracting := [0]
  rhsNonContracting := [1]
  lhsBatch := []
  rhsBatch := []
  wf := dot_S200000x80_S80x40_S200000x40_1_0_0_1_n_n_wf
def dot_S200000x40_S40x1_S200000x1_1_0_0_1_n_n : DotDims S200000x40 S40x1 S200000x1 where
  lhsContracting := [1]
  rhsContracting := [0]
  lhsNonContracting := [0]
  rhsNonContracting := [1]
  lhsBatch := []
  rhsBatch := []
  wf := dot_S200000x40_S40x1_S200000x1_1_0_0_1_n_n_wf

class Facts : Prop extends Facts₀ where

variable [Facts]
-- ==== Proof.KChain.lean ====
/-
  Which buffers each stretch of host operations and each blocked call leave alone.  A host stretch writes only the
  buffers its operations name as results; a blocked call changes only its output array (its input arrays are read
  through their windows and end as they were).  So the arguments, and the two degree columns once computed, are read
  at every later boundary exactly as they were.
-/
import proofs.«108703_j40132174414142_2_alg».proof.Proof.Gen.KernelIdeal.Frame

set_option maxRecDepth 16384

noncomputable section

namespace Cert.KernelIdeal.Val

open Idealize.ShloMosaic Idealize.ShloMosaic.TcCoe Idealize.SL.Sem
open Cert.KernelIdeal Cert.KernelIdeal.Gen
open Idealize.ShloMosaic.Pipeline (Dat Cfg Window)

variable {F : FTy → Type} [FloatOps F]
variable (m : (ℓ : Loc nD τ sig) → Buf (Elt F) ℓ) (ρ : Dev nD → PrngReg) (c : Dev nD)

/-- The twenty argument arrays. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19]

/-- The buffers `hostOps0` writes. -/
abbrev hostOps0_W : List (Ref sig .tc) := [main_cst, main_v0, main_cst_0, main_v1, main_v2, main_v3, main_cst_1]
theorem hostOps0_writes : (hostOps0 : List (HloOp τ sig (Elt F))).Forall fun op => op.writes ⊆ (hostOps0_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem keep1 (r : Ref sig .tc) (h : r ∉ hostOps0_W) : W1 m ρ c (Proc.devRef .tc r) = W0 m ρ c (Proc.devRef .tc r) :=
  StableHlo.after_of_writes_sub hostOps0 _ hostOps0_writes h

/-- The buffers `hostOps0_1` writes. -/
abbrev hostOps0_1_W : List (Ref sig .tc) := [main_call0_v0, main_call0_v1, main_v4]
theorem hostOps0_1_writes : (hostOps0_1 : List (HloOp τ sig (Elt F))).Forall fun op => op.writes ⊆ (hostOps0_1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem keep2 (r : Ref sig .tc) (h : r ∉ hostOps0_1_W) : W2 m ρ c (Proc.devRef .tc r) = W1 m ρ c (Proc.devRef .tc r) :=
  StableHlo.after_of_writes_sub hostOps0_1 _ hostOps0_1_writes h

/-- The buffers `hostOps0_2` writes. -/
abbrev hostOps0_2_W : List (Ref sig .tc) := [main_cst_2, main_v5, main_v6, main_v7, main_cst_3]
theorem hostOps0_2_writes : (hostOps0_2 : List (HloOp τ sig (Elt F))).Forall fun op => op.writes ⊆ (hostOps0_2_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem keep3 (r : Ref sig .tc) (h : r ∉ hostOps0_2_W) : W3 m ρ c (Proc.devRef .tc r) = W2 m ρ c (Proc.devRef .tc r) :=
  StableHlo.after_of_writes_sub hostOps0_2 _ hostOps0_2_writes h

/-- The buffers `hostOps0_3` writes. -/
abbrev hostOps0_3_W : List (Ref sig .tc) := [main_call1_v0, main_call1_v1, main_v8]
theorem hostOps0_3_writes : (hostOps0_3 : List (HloOp τ sig (Elt F))).Forall fun op => op.writes ⊆ (hostOps0_3_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem keep4 (r : Ref sig .tc) (h : r ∉ hostOps0_3_W) : W4 m ρ c (Proc.devRef .tc r) = W3 m ρ c (Proc.devRef .tc r) :=
  StableHlo.after_of_writes_sub hostOps0_3 _ hostOps0_3_writes h

/-- The buffers `hostOps0_4` writes. -/
abbrev hostOps0_4_W : List (Ref sig .tc) := [main_cst_4, main_v9, main_v10, main_v11, main_cst_5, main_v12, main_v13, main_v14, main_cst_6, main_v15]
theorem hostOps0_4_writes : (hostOps0_4 : List (HloOp τ sig (Elt F))).Forall fun op => op.writes ⊆ (hostOps0_4_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem keep5 (r : Ref sig .tc) (h : r ∉ hostOps0_4_W) : W5 m ρ c (Proc.devRef .tc r) = W4 m ρ c (Proc.devRef .tc r) :=
  StableHlo.after_of_writes_sub hostOps0_4 _ hostOps0_4_writes h

/-- The buffers `hostOps1` writes. -/
abbrev hostOps1_W : List (Ref sig .tc) := [main_c, main_v17, main_v18, main_c_7, main_v19, main_v20, main_v21, main_v22, main_v23, main_v24, main_v25, main_v26, main_cst_8, main_v27, main_v28, main_v29, main_v30]
theorem hostOps1_writes : (hostOps1 : List (HloOp τ sig (Elt F))).Forall fun op => op.writes ⊆ (hostOps1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem keep7 (r : Ref sig .tc) (h : r ∉ hostOps1_W) : W7 m ρ c (Proc.devRef .tc r) = W6 m ρ c (Proc.devRef .tc r) :=
  StableHlo.after_of_writes_sub hostOps1 _ hostOps1_writes h

/-- The buffers `hostOps2` writes. -/
abbrev hostOps2_W : List (Ref sig .tc) := [main_cst_9, main_v32]
theorem hostOps2_writes : (hostOps2 : List (HloOp τ sig (Elt F))).Forall fun op => op.writes ⊆ (hostOps2_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem keep9 (r : Ref sig .tc) (h : r ∉ hostOps2_W) : W9 m ρ c (Proc.devRef .tc r) = W8 m ρ c (Proc.devRef .tc r) :=
  StableHlo.after_of_writes_sub hostOps2 _ hostOps2_writes h

/-- The buffers `hostOps3` writes. -/
abbrev hostOps3_W : List (Ref sig .tc) := [main_cst_10, main_v34, main_cst_11, main_v35]
theorem hostOps3_writes : (hostOps3 : List (HloOp τ sig (Elt F))).Forall fun op => op.writes ⊆ (hostOps3_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem keep11 (r : Ref sig .tc) (h : r ∉ hostOps3_W) : W11 m ρ c (Proc.devRef .tc r) = W10 m ρ c (Proc.devRef .tc r) :=
  StableHlo.after_of_writes_sub hostOps3 _ hostOps3_writes h

/-- The buffers `hostOps4` writes. -/
abbrev hostOps4_W : List (Ref sig .tc) := [main_c_12, main_v37, main_v38, main_c_13, main_v39, main_v40, main_v41, main_v42, main_v43, main_v44, main_v45, main_v46, main_cst_14, main_v47, main_v48, main_v49, main_v50]
theorem hostOps4_writes : (hostOps4 : List (HloOp τ sig (Elt F))).Forall fun op => op.writes ⊆ (hostOps4_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem keep13 (r : Ref sig .tc) (h : r ∉ hostOps4_W) : W13 m ρ c (Proc.devRef .tc r) = W12 m ρ c (Proc.devRef .tc r) :=
  StableHlo.after_of_writes_sub hostOps4 _ hostOps4_writes h

/-- The buffers `hostOps5` writes. -/
abbrev hostOps5_W : List (Ref sig .tc) := [main_cst_15, main_v52]
theorem hostOps5_writes : (hostOps5 : List (HloOp τ sig (Elt F))).Forall fun op => op.writes ⊆ (hostOps5_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem keep15 (r : Ref sig .tc) (h : r ∉ hostOps5_W) : W15 m ρ c (Proc.devRef .tc r) = W14 m ρ c (Proc.devRef .tc r) :=
  StableHlo.after_of_writes_sub hostOps5 _ hostOps5_writes h

/-- The buffers `hostOps6` writes. -/
abbrev hostOps6_W : List (Ref sig .tc) := [main_cst_16, main_v54, main_cst_17, main_v55]
theorem hostOps6_writes : (hostOps6 : List (HloOp τ sig (Elt F))).Forall fun op => op.writes ⊆ (hostOps6_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem keep17 (r : Ref sig .tc) (h : r ∉ hostOps6_W) : W17 m ρ c (Proc.devRef .tc r) = W16 m ρ c (Proc.devRef .tc r) :=
  StableHlo.after_of_writes_sub hostOps6 _ hostOps6_writes h

/-- The buffers `hostOps7` writes. -/
abbrev hostOps7_W : List (Ref sig .tc) := [main_c_18, main_v57, main_v58, main_c_19, main_v59, main_v60, main_v61, main_v62, main_v63, main_v64, main_v65, main_v66, main_cst_20, main_v67, main_v68, main_v69, main_v70]
theorem hostOps7_writes : (hostOps7 : List (HloOp τ sig (Elt F))).Forall fun op => op.writes ⊆ (hostOps7_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem keep19 (r : Ref sig .tc) (h : r ∉ hostOps7_W) : W19 m ρ c (Proc.devRef .tc r) = W18 m ρ c (Proc.devRef .tc r) :=
  StableHlo.after_of_writes_sub hostOps7 _ hostOps7_writes h

/-- The buffers `hostOps8` writes. -/
abbrev hostOps8_W : List (Ref sig .tc) := [main_c_21, main_v72, main_v73, main_c_22, main_v74, main_v75, main_v76, main_v77, main_v78, main_c_23, main_v79, main_v80, main_c_24, main_v81, main_v82, main_v83, main_v84, main_v85, main_v86, main_c_25, main_v87, main_v88, main_c_26, main_v89, main_v90, main_v91, main_v92, main_v93, main_c_27, main_v94, main_v95, main_c_28, main_v96, main_v97, main_v98, main_v99, main_v100, main_v101, main_v102, main_v103, main_v104]
theorem hostOps8_writes : (hostOps8 : List (HloOp τ sig (Elt F))).Forall fun op => op.writes ⊆ (hostOps8_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem keep21 (r : Ref sig .tc) (h : r ∉ hostOps8_W) : W21 m ρ c (Proc.devRef .tc r) = W20 m ρ c (Proc.devRef .tc r) :=
  StableHlo.after_of_writes_sub hostOps8 _ hostOps8_writes h

/-- The buffers `hostOps9` writes. -/
abbrev hostOps9_W : List (Ref sig .tc) := [main_v106, main_v107]
theorem hostOps9_writes : (hostOps9 : List (HloOp τ sig (Elt F))).Forall fun op => op.writes ⊆ (hostOps9_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem keep23 (r : Ref sig .tc) (h : r ∉ hostOps9_W) : W23 m ρ c (Proc.devRef .tc r) = W22 m ρ c (Proc.devRef .tc r) :=
  StableHlo.after_of_writes_sub hostOps9 _ hostOps9_writes h

/-- Blocked call 0 changes only its output array `main_v16`. -/
theorem keep6 (r : Ref sig .tc) (h : r ∉ ([main_v16] : List (Ref sig .tc))) : W6 m ρ c (Proc.devRef .tc r) = W5 m ρ c (Proc.devRef .tc r) := by
  by_cases hw : ∀ w, Pipeline.arrRef spec0 w ≠ r
  · exact W6_of_ne m ρ c r hw
  · push Not at hw
    obtain ⟨w, rfl⟩ := hw
    have hin : (cfg0.win w).isOut = false := by
      revert h; revert w; decide
    exact (W6_arr m ρ c w).trans (((dat0 (V5 m ρ) c).arrAt_in w hin _).trans (A_eq0 (V5 m ρ) c w))

/-- Blocked call 1 changes only its output array `main_v31`. -/
theorem keep8 (r : Ref sig .tc) (h : r ∉ ([main_v31] : List (Ref sig .tc))) : W8 m ρ c (Proc.devRef .tc r) = W7 m ρ c (Proc.devRef .tc r) := by
  by_cases hw : ∀ w, Pipeline.arrRef spec1 w ≠ r
  · exact W8_of_ne m ρ c r hw
  · push Not at hw
    obtain ⟨w, rfl⟩ := hw
    have hin : (cfg1.win w).isOut = false := by
      revert h; revert w; decide
    exact (W8_arr m ρ c w).trans (((dat1 (V7 m ρ) c).arrAt_in w hin _).trans (A_eq1 (V7 m ρ) c w))

/-- Blocked call 2 changes only its output array `main_v33`. -/
theorem keep10 (r : Ref sig .tc) (h : r ∉ ([main_v33] : List (Ref sig .tc))) : W10 m ρ c (Proc.devRef .tc r) = W9 m ρ c (Proc.devRef .tc r) := by
  by_cases hw : ∀ w, Pipeline.arrRef spec2 w ≠ r
  · exact W10_of_ne m ρ c r hw
  · push Not at hw
    obtain ⟨w, rfl⟩ := hw
    have hin : (cfg2.win w).isOut = false := by
      revert h; revert w; decide
    exact (W10_arr m ρ c w).trans (((dat2 (V9 m ρ) c).arrAt_in w hin _).trans (A_eq2 (V9 m ρ) c w))

/-- Blocked call 3 changes only its output array `main_v36`. -/
theorem keep12 (r : Ref sig .tc) (h : r ∉ ([main_v36] : List (Ref sig .tc))) : W12 m ρ c (Proc.devRef .tc r) = W11 m ρ c (Proc.devRef .tc r) := by
  by_cases hw : ∀ w, Pipeline.arrRef spec3 w ≠ r
  · exact W12_of_ne m ρ c r hw
  · push Not at hw
    obtain ⟨w, rfl⟩ := hw
    have hin : (cfg3.win w).isOut = false := by
      revert h; revert w; decide
    exact (W12_arr m ρ c w).trans (((dat3 (V11 m ρ) c).arrAt_in w hin _).trans (A_eq3 (V11 m ρ) c w))

/-- Blocked call 4 changes only its output array `main_v51`. -/
theorem keep14 (r : Ref sig .tc) (h : r ∉ ([main_v51] : List (Ref sig .tc))) : W14 m ρ c (Proc.devRef .tc r) = W13 m ρ c (Proc.devRef .tc r) := by
  by_cases hw : ∀ w, Pipeline.arrRef spec4 w ≠ r
  · exact W14_of_ne m ρ c r hw
  · push Not at hw
    obtain ⟨w, rfl⟩ := hw
    have hin : (cfg4.win w).isOut = false := by
      revert h; revert w; decide
    exact (W14_arr m ρ c w).trans (((dat4 (V13 m ρ) c).arrAt_in w hin _).trans (A_eq4 (V13 m ρ) c w))

/-- Blocked call 5 changes only its output array `main_v53`. -/
theorem keep16 (r : Ref sig .tc) (h : r ∉ ([main_v53] : List (Ref sig .tc))) : W16 m ρ c (Proc.devRef .tc r) = W15 m ρ c (Proc.devRef .tc r) := by
  by_cases hw : ∀ w, Pipeline.arrRef spec5 w ≠ r
  · exact W16_of_ne m ρ c r hw
  · push Not at hw
    obtain ⟨w, rfl⟩ := hw
    have hin : (cfg5.win w).isOut = false := by
      revert h; revert w; decide
    exact (W16_arr m ρ c w).trans (((dat5 (V15 m ρ) c).arrAt_in w hin _).trans (A_eq5 (V15 m ρ) c w))

/-- Blocked call 6 changes only its output array `main_v56`. -/
theorem keep18 (r : Ref sig .tc) (h : r ∉ ([main_v56] : List (Ref sig .tc))) : W18 m ρ c (Proc.devRef .tc r) = W17 m ρ c (Proc.devRef .tc r) := by
  by_cases hw : ∀ w, Pipeline.arrRef spec6 w ≠ r
  · exact W18_of_ne m ρ c r hw
  · push Not at hw
    obtain ⟨w, rfl⟩ := hw
    have hin : (cfg6.win w).isOut = false := by
      revert h; revert w; decide
    exact (W18_arr m ρ c w).trans (((dat6 (V17 m ρ) c).arrAt_in w hin _).trans (A_eq6 (V17 m ρ) c w))

/-- Blocked call 7 changes only its output array `main_v71`. -/
theorem keep20 (r : Ref sig .tc) (h : r ∉ ([main_v71] : List (Ref sig .tc))) : W20 m ρ c (Proc.devRef .tc r) = W19 m ρ c (Proc.devRef .tc r) := by
  by_cases hw : ∀ w, Pipeline.arrRef spec7 w ≠ r
  · exact W20_of_ne m ρ c r hw
  · push Not at hw
    obtain ⟨w, rfl⟩ := hw
    have hin : (cfg7.win w).isOut = false := by
      revert h; revert w; decide
    exact (W20_arr m ρ c w).trans (((dat7 (V19 m ρ) c).arrAt_in w hin _).trans (A_eq7 (V19 m ρ) c w))

/-- Blocked call 8 changes only its output array `main_v105`. -/
theorem keep22 (r : Ref sig .tc) (h : r ∉ ([main_v105] : List (Ref sig .tc))) : W22 m ρ c (Proc.devRef .tc r) = W21 m ρ c (Proc.devRef .tc r) := by
  by_cases hw : ∀ w, Pipeline.arrRef spec8 w ≠ r
  · exact W22_of_ne m ρ c r hw
  · push Not at hw
    obtain ⟨w, rfl⟩ := hw
    have hin : (cfg8.win w).isOut = false := by
      revert h; revert w; decide
    exact (W22_arr m ρ c w).trans (((dat8 (V21 m ρ) c).arrAt_in w hin _).trans (A_eq8 (V21 m ρ) c w))

/-! ## The arguments at every boundary -/

theorem W0_arg (r : Ref sig .tc) : W0 m ρ c (Proc.devRef .tc r) = m ((c : Thread nD τ).loc r) := rfl
theorem W1_arg (r : Ref sig .tc) (hr : r ∈ argRefs) : W1 m ρ c (Proc.devRef .tc r) = m ((c : Thread nD τ).loc r) :=
  (keep1 m ρ c r ((by decide : ∀ r ∈ argRefs, r ∉ hostOps0_W) r hr)).trans (W0_arg m ρ c r)
theorem W2_arg (r : Ref sig .tc) (hr : r ∈ argRefs) : W2 m ρ c (Proc.devRef .tc r) = m ((c : Thread nD τ).loc r) :=
  (keep2 m ρ c r ((by decide : ∀ r ∈ argRefs, r ∉ hostOps0_1_W) r hr)).trans (W1_arg m ρ c r hr)
theorem W3_arg (r : Ref sig .tc) (hr : r ∈ argRefs) : W3 m ρ c (Proc.devRef .tc r) = m ((c : Thread nD τ).loc r) :=
  (keep3 m ρ c r ((by decide : ∀ r ∈ argRefs, r ∉ hostOps0_2_W) r hr)).trans (W2_arg m ρ c r hr)
theorem W4_arg (r : Ref sig .tc) (hr : r ∈ argRefs) : W4 m ρ c (Proc.devRef .tc r) = m ((c : Thread nD τ).loc r) :=
  (keep4 m ρ c r ((by decide : ∀ r ∈ argRefs, r ∉ hostOps0_3_W) r hr)).trans (W3_arg m ρ c r hr)
theorem W5_arg (r : Ref sig .tc) (hr : r ∈ argRefs) : W5 m ρ c (Proc.devRef .tc r) = m ((c : Thread nD τ).loc r) :=
  (keep5 m ρ c r ((by decide : ∀ r ∈ argRefs, r ∉ hostOps0_4_W) r hr)).trans (W4_arg m ρ c r hr)
theorem W6_arg (r : Ref sig .tc) (hr : r ∈ argRefs) : W6 m ρ c (Proc.devRef .tc r) = m ((c : Thread nD τ).loc r) :=
  (keep6 m ρ c r ((by decide : ∀ r ∈ argRefs, r ∉ ([main_v16] : List (Ref sig .tc))) r hr)).trans (W5_arg m ρ c r hr)
theorem W7_arg (r : Ref sig .tc) (hr : r ∈ argRefs) : W7 m ρ c (Proc.devRef .tc r) = m ((c : Thread nD τ).loc r) :=
  (keep7 m ρ c r ((by decide : ∀ r ∈ argRefs, r ∉ hostOps1_W) r hr)).trans (W6_arg m ρ c r hr)
theorem W8_arg (r : Ref sig .tc) (hr : r ∈ argRefs) : W8 m ρ c (Proc.devRef .tc r) = m ((c : Thread nD τ).loc r) :=
  (keep8 m ρ c r ((by decide : ∀ r ∈ argRefs, r ∉ ([main_v31] : List (Ref sig .tc))) r hr)).trans (W7_arg m ρ c r hr)
theorem W9_arg (r : Ref sig .tc) (hr : r ∈ argRefs) : W9 m ρ c (Proc.devRef .tc r) = m ((c : Thread nD τ).loc r) :=
  (keep9 m ρ c r ((by decide : ∀ r ∈ argRefs, r ∉ hostOps2_W) r hr)).trans (W8_arg m ρ c r hr)
theorem W10_arg (r : Ref sig .tc) (hr : r ∈ argRefs) : W10 m ρ c (Proc.devRef .tc r) = m ((c : Thread nD τ).loc r) :=
  (keep10 m ρ c r ((by decide : ∀ r ∈ argRefs, r ∉ ([main_v33] : List (Ref sig .tc))) r hr)).trans (W9_arg m ρ c r hr)
theorem W11_arg (r : Ref sig .tc) (hr : r ∈ argRefs) : W11 m ρ c (Proc.devRef .tc r) = m ((c : Thread nD τ).loc r) :=
  (keep11 m ρ c r ((by decide : ∀ r ∈ argRefs, r ∉ hostOps3_W) r hr)).trans (W10_arg m ρ c r hr)
theorem W12_arg (r : Ref sig .tc) (hr : r ∈ argRefs) : W12 m ρ c (Proc.devRef .tc r) = m ((c : Thread nD τ).loc r) :=
  (keep12 m ρ c r ((by decide : ∀ r ∈ argRefs, r ∉ ([main_v36] : List (Ref sig .tc))) r hr)).trans (W11_arg m ρ c r hr)
theorem W13_arg (r : Ref sig .tc) (hr : r ∈ argRefs) : W13 m ρ c (Proc.devRef .tc r) = m ((c : Thread nD τ).loc r) :=
  (keep13 m ρ c r ((by decide : ∀ r ∈ argRefs, r ∉ hostOps4_W) r hr)).trans (W12_arg m ρ c r hr)
theorem W14_arg (r : Ref sig .tc) (hr : r ∈ argRefs) : W14 m ρ c (Proc.devRef .tc r) = m ((c : Thread nD τ).loc r) :=
  (keep14 m ρ c r ((by decide : ∀ r ∈ argRefs, r ∉ ([main_v51] : List (Ref sig .tc))) r hr)).trans (W13_arg m ρ c r hr)
theorem W15_arg (r : Ref sig .tc) (hr : r ∈ argRefs) : W15 m ρ c (Proc.devRef .tc r) = m ((c : Thread nD τ).loc r) :=
  (keep15 m ρ c r ((by decide : ∀ r ∈ argRefs, r ∉ hostOps5_W) r hr)).trans (W14_arg m ρ c r hr)
theorem W16_arg (r : Ref sig .tc) (hr : r ∈ argRefs) : W16 m ρ c (Proc.devRef .tc r) = m ((c : Thread nD τ).loc r) :=
  (keep16 m ρ c r ((by decide : ∀ r ∈ argRefs, r ∉ ([main_v53] : List (Ref sig .tc))) r hr)).trans (W15_arg m ρ c r hr)
theorem W17_arg (r : Ref sig .tc) (hr : r ∈ argRefs) : W17 m ρ c (Proc.devRef .tc r) = m ((c : Thread nD τ).loc r) :=
  (keep17 m ρ c r ((by decide : ∀ r ∈ argRefs, r ∉ hostOps6_W) r hr)).trans (W16_arg m ρ c r hr)
theorem W18_arg (r : Ref sig .tc) (hr : r ∈ argRefs) : W18 m ρ c (Proc.devRef .tc r) = m ((c : Thread nD τ).loc r) :=
  (keep18 m ρ c r ((by decide : ∀ r ∈ argRefs, r ∉ ([main_v56] : List (Ref sig .tc))) r hr)).trans (W17_arg m ρ c r hr)
theorem W19_arg (r : Ref sig .tc) (hr : r ∈ argRefs) : W19 m ρ c (Proc.devRef .tc r) = m ((c : Thread nD τ).loc r) :=
  (keep19 m ρ c r ((by decide : ∀ r ∈ argRefs, r ∉ hostOps7_W) r hr)).trans (W18_arg m ρ c r hr)
theorem W20_arg (r : Ref sig .tc) (hr : r ∈ argRefs) : W20 m ρ c (Proc.devRef .tc r) = m ((c : Thread nD τ).loc r) :=
  (keep20 m ρ c r ((by decide : ∀ r ∈ argRefs, r ∉ ([main_v71] : List (Ref sig .tc))) r hr)).trans (W19_arg m ρ c r hr)
theorem W21_arg (r : Ref sig .tc) (hr : r ∈ argRefs) : W21 m ρ c (Proc.devRef .tc r) = m ((c : Thread nD τ).loc r) :=
  (keep21 m ρ c r ((by decide : ∀ r ∈ argRefs, r ∉ hostOps8_W) r hr)).trans (W20_arg m ρ c r hr)
theorem W22_arg (r : Ref sig .tc) (hr : r ∈ argRefs) : W22 m ρ c (Proc.devRef .tc r) = m ((c : Thread nD τ).loc r) :=
  (keep22 m ρ c r ((by decide : ∀ r ∈ argRefs, r ∉ ([main_v105] : List (Ref sig .tc))) r hr)).trans (W21_arg m ρ c r hr)
theorem W23_arg (r : Ref sig .tc) (hr : r ∈ argRefs) : W23 m ρ c (Proc.devRef .tc r) = m ((c : Thread nD τ).loc r) :=
  (keep23 m ρ c r ((by decide : ∀ r ∈ argRefs, r ∉ hostOps9_W) r hr)).trans (W22_arg m ρ c r hr)

/-! ## The two degree columns, once computed (boundary 5), at every later boundary that reads them -/

theorem W6_v11 : W6 m ρ c (Proc.devRef .tc main_v11) = W5 m ρ c (Proc.devRef .tc main_v11) :=
  keep6 m ρ c main_v11 (by decide)
theorem W7_v11 : W7 m ρ c (Proc.devRef .tc main_v11) = W5 m ρ c (Proc.devRef .tc main_v11) :=
  (keep7 m ρ c main_v11 (by decide)).trans (W6_v11 m ρ c)
theorem W8_v11 : W8 m ρ c (Proc.devRef .tc main_v11) = W5 m ρ c (Proc.devRef .tc main_v11) :=
  (keep8 m ρ c main_v11 (by decide)).trans (W7_v11 m ρ c)
theorem W9_v11 : W9 m ρ c (Proc.devRef .tc main_v11) = W5 m ρ c (Proc.devRef .tc main_v11) :=
  (keep9 m ρ c main_v11 (by decide)).trans (W8_v11 m ρ c)
theorem W10_v11 : W10 m ρ c (Proc.devRef .tc main_v11) = W5 m ρ c (Proc.devRef .tc main_v11) :=
  (keep10 m ρ c main_v11 (by decide)).trans (W9_v11 m ρ c)
theorem W11_v11 : W11 m ρ c (Proc.devRef .tc main_v11) = W5 m ρ c (Proc.devRef .tc main_v11) :=
  (keep11 m ρ c main_v11 (by decide)).trans (W10_v11 m ρ c)
theorem W12_v11 : W12 m ρ c (Proc.devRef .tc main_v11) = W5 m ρ c (Proc.devRef .tc main_v11) :=
  (keep12 m ρ c main_v11 (by decide)).trans (W11_v11 m ρ c)
theorem W13_v11 : W13 m ρ c (Proc.devRef .tc main_v11) = W5 m ρ c (Proc.devRef .tc main_v11) :=
  (keep13 m ρ c main_v11 (by decide)).trans (W12_v11 m ρ c)
theorem W14_v11 : W14 m ρ c (Proc.devRef .tc main_v11) = W5 m ρ c (Proc.devRef .tc main_v11) :=
  (keep14 m ρ c main_v11 (by decide)).trans (W13_v11 m ρ c)
theorem W15_v11 : W15 m ρ c (Proc.devRef .tc main_v11) = W5 m ρ c (Proc.devRef .tc main_v11) :=
  (keep15 m ρ c main_v11 (by decide)).trans (W14_v11 m ρ c)
theorem W6_v14 : W6 m ρ c (Proc.devRef .tc main_v14) = W5 m ρ c (Proc.devRef .tc main_v14) :=
  keep6 m ρ c main_v14 (by decide)
theorem W7_v14 : W7 m ρ c (Proc.devRef .tc main_v14) = W5 m ρ c (Proc.devRef .tc main_v14) :=
  (keep7 m ρ c main_v14 (by decide)).trans (W6_v14 m ρ c)
theorem W8_v14 : W8 m ρ c (Proc.devRef .tc main_v14) = W5 m ρ c (Proc.devRef .tc main_v14) :=
  (keep8 m ρ c main_v14 (by decide)).trans (W7_v14 m ρ c)
theorem W9_v14 : W9 m ρ c (Proc.devRef .tc main_v14) = W5 m ρ c (Proc.devRef .tc main_v14) :=
  (keep9 m ρ c main_v14 (by decide)).trans (W8_v14 m ρ c)
theorem W10_v14 : W10 m ρ c (Proc.devRef .tc main_v14) = W5 m ρ c (Proc.devRef .tc main_v14) :=
  (keep10 m ρ c main_v14 (by decide)).trans (W9_v14 m ρ c)
theorem W11_v14 : W11 m ρ c (Proc.devRef .tc main_v14) = W5 m ρ c (Proc.devRef .tc main_v14) :=
  (keep11 m ρ c main_v14 (by decide)).trans (W10_v14 m ρ c)
theorem W12_v14 : W12 m ρ c (Proc.devRef .tc main_v14) = W5 m ρ c (Proc.devRef .tc main_v14) :=
  (keep12 m ρ c main_v14 (by decide)).trans (W11_v14 m ρ c)
theorem W13_v14 : W13 m ρ c (Proc.devRef .tc main_v14) = W5 m ρ c (Proc.devRef .tc main_v14) :=
  (keep13 m ρ c main_v14 (by decide)).trans (W12_v14 m ρ c)
theorem W14_v14 : W14 m ρ c (Proc.devRef .tc main_v14) = W5 m ρ c (Proc.devRef .tc main_v14) :=
  (keep14 m ρ c main_v14 (by decide)).trans (W13_v14 m ρ c)
theorem W15_v14 : W15 m ρ c (Proc.devRef .tc main_v14) = W5 m ρ c (Proc.devRef .tc main_v14) :=
  (keep15 m ρ c main_v14 (by decide)).trans (W14_v14 m ρ c)
theorem W16_v14 : W16 m ρ c (Proc.devRef .tc main_v14) = W5 m ρ c (Proc.devRef .tc main_v14) :=
  (keep16 m ρ c main_v14 (by decide)).trans (W15_v14 m ρ c)
theorem W17_v14 : W17 m ρ c (Proc.devRef .tc main_v14) = W5 m ρ c (Proc.devRef .tc main_v14) :=
  (keep17 m ρ c main_v14 (by decide)).trans (W16_v14 m ρ c)
theorem W18_v14 : W18 m ρ c (Proc.devRef .tc main_v14) = W5 m ρ c (Proc.devRef .tc main_v14) :=
  (keep18 m ρ c main_v14 (by decide)).trans (W17_v14 m ρ c)
theorem W19_v14 : W19 m ρ c (Proc.devRef .tc main_v14) = W5 m ρ c (Proc.devRef .tc main_v14) :=
  (keep19 m ρ c main_v14 (by decide)).trans (W18_v14 m ρ c)

end Cert.KernelIdeal.Val

end
-- ==== Proof.Spec.lean ====
/-
  The network as ONE composition of whole-array functions, written over the host operations of the reference.

  A graph convolution of three layers followed by a link predictor.  With `no` / `ni` the columns of
  the clipped out-degree and in-degree to the power -1/2, `A h` the weighted aggregation
  `A h = scatter-add over dst of (h[src] · w)`, and `relu z = max z 0`:

    h1 = relu ((A (x · no)) · W1 · ni + b1)
    h2 = relu (A ((h1 · no) · W2) · ni + b2)
    h  =       A ((h2 · no) · W3) · ni + b3
    score (a, b) = leaky (leaky ((h[a] · h[b]) · P1 + pb1) · P2 + pb2) · P3 + pb3,   leaky z = if z ≥ 0 then z else c · z

  Every function below is one of these pieces, spelled with the host operations in the order the reference
  applies them; both programs are shown to compute exactly these pieces.
-/
import proofs.«108703_j40132174414142_2_alg».proof.ReferenceIdeal

noncomputable section

namespace Cert.ReferenceIdeal.Spec

open Idealize.ShloMosaic Cert.ReferenceIdeal

variable {F : FTy → Type} [FloatOps F] [Facts]

open Facts₀ Facts

/-- The column of degrees to the power -1/2: a scatter-add of ones at the node numbers, clipped below at one. -/
def normCol (idx : ((⟨S800000, .i32⟩ : BufTy).Contents (Elt F))) : ((⟨S50000x1, .f32⟩ : BufTy).Contents (Elt F)) :=
  broadcastInDim S50000x1 ![0] bcast_S50000_S50000x1_0
    (Host.powf
      (maximumf (broadcastInDim S50000 ![] bcast_S_S50000 (constant S_ .f32 0x3F800000#32))
        (Host.scatterAdd scatter_S50000_S800000x1_S800000_n_0_0_1
          (broadcastInDim S50000 ![] bcast_S_S50000 (constant S_ .f32 0x00000000#32))
          (broadcastInDim S800000x1 ![0] bcast_S800000_S800000x1_0 idx)
          (broadcastInDim S800000 ![] bcast_S_S800000 (constant S_ .f32 0x3F800000#32))))
      (broadcastInDim S50000 ![] bcast_S_S50000 (constant S_ .f32 0xBF000000#32)))

/-- Edge endpoints as gather rows: a negative node number wraps around once (numpy indexing), then a column. -/
def edgeIdx (s : ((⟨S800000, .i32⟩ : BufTy).Contents (Elt F))) : ((⟨S800000x1, .i32⟩ : BufTy).Contents (Elt F)) :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- The same for the endpoints of the scored pairs. -/
def pairIdx (s : ((⟨S200000, .i32⟩ : BufTy).Contents (Elt F))) : ((⟨S200000x1, .i32⟩ : BufTy).Contents (Elt F)) :=
  broadcastInDim S200000x1 ![0] bcast_S200000_S200000x1_0
    (select (cmpi .slt s (broadcastInDim S200000 ![] bcast_S_S200000 (constantI S_ 32 0#32)))
      (addi s (broadcastInDim S200000 ![] bcast_S_S200000 (constantI S_ 32 50000#32))) s)

/-- Weighted aggregation of 256-wide rows: row `dst e` receives `h[src e] · w e`. -/
def agg256 (h : ((⟨S50000x256, .f32⟩ : BufTy).Contents (Elt F))) (w : ((⟨S800000, .f32⟩ : BufTy).Contents (Elt F))) (s d : ((⟨S800000, .i32⟩ : BufTy).Contents (Elt F))) : ((⟨S50000x256, .f32⟩ : BufTy).Contents (Elt F)) :=
  Host.scatterAdd scatter_S50000x256_S800000x1_S800000x256_1_0_0_1
    (broadcastInDim S50000x256 ![] bcast_S_S50000x256 (constant S_ .f32 0x00000000#32))
    (broadcastInDim S800000x1 ![0] bcast_S800000_S800000x1_0 d)
    (mulf (Host.gather gather_S50000x256_S800000x1_S800000x256_1_0_n_n_0_1_1256 h (edgeIdx s))
      (broadcastInDim S800000x256 ![0, 1] bcast_S800000x1_S800000x256_0_1
        (broadcastInDim S800000x1 ![0] bcast_S800000_S800000x1_0 w)))

/-- Weighted aggregation of 160-wide rows. -/
def agg160 (h : ((⟨S50000x160, .f32⟩ : BufTy).Contents (Elt F))) (w : ((⟨S800000, .f32⟩ : BufTy).Contents (Elt F))) (s d : ((⟨S800000, .i32⟩ : BufTy).Contents (Elt F))) : ((⟨S50000x160, .f32⟩ : BufTy).Contents (Elt F)) :=
  Host.scatterAdd scatter_S50000x160_S800000x1_S800000x160_1_0_0_1
    (broadcastInDim S50000x160 ![] bcast_S_S50000x160 (constant S_ .f32 0x00000000#32))
    (broadcastInDim S800000x1 ![0] bcast_S800000_S800000x1_0 d)
    (mulf (Host.gather gather_S50000x160_S800000x1_S800000x160_1_0_n_n_0_1_1160 h (edgeIdx s))
      (broadcastInDim S800000x160 ![0, 1] bcast_S800000x1_S800000x160_0_1
        (broadcastInDim S800000x1 ![0] bcast_S800000_S800000x1_0 w)))

/-- Rows scaled by a column, at the three widths. -/
def scale256 (h : ((⟨S50000x256, .f32⟩ : BufTy).Contents (Elt F))) (n : ((⟨S50000x1, .f32⟩ : BufTy).Contents (Elt F))) : ((⟨S50000x256, .f32⟩ : BufTy).Contents (Elt F)) :=
  mulf h (broadcastInDim S50000x256 ![0, 1] bcast_S50000x1_S50000x256_0_1 n)
def scale512 (h : ((⟨S50000x512, .f32⟩ : BufTy).Contents (Elt F))) (n : ((⟨S50000x1, .f32⟩ : BufTy).Contents (Elt F))) : ((⟨S50000x512, .f32⟩ : BufTy).Contents (Elt F)) :=
  mulf h (broadcastInDim S50000x512 ![0, 1] bcast_S50000x1_S50000x512_0_1 n)
def scale160 (h : ((⟨S50000x160, .f32⟩ : BufTy).Contents (Elt F))) (n : ((⟨S50000x1, .f32⟩ : BufTy).Contents (Elt F))) : ((⟨S50000x160, .f32⟩ : BufTy).Contents (Elt F)) :=
  mulf h (broadcastInDim S50000x160 ![0, 1] bcast_S50000x1_S50000x160_0_1 n)

/-- A bias vector as a row, repeated over the nodes. -/
def rows512 (b : ((⟨S1x512, .f32⟩ : BufTy).Contents (Elt F))) : ((⟨S50000x512, .f32⟩ : BufTy).Contents (Elt F)) := broadcastInDim S50000x512 ![0, 1] bcast_S1x512_S50000x512_0_1 b
def rows256 (b : ((⟨S1x256, .f32⟩ : BufTy).Contents (Elt F))) : ((⟨S50000x256, .f32⟩ : BufTy).Contents (Elt F)) := broadcastInDim S50000x256 ![0, 1] bcast_S1x256_S50000x256_0_1 b
def rows160 (b : ((⟨S1x160, .f32⟩ : BufTy).Contents (Elt F))) : ((⟨S50000x160, .f32⟩ : BufTy).Contents (Elt F)) := broadcastInDim S50000x160 ![0, 1] bcast_S1x160_S50000x160_0_1 b
def row512 (b : ((⟨S512, .f32⟩ : BufTy).Contents (Elt F))) : ((⟨S1x512, .f32⟩ : BufTy).Contents (Elt F)) := broadcastInDim S1x512 ![1] bcast_S512_S1x512_1 b
def row256 (b : ((⟨S256, .f32⟩ : BufTy).Contents (Elt F))) : ((⟨S1x256, .f32⟩ : BufTy).Contents (Elt F)) := broadcastInDim S1x256 ![1] bcast_S256_S1x256_1 b
def row160 (b : ((⟨S160, .f32⟩ : BufTy).Contents (Elt F))) : ((⟨S1x160, .f32⟩ : BufTy).Contents (Elt F)) := broadcastInDim S1x160 ![1] bcast_S160_S1x160_1 b

/-- The three matrix products. -/
def dot1 (a : ((⟨S50000x256, .f32⟩ : BufTy).Contents (Elt F))) (W : ((⟨S256x512, .f32⟩ : BufTy).Contents (Elt F))) : ((⟨S50000x512, .f32⟩ : BufTy).Contents (Elt F)) :=
  Host.dotGeneral dot_S50000x256_S256x512_S50000x512_1_0_0_1_n_n none a W
def dot2 (a : ((⟨S50000x512, .f32⟩ : BufTy).Contents (Elt F))) (W : ((⟨S512x256, .f32⟩ : BufTy).Contents (Elt F))) : ((⟨S50000x256, .f32⟩ : BufTy).Contents (Elt F)) :=
  Host.dotGeneral dot_S50000x512_S512x256_S50000x256_1_0_0_1_n_n none a W
def dot3 (a : ((⟨S50000x256, .f32⟩ : BufTy).Contents (Elt F))) (W : ((⟨S256x160, .f32⟩ : BufTy).Contents (Elt F))) : ((⟨S50000x160, .f32⟩ : BufTy).Contents (Elt F)) :=
  Host.dotGeneral dot_S50000x256_S256x160_S50000x160_1_0_0_1_n_n none a W

/-- Layer 1 after its aggregation: `relu (a · W1 · ni + b1)`, the bias given as a row. -/
def layer1 (a : ((⟨S50000x256, .f32⟩ : BufTy).Contents (Elt F))) (W : ((⟨S256x512, .f32⟩ : BufTy).Contents (Elt F))) (ni : ((⟨S50000x1, .f32⟩ : BufTy).Contents (Elt F))) (b : ((⟨S1x512, .f32⟩ : BufTy).Contents (Elt F))) : ((⟨S50000x512, .f32⟩ : BufTy).Contents (Elt F)) :=
  maximumf (addf (scale512 (dot1 a W) ni) (rows512 b))
    (broadcastInDim S50000x512 ![] bcast_S_S50000x512 (constant S_ .f32 0x00000000#32))

/-- Layer 2 after its aggregation: `relu (a · ni + b2)`. -/
def layer2 (a : ((⟨S50000x256, .f32⟩ : BufTy).Contents (Elt F))) (ni : ((⟨S50000x1, .f32⟩ : BufTy).Contents (Elt F))) (b : ((⟨S1x256, .f32⟩ : BufTy).Contents (Elt F))) : ((⟨S50000x256, .f32⟩ : BufTy).Contents (Elt F)) :=
  maximumf (addf (scale256 a ni) (rows256 b))
    (broadcastInDim S50000x256 ![] bcast_S_S50000x256 (constant S_ .f32 0x00000000#32))

/-- Layer 3 after its aggregation: `a · ni + b3`. -/
def layer3 (a : ((⟨S50000x160, .f32⟩ : BufTy).Contents (Elt F))) (ni : ((⟨S50000x1, .f32⟩ : BufTy).Contents (Elt F))) (b : ((⟨S1x160, .f32⟩ : BufTy).Contents (Elt F))) : ((⟨S50000x160, .f32⟩ : BufTy).Contents (Elt F)) :=
  addf (scale160 a ni) (rows160 b)

/-- The node embedding `h` of the three layers. -/
def embed (x : ((⟨S50000x256, .f32⟩ : BufTy).Contents (Elt F))) (w : ((⟨S800000, .f32⟩ : BufTy).Contents (Elt F))) (s d : ((⟨S800000, .i32⟩ : BufTy).Contents (Elt F)))
    (W1 : ((⟨S256x512, .f32⟩ : BufTy).Contents (Elt F))) (b1 : ((⟨S512, .f32⟩ : BufTy).Contents (Elt F))) (W2 : ((⟨S512x256, .f32⟩ : BufTy).Contents (Elt F))) (b2 : ((⟨S256, .f32⟩ : BufTy).Contents (Elt F)))
    (W3 : ((⟨S256x160, .f32⟩ : BufTy).Contents (Elt F))) (b3 : ((⟨S160, .f32⟩ : BufTy).Contents (Elt F))) : ((⟨S50000x160, .f32⟩ : BufTy).Contents (Elt F)) :=
  layer3 (agg160 (dot3 (scale256
      (layer2 (agg256 (dot2 (scale512
          (layer1 (agg256 (scale256 x (normCol s)) w s d) W1 (normCol d) (row512 b1))
        (normCol s)) W2) w s d) (normCol d) (row256 b2))
    (normCol s)) W3) w s d) (normCol d) (row160 b3)

/-- The leaky rectifier as the host applies it, at the two widths: `if z ≥ 0 then z else c · z`. -/
def leaky80 (z : ((⟨S200000x80, .f32⟩ : BufTy).Contents (Elt F))) : ((⟨S200000x80, .f32⟩ : BufTy).Contents (Elt F)) :=
  select (cmpf .oge z (broadcastInDim S200000x80 ![] bcast_S_S200000x80 (constant S_ .f32 0x00000000#32))) z
    (mulf (broadcastInDim S200000x80 ![] bcast_S_S200000x80 (constant S_ .f32 0x3E4CCCCD#32)) z)
def leaky40 (z : ((⟨S200000x40, .f32⟩ : BufTy).Contents (Elt F))) : ((⟨S200000x40, .f32⟩ : BufTy).Contents (Elt F)) :=
  select (cmpf .oge z (broadcastInDim S200000x40 ![] bcast_S_S200000x40 (constant S_ .f32 0x00000000#32))) z
    (mulf (broadcastInDim S200000x40 ![] bcast_S_S200000x40 (constant S_ .f32 0x3E4CCCCD#32)) z)

/-- The scores of 200000 pairs from the embedding `h`, the pairs' endpoints given as two columns of gather rows. -/
def scoreIdx (h : ((⟨S50000x160, .f32⟩ : BufTy).Contents (Elt F))) (ia ib : ((⟨S200000x1, .i32⟩ : BufTy).Contents (Elt F)))
    (P1 : ((⟨S160x80, .f32⟩ : BufTy).Contents (Elt F))) (pb1 : ((⟨S80, .f32⟩ : BufTy).Contents (Elt F))) (P2 : ((⟨S80x40, .f32⟩ : BufTy).Contents (Elt F))) (pb2 : ((⟨S40, .f32⟩ : BufTy).Contents (Elt F)))
    (P3 : ((⟨S40x1, .f32⟩ : BufTy).Contents (Elt F))) (pb3 : ((⟨S1, .f32⟩ : BufTy).Contents (Elt F))) : ((⟨S200000x1, .f32⟩ : BufTy).Contents (Elt F)) :=
  addf
    (Host.dotGeneral dot_S200000x40_S40x1_S200000x1_1_0_0_1_n_n none
      (leaky40 (addf
        (Host.dotGeneral dot_S200000x80_S80x40_S200000x40_1_0_0_1_n_n none
          (leaky80 (addf
            (Host.dotGeneral dot_S200000x160_S160x80_S200000x80_1_0_0_1_n_n none
              (mulf (Host.gather gather_S50000x160_S200000x1_S200000x160_1_0_n_n_0_1_1160 h ia)
                    (Host.gather gather_S50000x160_S200000x1_S200000x160_1_0_n_n_0_1_1160 h ib)) P1)
            (broadcastInDim S200000x80 ![0, 1] bcast_S1x80_S200000x80_0_1 (broadcastInDim S1x80 ![1] bcast_S80_S1x80_1 pb1)))) P2)
        (broadcastInDim S200000x40 ![0, 1] bcast_S1x40_S200000x40_0_1 (broadcastInDim S1x40 ![1] bcast_S40_S1x40_1 pb2)))) P3)
    (broadcastInDim S200000x1 ![0, 1] bcast_S1x1_S200000x1_0_1 (broadcastInDim S1x1 ![1] bcast_S1_S1x1_1 pb3))

/-- The scores of 200000 pairs `(a, b)` of nodes. -/
def score (h : ((⟨S50000x160, .f32⟩ : BufTy).Contents (Elt F))) (a b : ((⟨S200000, .i32⟩ : BufTy).Contents (Elt F)))
    (P1 : ((⟨S160x80, .f32⟩ : BufTy).Contents (Elt F))) (pb1 : ((⟨S80, .f32⟩ : BufTy).Contents (Elt F))) (P2 : ((⟨S80x40, .f32⟩ : BufTy).Contents (Elt F))) (pb2 : ((⟨S40, .f32⟩ : BufTy).Contents (Elt F)))
    (P3 : ((⟨S40x1, .f32⟩ : BufTy).Contents (Elt F))) (pb3 : ((⟨S1, .f32⟩ : BufTy).Contents (Elt F))) : ((⟨S200000x1, .f32⟩ : BufTy).Contents (Elt F)) :=
  scoreIdx h (pairIdx a) (pairIdx b) P1 pb1 P2 pb2 P3 pb3

end Cert.ReferenceIdeal.Spec

end
-- ==== Proof.LibGcnLayer.lean ====
/-
  One graph-convolution layer read at coordinates, at the extended reals.

  The layer's value at node `p` and feature `q` is `agg (p, q) + s (p) · h (p, q) + b (q)`, where `h` is the
  projected feature matrix, `s` the self-loop weight of each node laid out as a column and repeated over the
  features, `agg` the aggregated neighbour messages and `b` the bias laid out as a row and repeated over the
  nodes. Two spellings of it are compared: `(h · s + agg) + b` with the bias row cast from a vector and read
  through its one row, and `(agg + s · h) + b` with the bias row repeated over the nodes by two
  `broadcast_in_dim`s. They agree at every extended real because sum and product are commutative there; no
  finiteness is needed. The same holds after a maximum with a repeated scalar constant (the rectifier).

  Also here: a length-`n` vector laid out as the column `[n, 1]` and that column repeated over `c` columns,
  read at coordinates.
-/
import Idealize.ShloMosaic.Lib.Pipeline.Value
import Idealize.ShloMosaic.Lib.ValueIdx
import Idealize.ShloMosaic.Lib.ValueLayout

noncomputable section

namespace Cert.LibGcnLayer

open Idealize.ShloMosaic Idealize.ShloMosaic.ValueIdx

variable {α : Type}

/-- A length-`n` vector laid out as the column `[n, 1]` reads, at `(p, u)`, the vector at `p`. -/
theorem bcastCol_apply {n : ℕ} (x : (⟨1, ![n]⟩ : Shape).Idx → α)
    (h : (⟨1, ![n]⟩ : Shape).BroadcastsInDim ⟨2, ![n, 1]⟩ (![0] : Fin 1 → Fin 2)) (p : Fin n) (u : Fin 1) :
    broadcastInDim ⟨2, ![n, 1]⟩ ![0] h x (ix2 p u) = x (ix1 p) := by
  refine broadcastInDim_apply _ h x (ix2 p u) (ix1 p) fun a => ?_
  match a with
  | ⟨0, _⟩ =>
    show p.val = if n = 1 then 0 else p.val
    split
    · have := p.isLt; omega
    · rfl

/-- A column `[n, 1]` repeated over `c` columns reads, at `(p, q)`, the column at `p`. -/
theorem bcastCols_apply {n c : ℕ} (x : (⟨2, ![n, 1]⟩ : Shape).Idx → α)
    (h : (⟨2, ![n, 1]⟩ : Shape).BroadcastsInDim ⟨2, ![n, c]⟩ (![0, 1] : Fin 2 → Fin 2)) (p : Fin n) (q : Fin c) :
    broadcastInDim ⟨2, ![n, c]⟩ ![0, 1] h x (ix2 p q) = x (ix2 p (0 : Fin 1)) := by
  refine broadcastInDim_apply _ h x (ix2 p q) (ix2 p (0 : Fin 1)) fun a => ?_
  match a with
  | ⟨0, _⟩ =>
    show p.val = if n = 1 then 0 else p.val
    split
    · have := p.isLt; omega
    · rfl
  | ⟨1, _⟩ => show 0 = if (1 : ℕ) = 1 then 0 else q.val; rw [if_pos rfl]

/-- A length-`c` vector laid out as the row `[1, c]` and repeated over `n` rows reads, at `(p, q)`, the vector at `q`. -/
theorem bcastRowRows_apply {n c : ℕ} (b : (⟨1, ![c]⟩ : Shape).Idx → α)
    (h1 : (⟨1, ![c]⟩ : Shape).BroadcastsInDim ⟨2, ![1, c]⟩ (![1] : Fin 1 → Fin 2))
    (h2 : (⟨2, ![1, c]⟩ : Shape).BroadcastsInDim ⟨2, ![n, c]⟩ (![0, 1] : Fin 2 → Fin 2)) (p : Fin n) (q : Fin c) :
    broadcastInDim ⟨2, ![n, c]⟩ ![0, 1] h2 (broadcastInDim ⟨2, ![1, c]⟩ ![1] h1 b) (ix2 p q) = b (ix1 q) := by
  have e1 : broadcastInDim ⟨2, ![n, c]⟩ ![0, 1] h2 (broadcastInDim ⟨2, ![1, c]⟩ ![1] h1 b) (ix2 p q)
      = broadcastInDim ⟨2, ![1, c]⟩ ![1] h1 b (ix2 (0 : Fin 1) q) := by
    refine broadcastInDim_apply _ h2 _ (ix2 p q) (ix2 (0 : Fin 1) q) fun a => ?_
    match a with
    | ⟨0, _⟩ => show 0 = if (1 : ℕ) = 1 then 0 else p.val; rw [if_pos rfl]
    | ⟨1, _⟩ =>
      show q.val = if c = 1 then 0 else q.val
      split
      · have := q.isLt; omega
      · rfl
  rw [e1]
  refine broadcastInDim_apply _ h1 b (ix2 (0 : Fin 1) q) (ix1 q) fun a => ?_
  match a with
  | ⟨0, _⟩ =>
    show q.val = if c = 1 then 0 else q.val
    split
    · have := q.isLt; omega
    · rfl

/-- A length-`c` vector cast to the row `[1, c]` reads, at `(0, q)`, the vector at `q`. -/
theorem castRow_apply {c : ℕ} (b : (⟨1, ![c]⟩ : Shape).Idx → α) (h : (⟨1, ![c]⟩ : Shape).ShapeCasts ⟨2, ![1, c]⟩) (q : Fin c) :
    shapeCast (⟨2, ![1, c]⟩ : Shape) b h (ix2 (0 : Fin 1) q) = b (ix1 q) := by
  refine shapeCast_apply b h (ix2 (0 : Fin 1) q) (ix1 q) ?_
  rw [Shape.rowMajor_val_one, Shape.rowMajor_val_two]
  show q.val = (0 : Fin 1).val * c + q.val
  simp

/-- The layer without the rectifier: `(h · s + agg) + b` through the cast bias row is `(agg + s · h) + b` through the
    repeated bias row, at every node and feature. -/
theorem layer_eq {n c : ℕ} (hW sn agg : FVec Ideal ⟨2, ![n, c]⟩ .f32) (b : FVec Ideal ⟨1, ![c]⟩ .f32)
    (hc : (⟨1, ![c]⟩ : Shape).ShapeCasts ⟨2, ![1, c]⟩)
    (h1 : (⟨1, ![c]⟩ : Shape).BroadcastsInDim ⟨2, ![1, c]⟩ (![1] : Fin 1 → Fin 2))
    (h2 : (⟨2, ![1, c]⟩ : Shape).BroadcastsInDim ⟨2, ![n, c]⟩ (![0, 1] : Fin 2 → Fin 2)) (p : Fin n) (q : Fin c) :
    (mulf hW sn (ix2 p q) + agg (ix2 p q)) + shapeCast (⟨2, ![1, c]⟩ : Shape) b hc (ix2 (0 : Fin 1) q)
      = addf (addf agg (mulf sn hW)) (broadcastInDim ⟨2, ![n, c]⟩ ![0, 1] h2 (broadcastInDim ⟨2, ![1, c]⟩ ![1] h1 b)) (ix2 p q) := by
  rw [addf_apply, addf_apply, mulf_apply, mulf_apply, bcastRowRows_apply, castRow_apply, mul_comm (hW (ix2 p q)),
    add_comm (sn (ix2 p q) * hW (ix2 p q))]

/-- The rectified layer: the maximum of either spelling with a scalar constant, the constant repeated over the array on
    one side. -/
theorem layer_relu_eq {n c : ℕ} (hW sn agg : FVec Ideal ⟨2, ![n, c]⟩ .f32) (b : FVec Ideal ⟨1, ![c]⟩ .f32)
    (hc : (⟨1, ![c]⟩ : Shape).ShapeCasts ⟨2, ![1, c]⟩)
    (h1 : (⟨1, ![c]⟩ : Shape).BroadcastsInDim ⟨2, ![1, c]⟩ (![1] : Fin 1 → Fin 2))
    (h2 : (⟨2, ![1, c]⟩ : Shape).BroadcastsInDim ⟨2, ![n, c]⟩ (![0, 1] : Fin 2 → Fin 2))
    (h0 : (⟨0, ![]⟩ : Shape).BroadcastsInDim ⟨2, ![n, c]⟩ (![] : Fin 0 → Fin 2)) (w : BitVec 32) (p : Fin n) (q : Fin c) :
    max ((mulf hW sn (ix2 p q) + agg (ix2 p q)) + shapeCast (⟨2, ![1, c]⟩ : Shape) b hc (ix2 (0 : Fin 1) q)) (Ideal.ofBits .f32 w)
      = maximumf (addf (addf agg (mulf sn hW)) (broadcastInDim ⟨2, ![n, c]⟩ ![0, 1] h2 (broadcastInDim ⟨2, ![1, c]⟩ ![1] h1 b)))
          (broadcastInDim ⟨2, ![n, c]⟩ ![] h0 (constant (F := Ideal) ⟨0, ![]⟩ .f32 w)) (ix2 p q) := by
  rw [maximumf_apply, ← layer_eq hW sn agg b hc h1 h2 p q]
  congr 1

end Cert.LibGcnLayer

end
-- ==== Proof.LibPlainDot.lean ====
/-
  A plain matrix product read at coordinates. For dimension numbers that contract the left operand's columns with
  the right operand's rows and have no batch axis, a product of an `[M, K]` by a `[K, N]` matrix into a zero accumulator
  is, at the extended reals and at `(p, q)`, the sum over `k` of `l (p, k) · r (k, q)`.
-/
import Idealize.ShloMosaic.PureOps.Ideal.Laws
import Idealize.ShloMosaic.Lib.ValueIdx

noncomputable section

namespace Cert.LibPlainDot

open Idealize.ShloMosaic Idealize.ShloMosaic.ValueIdx
open scoped BigOperators

variable {M K N : Nat} (d : DotDims ⟨2, ![M, K]⟩ ⟨2, ![K, N]⟩ ⟨2, ![M, N]⟩)

/-- The left operand's row coordinate is the result's row. -/
theorem lhsIdx_row (hlb : d.lhsBatch = []) (hln : d.lhsNonContracting = [0]) (j : (⟨2, ![M, N]⟩ : Shape).Idx) (k : d.contr.Idx) :
    (d.lhsIdx j k 0).val = (j 0).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The right operand's column coordinate is the result's column. -/
theorem rhsIdx_col (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

/-- The product at `(p, q)`. -/
theorem matmul_plain_apply {φ₁ φ₂ : FTy} (hlc : d.lhsContracting = [1]) (hrc : d.rhsContracting = [0])
    (hlb : d.lhsBatch = []) (hrb : d.rhsBatch = []) (hln : d.lhsNonContracting = [0]) (hrn : d.rhsNonContracting = [1])
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  have hr : d.contr.rank = 1 := by rw [d.rank_contr, hlc]; rfl
  have hs : d.contr.size ⟨0, by omega⟩ = K := by
    rw [d.size_contr 0 (by rw [hlc]; exact Nat.one_pos)]
    simp [hlc]
  rw [Ideal.matmul_constant_zero_apply, ← Equiv.sum_comp (contrEquiv1 d K hr hs).symm]
  refine Finset.sum_congr rfl fun k _ => ?_
  have e0 : (((contrEquiv1 d K hr hs).symm k) ⟨0, by omega⟩ : ℕ) = k.val := contrEquiv1_symm_val d K hr hs k
  have hl : d.lhsIdx (ix2 p q) ((contrEquiv1 d K hr hs).symm k) = ix2 p k := by
    refine funext fun a => Fin.ext ?_
    match a with
    | ⟨0, _⟩ => exact lhsIdx_row d hlb hln (ix2 p q) _
    | ⟨1, _⟩ => exact (d.lhsIdx_val_of_single (cl := 1) hlc (ix2 p q) _).trans e0
  have hrr : d.rhsIdx (ix2 p q) ((contrEquiv1 d K hr hs).symm k) = ix2 k q := by
    refine funext fun a => Fin.ext ?_
    match a with
    | ⟨0, _⟩ => exact (d.rhsIdx_val_of_single (cr := 0) hrc (ix2 p q) _).trans e0
    | ⟨1, _⟩ => exact rhsIdx_col d hlb hrb hln hrn (ix2 p q) _
  rw [hl, hrr]

end Cert.LibPlainDot

end
-- ==== Proof.LibHostDense.lean ====
/-
  A dense layer of a host program read at coordinates, at the extended reals.

  A `dot_general` of an `[M, K]` array by a `[K, N]` matrix that contracts the left operand's columns with the right
  operand's rows and has no batch axis is, at `(p, q)`, the sum over `k` of `l (p, k) · W (k, q)`: the product into a zero
  accumulator and the host's product are one sum. A length-`N` vector laid out as the row `[1, N]` (`broadcast_in_dim`
  along axis 1) and repeated over `M` rows reads, at `(p, q)`, the vector at `q`; a scalar repeated over an array reads the
  scalar at every index. Together they read a rectified dense layer, `max (l · W + b) c`, at `(p, q)`.
-/
import proofs.«108703_j40132174414142_2_alg».proof.Proof.LibPlainDot
import Idealize.ShloMosaic.Lib.Pipeline.Value

noncomputable section

namespace Cert.LibHostDense

open Idealize.ShloMosaic Idealize.ShloMosaic.ValueIdx
open scoped BigOperators

variable {α : Type}

/-- The host's product at `(p, q)`. -/
theorem hostDot_plain_apply {M K N : ℕ} (d : DotDims ⟨2, ![M, K]⟩ ⟨2, ![K, N]⟩ ⟨2, ![M, N]⟩) {φ₁ φ₂ : FTy}
    (hlc : d.lhsContracting = [1]) (hrc : d.rhsContracting = [0])
    (hlb : d.lhsBatch = []) (hrb : d.rhsBatch = []) (hln : d.lhsNonContracting = [0]) (hrn : d.rhsNonContracting = [1])
    (prec : Option ContractPrecision) (l : FVec Ideal ⟨2, ![M, K]⟩ φ₁) (r : FVec Ideal ⟨2, ![K, N]⟩ φ₂) (p : Fin M) (q : Fin N) :
    Host.dotGeneral d prec l r (ix2 p q) = ∑ k : Fin K, l (ix2 p k) * r (ix2 k q) := by
  show FloatOps.dotGeneral d prec .single l r (ix2 p q) = _
  rw [Ideal.dotGeneral_apply, ← Ideal.matmul_constant_zero_apply d prec]
  exact Cert.LibPlainDot.matmul_plain_apply d hlc hrc hlb hrb hln hrn prec l r p q

/-- A length-`n` vector laid out as the row `[1, n]` reads, at `(0, q)`, the vector at `q`. -/
theorem bcastRow_apply {n : ℕ} (x : (⟨1, ![n]⟩ : Shape).Idx → α)
    (h : (⟨1, ![n]⟩ : Shape).BroadcastsInDim ⟨2, ![1, n]⟩ (![1] : Fin 1 → Fin 2)) (u : Fin 1) (q : Fin n) :
    broadcastInDim ⟨2, ![1, n]⟩ ![1] h x (ix2 u q) = x (ix1 q) := by
  refine broadcastInDim_apply _ h x (ix2 u q) (ix1 q) fun a => ?_
  match a with
  | ⟨0, _⟩ =>
    show q.val = if n = 1 then 0 else q.val
    split
    · have := q.isLt; omega
    · rfl

/-- A row `[1, n]` repeated over `m` rows reads, at `(p, q)`, the row at `q`. -/
theorem bcastRows_apply {m n : ℕ} (x : (⟨2, ![1, n]⟩ : Shape).Idx → α)
    (h : (⟨2, ![1, n]⟩ : Shape).BroadcastsInDim ⟨2, ![m, n]⟩ (![0, 1] : Fin 2 → Fin 2)) (p : Fin m) (q : Fin n) :
    broadcastInDim ⟨2, ![m, n]⟩ ![0, 1] h x (ix2 p q) = x (ix2 (0 : Fin 1) q) := by
  refine broadcastInDim_apply _ h x (ix2 p q) (ix2 (0 : Fin 1) q) fun a => ?_
  match a with
  | ⟨0, _⟩ => show 0 = if (1 : ℕ) = 1 then 0 else p.val; rw [if_pos rfl]
  | ⟨1, _⟩ =>
    show q.val = if n = 1 then 0 else q.val
    split
    · have := q.isLt; omega
    · rfl

/-- A scalar repeated over an array reads the scalar at every index. -/
theorem bcastScalar_apply {s : Shape} (x : (⟨0, ![]⟩ : Shape).Idx → α)
    (h : (⟨0, ![]⟩ : Shape).BroadcastsInDim s (![] : Fin 0 → Fin s.rank)) (i : s.Idx) :
    broadcastInDim s ![] h x i = x ix0 :=
  broadcastInDim_apply _ h x i ix0 fun a => a.elim0

/-- A rectified dense layer of a host program at `(p, q)`: the product, the bias row repeated over the rows, the
    maximum with a repeated scalar constant. -/
theorem hostDenseMax_apply {M K N : ℕ} (d : DotDims ⟨2, ![M, K]⟩ ⟨2, ![K, N]⟩ ⟨2, ![M, N]⟩) {φ₁ φ₂ : FTy}
    (hlc : d.lhsContracting = [1]) (hrc : d.rhsContracting = [0])
    (hlb : d.lhsBatch = []) (hrb : d.rhsBatch = []) (hln : d.lhsNonContracting = [0]) (hrn : d.rhsNonContracting = [1])
    (prec : Option ContractPrecision) (l : FVec Ideal ⟨2, ![M, K]⟩ φ₁) (W : FVec Ideal ⟨2, ![K, N]⟩ φ₂)
    (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (h0 : (⟨0, ![]⟩ : Shape).BroadcastsInDim ⟨2, ![M, N]⟩ (![] : Fin 0 → Fin 2)) (w : BitVec 32) (p : Fin M) (q : Fin N) :
    maximumf (addf (Host.dotGeneral d prec l W)
        (broadcastInDim ⟨2, ![M, N]⟩ ![0, 1] h2 (broadcastInDim ⟨2, ![1, N]⟩ ![1] h1 b)))
      (broadcastInDim ⟨2, ![M, N]⟩ ![] h0 (constant (F := Ideal) ⟨0, ![]⟩ .f32 w)) (ix2 p q)
      = max ((∑ k : Fin K, l (ix2 p k) * W (ix2 k q)) + b (ix1 q)) (Ideal.ofBits .f32 w) := by
  rw [maximumf_apply, addf_apply, hostDot_plain_apply d hlc hrc hlb hrb hln hrn, bcastRows_apply, bcastRow_apply,
    bcastScalar_apply, constant_apply]

end Cert.LibHostDense

end
-- ==== Proof.KHost.lean ====
/-
  The host stretches between the blocked calls, each read as one whole-array function of the buffers it starts from:
  the two degree columns, the three weighted aggregations (gather the source rows, weight them, scatter-add at the
  destinations), a bias vector laid out as a row, the gathered and stacked endpoint rows of the scored pairs, and the
  two halves of the stacked scores.  The gathers, scatters and powers are never opened: the reference applies the same
  operations to the same operands.
-/
import proofs.«108703_j40132174414142_2_alg».proof.Proof.Gen.KernelIdeal.Frame
import proofs.«108703_j40132174414142_2_alg».proof.Proof.Gen.ReferenceIdeal
import proofs.«108703_j40132174414142_2_alg».proof.Proof.Spec
import proofs.«108703_j40132174414142_2_alg».proof.Proof.LibGcnLayer
import proofs.«108703_j40132174414142_2_alg».proof.Proof.LibHostDense
import Idealize.ShloMosaic.Lib.StableHlo.Run
import Idealize.ShloMosaic.Lib.ValueIdx

set_option maxRecDepth 16384
set_option Elab.async false

noncomputable section

namespace Cert.KernelIdeal.Val

open Idealize.ShloMosaic Idealize.ShloMosaic.TcCoe Idealize.ShloMosaic.ValueIdx Idealize.SL.Sem
open Cert.KernelIdeal Cert.KernelIdeal.Gen

attribute [local irreducible] Host.gather Host.scatterAdd Host.powf

set_option maxHeartbeats 4000000 in
/-- The out-degree column after the first five stretches. -/
theorem host0_no_any {F : FTy → Type} [FloatOps F] (V : Valuation τ sig (Elt F)) :
    StableHlo.after hostOps0_4 (StableHlo.after hostOps0_3 (StableHlo.after hostOps0_2 (StableHlo.after hostOps0_1 (StableHlo.after hostOps0 V)))) (Proc.devRef .tc main_v11)
      = Cert.ReferenceIdeal.Spec.normCol (F := F) (V (Proc.devRef .tc main_arg2)) := by
  simp only [hostOps0, hostOps0_1, hostOps0_2, hostOps0_3, hostOps0_4]
  after_results_simp
  all_goals rfl

theorem host0_no (V : Valuation τ sig (Elt Ideal)) :
    StableHlo.after hostOps0_4 (StableHlo.after hostOps0_3 (StableHlo.after hostOps0_2 (StableHlo.after hostOps0_1 (StableHlo.after hostOps0 V)))) (Proc.devRef .tc main_v11)
      = Cert.ReferenceIdeal.Spec.normCol (F := Ideal) (V (Proc.devRef .tc main_arg2)) :=
  host0_no_any V

set_option maxHeartbeats 4000000 in
/-- The in-degree column after the first five stretches. -/
theorem host0_ni_any {F : FTy → Type} [FloatOps F] (V : Valuation τ sig (Elt F)) :
    StableHlo.after hostOps0_4 (StableHlo.after hostOps0_3 (StableHlo.after hostOps0_2 (StableHlo.after hostOps0_1 (StableHlo.after hostOps0 V)))) (Proc.devRef .tc main_v14)
      = Cert.ReferenceIdeal.Spec.normCol (F := F) (V (Proc.devRef .tc main_arg3)) := by
  simp only [hostOps0, hostOps0_1, hostOps0_2, hostOps0_3, hostOps0_4]
  after_results_simp
  all_goals rfl

theorem host0_ni (V : Valuation τ sig (Elt Ideal)) :
    StableHlo.after hostOps0_4 (StableHlo.after hostOps0_3 (StableHlo.after hostOps0_2 (StableHlo.after hostOps0_1 (StableHlo.after hostOps0 V)))) (Proc.devRef .tc main_v14)
      = Cert.ReferenceIdeal.Spec.normCol (F := Ideal) (V (Proc.devRef .tc main_arg3)) :=
  host0_ni_any V

set_option maxHeartbeats 4000000 in
/-- The first aggregation. -/
theorem host1_agg_any {F : FTy → Type} [FloatOps F] (V : Valuation τ sig (Elt F)) :
    StableHlo.after hostOps1 V (Proc.devRef .tc main_v29) = Cert.ReferenceIdeal.Spec.agg256 (F := F) (V (Proc.devRef .tc main_v16)) (V (Proc.devRef .tc main_arg1)) (V (Proc.devRef .tc main_arg2)) (V (Proc.devRef .tc main_arg3)) := by
  simp only [hostOps1]
  after_results_simp
  all_goals rfl

theorem host1_agg (V : Valuation τ sig (Elt Ideal)) :
    StableHlo.after hostOps1 V (Proc.devRef .tc main_v29) = Cert.ReferenceIdeal.Spec.agg256 (F := Ideal) (V (Proc.devRef .tc main_v16)) (V (Proc.devRef .tc main_arg1)) (V (Proc.devRef .tc main_arg2)) (V (Proc.devRef .tc main_arg3)) :=
  host1_agg_any V

set_option maxHeartbeats 4000000 in
theorem host1_row_any {F : FTy → Type} [FloatOps F] (V : Valuation τ sig (Elt F)) :
    StableHlo.after hostOps1 V (Proc.devRef .tc main_v30) = shapeCast S1x512 (V (Proc.devRef .tc main_arg9)) shapeCasts_S512_S1x512 := by
  simp only [hostOps1]
  after_results_simp
  all_goals rfl

theorem host1_row (V : Valuation τ sig (Elt Ideal)) :
    StableHlo.after hostOps1 V (Proc.devRef .tc main_v30) = shapeCast S1x512 (V (Proc.devRef .tc main_arg9)) shapeCasts_S512_S1x512 :=
  host1_row_any V

set_option maxHeartbeats 4000000 in
/-- The second aggregation. -/
theorem host4_agg_any {F : FTy → Type} [FloatOps F] (V : Valuation τ sig (Elt F)) :
    StableHlo.after hostOps4 V (Proc.devRef .tc main_v49) = Cert.ReferenceIdeal.Spec.agg256 (F := F) (V (Proc.devRef .tc main_v36)) (V (Proc.devRef .tc main_arg1)) (V (Proc.devRef .tc main_arg2)) (V (Proc.devRef .tc main_arg3)) := by
  simp only [hostOps4]
  after_results_simp
  all_goals rfl

theorem host4_agg (V : Valuation τ sig (Elt Ideal)) :
    StableHlo.after hostOps4 V (Proc.devRef .tc main_v49) = Cert.ReferenceIdeal.Spec.agg256 (F := Ideal) (V (Proc.devRef .tc main_v36)) (V (Proc.devRef .tc main_arg1)) (V (Proc.devRef .tc main_arg2)) (V (Proc.devRef .tc main_arg3)) :=
  host4_agg_any V

set_option maxHeartbeats 4000000 in
theorem host4_row_any {F : FTy → Type} [FloatOps F] (V : Valuation τ sig (Elt F)) :
    StableHlo.after hostOps4 V (Proc.devRef .tc main_v50) = shapeCast S1x256 (V (Proc.devRef .tc main_arg11)) shapeCasts_S256_S1x256 := by
  simp only [hostOps4]
  after_results_simp
  all_goals rfl

theorem host4_row (V : Valuation τ sig (Elt Ideal)) :
    StableHlo.after hostOps4 V (Proc.devRef .tc main_v50) = shapeCast S1x256 (V (Proc.devRef .tc main_arg11)) shapeCasts_S256_S1x256 :=
  host4_row_any V

set_option maxHeartbeats 4000000 in
/-- The third aggregation. -/
theorem host7_agg_any {F : FTy → Type} [FloatOps F] (V : Valuation τ sig (Elt F)) :
    StableHlo.after hostOps7 V (Proc.devRef .tc main_v69) = Cert.ReferenceIdeal.Spec.agg160 (F := F) (V (Proc.devRef .tc main_v56)) (V (Proc.devRef .tc main_arg1)) (V (Proc.devRef .tc main_arg2)) (V (Proc.devRef .tc main_arg3)) := by
  simp only [hostOps7]
  after_results_simp
  all_goals rfl

theorem host7_agg (V : Valuation τ sig (Elt Ideal)) :
    StableHlo.after hostOps7 V (Proc.devRef .tc main_v69) = Cert.ReferenceIdeal.Spec.agg160 (F := Ideal) (V (Proc.devRef .tc main_v56)) (V (Proc.devRef .tc main_arg1)) (V (Proc.devRef .tc main_arg2)) (V (Proc.devRef .tc main_arg3)) :=
  host7_agg_any V

set_option maxHeartbeats 4000000 in
theorem host7_row_any {F : FTy → Type} [FloatOps F] (V : Valuation τ sig (Elt F)) :
    StableHlo.after hostOps7 V (Proc.devRef .tc main_v70) = shapeCast S1x160 (V (Proc.devRef .tc main_arg13)) shapeCasts_S160_S1x160 := by
  simp only [hostOps7]
  after_results_simp
  all_goals rfl

theorem host7_row (V : Valuation τ sig (Elt Ideal)) :
    StableHlo.after hostOps7 V (Proc.devRef .tc main_v70) = shapeCast S1x160 (V (Proc.devRef .tc main_arg13)) shapeCasts_S160_S1x160 :=
  host7_row_any V

/-- A bias vector cast to a row is the vector laid out as a row. -/
theorem rowcast512 (b : S512.Idx → EReal) : shapeCast S1x512 b shapeCasts_S512_S1x512 = Cert.ReferenceIdeal.Spec.row512 (F := Ideal) b := by
  funext j
  obtain ⟨u, q, rfl⟩ : ∃ (u : Fin 1) (q : Fin 512), j = ix2 u q := ⟨j 0, j 1, eq_ix2 j⟩
  obtain rfl : u = 0 := Subsingleton.elim _ _
  unfold Cert.ReferenceIdeal.Spec.row512
  rw [Cert.LibGcnLayer.castRow_apply, Cert.LibHostDense.bcastRow_apply]

theorem rowcast256 (b : S256.Idx → EReal) : shapeCast S1x256 b shapeCasts_S256_S1x256 = Cert.ReferenceIdeal.Spec.row256 (F := Ideal) b := by
  funext j
  obtain ⟨u, q, rfl⟩ : ∃ (u : Fin 1) (q : Fin 256), j = ix2 u q := ⟨j 0, j 1, eq_ix2 j⟩
  obtain rfl : u = 0 := Subsingleton.elim _ _
  unfold Cert.ReferenceIdeal.Spec.row256
  rw [Cert.LibGcnLayer.castRow_apply, Cert.LibHostDense.bcastRow_apply]

theorem rowcast160 (b : S160.Idx → EReal) : shapeCast S1x160 b shapeCasts_S160_S1x160 = Cert.ReferenceIdeal.Spec.row160 (F := Ideal) b := by
  funext j
  obtain ⟨u, q, rfl⟩ : ∃ (u : Fin 1) (q : Fin 160), j = ix2 u q := ⟨j 0, j 1, eq_ix2 j⟩
  obtain rfl : u = 0 := Subsingleton.elim _ _
  unfold Cert.ReferenceIdeal.Spec.row160
  rw [Cert.LibGcnLayer.castRow_apply, Cert.LibHostDense.bcastRow_apply]

end Cert.KernelIdeal.Val

end
-- ==== Proof.LibLayout.lean ====
/-
  Layout operations read at explicit coordinates: the forms a reduction with kept dimensions and a block with two
  leading unit axes meet.

  A vector of `a` entries cast to a column `[a, 1]` keeps entry `i` at `(i, 0)`; a column `[a, 1]` broadcast to
  `[a, b]` repeats entry `i` along row `i`; an array `[1, 1, a, b]` cast to `[a, b]`, or back, keeps entry `(i, j)`:
  in each case the two row-major positions are the same number.
-/
import Idealize.ShloMosaic.Lib.Pipeline.Value
import Idealize.ShloMosaic.Lib.ValueIdx

namespace Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, u', i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    rw [hu, hu']
    simp only [Nat.zero_mul, Nat.zero_add])

end Idealize.ShloMosaic.ValueIdx
-- ==== Proof.KReg0.lean ====
/-
  The first scaling `x · no`: each row of the features times its entry of the out-degree column.
  A block is 2000 consecutive rows: entry (p, q) of block t is entry (2000 t + p, q) of the array, so what the
  blocked call leaves in its output array is the whole-array function, index by index.
-/
import proofs.«108703_j40132174414142_2_alg».proof.Proof.Gen.KernelIdeal.Frame
import proofs.«108703_j40132174414142_2_alg».proof.Proof.Gen.ReferenceIdeal
import proofs.«108703_j40132174414142_2_alg».proof.Proof.Spec
import proofs.«108703_j40132174414142_2_alg».proof.Proof.LibLayout
import proofs.«108703_j40132174414142_2_alg».proof.Proof.LibGcnLayer
import proofs.«108703_j40132174414142_2_alg».proof.Proof.LibHostDense
import Idealize.ShloMosaic.Lib.Pipeline.Value
import Idealize.ShloMosaic.Lib.ValueIdx
import Idealize.ShloMosaic.Lib.ValueLayout

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

theorem hz0 : (![0, 0] : Fin 2 → Nat) = fun _ => 0 := funext fun a => by fin_cases a <;> rfl

/-- The body at an entry: the row's entry times the column's entry of that row. -/
theorem pay0_spec (x0 : Vec Ideal S2000x256 .f32) (x1 : Vec Ideal S2000x1 .f32)
    (A : Cert.ReferenceIdeal.S50000x256.Idx → EReal) (n : Cert.ReferenceIdeal.S50000x1.Idx → EReal)
    (p : Fin 2000) (q : Fin 256) (r : Fin 50000)
    (h0 : x0 (ix2 p q) = A (ix2 r q)) (h1 : x1 (ix2 p (0 : Fin 1)) = n (ix2 r (0 : Fin 1))) :
    k0_pay1 x0 x1 (ix2 p q) = Cert.ReferenceIdeal.Spec.scale256 (F := Ideal) A n (ix2 r q) := by
  unfold k0_pay1 Cert.ReferenceIdeal.Spec.scale256
  dsimp only
  rw [mulf_apply, mulf_apply]
  simp only [shapeCast_self]
  rw [broadcastTo_a1_ab_apply, Cert.LibGcnLayer.bcastCols_apply, h0, h1]

/-- The printed index maps over the 25 points: a row-blocked window is at block `t`, a whole one at block 0. -/
theorem idx_facts0 : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_3.index t (0 : Fin 2) = t.val
    ∧ win0_3.index t (1 : Fin 2) = 0 :=
  (by decide +kernel : ∀ t : Fin grid0.N, _)

theorem idx_onto0 : ∀ q0 : Fin 25, ∃ t : Fin cfg0.N, win0_3.index t = ![q0.val, 0] :=
  (by decide +kernel : ∀ q0 : Fin 25, ∃ t : Fin grid0.N, win0_3.index t = ![q0.val, 0])

/-- What point `t` writes back is block `t` of the whole-array function. -/
theorem flushed0_eq (c : Dev nD) (t : Fin cfg0.N) :
    (dat0 V c).flushed 3 t = ((cfg0.win 3).blk t).view.read (Elt Ideal)
      (Cert.ReferenceIdeal.Spec.scale256 (F := Ideal) (V c main_arg0) (V c main_v11)) := by
  show (cfg0.win 3).cut (grid0.coords t) ((dat0 V c).after 3 t) = _
  rw [after0_3]
  unfold out0_3
  rw [View.canon_unit_zero hz0]
  simp only [View.ld_unit_zero (S := S2000x256) hz0, View.ld_unit_zero (S := S2000x1) hz0]
  obtain ⟨e00, e01, e10, e11, e30, e31⟩ := idx_facts0 t
  have ht : t.val < 25 := lt_of_lt_of_eq t.isLt N_0
  funext j
  obtain ⟨p, q, rfl⟩ : ∃ (p : Fin 2000) (q : Fin 256), j = ix2 p q := ⟨j 0, j 1, eq_ix2 j⟩
  have hr : t.val * 2000 + p.val < 50000 := by have := p.isLt; omega
  have hemb : ((cfg0.win 3).blk t).view.emb (ix2 p q) = ix2 (⟨t.val * 2000 + p.val, hr⟩ : Fin 50000) q := by
    funext a; apply Fin.ext
    match a with
    | ⟨0, _⟩ => show win0_3.index t (0 : Fin 2) * 2000 + 1 * p.val = t.val * 2000 + p.val; omega
    | ⟨1, _⟩ => show win0_3.index t (1 : Fin 2) * 256 + 1 * q.val = q.val; omega
  show k0_pay1 (iblk0 V c 0 t) (iblk0 V c 1 t) (ix2 p q) = (Cert.ReferenceIdeal.Spec.scale256 (F := Ideal) (V c main_arg0) (V c main_v11)) (((cfg0.win 3).blk t).view.emb (ix2 p q))
  rw [hemb]
  refine pay0_spec _ _ _ _ p q _ ?_ ?_
  · show V c main_arg0 (((cfg0.win 0).blk t).view.emb (ix2 p q)) = V c main_arg0 (ix2 (⟨t.val * 2000 + p.val, hr⟩ : Fin 50000) q)
    refine congrArg _ ?_
    funext a; apply Fin.ext
    match a with
    | ⟨0, _⟩ => show win0_0.index t (0 : Fin 2) * 2000 + 1 * p.val = t.val * 2000 + p.val; omega
    | ⟨1, _⟩ => show win0_0.index t (1 : Fin 2) * 256 + 1 * q.val = q.val; omega
  · show V c main_v11 (((cfg0.win 1).blk t).view.emb (ix2 p (0 : Fin 1))) = V c main_v11 (ix2 (⟨t.val * 2000 + p.val, hr⟩ : Fin 50000) (0 : Fin 1))
    refine congrArg _ ?_
    funext a; apply Fin.ext
    match a with
    | ⟨0, _⟩ => show win0_1.index t (0 : Fin 2) * 2000 + 1 * p.val = t.val * 2000 + p.val; omega
    | ⟨1, _⟩ => show win0_1.index t (1 : Fin 2) * 1 + 1 * 0 = 0; omega

/-- An index of the array is in point `t`'s block iff each coordinate is in the block's range on its axis. -/
theorem mem_blk0 (t : Fin cfg0.N) (i : S50000x256.Idx) :
    i ∈ ((cfg0.win 3).blk t).view.set ↔ ∀ a : Fin 2, win0_3.index t a * S2000x256.size a ≤ (i a).val ∧ (i a).val < win0_3.index t a * S2000x256.size a + S2000x256.size a := by
  show i ∈ ((View.whole main_v16).slice (win0_3.rect t)).set ↔ _
  rw [View.set_slice_whole, Rect.mem_set_unit]
  exact Iff.rfl

/-- Every row lies in the block of its quotient by 2000. -/
theorem cover0 (i : S50000x256.Idx) : ∃ t : Fin cfg0.N, (cfg0.win 3).flush t = true ∧ i ∈ ((cfg0.win 3).blk t).view.set := by
  have hi0 : (i 0).val < 50000 := (i 0).isLt
  have hi1 : (i 1).val < 256 := (i 1).isLt
  obtain ⟨t, ht⟩ := idx_onto0 ⟨(i 0).val / 2000, by omega⟩
  have q0 : win0_3.index t (0 : Fin 2) = (i 0).val / 2000 := congrFun ht 0
  have q1 : win0_3.index t (1 : Fin 2) = 0 := congrFun ht 1
  refine ⟨t, flush0_3 t, ?_⟩
  rw [mem_blk0]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 256 ≤ (i 1).val ∧ (i 1).val < win0_3.index t (1 : Fin 2) * 256 + 256; omega

/-- The output array after the call, as one whole-array function of the arrays the call finds. -/
theorem final0 (c : Dev nD) :
    (dat0 V c).arrAt 3 cfg0.N = Cert.ReferenceIdeal.Spec.scale256 (F := Ideal) (V c main_arg0) (V c main_v11) :=
  (dat0 V c).arrAt_eq_of_cover 3 _ (fun t _ => flushed0_eq V c t) (cover0)

end Cert.KernelIdeal.Val

end
-- ==== Proof.KReg1.lean ====
/-
  Layer 1 after its aggregation: `relu (a · W1 · ni + b1)`, row block by row block.
  A block is 2000 consecutive rows: entry (p, q) of block t is entry (2000 t + p, q) of the array, so what the
  blocked call leaves in its output array is the whole-array function, index by index.
-/
import proofs.«108703_j40132174414142_2_alg».proof.Proof.Gen.KernelIdeal.Frame
import proofs.«108703_j40132174414142_2_alg».proof.Proof.Gen.ReferenceIdeal
import proofs.«108703_j40132174414142_2_alg».proof.Proof.Spec
import proofs.«108703_j40132174414142_2_alg».proof.Proof.LibLayout
import proofs.«108703_j40132174414142_2_alg».proof.Proof.LibGcnLayer
import proofs.«108703_j40132174414142_2_alg».proof.Proof.LibHostDense
import proofs.«108703_j40132174414142_2_alg».proof.Proof.LibPlainDot
import Idealize.ShloMosaic.Lib.Pipeline.Value
import Idealize.ShloMosaic.Lib.ValueIdx
import Idealize.ShloMosaic.Lib.ValueLayout

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

theorem hz1 : (![0, 0] : Fin 2 → Nat) = fun _ => 0 := funext fun a => by fin_cases a <;> rfl

/-- The body at an entry: the row of the block against the column of the weights, times the column's entry of the
    row, plus the bias of the entry's column, rectified. -/
theorem pay1_spec (x0 : Vec Ideal S2000x256 .f32) (x1 : Vec Ideal S256x512 .f32) (x2 : Vec Ideal S2000x1 .f32) (x3 : Vec Ideal S1x512 .f32)
    (A : Cert.ReferenceIdeal.S50000x256.Idx → EReal) (W : Cert.ReferenceIdeal.S256x512.Idx → EReal) (n : Cert.ReferenceIdeal.S50000x1.Idx → EReal) (b : Cert.ReferenceIdeal.S1x512.Idx → EReal)
    (p : Fin 2000) (q : Fin 512) (r : Fin 50000)
    (h0 : ∀ k : Fin 256, x0 (ix2 p k) = A (ix2 r k)) (h1 : ∀ k : Fin 256, x1 (ix2 k q) = W (ix2 k q))
    (h2 : x2 (ix2 p (0 : Fin 1)) = n (ix2 r (0 : Fin 1))) (h3 : x3 (ix2 (0 : Fin 1) q) = b (ix2 (0 : Fin 1) q)) :
    k1_pay1 x0 x1 x2 x3 (ix2 p q) = Cert.ReferenceIdeal.Spec.layer1 (F := Ideal) A W n b (ix2 r q) := by
  unfold k1_pay1 Cert.ReferenceIdeal.Spec.layer1 Cert.ReferenceIdeal.Spec.scale512 Cert.ReferenceIdeal.Spec.rows512 Cert.ReferenceIdeal.Spec.dot1
  dsimp only
  rw [maximumf_apply, maximumf_apply, addf_apply, addf_apply, mulf_apply, mulf_apply]
  simp only [shapeCast_self]
  rw [broadcastTo_a1_ab_apply, broadcastTo_1b_ab_apply, Cert.LibGcnLayer.bcastCols_apply, Cert.LibHostDense.bcastRows_apply, h2, h3,
    broadcast_apply, Cert.LibHostDense.bcastScalar_apply, constant_apply]
  have hd : matmul dot_S2000x256_S256x512_S2000x512_1_0_0_1_n_n none (truncf .bf16 x0 bitsLt_bf16_f32) (truncf .bf16 x1 bitsLt_bf16_f32) (constant (F := Ideal) S2000x512 .f32 0x00000000#32) (ix2 p q)
      = Host.dotGeneral (F := Ideal) (φ₁ := .f32) (φ₂ := .f32) Cert.ReferenceIdeal.dot_S50000x256_S256x512_S50000x512_1_0_0_1_n_n none A W (ix2 r q) := by
    refine (Cert.LibPlainDot.matmul_plain_apply dot_S2000x256_S256x512_S2000x512_1_0_0_1_n_n rfl rfl rfl rfl rfl rfl none _ _ p q).trans ?_
    refine Eq.trans ?_ (Cert.LibHostDense.hostDot_plain_apply Cert.ReferenceIdeal.dot_S50000x256_S256x512_S50000x512_1_0_0_1_n_n rfl rfl rfl rfl rfl rfl none A W r q).symm
    refine Finset.sum_congr rfl fun k _ => ?_
    rw [truncf_apply, truncf_apply, h0 k, h1 k]
  rw [hd]
  rfl

/-- The printed index maps over the 25 points: a row-blocked window is at block `t`, a whole one at block 0. -/
theorem idx_facts1 : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0
    ∧ win1_3.index t (0 : Fin 2) = 0
    ∧ win1_3.index t (1 : Fin 2) = 0
    ∧ win1_4.index t (0 : Fin 2) = t.val
    ∧ win1_4.index t (1 : Fin 2) = 0 :=
  (by decide +kernel : ∀ t : Fin grid1.N, _)

theorem idx_onto1 : ∀ q0 : Fin 25, ∃ t : Fin cfg1.N, win1_4.index t = ![q0.val, 0] :=
  (by decide +kernel : ∀ q0 : Fin 25, ∃ t : Fin grid1.N, win1_4.index t = ![q0.val, 0])

/-- What point `t` writes back is block `t` of the whole-array function. -/
theorem flushed1_eq (c : Dev nD) (t : Fin cfg1.N) :
    (dat1 V c).flushed 4 t = ((cfg1.win 4).blk t).view.read (Elt Ideal)
      (Cert.ReferenceIdeal.Spec.layer1 (F := Ideal) (V c main_v29) (V c main_arg8) (V c main_v14) (V c main_v30)) := by
  show (cfg1.win 4).cut (grid1.coords t) ((dat1 V c).after 4 t) = _
  rw [after1_4]
  unfold out1_4
  rw [View.canon_unit_zero hz1]
  simp only [View.ld_unit_zero (S := S2000x256) hz1, View.ld_unit_zero (S := S256x512) hz1, View.ld_unit_zero (S := S2000x1) hz1, View.ld_unit_zero (S := S1x512) hz1]
  obtain ⟨e00, e01, e10, e11, e20, e21, e30, e31, e40, e41⟩ := idx_facts1 t
  have ht : t.val < 25 := lt_of_lt_of_eq t.isLt N_1
  funext j
  obtain ⟨p, q, rfl⟩ : ∃ (p : Fin 2000) (q : Fin 512), j = ix2 p q := ⟨j 0, j 1, eq_ix2 j⟩
  have hr : t.val * 2000 + p.val < 50000 := by have := p.isLt; omega
  have hemb : ((cfg1.win 4).blk t).view.emb (ix2 p q) = ix2 (⟨t.val * 2000 + p.val, hr⟩ : Fin 50000) q := by
    funext a; apply Fin.ext
    match a with
    | ⟨0, _⟩ => show win1_4.index t (0 : Fin 2) * 2000 + 1 * p.val = t.val * 2000 + p.val; omega
    | ⟨1, _⟩ => show win1_4.index t (1 : Fin 2) * 512 + 1 * q.val = q.val; omega
  show k1_pay1 (iblk1 V c 0 t) (iblk1 V c 1 t) (iblk1 V c 2 t) (iblk1 V c 3 t) (ix2 p q) = (Cert.ReferenceIdeal.Spec.layer1 (F := Ideal) (V c main_v29) (V c main_arg8) (V c main_v14) (V c main_v30)) (((cfg1.win 4).blk t).view.emb (ix2 p q))
  rw [hemb]
  refine pay1_spec _ _ _ _ _ _ _ _ p q _ ?_ ?_ ?_ ?_
  · intro k'
    show V c main_v29 (((cfg1.win 0).blk t).view.emb (ix2 p k')) = V c main_v29 (ix2 (⟨t.val * 2000 + p.val, hr⟩ : Fin 50000) k')
    refine congrArg _ ?_
    funext a; apply Fin.ext
    match a with
    | ⟨0, _⟩ => show win1_0.index t (0 : Fin 2) * 2000 + 1 * p.val = t.val * 2000 + p.val; omega
    | ⟨1, _⟩ => show win1_0.index t (1 : Fin 2) * 256 + 1 * k'.val = k'.val; omega
  · intro k'
    show V c main_arg8 (((cfg1.win 1).blk t).view.emb (ix2 k' q)) = V c main_arg8 (ix2 k' q)
    refine congrArg _ ?_
    funext a; apply Fin.ext
    match a with
    | ⟨0, _⟩ => show win1_1.index t (0 : Fin 2) * 256 + 1 * k'.val = k'.val; omega
    | ⟨1, _⟩ => show win1_1.index t (1 : Fin 2) * 512 + 1 * q.val = q.val; omega
  · show V c main_v14 (((cfg1.win 2).blk t).view.emb (ix2 p (0 : Fin 1))) = V c main_v14 (ix2 (⟨t.val * 2000 + p.val, hr⟩ : Fin 50000) (0 : Fin 1))
    refine congrArg _ ?_
    funext a; apply Fin.ext
    match a with
    | ⟨0, _⟩ => show win1_2.index t (0 : Fin 2) * 2000 + 1 * p.val = t.val * 2000 + p.val; omega
    | ⟨1, _⟩ => show win1_2.index t (1 : Fin 2) * 1 + 1 * 0 = 0; omega
  · show V c main_v30 (((cfg1.win 3).blk t).view.emb (ix2 (0 : Fin 1) q)) = V c main_v30 (ix2 (0 : Fin 1) q)
    refine congrArg _ ?_
    funext a; apply Fin.ext
    match a with
    | ⟨0, _⟩ => show win1_3.index t (0 : Fin 2) * 1 + 1 * 0 = 0; omega
    | ⟨1, _⟩ => show win1_3.index t (1 : Fin 2) * 512 + 1 * q.val = q.val; omega

/-- An index of the array is in point `t`'s block iff each coordinate is in the block's range on its axis. -/
theorem mem_blk1 (t : Fin cfg1.N) (i : S50000x512.Idx) :
    i ∈ ((cfg1.win 4).blk t).view.set ↔ ∀ a : Fin 2, win1_4.index t a * S2000x512.size a ≤ (i a).val ∧ (i a).val < win1_4.index t a * S2000x512.size a + S2000x512.size a := by
  show i ∈ ((View.whole main_v31).slice (win1_4.rect t)).set ↔ _
  rw [View.set_slice_whole, Rect.mem_set_unit]
  exact Iff.rfl

/-- Every row lies in the block of its quotient by 2000. -/
theorem cover1 (i : S50000x512.Idx) : ∃ t : Fin cfg1.N, (cfg1.win 4).flush t = true ∧ i ∈ ((cfg1.win 4).blk t).view.set := by
  have hi0 : (i 0).val < 50000 := (i 0).isLt
  have hi1 : (i 1).val < 512 := (i 1).isLt
  obtain ⟨t, ht⟩ := idx_onto1 ⟨(i 0).val / 2000, by omega⟩
  have q0 : win1_4.index t (0 : Fin 2) = (i 0).val / 2000 := congrFun ht 0
  have q1 : win1_4.index t (1 : Fin 2) = 0 := congrFun ht 1
  refine ⟨t, flush1_4 t, ?_⟩
  rw [mem_blk1]
  intro a
  match a with
  | ⟨0, _⟩ => show win1_4.index t (0 : Fin 2) * 2000 ≤ (i 0).val ∧ (i 0).val < win1_4.index t (0 : Fin 2) * 2000 + 2000; omega
  | ⟨1, _⟩ => show win1_4.index t (1 : Fin 2) * 512 ≤ (i 1).val ∧ (i 1).val < win1_4.index t (1 : Fin 2) * 512 + 512; omega

/-- The output array after the call, as one whole-array function of the arrays the call finds. -/
theorem final1 (c : Dev nD) :
    (dat1 V c).arrAt 4 cfg1.N = Cert.ReferenceIdeal.Spec.layer1 (F := Ideal) (V c main_v29) (V c main_arg8) (V c main_v14) (V c main_v30) :=
  (dat1 V c).arrAt_eq_of_cover 4 _ (fun t _ => flushed1_eq V c t) (cover1)

end Cert.KernelIdeal.Val

end
-- ==== Proof.KReg2.lean ====
/-
  The second scaling `h1 · no`.
  A block is 2000 consecutive rows: entry (p, q) of block t is entry (2000 t + p, q) of the array, so what the
  blocked call leaves in its output array is the whole-array function, index by index.
-/
import proofs.«108703_j40132174414142_2_alg».proof.Proof.Gen.KernelIdeal.Frame
import proofs.«108703_j40132174414142_2_alg».proof.Proof.Gen.ReferenceIdeal
import proofs.«108703_j40132174414142_2_alg».proof.Proof.Spec
import proofs.«108703_j40132174414142_2_alg».proof.Proof.LibLayout
import proofs.«108703_j40132174414142_2_alg».proof.Proof.LibGcnLayer
import proofs.«108703_j40132174414142_2_alg».proof.Proof.LibHostDense
import Idealize.ShloMosaic.Lib.Pipeline.Value
import Idealize.ShloMosaic.Lib.ValueIdx
import Idealize.ShloMosaic.Lib.ValueLayout

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl

/-- The body at an entry: the row's entry times the column's entry of that row. -/
theorem pay2_spec (x0 : Vec Ideal S2000x512 .f32) (x1 : Vec Ideal S2000x1 .f32)
    (A : Cert.ReferenceIdeal.S50000x512.Idx → EReal) (n : Cert.ReferenceIdeal.S50000x1.Idx → EReal)
    (p : Fin 2000) (q : Fin 512) (r : Fin 50000)
    (h0 : x0 (ix2 p q) = A (ix2 r q)) (h1 : x1 (ix2 p (0 : Fin 1)) = n (ix2 r (0 : Fin 1))) :
    k2_pay1 x0 x1 (ix2 p q) = Cert.ReferenceIdeal.Spec.scale512 (F := Ideal) A n (ix2 r q) := by
  unfold k2_pay1 Cert.ReferenceIdeal.Spec.scale512
  dsimp only
  rw [mulf_apply, mulf_apply]
  simp only [shapeCast_self]
  rw [broadcastTo_a1_ab_apply, Cert.LibGcnLayer.bcastCols_apply, h0, h1]

/-- The printed index maps over the 25 points: a row-blocked window is at block `t`, a whole one at block 0. -/
theorem idx_facts2 : ∀ t : Fin cfg2.N, win2_0.index t (0 : Fin 2) = t.val
    ∧ win2_0.index t (1 : Fin 2) = 0
    ∧ win2_1.index t (0 : Fin 2) = t.val
    ∧ win2_1.index t (1 : Fin 2) = 0
    ∧ win2_3.index t (0 : Fin 2) = t.val
    ∧ win2_3.index t (1 : Fin 2) = 0 :=
  (by decide +kernel : ∀ t : Fin grid2.N, _)

theorem idx_onto2 : ∀ q0 : Fin 25, ∃ t : Fin cfg2.N, win2_3.index t = ![q0.val, 0] :=
  (by decide +kernel : ∀ q0 : Fin 25, ∃ t : Fin grid2.N, win2_3.index t = ![q0.val, 0])

/-- What point `t` writes back is block `t` of the whole-array function. -/
theorem flushed2_eq (c : Dev nD) (t : Fin cfg2.N) :
    (dat2 V c).flushed 3 t = ((cfg2.win 3).blk t).view.read (Elt Ideal)
      (Cert.ReferenceIdeal.Spec.scale512 (F := Ideal) (V c main_v31) (V c main_v11)) := by
  show (cfg2.win 3).cut (grid2.coords t) ((dat2 V c).after 3 t) = _
  rw [after2_3]
  unfold out2_3
  rw [View.canon_unit_zero hz2]
  simp only [View.ld_unit_zero (S := S2000x512) hz2, View.ld_unit_zero (S := S2000x1) hz2]
  obtain ⟨e00, e01, e10, e11, e30, e31⟩ := idx_facts2 t
  have ht : t.val < 25 := lt_of_lt_of_eq t.isLt N_2
  funext j
  obtain ⟨p, q, rfl⟩ : ∃ (p : Fin 2000) (q : Fin 512), j = ix2 p q := ⟨j 0, j 1, eq_ix2 j⟩
  have hr : t.val * 2000 + p.val < 50000 := by have := p.isLt; omega
  have hemb : ((cfg2.win 3).blk t).view.emb (ix2 p q) = ix2 (⟨t.val * 2000 + p.val, hr⟩ : Fin 50000) q := by
    funext a; apply Fin.ext
    match a with
    | ⟨0, _⟩ => show win2_3.index t (0 : Fin 2) * 2000 + 1 * p.val = t.val * 2000 + p.val; omega
    | ⟨1, _⟩ => show win2_3.index t (1 : Fin 2) * 512 + 1 * q.val = q.val; omega
  show k2_pay1 (iblk2 V c 0 t) (iblk2 V c 1 t) (ix2 p q) = (Cert.ReferenceIdeal.Spec.scale512 (F := Ideal) (V c main_v31) (V c main_v11)) (((cfg2.win 3).blk t).view.emb (ix2 p q))
  rw [hemb]
  refine pay2_spec _ _ _ _ p q _ ?_ ?_
  · show V c main_v31 (((cfg2.win 0).blk t).view.emb (ix2 p q)) = V c main_v31 (ix2 (⟨t.val * 2000 + p.val, hr⟩ : Fin 50000) q)
    refine congrArg _ ?_
    funext a; apply Fin.ext
    match a with
    | ⟨0, _⟩ => show win2_0.index t (0 : Fin 2) * 2000 + 1 * p.val = t.val * 2000 + p.val; omega
    | ⟨1, _⟩ => show win2_0.index t (1 : Fin 2) * 512 + 1 * q.val = q.val; omega
  · show V c main_v11 (((cfg2.win 1).blk t).view.emb (ix2 p (0 : Fin 1))) = V c main_v11 (ix2 (⟨t.val * 2000 + p.val, hr⟩ : Fin 50000) (0 : Fin 1))
    refine congrArg _ ?_
    funext a; apply Fin.ext
    match a with
    | ⟨0, _⟩ => show win2_1.index t (0 : Fin 2) * 2000 + 1 * p.val = t.val * 2000 + p.val; omega
    | ⟨1, _⟩ => show win2_1.index t (1 : Fin 2) * 1 + 1 * 0 = 0; omega

/-- An index of the array is in point `t`'s block iff each coordinate is in the block's range on its axis. -/
theorem mem_blk2 (t : Fin cfg2.N) (i : S50000x512.Idx) :
    i ∈ ((cfg2.win 3).blk t).view.set ↔ ∀ a : Fin 2, win2_3.index t a * S2000x512.size a ≤ (i a).val ∧ (i a).val < win2_3.index t a * S2000x512.size a + S2000x512.size a := by
  show i ∈ ((View.whole main_v33).slice (win2_3.rect t)).set ↔ _
  rw [View.set_slice_whole, Rect.mem_set_unit]
  exact Iff.rfl

/-- Every row lies in the block of its quotient by 2000. -/
theorem cover2 (i : S50000x512.Idx) : ∃ t : Fin cfg2.N, (cfg2.win 3).flush t = true ∧ i ∈ ((cfg2.win 3).blk t).view.set := by
  have hi0 : (i 0).val < 50000 := (i 0).isLt
  have hi1 : (i 1).val < 512 := (i 1).isLt
  obtain ⟨t, ht⟩ := idx_onto2 ⟨(i 0).val / 2000, by omega⟩
  have q0 : win2_3.index t (0 : Fin 2) = (i 0).val / 2000 := congrFun ht 0
  have q1 : win2_3.index t (1 : Fin 2) = 0 := congrFun ht 1
  refine ⟨t, flush2_3 t, ?_⟩
  rw [mem_blk2]
  intro a
  match a with
  | ⟨0, _⟩ => show win2_3.index t (0 : Fin 2) * 2000 ≤ (i 0).val ∧ (i 0).val < win2_3.index t (0 : Fin 2) * 2000 + 2000; omega
  | ⟨1, _⟩ => show win2_3.index t (1 : Fin 2) * 512 ≤ (i 1).val ∧ (i 1).val < win2_3.index t (1 : Fin 2) * 512 + 512; omega

/-- The output array after the call, as one whole-array function of the arrays the call finds. -/
theorem final2 (c : Dev nD) :
    (dat2 V c).arrAt 3 cfg2.N = Cert.ReferenceIdeal.Spec.scale512 (F := Ideal) (V c main_v31) (V c main_v11) :=
  (dat2 V c).arrAt_eq_of_cover 3 _ (fun t _ => flushed2_eq V c t) (cover2)

end Cert.KernelIdeal.Val

end
-- ==== Proof.KReg3.lean ====
/-
  The second projection `(h1 · no) · W2`, row block by row block.
  A block is 2000 consecutive rows: entry (p, q) of block t is entry (2000 t + p, q) of the array, so what the
  blocked call leaves in its output array is the whole-array function, index by index.
-/
import proofs.«108703_j40132174414142_2_alg».proof.Proof.Gen.KernelIdeal.Frame
import proofs.«108703_j40132174414142_2_alg».proof.Proof.Gen.ReferenceIdeal
import proofs.«108703_j40132174414142_2_alg».proof.Proof.Spec
import proofs.«108703_j40132174414142_2_alg».proof.Proof.LibLayout
import proofs.«108703_j40132174414142_2_alg».proof.Proof.LibGcnLayer
import proofs.«108703_j40132174414142_2_alg».proof.Proof.LibHostDense
import proofs.«108703_j40132174414142_2_alg».proof.Proof.LibPlainDot
import Idealize.ShloMosaic.Lib.Pipeline.Value
import Idealize.ShloMosaic.Lib.ValueIdx
import Idealize.ShloMosaic.Lib.ValueLayout

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

theorem hz3 : (![0, 0] : Fin 2 → Nat) = fun _ => 0 := funext fun a => by fin_cases a <;> rfl

/-- The body at an entry: the row of the block against the column of the weights. -/
theorem pay3_spec (x0 : Vec Ideal S2000x512 .f32) (x1 : Vec Ideal S512x256 .f32)
    (A : Cert.ReferenceIdeal.S50000x512.Idx → EReal) (W : Cert.ReferenceIdeal.S512x256.Idx → EReal)
    (p : Fin 2000) (q : Fin 256) (r : Fin 50000)
    (h0 : ∀ k : Fin 512, x0 (ix2 p k) = A (ix2 r k)) (h1 : ∀ k : Fin 512, x1 (ix2 k q) = W (ix2 k q)) :
    k3_pay1 x0 x1 (ix2 p q) = Cert.ReferenceIdeal.Spec.dot2 (F := Ideal) A W (ix2 r q) := by
  unfold k3_pay1 Cert.ReferenceIdeal.Spec.dot2
  dsimp only
  refine (Cert.LibPlainDot.matmul_plain_apply dot_S2000x512_S512x256_S2000x256_1_0_0_1_n_n rfl rfl rfl rfl rfl rfl none _ _ p q).trans ?_
  refine Eq.trans ?_ (Cert.LibHostDense.hostDot_plain_apply Cert.ReferenceIdeal.dot_S50000x512_S512x256_S50000x256_1_0_0_1_n_n rfl rfl rfl rfl rfl rfl none A W r q).symm
  refine Finset.sum_congr rfl fun k _ => ?_
  rw [truncf_apply, truncf_apply, shapeCast_self, h0 k, h1 k]

/-- The printed index maps over the 25 points: a row-blocked window is at block `t`, a whole one at block 0. -/
theorem idx_facts3 : ∀ t : Fin cfg3.N, win3_0.index t (0 : Fin 2) = t.val
    ∧ win3_0.index t (1 : Fin 2) = 0
    ∧ win3_1.index t (0 : Fin 2) = 0
    ∧ win3_1.index t (1 : Fin 2) = 0
    ∧ win3_4.index t (0 : Fin 2) = t.val
    ∧ win3_4.index t (1 : Fin 2) = 0 :=
  (by decide +kernel : ∀ t : Fin grid3.N, _)

theorem idx_onto3 : ∀ q0 : Fin 25, ∃ t : Fin cfg3.N, win3_4.index t = ![q0.val, 0] :=
  (by decide +kernel : ∀ q0 : Fin 25, ∃ t : Fin grid3.N, win3_4.index t = ![q0.val, 0])

/-- What point `t` writes back is block `t` of the whole-array function. -/
theorem flushed3_eq (c : Dev nD) (t : Fin cfg3.N) :
    (dat3 V c).flushed 4 t = ((cfg3.win 4).blk t).view.read (Elt Ideal)
      (Cert.ReferenceIdeal.Spec.dot2 (F := Ideal) (V c main_v33) (V c main_arg10)) := by
  show (cfg3.win 4).cut (grid3.coords t) ((dat3 V c).after 4 t) = _
  rw [after3_4]
  unfold out3_4
  rw [View.canon_unit_zero hz3]
  simp only [View.ld_unit_zero (S := S2000x512) hz3, View.ld_unit_zero (S := S512x256) hz3]
  obtain ⟨e00, e01, e10, e11, e40, e41⟩ := idx_facts3 t
  have ht : t.val < 25 := lt_of_lt_of_eq t.isLt N_3
  funext j
  obtain ⟨p, q, rfl⟩ : ∃ (p : Fin 2000) (q : Fin 256), j = ix2 p q := ⟨j 0, j 1, eq_ix2 j⟩
  have hr : t.val * 2000 + p.val < 50000 := by have := p.isLt; omega
  have hemb : ((cfg3.win 4).blk t).view.emb (ix2 p q) = ix2 (⟨t.val * 2000 + p.val, hr⟩ : Fin 50000) q := by
    funext a; apply Fin.ext
    match a with
    | ⟨0, _⟩ => show win3_4.index t (0 : Fin 2) * 2000 + 1 * p.val = t.val * 2000 + p.val; omega
    | ⟨1, _⟩ => show win3_4.index t (1 : Fin 2) * 256 + 1 * q.val = q.val; omega
  show k3_pay1 (iblk3 V c 0 t) (iblk3 V c 1 t) (ix2 p q) = (Cert.ReferenceIdeal.Spec.dot2 (F := Ideal) (V c main_v33) (V c main_arg10)) (((cfg3.win 4).blk t).view.emb (ix2 p q))
  rw [hemb]
  refine pay3_spec _ _ _ _ p q _ ?_ ?_
  · intro k'
    show V c main_v33 (((cfg3.win 0).blk t).view.emb (ix2 p k')) = V c main_v33 (ix2 (⟨t.val * 2000 + p.val, hr⟩ : Fin 50000) k')
    refine congrArg _ ?_
    funext a; apply Fin.ext
    match a with
    | ⟨0, _⟩ => show win3_0.index t (0 : Fin 2) * 2000 + 1 * p.val = t.val * 2000 + p.val; omega
    | ⟨1, _⟩ => show win3_0.index t (1 : Fin 2) * 512 + 1 * k'.val = k'.val; omega
  · intro k'
    show V c main_arg10 (((cfg3.win 1).blk t).view.emb (ix2 k' q)) = V c main_arg10 (ix2 k' q)
    refine congrArg _ ?_
    funext a; apply Fin.ext
    match a with
    | ⟨0, _⟩ => show win3_1.index t (0 : Fin 2) * 512 + 1 * k'.val = k'.val; omega
    | ⟨1, _⟩ => show win3_1.index t (1 : Fin 2) * 256 + 1 * q.val = q.val; omega

/-- An index of the array is in point `t`'s block iff each coordinate is in the block's range on its axis. -/
theorem mem_blk3 (t : Fin cfg3.N) (i : S50000x256.Idx) :
    i ∈ ((cfg3.win 4).blk t).view.set ↔ ∀ a : Fin 2, win3_4.index t a * S2000x256.size a ≤ (i a).val ∧ (i a).val < win3_4.index t a * S2000x256.size a + S2000x256.size a := by
  show i ∈ ((View.whole main_v36).slice (win3_4.rect t)).set ↔ _
  rw [View.set_slice_whole, Rect.mem_set_unit]
  exact Iff.rfl

/-- Every row lies in the block of its quotient by 2000. -/
theorem cover3 (i : S50000x256.Idx) : ∃ t : Fin cfg3.N, (cfg3.win 4).flush t = true ∧ i ∈ ((cfg3.win 4).blk t).view.set := by
  have hi0 : (i 0).val < 50000 := (i 0).isLt
  have hi1 : (i 1).val < 256 := (i 1).isLt
  obtain ⟨t, ht⟩ := idx_onto3 ⟨(i 0).val / 2000, by omega⟩
  have q0 : win3_4.index t (0 : Fin 2) = (i 0).val / 2000 := congrFun ht 0
  have q1 : win3_4.index t (1 : Fin 2) = 0 := congrFun ht 1
  refine ⟨t, flush3_4 t, ?_⟩
  rw [mem_blk3]
  intro a
  match a with
  | ⟨0, _⟩ => show win3_4.index t (0 : Fin 2) * 2000 ≤ (i 0).val ∧ (i 0).val < win3_4.index t (0 : Fin 2) * 2000 + 2000; omega
  | ⟨1, _⟩ => show win3_4.index t (1 : Fin 2) * 256 ≤ (i 1).val ∧ (i 1).val < win3_4.index t (1 : Fin 2) * 256 + 256; omega

/-- The output array after the call, as one whole-array function of the arrays the call finds. -/
theorem final3 (c : Dev nD) :
    (dat3 V c).arrAt 4 cfg3.N = Cert.ReferenceIdeal.Spec.dot2 (F := Ideal) (V c main_v33) (V c main_arg10) :=
  (dat3 V c).arrAt_eq_of_cover 4 _ (fun t _ => flushed3_eq V c t) (cover3)

end Cert.KernelIdeal.Val

end
-- ==== Proof.KReg4.lean ====
/-
  Layer 2 after its aggregation: `relu (a · ni + b2)`.
  A block is 2000 consecutive rows: entry (p, q) of block t is entry (2000 t + p, q) of the array, so what the
  blocked call leaves in its output array is the whole-array function, index by index.
-/
import proofs.«108703_j40132174414142_2_alg».proof.Proof.Gen.KernelIdeal.Frame
import proofs.«108703_j40132174414142_2_alg».proof.Proof.Gen.ReferenceIdeal
import proofs.«108703_j40132174414142_2_alg».proof.Proof.Spec
import proofs.«108703_j40132174414142_2_alg».proof.Proof.LibLayout
import proofs.«108703_j40132174414142_2_alg».proof.Proof.LibGcnLayer
import proofs.«108703_j40132174414142_2_alg».proof.Proof.LibHostDense
import Idealize.ShloMosaic.Lib.Pipeline.Value
import Idealize.ShloMosaic.Lib.ValueIdx
import Idealize.ShloMosaic.Lib.ValueLayout

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

theorem hz4 : (![0, 0] : Fin 2 → Nat) = fun _ => 0 := funext fun a => by fin_cases a <;> rfl

/-- The body at an entry: the row's entry times the column's entry of that row, plus the bias of the entry's
    column, rectified. -/
theorem pay4_spec (x0 : Vec Ideal S2000x256 .f32) (x1 : Vec Ideal S2000x1 .f32) (x2 : Vec Ideal S1x256 .f32)
    (A : Cert.ReferenceIdeal.S50000x256.Idx → EReal) (n : Cert.ReferenceIdeal.S50000x1.Idx → EReal) (b : Cert.ReferenceIdeal.S1x256.Idx → EReal)
    (p : Fin 2000) (q : Fin 256) (r : Fin 50000)
    (h0 : x0 (ix2 p q) = A (ix2 r q)) (h1 : x1 (ix2 p (0 : Fin 1)) = n (ix2 r (0 : Fin 1)))
    (h2 : x2 (ix2 (0 : Fin 1) q) = b (ix2 (0 : Fin 1) q)) :
    k4_pay1 x0 x1 x2 (ix2 p q) = Cert.ReferenceIdeal.Spec.layer2 (F := Ideal) A n b (ix2 r q) := by
  unfold k4_pay1 Cert.ReferenceIdeal.Spec.layer2 Cert.ReferenceIdeal.Spec.scale256 Cert.ReferenceIdeal.Spec.rows256
  dsimp only
  rw [maximumf_apply, maximumf_apply, addf_apply, addf_apply, mulf_apply, mulf_apply]
  simp only [shapeCast_self]
  rw [broadcastTo_a1_ab_apply, broadcastTo_1b_ab_apply, Cert.LibGcnLayer.bcastCols_apply, Cert.LibHostDense.bcastRows_apply, h0, h1, h2]
  rw [broadcast_apply, Cert.LibHostDense.bcastScalar_apply, constant_apply]
  rfl

/-- The printed index maps over the 25 points: a row-blocked window is at block `t`, a whole one at block 0. -/
theorem idx_facts4 : ∀ t : Fin cfg4.N, win4_0.index t (0 : Fin 2) = t.val
    ∧ win4_0.index t (1 : Fin 2) = 0
    ∧ win4_1.index t (0 : Fin 2) = t.val
    ∧ win4_1.index t (1 : Fin 2) = 0
    ∧ win4_2.index t (0 : Fin 2) = 0
    ∧ win4_2.index t (1 : Fin 2) = 0
    ∧ win4_3.index t (0 : Fin 2) = t.val
    ∧ win4_3.index t (1 : Fin 2) = 0 :=
  (by decide +kernel : ∀ t : Fin grid4.N, _)

theorem idx_onto4 : ∀ q0 : Fin 25, ∃ t : Fin cfg4.N, win4_3.index t = ![q0.val, 0] :=
  (by decide +kernel : ∀ q0 : Fin 25, ∃ t : Fin grid4.N, win4_3.index t = ![q0.val, 0])

/-- What point `t` writes back is block `t` of the whole-array function. -/
theorem flushed4_eq (c : Dev nD) (t : Fin cfg4.N) :
    (dat4 V c).flushed 3 t = ((cfg4.win 3).blk t).view.read (Elt Ideal)
      (Cert.ReferenceIdeal.Spec.layer2 (F := Ideal) (V c main_v49) (V c main_v14) (V c main_v50)) := by
  show (cfg4.win 3).cut (grid4.coords t) ((dat4 V c).after 3 t) = _
  rw [after4_3]
  unfold out4_3
  rw [View.canon_unit_zero hz4]
  simp only [View.ld_unit_zero (S := S2000x256) hz4, View.ld_unit_zero (S := S2000x1) hz4, View.ld_unit_zero (S := S1x256) hz4]
  obtain ⟨e00, e01, e10, e11, e20, e21, e30, e31⟩ := idx_facts4 t
  have ht : t.val < 25 := lt_of_lt_of_eq t.isLt N_4
  funext j
  obtain ⟨p, q, rfl⟩ : ∃ (p : Fin 2000) (q : Fin 256), j = ix2 p q := ⟨j 0, j 1, eq_ix2 j⟩
  have hr : t.val * 2000 + p.val < 50000 := by have := p.isLt; omega
  have hemb : ((cfg4.win 3).blk t).view.emb (ix2 p q) = ix2 (⟨t.val * 2000 + p.val, hr⟩ : Fin 50000) q := by
    funext a; apply Fin.ext
    match a with
    | ⟨0, _⟩ => show win4_3.index t (0 : Fin 2) * 2000 + 1 * p.val = t.val * 2000 + p.val; omega
    | ⟨1, _⟩ => show win4_3.index t (1 : Fin 2) * 256 + 1 * q.val = q.val; omega
  show k4_pay1 (iblk4 V c 0 t) (iblk4 V c 1 t) (iblk4 V c 2 t) (ix2 p q) = (Cert.ReferenceIdeal.Spec.layer2 (F := Ideal) (V c main_v49) (V c main_v14) (V c main_v50)) (((cfg4.win 3).blk t).view.emb (ix2 p q))
  rw [hemb]
  refine pay4_spec _ _ _ _ _ _ p q _ ?_ ?_ ?_
  · show V c main_v49 (((cfg4.win 0).blk t).view.emb (ix2 p q)) = V c main_v49 (ix2 (⟨t.val * 2000 + p.val, hr⟩ : Fin 50000) q)
    refine congrArg _ ?_
    funext a; apply Fin.ext
    match a with
    | ⟨0, _⟩ => show win4_0.index t (0 : Fin 2) * 2000 + 1 * p.val = t.val * 2000 + p.val; omega
    | ⟨1, _⟩ => show win4_0.index t (1 : Fin 2) * 256 + 1 * q.val = q.val; omega
  · show V c main_v14 (((cfg4.win 1).blk t).view.emb (ix2 p (0 : Fin 1))) = V c main_v14 (ix2 (⟨t.val * 2000 + p.val, hr⟩ : Fin 50000) (0 : Fin 1))
    refine congrArg _ ?_
    funext a; apply Fin.ext
    match a with
    | ⟨0, _⟩ => show win4_1.index t (0 : Fin 2) * 2000 + 1 * p.val = t.val * 2000 + p.val; omega
    | ⟨1, _⟩ => show win4_1.index t (1 : Fin 2) * 1 + 1 * 0 = 0; omega
  · show V c main_v50 (((cfg4.win 2).blk t).view.emb (ix2 (0 : Fin 1) q)) = V c main_v50 (ix2 (0 : Fin 1) q)
    refine congrArg _ ?_
    funext a; apply Fin.ext
    match a with
    | ⟨0, _⟩ => show win4_2.index t (0 : Fin 2) * 1 + 1 * 0 = 0; omega
    | ⟨1, _⟩ => show win4_2.index t (1 : Fin 2) * 256 + 1 * q.val = q.val; omega

/-- An index of the array is in point `t`'s block iff each coordinate is in the block's range on its axis. -/
theorem mem_blk4 (t : Fin cfg4.N) (i : S50000x256.Idx) :
    i ∈ ((cfg4.win 3).blk t).view.set ↔ ∀ a : Fin 2, win4_3.index t a * S2000x256.size a ≤ (i a).val ∧ (i a).val < win4_3.index t a * S2000x256.size a + S2000x256.size a := by
  show i ∈ ((View.whole main_v51).slice (win4_3.rect t)).set ↔ _
  rw [View.set_slice_whole, Rect.mem_set_unit]
  exact Iff.rfl

/-- Every row lies in the block of its quotient by 2000. -/
theorem cover4 (i : S50000x256.Idx) : ∃ t : Fin cfg4.N, (cfg4.win 3).flush t = true ∧ i ∈ ((cfg4.win 3).blk t).view.set := by
  have hi0 : (i 0).val < 50000 := (i 0).isLt
  have hi1 : (i 1).val < 256 := (i 1).isLt
  obtain ⟨t, ht⟩ := idx_onto4 ⟨(i 0).val / 2000, by omega⟩
  have q0 : win4_3.index t (0 : Fin 2) = (i 0).val / 2000 := congrFun ht 0
  have q1 : win4_3.index t (1 : Fin 2) = 0 := congrFun ht 1
  refine ⟨t, flush4_3 t, ?_⟩
  rw [mem_blk4]
  intro a
  match a with
  | ⟨0, _⟩ => show win4_3.index t (0 : Fin 2) * 2000 ≤ (i 0).val ∧ (i 0).val < win4_3.index t (0 : Fin 2) * 2000 + 2000; omega
  | ⟨1, _⟩ => show win4_3.index t (1 : Fin 2) * 256 ≤ (i 1).val ∧ (i 1).val < win4_3.index t (1 : Fin 2) * 256 + 256; omega

/-- The output array after the call, as one whole-array function of the arrays the call finds. -/
theorem final4 (c : Dev nD) :
    (dat4 V c).arrAt 3 cfg4.N = Cert.ReferenceIdeal.Spec.layer2 (F := Ideal) (V c main_v49) (V c main_v14) (V c main_v50) :=
  (dat4 V c).arrAt_eq_of_cover 3 _ (fun t _ => flushed4_eq V c t) (cover4)

end Cert.KernelIdeal.Val

end
-- ==== Proof.KReg5.lean ====
/-
  The third scaling `h2 · no`.
  A block is 2000 consecutive rows: entry (p, q) of block t is entry (2000 t + p, q) of the array, so what the
  blocked call leaves in its output array is the whole-array function, index by index.
-/
import proofs.«108703_j40132174414142_2_alg».proof.Proof.Gen.KernelIdeal.Frame
import proofs.«108703_j40132174414142_2_alg».proof.Proof.Gen.ReferenceIdeal
import proofs.«108703_j40132174414142_2_alg».proof.Proof.Spec
import proofs.«108703_j40132174414142_2_alg».proof.Proof.LibLayout
import proofs.«108703_j40132174414142_2_alg».proof.Proof.LibGcnLayer
import proofs.«108703_j40132174414142_2_alg».proof.Proof.LibHostDense
import Idealize.ShloMosaic.Lib.Pipeline.Value
import Idealize.ShloMosaic.Lib.ValueIdx
import Idealize.ShloMosaic.Lib.ValueLayout

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

theorem hz5 : (![0, 0] : Fin 2 → Nat) = fun _ => 0 := funext fun a => by fin_cases a <;> rfl

/-- The body at an entry: the row's entry times the column's entry of that row. -/
theorem pay5_spec (x0 : Vec Ideal S2000x256 .f32) (x1 : Vec Ideal S2000x1 .f32)
    (A : Cert.ReferenceIdeal.S50000x256.Idx → EReal) (n : Cert.ReferenceIdeal.S50000x1.Idx → EReal)
    (p : Fin 2000) (q : Fin 256) (r : Fin 50000)
    (h0 : x0 (ix2 p q) = A (ix2 r q)) (h1 : x1 (ix2 p (0 : Fin 1)) = n (ix2 r (0 : Fin 1))) :
    k5_pay1 x0 x1 (ix2 p q) = Cert.ReferenceIdeal.Spec.scale256 (F := Ideal) A n (ix2 r q) := by
  unfold k5_pay1 Cert.ReferenceIdeal.Spec.scale256
  dsimp only
  rw [mulf_apply, mulf_apply]
  simp only [shapeCast_self]
  rw [broadcastTo_a1_ab_apply, Cert.LibGcnLayer.bcastCols_apply, h0, h1]

/-- The printed index maps over the 25 points: a row-blocked window is at block `t`, a whole one at block 0. -/
theorem idx_facts5 : ∀ t : Fin cfg5.N, win5_0.index t (0 : Fin 2) = t.val
    ∧ win5_0.index t (1 : Fin 2) = 0
    ∧ win5_1.index t (0 : Fin 2) = t.val
    ∧ win5_1.index t (1 : Fin 2) = 0
    ∧ win5_3.index t (0 : Fin 2) = t.val
    ∧ win5_3.index t (1 : Fin 2) = 0 :=
  (by decide +kernel : ∀ t : Fin grid5.N, _)

theorem idx_onto5 : ∀ q0 : Fin 25, ∃ t : Fin cfg5.N, win5_3.index t = ![q0.val, 0] :=
  (by decide +kernel : ∀ q0 : Fin 25, ∃ t : Fin grid5.N, win5_3.index t = ![q0.val, 0])

/-- What point `t` writes back is block `t` of the whole-array function. -/
theorem flushed5_eq (c : Dev nD) (t : Fin cfg5.N) :
    (dat5 V c).flushed 3 t = ((cfg5.win 3).blk t).view.read (Elt Ideal)
      (Cert.ReferenceIdeal.Spec.scale256 (F := Ideal) (V c main_v51) (V c main_v11)) := by
  show (cfg5.win 3).cut (grid5.coords t) ((dat5 V c).after 3 t) = _
  rw [after5_3]
  unfold out5_3
  rw [View.canon_unit_zero hz5]
  simp only [View.ld_unit_zero (S := S2000x256) hz5, View.ld_unit_zero (S := S2000x1) hz5]
  obtain ⟨e00, e01, e10, e11, e30, e31⟩ := idx_facts5 t
  have ht : t.val < 25 := lt_of_lt_of_eq t.isLt N_5
  funext j
  obtain ⟨p, q, rfl⟩ : ∃ (p : Fin 2000) (q : Fin 256), j = ix2 p q := ⟨j 0, j 1, eq_ix2 j⟩
  have hr : t.val * 2000 + p.val < 50000 := by have := p.isLt; omega
  have hemb : ((cfg5.win 3).blk t).view.emb (ix2 p q) = ix2 (⟨t.val * 2000 + p.val, hr⟩ : Fin 50000) q := by
    funext a; apply Fin.ext
    match a with
    | ⟨0, _⟩ => show win5_3.index t (0 : Fin 2) * 2000 + 1 * p.val = t.val * 2000 + p.val; omega
    | ⟨1, _⟩ => show win5_3.index t (1 : Fin 2) * 256 + 1 * q.val = q.val; omega
  show k5_pay1 (iblk5 V c 0 t) (iblk5 V c 1 t) (ix2 p q) = (Cert.ReferenceIdeal.Spec.scale256 (F := Ideal) (V c main_v51) (V c main_v11)) (((cfg5.win 3).blk t).view.emb (ix2 p q))
  rw [hemb]
  refine pay5_spec _ _ _ _ p q _ ?_ ?_
  · show V c main_v51 (((cfg5.win 0).blk t).view.emb (ix2 p q)) = V c main_v51 (ix2 (⟨t.val * 2000 + p.val, hr⟩ : Fin 50000) q)
    refine congrArg _ ?_
    funext a; apply Fin.ext
    match a with
    | ⟨0, _⟩ => show win5_0.index t (0 : Fin 2) * 2000 + 1 * p.val = t.val * 2000 + p.val; omega
    | ⟨1, _⟩ => show win5_0.index t (1 : Fin 2) * 256 + 1 * q.val = q.val; omega
  · show V c main_v11 (((cfg5.win 1).blk t).view.emb (ix2 p (0 : Fin 1))) = V c main_v11 (ix2 (⟨t.val * 2000 + p.val, hr⟩ : Fin 50000) (0 : Fin 1))
    refine congrArg _ ?_
    funext a; apply Fin.ext
    match a with
    | ⟨0, _⟩ => show win5_1.index t (0 : Fin 2) * 2000 + 1 * p.val = t.val * 2000 + p.val; omega
    | ⟨1, _⟩ => show win5_1.index t (1 : Fin 2) * 1 + 1 * 0 = 0; omega

/-- An index of the array is in point `t`'s block iff each coordinate is in the block's range on its axis. -/
theorem mem_blk5 (t : Fin cfg5.N) (i : S50000x256.Idx) :
    i ∈ ((cfg5.win 3).blk t).view.set ↔ ∀ a : Fin 2, win5_3.index t a * S2000x256.size a ≤ (i a).val ∧ (i a).val < win5_3.index t a * S2000x256.size a + S2000x256.size a := by
  show i ∈ ((View.whole main_v53).slice (win5_3.rect t)).set ↔ _
  rw [View.set_slice_whole, Rect.mem_set_unit]
  exact Iff.rfl

/-- Every row lies in the block of its quotient by 2000. -/
theorem cover5 (i : S50000x256.Idx) : ∃ t : Fin cfg5.N, (cfg5.win 3).flush t = true ∧ i ∈ ((cfg5.win 3).blk t).view.set := by
  have hi0 : (i 0).val < 50000 := (i 0).isLt
  have hi1 : (i 1).val < 256 := (i 1).isLt
  obtain ⟨t, ht⟩ := idx_onto5 ⟨(i 0).val / 2000, by omega⟩
  have q0 : win5_3.index t (0 : Fin 2) = (i 0).val / 2000 := congrFun ht 0
  have q1 : win5_3.index t (1 : Fin 2) = 0 := congrFun ht 1
  refine ⟨t, flush5_3 t, ?_⟩
  rw [mem_blk5]
  intro a
  match a with
  | ⟨0, _⟩ => show win5_3.index t (0 : Fin 2) * 2000 ≤ (i 0).val ∧ (i 0).val < win5_3.index t (0 : Fin 2) * 2000 + 2000; omega
  | ⟨1, _⟩ => show win5_3.index t (1 : Fin 2) * 256 ≤ (i 1).val ∧ (i 1).val < win5_3.index t (1 : Fin 2) * 256 + 256; omega

/-- The output array after the call, as one whole-array function of the arrays the call finds. -/
theorem final5 (c : Dev nD) :
    (dat5 V c).arrAt 3 cfg5.N = Cert.ReferenceIdeal.Spec.scale256 (F := Ideal) (V c main_v51) (V c main_v11) :=
  (dat5 V c).arrAt_eq_of_cover 3 _ (fun t _ => flushed5_eq V c t) (cover5)

end Cert.KernelIdeal.Val

end
-- ==== Proof.KReg6.lean ====
/-
  The third projection `(h2 · no) · W3`.
  A block is 2000 consecutive rows: entry (p, q) of block t is entry (2000 t + p, q) of the array, so what the
  blocked call leaves in its output array is the whole-array function, index by index.
-/
import proofs.«108703_j40132174414142_2_alg».proof.Proof.Gen.KernelIdeal.Frame
import proofs.«108703_j40132174414142_2_alg».proof.Proof.Gen.ReferenceIdeal
import proofs.«108703_j40132174414142_2_alg».proof.Proof.Spec
import proofs.«108703_j40132174414142_2_alg».proof.Proof.LibLayout
import proofs.«108703_j40132174414142_2_alg».proof.Proof.LibGcnLayer
import proofs.«108703_j40132174414142_2_alg».proof.Proof.LibHostDense
import proofs.«108703_j40132174414142_2_alg».proof.Proof.LibPlainDot
import Idealize.ShloMosaic.Lib.Pipeline.Value
import Idealize.ShloMosaic.Lib.ValueIdx
import Idealize.ShloMosaic.Lib.ValueLayout

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

theorem hz6 : (![0, 0] : Fin 2 → Nat) = fun _ => 0 := funext fun a => by fin_cases a <;> rfl

/-- The body at an entry: the row of the block against the column of the weights. -/
theorem pay6_spec (x0 : Vec Ideal S2000x256 .f32) (x1 : Vec Ideal S256x160 .f32)
    (A : Cert.ReferenceIdeal.S50000x256.Idx → EReal) (W : Cert.ReferenceIdeal.S256x160.Idx → EReal)
    (p : Fin 2000) (q : Fin 160) (r : Fin 50000)
    (h0 : ∀ k : Fin 256, x0 (ix2 p k) = A (ix2 r k)) (h1 : ∀ k : Fin 256, x1 (ix2 k q) = W (ix2 k q)) :
    k6_pay1 x0 x1 (ix2 p q) = Cert.ReferenceIdeal.Spec.dot3 (F := Ideal) A W (ix2 r q) := by
  unfold k6_pay1 Cert.ReferenceIdeal.Spec.dot3
  dsimp only
  refine (Cert.LibPlainDot.matmul_plain_apply dot_S2000x256_S256x160_S2000x160_1_0_0_1_n_n rfl rfl rfl rfl rfl rfl none _ _ p q).trans ?_
  refine Eq.trans ?_ (Cert.LibHostDense.hostDot_plain_apply Cert.ReferenceIdeal.dot_S50000x256_S256x160_S50000x160_1_0_0_1_n_n rfl rfl rfl rfl rfl rfl none A W r q).symm
  refine Finset.sum_congr rfl fun k _ => ?_
  rw [truncf_apply, truncf_apply, shapeCast_self, h0 k, h1 k]

/-- The printed index maps over the 25 points: a row-blocked window is at block `t`, a whole one at block 0. -/
theorem idx_facts6 : ∀ t : Fin cfg6.N, win6_0.index t (0 : Fin 2) = t.val
    ∧ win6_0.index t (1 : Fin 2) = 0
    ∧ win6_1.index t (0 : Fin 2) = 0
    ∧ win6_1.index t (1 : Fin 2) = 0
    ∧ win6_4.index t (0 : Fin 2) = t.val
    ∧ win6_4.index t (1 : Fin 2) = 0 :=
  (by decide +kernel : ∀ t : Fin grid6.N, _)

theorem idx_onto6 : ∀ q0 : Fin 25, ∃ t : Fin cfg6.N, win6_4.index t = ![q0.val, 0] :=
  (by decide +kernel : ∀ q0 : Fin 25, ∃ t : Fin grid6.N, win6_4.index t = ![q0.val, 0])

/-- What point `t` writes back is block `t` of the whole-array function. -/
theorem flushed6_eq (c : Dev nD) (t : Fin cfg6.N) :
    (dat6 V c).flushed 4 t = ((cfg6.win 4).blk t).view.read (Elt Ideal)
      (Cert.ReferenceIdeal.Spec.dot3 (F := Ideal) (V c main_v53) (V c main_arg12)) := by
  show (cfg6.win 4).cut (grid6.coords t) ((dat6 V c).after 4 t) = _
  rw [after6_4]
  unfold out6_4
  rw [View.canon_unit_zero hz6]
  simp only [View.ld_unit_zero (S := S2000x256) hz6, View.ld_unit_zero (S := S256x160) hz6]
  obtain ⟨e00, e01, e10, e11, e40, e41⟩ := idx_facts6 t
  have ht : t.val < 25 := lt_of_lt_of_eq t.isLt N_6
  funext j
  obtain ⟨p, q, rfl⟩ : ∃ (p : Fin 2000) (q : Fin 160), j = ix2 p q := ⟨j 0, j 1, eq_ix2 j⟩
  have hr : t.val * 2000 + p.val < 50000 := by have := p.isLt; omega
  have hemb : ((cfg6.win 4).blk t).view.emb (ix2 p q) = ix2 (⟨t.val * 2000 + p.val, hr⟩ : Fin 50000) q := by
    funext a; apply Fin.ext
    match a with
    | ⟨0, _⟩ => show win6_4.index t (0 : Fin 2) * 2000 + 1 * p.val = t.val * 2000 + p.val; omega
    | ⟨1, _⟩ => show win6_4.index t (1 : Fin 2) * 160 + 1 * q.val = q.val; omega
  show k6_pay1 (iblk6 V c 0 t) (iblk6 V c 1 t) (ix2 p q) = (Cert.ReferenceIdeal.Spec.dot3 (F := Ideal) (V c main_v53) (V c main_arg12)) (((cfg6.win 4).blk t).view.emb (ix2 p q))
  rw [hemb]
  refine pay6_spec _ _ _ _ p q _ ?_ ?_
  · intro k'
    show V c main_v53 (((cfg6.win 0).blk t).view.emb (ix2 p k')) = V c main_v53 (ix2 (⟨t.val * 2000 + p.val, hr⟩ : Fin 50000) k')
    refine congrArg _ ?_
    funext a; apply Fin.ext
    match a with
    | ⟨0, _⟩ => show win6_0.index t (0 : Fin 2) * 2000 + 1 * p.val = t.val * 2000 + p.val; omega
    | ⟨1, _⟩ => show win6_0.index t (1 : Fin 2) * 256 + 1 * k'.val = k'.val; omega
  · intro k'
    show V c main_arg12 (((cfg6.win 1).blk t).view.emb (ix2 k' q)) = V c main_arg12 (ix2 k' q)
    refine congrArg _ ?_
    funext a; apply Fin.ext
    match a with
    | ⟨0, _⟩ => show win6_1.index t (0 : Fin 2) * 256 + 1 * k'.val = k'.val; omega
    | ⟨1, _⟩ => show win6_1.index t (1 : Fin 2) * 160 + 1 * q.val = q.val; omega

/-- An index of the array is in point `t`'s block iff each coordinate is in the block's range on its axis. -/
theorem mem_blk6 (t : Fin cfg6.N) (i : S50000x160.Idx) :
    i ∈ ((cfg6.win 4).blk t).view.set ↔ ∀ a : Fin 2, win6_4.index t a * S2000x160.size a ≤ (i a).val ∧ (i a).val < win6_4.index t a * S2000x160.size a + S2000x160.size a := by
  show i ∈ ((View.whole main_v56).slice (win6_4.rect t)).set ↔ _
  rw [View.set_slice_whole, Rect.mem_set_unit]
  exact Iff.rfl

/-- Every row lies in the block of its quotient by 2000. -/
theorem cover6 (i : S50000x160.Idx) : ∃ t : Fin cfg6.N, (cfg6.win 4).flush t = true ∧ i ∈ ((cfg6.win 4).blk t).view.set := by
  have hi0 : (i 0).val < 50000 := (i 0).isLt
  have hi1 : (i 1).val < 160 := (i 1).isLt
  obtain ⟨t, ht⟩ := idx_onto6 ⟨(i 0).val / 2000, by omega⟩
  have q0 : win6_4.index t (0 : Fin 2) = (i 0).val / 2000 := congrFun ht 0
  have q1 : win6_4.index t (1 : Fin 2) = 0 := congrFun ht 1
  refine ⟨t, flush6_4 t, ?_⟩
  rw [mem_blk6]
  intro a
  match a with
  | ⟨0, _⟩ => show win6_4.index t (0 : Fin 2) * 2000 ≤ (i 0).val ∧ (i 0).val < win6_4.index t (0 : Fin 2) * 2000 + 2000; omega
  | ⟨1, _⟩ => show win6_4.index t (1 : Fin 2) * 160 ≤ (i 1).val ∧ (i 1).val < win6_4.index t (1 : Fin 2) * 160 + 160; omega

/-- The output array after the call, as one whole-array function of the arrays the call finds. -/
theorem final6 (c : Dev nD) :
    (dat6 V c).arrAt 4 cfg6.N = Cert.ReferenceIdeal.Spec.dot3 (F := Ideal) (V c main_v53) (V c main_arg12) :=
  (dat6 V c).arrAt_eq_of_cover 4 _ (fun t _ => flushed6_eq V c t) (cover6)

end Cert.KernelIdeal.Val

end
-- ==== Proof.KReg7.lean ====
/-
  Layer 3 after its aggregation: `a · ni + b3`.
  A block is 2000 consecutive rows: entry (p, q) of block t is entry (2000 t + p, q) of the array, so what the
  blocked call leaves in its output array is the whole-array function, index by index.
-/
import proofs.«108703_j40132174414142_2_alg».proof.Proof.Gen.KernelIdeal.Frame
import proofs.«108703_j40132174414142_2_alg».proof.Proof.Gen.ReferenceIdeal
import proofs.«108703_j40132174414142_2_alg».proof.Proof.Spec
import proofs.«108703_j40132174414142_2_alg».proof.Proof.LibLayout
import proofs.«108703_j40132174414142_2_alg».proof.Proof.LibGcnLayer
import proofs.«108703_j40132174414142_2_alg».proof.Proof.LibHostDense
import Idealize.ShloMosaic.Lib.Pipeline.Value
import Idealize.ShloMosaic.Lib.ValueIdx
import Idealize.ShloMosaic.Lib.ValueLayout

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

theorem hz7 : (![0, 0] : Fin 2 → Nat) = fun _ => 0 := funext fun a => by fin_cases a <;> rfl

/-- The body at an entry: the row's entry times the column's entry of that row, plus the bias of the entry's
    column. -/
theorem pay7_spec (x0 : Vec Ideal S2000x160 .f32) (x1 : Vec Ideal S2000x1 .f32) (x2 : Vec Ideal S1x160 .f32)
    (A : Cert.ReferenceIdeal.S50000x160.Idx → EReal) (n : Cert.ReferenceIdeal.S50000x1.Idx → EReal) (b : Cert.ReferenceIdeal.S1x160.Idx → EReal)
    (p : Fin 2000) (q : Fin 160) (r : Fin 50000)
    (h0 : x0 (ix2 p q) = A (ix2 r q)) (h1 : x1 (ix2 p (0 : Fin 1)) = n (ix2 r (0 : Fin 1)))
    (h2 : x2 (ix2 (0 : Fin 1) q) = b (ix2 (0 : Fin 1) q)) :
    k7_pay1 x0 x1 x2 (ix2 p q) = Cert.ReferenceIdeal.Spec.layer3 (F := Ideal) A n b (ix2 r q) := by
  unfold k7_pay1 Cert.ReferenceIdeal.Spec.layer3 Cert.ReferenceIdeal.Spec.scale160 Cert.ReferenceIdeal.Spec.rows160
  dsimp only
  rw [addf_apply, addf_apply, mulf_apply, mulf_apply]
  simp only [shapeCast_self]
  rw [broadcastTo_a1_ab_apply, broadcastTo_1b_ab_apply, Cert.LibGcnLayer.bcastCols_apply, Cert.LibHostDense.bcastRows_apply, h0, h1, h2]

/-- The printed index maps over the 25 points: a row-blocked window is at block `t`, a whole one at block 0. -/
theorem idx_facts7 : ∀ t : Fin cfg7.N, win7_0.index t (0 : Fin 2) = t.val
    ∧ win7_0.index t (1 : Fin 2) = 0
    ∧ win7_1.index t (0 : Fin 2) = t.val
    ∧ win7_1.index t (1 : Fin 2) = 0
    ∧ win7_2.index t (0 : Fin 2) = 0
    ∧ win7_2.index t (1 : Fin 2) = 0
    ∧ win7_3.index t (0 : Fin 2) = t.val
    ∧ win7_3.index t (1 : Fin 2) = 0 :=
  (by decide +kernel : ∀ t : Fin grid7.N, _)

theorem idx_onto7 : ∀ q0 : Fin 25, ∃ t : Fin cfg7.N, win7_3.index t = ![q0.val, 0] :=
  (by decide +kernel : ∀ q0 : Fin 25, ∃ t : Fin grid7.N, win7_3.index t = ![q0.val, 0])

/-- What point `t` writes back is block `t` of the whole-array function. -/
theorem flushed7_eq (c : Dev nD) (t : Fin cfg7.N) :
    (dat7 V c).flushed 3 t = ((cfg7.win 3).blk t).view.read (Elt Ideal)
      (Cert.ReferenceIdeal.Spec.layer3 (F := Ideal) (V c main_v69) (V c main_v14) (V c main_v70)) := by
  show (cfg7.win 3).cut (grid7.coords t) ((dat7 V c).after 3 t) = _
  rw [after7_3]
  unfold out7_3
  rw [View.canon_unit_zero hz7]
  simp only [View.ld_unit_zero (S := S2000x160) hz7, View.ld_unit_zero (S := S2000x1) hz7, View.ld_unit_zero (S := S1x160) hz7]
  obtain ⟨e00, e01, e10, e11, e20, e21, e30, e31⟩ := idx_facts7 t
  have ht : t.val < 25 := lt_of_lt_of_eq t.isLt N_7
  funext j
  obtain ⟨p, q, rfl⟩ : ∃ (p : Fin 2000) (q : Fin 160), j = ix2 p q := ⟨j 0, j 1, eq_ix2 j⟩
  have hr : t.val * 2000 + p.val < 50000 := by have := p.isLt; omega
  have hemb : ((cfg7.win 3).blk t).view.emb (ix2 p q) = ix2 (⟨t.val * 2000 + p.val, hr⟩ : Fin 50000) q := by
    funext a; apply Fin.ext
    match a with
    | ⟨0, _⟩ => show win7_3.index t (0 : Fin 2) * 2000 + 1 * p.val = t.val * 2000 + p.val; omega
    | ⟨1, _⟩ => show win7_3.index t (1 : Fin 2) * 160 + 1 * q.val = q.val; omega
  show k7_pay1 (iblk7 V c 0 t) (iblk7 V c 1 t) (iblk7 V c 2 t) (ix2 p q) = (Cert.ReferenceIdeal.Spec.layer3 (F := Ideal) (V c main_v69) (V c main_v14) (V c main_v70)) (((cfg7.win 3).blk t).view.emb (ix2 p q))
  rw [hemb]
  refine pay7_spec _ _ _ _ _ _ p q _ ?_ ?_ ?_
  · show V c main_v69 (((cfg7.win 0).blk t).view.emb (ix2 p q)) = V c main_v69 (ix2 (⟨t.val * 2000 + p.val, hr⟩ : Fin 50000) q)
    refine congrArg _ ?_
    funext a; apply Fin.ext
    match a with
    | ⟨0, _⟩ => show win7_0.index t (0 : Fin 2) * 2000 + 1 * p.val = t.val * 2000 + p.val; omega
    | ⟨1, _⟩ => show win7_0.index t (1 : Fin 2) * 160 + 1 * q.val = q.val; omega
  · show V c main_v14 (((cfg7.win 1).blk t).view.emb (ix2 p (0 : Fin 1))) = V c main_v14 (ix2 (⟨t.val * 2000 + p.val, hr⟩ : Fin 50000) (0 : Fin 1))
    refine congrArg _ ?_
    funext a; apply Fin.ext
    match a with
    | ⟨0, _⟩ => show win7_1.index t (0 : Fin 2) * 2000 + 1 * p.val = t.val * 2000 + p.val; omega
    | ⟨1, _⟩ => show win7_1.index t (1 : Fin 2) * 1 + 1 * 0 = 0; omega
  · show V c main_v70 (((cfg7.win 2).blk t).view.emb (ix2 (0 : Fin 1) q)) = V c main_v70 (ix2 (0 : Fin 1) q)
    refine congrArg _ ?_
    funext a; apply Fin.ext
    match a with
    | ⟨0, _⟩ => show win7_2.index t (0 : Fin 2) * 1 + 1 * 0 = 0; omega
    | ⟨1, _⟩ => show win7_2.index t (1 : Fin 2) * 160 + 1 * q.val = q.val; omega

/-- An index of the array is in point `t`'s block iff each coordinate is in the block's range on its axis. -/
theorem mem_blk7 (t : Fin cfg7.N) (i : S50000x160.Idx) :
    i ∈ ((cfg7.win 3).blk t).view.set ↔ ∀ a : Fin 2, win7_3.index t a * S2000x160.size a ≤ (i a).val ∧ (i a).val < win7_3.index t a * S2000x160.size a + S2000x160.size a := by
  show i ∈ ((View.whole main_v71).slice (win7_3.rect t)).set ↔ _
  rw [View.set_slice_whole, Rect.mem_set_unit]
  exact Iff.rfl

/-- Every row lies in the block of its quotient by 2000. -/
theorem cover7 (i : S50000x160.Idx) : ∃ t : Fin cfg7.N, (cfg7.win 3).flush t = true ∧ i ∈ ((cfg7.win 3).blk t).view.set := by
  have hi0 : (i 0).val < 50000 := (i 0).isLt
  have hi1 : (i 1).val < 160 := (i 1).isLt
  obtain ⟨t, ht⟩ := idx_onto7 ⟨(i 0).val / 2000, by omega⟩
  have q0 : win7_3.index t (0 : Fin 2) = (i 0).val / 2000 := congrFun ht 0
  have q1 : win7_3.index t (1 : Fin 2) = 0 := congrFun ht 1
  refine ⟨t, flush7_3 t, ?_⟩
  rw [mem_blk7]
  intro a
  match a with
  | ⟨0, _⟩ => show win7_3.index t (0 : Fin 2) * 2000 ≤ (i 0).val ∧ (i 0).val < win7_3.index t (0 : Fin 2) * 2000 + 2000; omega
  | ⟨1, _⟩ => show win7_3.index t (1 : Fin 2) * 160 ≤ (i 1).val ∧ (i 1).val < win7_3.index t (1 : Fin 2) * 160 + 160; omega

/-- The output array after the call, as one whole-array function of the arrays the call finds. -/
theorem final7 (c : Dev nD) :
    (dat7 V c).arrAt 3 cfg7.N = Cert.ReferenceIdeal.Spec.layer3 (F := Ideal) (V c main_v69) (V c main_v14) (V c main_v70) :=
  (dat7 V c).arrAt_eq_of_cover 3 _ (fun t _ => flushed7_eq V c t) (cover7)

end Cert.KernelIdeal.Val

end
-- ==== Proof.KValue.lean ====
/-
  The values the program holds along its run, boundary by boundary, as the whole-array functions of the arguments:
  the degree columns; `x · no`; its aggregation; layer 1; `h1 · no`; its projection; its aggregation; layer 2;
  `h2 · no`; its projection; its aggregation; layer 3 — the node embedding.
-/
import proofs.«108703_j40132174414142_2_alg».proof.Proof.KChain
import proofs.«108703_j40132174414142_2_alg».proof.Proof.KHost
import proofs.«108703_j40132174414142_2_alg».proof.Proof.KReg0
import proofs.«108703_j40132174414142_2_alg».proof.Proof.KReg1
import proofs.«108703_j40132174414142_2_alg».proof.Proof.KReg2
import proofs.«108703_j40132174414142_2_alg».proof.Proof.KReg3
import proofs.«108703_j40132174414142_2_alg».proof.Proof.KReg4
import proofs.«108703_j40132174414142_2_alg».proof.Proof.KReg5
import proofs.«108703_j40132174414142_2_alg».proof.Proof.KReg6
import proofs.«108703_j40132174414142_2_alg».proof.Proof.KReg7

set_option maxRecDepth 16384

noncomputable section

namespace Cert.KernelIdeal.Val

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg) (c : Dev nD)

theorem W5_no : W5 m ρ c (Proc.devRef .tc main_v11) = (Cert.ReferenceIdeal.Spec.normCol (F := Ideal) (m ((c : Thread nD τ).loc main_arg2))) := host0_no (W0 m ρ c)
theorem W5_ni : W5 m ρ c (Proc.devRef .tc main_v14) = (Cert.ReferenceIdeal.Spec.normCol (F := Ideal) (m ((c : Thread nD τ).loc main_arg3))) := host0_ni (W0 m ρ c)

/-- After the first blocked call: `x · no`. -/
theorem W6_v16 : W6 m ρ c (Proc.devRef .tc main_v16) = (Cert.ReferenceIdeal.Spec.scale256 (F := Ideal) (m ((c : Thread nD τ).loc main_arg0)) (Cert.ReferenceIdeal.Spec.normCol (F := Ideal) (m ((c : Thread nD τ).loc main_arg2)))) := by
  have h := final0 (V5 m ρ) c
  rw [show V5 m ρ c main_arg0 = (m ((c : Thread nD τ).loc main_arg0)) from W5_arg m ρ c main_arg0 (by decide),
    show V5 m ρ c main_v11 = (Cert.ReferenceIdeal.Spec.normCol (F := Ideal) (m ((c : Thread nD τ).loc main_arg2))) from W5_no m ρ c] at h
  exact (W6_arr m ρ c 3).trans h

theorem W7_v29 : W7 m ρ c (Proc.devRef .tc main_v29) = (Cert.ReferenceIdeal.Spec.agg256 (F := Ideal) (Cert.ReferenceIdeal.Spec.scale256 (F := Ideal) (m ((c : Thread nD τ).loc main_arg0)) (Cert.ReferenceIdeal.Spec.normCol (F := Ideal) (m ((c : Thread nD τ).loc main_arg2)))) (m ((c : Thread nD τ).loc main_arg1)) (m ((c : Thread nD τ).loc main_arg2)) (m ((c : Thread nD τ).loc main_arg3))) := by
  refine (host1_agg (W6 m ρ c)).trans ?_
  rw [W6_v16 m ρ c, W6_arg m ρ c main_arg1 (by decide), W6_arg m ρ c main_arg2 (by decide), W6_arg m ρ c main_arg3 (by decide)]

theorem W7_v30 : W7 m ρ c (Proc.devRef .tc main_v30) = (Cert.ReferenceIdeal.Spec.row512 (F := Ideal) (m ((c : Thread nD τ).loc main_arg9))) := by
  refine (host1_row (W6 m ρ c)).trans ?_
  rw [W6_arg m ρ c main_arg9 (by decide)]
  exact rowcast512 _

/-- After the second blocked call: layer 1. -/
theorem W8_v31 : W8 m ρ c (Proc.devRef .tc main_v31) = (Cert.ReferenceIdeal.Spec.layer1 (F := Ideal) (Cert.ReferenceIdeal.Spec.agg256 (F := Ideal) (Cert.ReferenceIdeal.Spec.scale256 (F := Ideal) (m ((c : Thread nD τ).loc main_arg0)) (Cert.ReferenceIdeal.Spec.normCol (F := Ideal) (m ((c : Thread nD τ).loc main_arg2)))) (m ((c : Thread nD τ).loc main_arg1)) (m ((c : Thread nD τ).loc main_arg2)) (m ((c : Thread nD τ).loc main_arg3))) (m ((c : Thread nD τ).loc main_arg8)) (Cert.ReferenceIdeal.Spec.normCol (F := Ideal) (m ((c : Thread nD τ).loc main_arg3))) (Cert.ReferenceIdeal.Spec.row512 (F := Ideal) (m ((c : Thread nD τ).loc main_arg9)))) := by
  have h := final1 (V7 m ρ) c
  rw [show V7 m ρ c main_v29 = (Cert.ReferenceIdeal.Spec.agg256 (F := Ideal) (Cert.ReferenceIdeal.Spec.scale256 (F := Ideal) (m ((c : Thread nD τ).loc main_arg0)) (Cert.ReferenceIdeal.Spec.normCol (F := Ideal) (m ((c : Thread nD τ).loc main_arg2)))) (m ((c : Thread nD τ).loc main_arg1)) (m ((c : Thread nD τ).loc main_arg2)) (m ((c : Thread nD τ).loc main_arg3))) from W7_v29 m ρ c,
    show V7 m ρ c main_arg8 = (m ((c : Thread nD τ).loc main_arg8)) from W7_arg m ρ c main_arg8 (by decide),
    show V7 m ρ c main_v14 = (Cert.ReferenceIdeal.Spec.normCol (F := Ideal) (m ((c : Thread nD τ).loc main_arg3))) from (W7_v14 m ρ c).trans (W5_ni m ρ c),
    show V7 m ρ c main_v30 = (Cert.ReferenceIdeal.Spec.row512 (F := Ideal) (m ((c : Thread nD τ).loc main_arg9))) from W7_v30 m ρ c] at h
  exact (W8_arr m ρ c 4).trans h

/-- After the third blocked call: `h1 · no`. -/
theorem W10_v33 : W10 m ρ c (Proc.devRef .tc main_v33) = (Cert.ReferenceIdeal.Spec.scale512 (F := Ideal) (Cert.ReferenceIdeal.Spec.layer1 (F := Ideal) (Cert.ReferenceIdeal.Spec.agg256 (F := Ideal) (Cert.ReferenceIdeal.Spec.scale256 (F := Ideal) (m ((c : Thread nD τ).loc main_arg0)) (Cert.ReferenceIdeal.Spec.normCol (F := Ideal) (m ((c : Thread nD τ).loc main_arg2)))) (m ((c : Thread nD τ).loc main_arg1)) (m ((c : Thread nD τ).loc main_arg2)) (m ((c : Thread nD τ).loc main_arg3))) (m ((c : Thread nD τ).loc main_arg8)) (Cert.ReferenceIdeal.Spec.normCol (F := Ideal) (m ((c : Thread nD τ).loc main_arg3))) (Cert.ReferenceIdeal.Spec.row512 (F := Ideal) (m ((c : Thread nD τ).loc main_arg9)))) (Cert.ReferenceIdeal.Spec.normCol (F := Ideal) (m ((c : Thread nD τ).loc main_arg2)))) := by
  have h := final2 (V9 m ρ) c
  rw [show V9 m ρ c main_v31 = (Cert.ReferenceIdeal.Spec.layer1 (F := Ideal) (Cert.ReferenceIdeal.Spec.agg256 (F := Ideal) (Cert.ReferenceIdeal.Spec.scale256 (F := Ideal) (m ((c : Thread nD τ).loc main_arg0)) (Cert.ReferenceIdeal.Spec.normCol (F := Ideal) (m ((c : Thread nD τ).loc main_arg2)))) (m ((c : Thread nD τ).loc main_arg1)) (m ((c : Thread nD τ).loc main_arg2)) (m ((c : Thread nD τ).loc main_arg3))) (m ((c : Thread nD τ).loc main_arg8)) (Cert.ReferenceIdeal.Spec.normCol (F := Ideal) (m ((c : Thread nD τ).loc main_arg3))) (Cert.ReferenceIdeal.Spec.row512 (F := Ideal) (m ((c : Thread nD τ).loc main_arg9)))) from (keep9 m ρ c main_v31 (by decide)).trans (W8_v31 m ρ c),
    show V9 m ρ c main_v11 = (Cert.ReferenceIdeal.Spec.normCol (F := Ideal) (m ((c : Thread nD τ).loc main_arg2))) from (W9_v11 m ρ c).trans (W5_no m ρ c)] at h
  exact (W10_arr m ρ c 3).trans h

/-- After the fourth blocked call: `(h1 · no) · W2`. -/
theorem W12_v36 : W12 m ρ c (Proc.devRef .tc main_v36) = (Cert.ReferenceIdeal.Spec.dot2 (F := Ideal) (Cert.ReferenceIdeal.Spec.scale512 (F := Ideal) (Cert.ReferenceIdeal.Spec.layer1 (F := Ideal) (Cert.ReferenceIdeal.Spec.agg256 (F := Ideal) (Cert.ReferenceIdeal.Spec.scale256 (F := Ideal) (m ((c : Thread nD τ).loc main_arg0)) (Cert.ReferenceIdeal.Spec.normCol (F := Ideal) (m ((c : Thread nD τ).loc main_arg2)))) (m ((c : Thread nD τ).loc main_arg1)) (m ((c : Thread nD τ).loc main_arg2)) (m ((c : Thread nD τ).loc main_arg3))) (m ((c : Thread nD τ).loc main_arg8)) (Cert.ReferenceIdeal.Spec.normCol (F := Ideal) (m ((c : Thread nD τ).loc main_arg3))) (Cert.ReferenceIdeal.Spec.row512 (F := Ideal) (m ((c : Thread nD τ).loc main_arg9)))) (Cert.ReferenceIdeal.Spec.normCol (F := Ideal) (m ((c : Thread nD τ).loc main_arg2)))) (m ((c : Thread nD τ).loc main_arg10))) := by
  have h := final3 (V11 m ρ) c
  rw [show V11 m ρ c main_v33 = (Cert.ReferenceIdeal.Spec.scale512 (F := Ideal) (Cert.ReferenceIdeal.Spec.layer1 (F := Ideal) (Cert.ReferenceIdeal.Spec.agg256 (F := Ideal) (Cert.ReferenceIdeal.Spec.scale256 (F := Ideal) (m ((c : Thread nD τ).loc main_arg0)) (Cert.ReferenceIdeal.Spec.normCol (F := Ideal) (m ((c : Thread nD τ).loc main_arg2)))) (m ((c : Thread nD τ).loc main_arg1)) (m ((c : Thread nD τ).loc main_arg2)) (m ((c : Thread nD τ).loc main_arg3))) (m ((c : Thread nD τ).loc main_arg8)) (Cert.ReferenceIdeal.Spec.normCol (F := Ideal) (m ((c : Thread nD τ).loc main_arg3))) (Cert.ReferenceIdeal.Spec.row512 (F := Ideal) (m ((c : Thread nD τ).loc main_arg9)))) (Cert.ReferenceIdeal.Spec.normCol (F := Ideal) (m ((c : Thread nD τ).loc main_arg2)))) from (keep11 m ρ c main_v33 (by decide)).trans (W10_v33 m ρ c),
    show V11 m ρ c main_arg10 = (m ((c : Thread nD τ).loc main_arg10)) from W11_arg m ρ c main_arg10 (by decide)] at h
  exact (W12_arr m ρ c 4).trans h

theorem W13_v49 : W13 m ρ c (Proc.devRef .tc main_v49) = (Cert.ReferenceIdeal.Spec.agg256 (F := Ideal) (Cert.ReferenceIdeal.Spec.dot2 (F := Ideal) (Cert.ReferenceIdeal.Spec.scale512 (F := Ideal) (Cert.ReferenceIdeal.Spec.layer1 (F := Ideal) (Cert.ReferenceIdeal.Spec.agg256 (F := Ideal) (Cert.ReferenceIdeal.Spec.scale256 (F := Ideal) (m ((c : Thread nD τ).loc main_arg0)) (Cert.ReferenceIdeal.Spec.normCol (F := Ideal) (m ((c : Thread nD τ).loc main_arg2)))) (m ((c : Thread nD τ).loc main_arg1)) (m ((c : Thread nD τ).loc main_arg2)) (m ((c : Thread nD τ).loc main_arg3))) (m ((c : Thread nD τ).loc main_arg8)) (Cert.ReferenceIdeal.Spec.normCol (F := Ideal) (m ((c : Thread nD τ).loc main_arg3))) (Cert.ReferenceIdeal.Spec.row512 (F := Ideal) (m ((c : Thread nD τ).loc main_arg9)))) (Cert.ReferenceIdeal.Spec.normCol (F := Ideal) (m ((c : Thread nD τ).loc main_arg2)))) (m ((c : Thread nD τ).loc main_arg10))) (m ((c : Thread nD τ).loc main_arg1)) (m ((c : Thread nD τ).loc main_arg2)) (m ((c : Thread nD τ).loc main_arg3))) := by
  refine (host4_agg (W12 m ρ c)).trans ?_
  rw [W12_v36 m ρ c, W12_arg m ρ c main_arg1 (by decide), W12_arg m ρ c main_arg2 (by decide), W12_arg m ρ c main_arg3 (by decide)]

theorem W13_v50 : W13 m ρ c (Proc.devRef .tc main_v50) = (Cert.ReferenceIdeal.Spec.row256 (F := Ideal) (m ((c : Thread nD τ).loc main_arg11))) := by
  refine (host4_row (W12 m ρ c)).trans ?_
  rw [W12_arg m ρ c main_arg11 (by decide)]
  exact rowcast256 _

/-- After the fifth blocked call: layer 2. -/
theorem W14_v51 : W14 m ρ c (Proc.devRef .tc main_v51) = (Cert.ReferenceIdeal.Spec.layer2 (F := Ideal) (Cert.ReferenceIdeal.Spec.agg256 (F := Ideal) (Cert.ReferenceIdeal.Spec.dot2 (F := Ideal) (Cert.ReferenceIdeal.Spec.scale512 (F := Ideal) (Cert.ReferenceIdeal.Spec.layer1 (F := Ideal) (Cert.ReferenceIdeal.Spec.agg256 (F := Ideal) (Cert.ReferenceIdeal.Spec.scale256 (F := Ideal) (m ((c : Thread nD τ).loc main_arg0)) (Cert.ReferenceIdeal.Spec.normCol (F := Ideal) (m ((c : Thread nD τ).loc main_arg2)))) (m ((c : Thread nD τ).loc main_arg1)) (m ((c : Thread nD τ).loc main_arg2)) (m ((c : Thread nD τ).loc main_arg3))) (m ((c : Thread nD τ).loc main_arg8)) (Cert.ReferenceIdeal.Spec.normCol (F := Ideal) (m ((c : Thread nD τ).loc main_arg3))) (Cert.ReferenceIdeal.Spec.row512 (F := Ideal) (m ((c : Thread nD τ).loc main_arg9)))) (Cert.ReferenceIdeal.Spec.normCol (F := Ideal) (m ((c : Thread nD τ).loc main_arg2)))) (m ((c : Thread nD τ).loc main_arg10))) (m ((c : Thread nD τ).loc main_arg1)) (m ((c : Thread nD τ).loc main_arg2)) (m ((c : Thread nD τ).loc main_arg3))) (Cert.ReferenceIdeal.Spec.normCol (F := Ideal) (m ((c : Thread nD τ).loc main_arg3))) (Cert.ReferenceIdeal.Spec.row256 (F := Ideal) (m ((c : Thread nD τ).loc main_arg11)))) := by
  have h := final4 (V13 m ρ) c
  rw [show V13 m ρ c main_v49 = (Cert.ReferenceIdeal.Spec.agg256 (F := Ideal) (Cert.ReferenceIdeal.Spec.dot2 (F := Ideal) (Cert.ReferenceIdeal.Spec.scale512 (F := Ideal) (Cert.ReferenceIdeal.Spec.layer1 (F := Ideal) (Cert.ReferenceIdeal.Spec.agg256 (F := Ideal) (Cert.ReferenceIdeal.Spec.scale256 (F := Ideal) (m ((c : Thread nD τ).loc main_arg0)) (Cert.ReferenceIdeal.Spec.normCol (F := Ideal) (m ((c : Thread nD τ).loc main_arg2)))) (m ((c : Thread nD τ).loc main_arg1)) (m ((c : Thread nD τ).loc main_arg2)) (m ((c : Thread nD τ).loc main_arg3))) (m ((c : Thread nD τ).loc main_arg8)) (Cert.ReferenceIdeal.Spec.normCol (F := Ideal) (m ((c : Thread nD τ).loc main_arg3))) (Cert.ReferenceIdeal.Spec.row512 (F := Ideal) (m ((c : Thread nD τ).loc main_arg9)))) (Cert.ReferenceIdeal.Spec.normCol (F := Ideal) (m ((c : Thread nD τ).loc main_arg2)))) (m ((c : Thread nD τ).loc main_arg10))) (m ((c : Thread nD τ).loc main_arg1)) (m ((c : Thread nD τ).loc main_arg2)) (m ((c : Thread nD τ).loc main_arg3))) from W13_v49 m ρ c,
    show V13 m ρ c main_v14 = (Cert.ReferenceIdeal.Spec.normCol (F := Ideal) (m ((c : Thread nD τ).loc main_arg3))) from (W13_v14 m ρ c).trans (W5_ni m ρ c),
    show V13 m ρ c main_v50 = (Cert.ReferenceIdeal.Spec.row256 (F := Ideal) (m ((c : Thread nD τ).loc main_arg11))) from W13_v50 m ρ c] at h
  exact (W14_arr m ρ c 3).trans h

/-- After the sixth blocked call: `h2 · no`. -/
theorem W16_v53 : W16 m ρ c (Proc.devRef .tc main_v53) = (Cert.ReferenceIdeal.Spec.scale256 (F := Ideal) (Cert.ReferenceIdeal.Spec.layer2 (F := Ideal) (Cert.ReferenceIdeal.Spec.agg256 (F := Ideal) (Cert.ReferenceIdeal.Spec.dot2 (F := Ideal) (Cert.ReferenceIdeal.Spec.scale512 (F := Ideal) (Cert.ReferenceIdeal.Spec.layer1 (F := Ideal) (Cert.ReferenceIdeal.Spec.agg256 (F := Ideal) (Cert.ReferenceIdeal.Spec.scale256 (F := Ideal) (m ((c : Thread nD τ).loc main_arg0)) (Cert.ReferenceIdeal.Spec.normCol (F := Ideal) (m ((c : Thread nD τ).loc main_arg2)))) (m ((c : Thread nD τ).loc main_arg1)) (m ((c : Thread nD τ).loc main_arg2)) (m ((c : Thread nD τ).loc main_arg3))) (m ((c : Thread nD τ).loc main_arg8)) (Cert.ReferenceIdeal.Spec.normCol (F := Ideal) (m ((c : Thread nD τ).loc main_arg3))) (Cert.ReferenceIdeal.Spec.row512 (F := Ideal) (m ((c : Thread nD τ).loc main_arg9)))) (Cert.ReferenceIdeal.Spec.normCol (F := Ideal) (m ((c : Thread nD τ).loc main_arg2)))) (m ((c : Thread nD τ).loc main_arg10))) (m ((c : Thread nD τ).loc main_arg1)) (m ((c : Thread nD τ).loc main_arg2)) (m ((c : Thread nD τ).loc main_arg3))) (Cert.ReferenceIdeal.Spec.normCol (F := Ideal) (m ((c : Thread nD τ).loc main_arg3))) (Cert.ReferenceIdeal.Spec.row256 (F := Ideal) (m ((c : Thread nD τ).loc main_arg11)))) (Cert.ReferenceIdeal.Spec.normCol (F := Ideal) (m ((c : Thread nD τ).loc main_arg2)))) := by
  have h := final5 (V15 m ρ) c
  rw [show V15 m ρ c main_v51 = (Cert.ReferenceIdeal.Spec.layer2 (F := Ideal) (Cert.ReferenceIdeal.Spec.agg256 (F := Ideal) (Cert.ReferenceIdeal.Spec.dot2 (F := Ideal) (Cert.ReferenceIdeal.Spec.scale512 (F := Ideal) (Cert.ReferenceIdeal.Spec.layer1 (F := Ideal) (Cert.ReferenceIdeal.Spec.agg256 (F := Ideal) (Cert.ReferenceIdeal.Spec.scale256 (F := Ideal) (m ((c : Thread nD τ).loc main_arg0)) (Cert.ReferenceIdeal.Spec.normCol (F := Ideal) (m ((c : Thread nD τ).loc main_arg2)))) (m ((c : Thread nD τ).loc main_arg1)) (m ((c : Thread nD τ).loc main_arg2)) (m ((c : Thread nD τ).loc main_arg3))) (m ((c : Thread nD τ).loc main_arg8)) (Cert.ReferenceIdeal.Spec.normCol (F := Ideal) (m ((c : Thread nD τ).loc main_arg3))) (Cert.ReferenceIdeal.Spec.row512 (F := Ideal) (m ((c : Thread nD τ).loc main_arg9)))) (Cert.ReferenceIdeal.Spec.normCol (F := Ideal) (m ((c : Thread nD τ).loc main_arg2)))) (m ((c : Thread nD τ).loc main_arg10))) (m ((c : Thread nD τ).loc main_arg1)) (m ((c : Thread nD τ).loc main_arg2)) (m ((c : Thread nD τ).loc main_arg3))) (Cert.ReferenceIdeal.Spec.normCol (F := Ideal) (m ((c : Thread nD τ).loc main_arg3))) (Cert.ReferenceIdeal.Spec.row256 (F := Ideal) (m ((c : Thread nD τ).loc main_arg11)))) from (keep15 m ρ c main_v51 (by decide)).trans (W14_v51 m ρ c),
    show V15 m ρ c main_v11 = (Cert.ReferenceIdeal.Spec.normCol (F := Ideal) (m ((c : Thread nD τ).loc main_arg2))) from (W15_v11 m ρ c).trans (W5_no m ρ c)] at h
  exact (W16_arr m ρ c 3).trans h

/-- After the seventh blocked call: `(h2 · no) · W3`. -/
theorem W18_v56 : W18 m ρ c (Proc.devRef .tc main_v56) = (Cert.ReferenceIdeal.Spec.dot3 (F := Ideal) (Cert.ReferenceIdeal.Spec.scale256 (F := Ideal) (Cert.ReferenceIdeal.Spec.layer2 (F := Ideal) (Cert.ReferenceIdeal.Spec.agg256 (F := Ideal) (Cert.ReferenceIdeal.Spec.dot2 (F := Ideal) (Cert.ReferenceIdeal.Spec.scale512 (F := Ideal) (Cert.ReferenceIdeal.Spec.layer1 (F := Ideal) (Cert.ReferenceIdeal.Spec.agg256 (F := Ideal) (Cert.ReferenceIdeal.Spec.scale256 (F := Ideal) (m ((c : Thread nD τ).loc main_arg0)) (Cert.ReferenceIdeal.Spec.normCol (F := Ideal) (m ((c : Thread nD τ).loc main_arg2)))) (m ((c : Thread nD τ).loc main_arg1)) (m ((c : Thread nD τ).loc main_arg2)) (m ((c : Thread nD τ).loc main_arg3))) (m ((c : Thread nD τ).loc main_arg8)) (Cert.ReferenceIdeal.Spec.normCol (F := Ideal) (m ((c : Thread nD τ).loc main_arg3))) (Cert.ReferenceIdeal.Spec.row512 (F := Ideal) (m ((c : Thread nD τ).loc main_arg9)))) (Cert.ReferenceIdeal.Spec.normCol (F := Ideal) (m ((c : Thread nD τ).loc main_arg2)))) (m ((c : Thread nD τ).loc main_arg10))) (m ((c : Thread nD τ).loc main_arg1)) (m ((c : Thread nD τ).loc main_arg2)) (m ((c : Thread nD τ).loc main_arg3))) (Cert.ReferenceIdeal.Spec.normCol (F := Ideal) (m ((c : Thread nD τ).loc main_arg3))) (Cert.ReferenceIdeal.Spec.row256 (F := Ideal) (m ((c : Thread nD τ).loc main_arg11)))) (Cert.ReferenceIdeal.Spec.normCol (F := Ideal) (m ((c : Thread nD τ).loc main_arg2)))) (m ((c : Thread nD τ).loc main_arg12))) := by
  have h := final6 (V17 m ρ) c
  rw [show V17 m ρ c main_v53 = (Cert.ReferenceIdeal.Spec.scale256 (F := Ideal) (Cert.ReferenceIdeal.Spec.layer2 (F := Ideal) (Cert.ReferenceIdeal.Spec.agg256 (F := Ideal) (Cert.ReferenceIdeal.Spec.dot2 (F := Ideal) (Cert.ReferenceIdeal.Spec.scale512 (F := Ideal) (Cert.ReferenceIdeal.Spec.layer1 (F := Ideal) (Cert.ReferenceIdeal.Spec.agg256 (F := Ideal) (Cert.ReferenceIdeal.Spec.scale256 (F := Ideal) (m ((c : Thread nD τ).loc main_arg0)) (Cert.ReferenceIdeal.Spec.normCol (F := Ideal) (m ((c : Thread nD τ).loc main_arg2)))) (m ((c : Thread nD τ).loc main_arg1)) (m ((c : Thread nD τ).loc main_arg2)) (m ((c : Thread nD τ).loc main_arg3))) (m ((c : Thread nD τ).loc main_arg8)) (Cert.ReferenceIdeal.Spec.normCol (F := Ideal) (m ((c : Thread nD τ).loc main_arg3))) (Cert.ReferenceIdeal.Spec.row512 (F := Ideal) (m ((c : Thread nD τ).loc main_arg9)))) (Cert.ReferenceIdeal.Spec.normCol (F := Ideal) (m ((c : Thread nD τ).loc main_arg2)))) (m ((c : Thread nD τ).loc main_arg10))) (m ((c : Thread nD τ).loc main_arg1)) (m ((c : Thread nD τ).loc main_arg2)) (m ((c : Thread nD τ).loc main_arg3))) (Cert.ReferenceIdeal.Spec.normCol (F := Ideal) (m ((c : Thread nD τ).loc main_arg3))) (Cert.ReferenceIdeal.Spec.row256 (F := Ideal) (m ((c : Thread nD τ).loc main_arg11)))) (Cert.ReferenceIdeal.Spec.normCol (F := Ideal) (m ((c : Thread nD τ).loc main_arg2)))) from (keep17 m ρ c main_v53 (by decide)).trans (W16_v53 m ρ c),
    show V17 m ρ c main_arg12 = (m ((c : Thread nD τ).loc main_arg12)) from W17_arg m ρ c main_arg12 (by decide)] at h
  exact (W18_arr m ρ c 4).trans h

theorem W19_v69 : W19 m ρ c (Proc.devRef .tc main_v69) = (Cert.ReferenceIdeal.Spec.agg160 (F := Ideal) (Cert.ReferenceIdeal.Spec.dot3 (F := Ideal) (Cert.ReferenceIdeal.Spec.scale256 (F := Ideal) (Cert.ReferenceIdeal.Spec.layer2 (F := Ideal) (Cert.ReferenceIdeal.Spec.agg256 (F := Ideal) (Cert.ReferenceIdeal.Spec.dot2 (F := Ideal) (Cert.ReferenceIdeal.Spec.scale512 (F := Ideal) (Cert.ReferenceIdeal.Spec.layer1 (F := Ideal) (Cert.ReferenceIdeal.Spec.agg256 (F := Ideal) (Cert.ReferenceIdeal.Spec.scale256 (F := Ideal) (m ((c : Thread nD τ).loc main_arg0)) (Cert.ReferenceIdeal.Spec.normCol (F := Ideal) (m ((c : Thread nD τ).loc main_arg2)))) (m ((c : Thread nD τ).loc main_arg1)) (m ((c : Thread nD τ).loc main_arg2)) (m ((c : Thread nD τ).loc main_arg3))) (m ((c : Thread nD τ).loc main_arg8)) (Cert.ReferenceIdeal.Spec.normCol (F := Ideal) (m ((c : Thread nD τ).loc main_arg3))) (Cert.ReferenceIdeal.Spec.row512 (F := Ideal) (m ((c : Thread nD τ).loc main_arg9)))) (Cert.ReferenceIdeal.Spec.normCol (F := Ideal) (m ((c : Thread nD τ).loc main_arg2)))) (m ((c : Thread nD τ).loc main_arg10))) (m ((c : Thread nD τ).loc main_arg1)) (m ((c : Thread nD τ).loc main_arg2)) (m ((c : Thread nD τ).loc main_arg3))) (Cert.ReferenceIdeal.Spec.normCol (F := Ideal) (m ((c : Thread nD τ).loc main_arg3))) (Cert.ReferenceIdeal.Spec.row256 (F := Ideal) (m ((c : Thread nD τ).loc main_arg11)))) (Cert.ReferenceIdeal.Spec.normCol (F := Ideal) (m ((c : Thread nD τ).loc main_arg2)))) (m ((c : Thread nD τ).loc main_arg12))) (m ((c : Thread nD τ).loc main_arg1)) (m ((c : Thread nD τ).loc main_arg2)) (m ((c : Thread nD τ).loc main_arg3))) := by
  refine (host7_agg (W18 m ρ c)).trans ?_
  rw [W18_v56 m ρ c, W18_arg m ρ c main_arg1 (by decide), W18_arg m ρ c main_arg2 (by decide), W18_arg m ρ c main_arg3 (by decide)]

theorem W19_v70 : W19 m ρ c (Proc.devRef .tc main_v70) = (Cert.ReferenceIdeal.Spec.row160 (F := Ideal) (m ((c : Thread nD τ).loc main_arg13))) := by
  refine (host7_row (W18 m ρ c)).trans ?_
  rw [W18_arg m ρ c main_arg13 (by decide)]
  exact rowcast160 _

/-- After the eighth blocked call: layer 3, the node embedding. -/
theorem W20_v71 : W20 m ρ c (Proc.devRef .tc main_v71) = (Cert.ReferenceIdeal.Spec.embed (F := Ideal) (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) := by
  have h := final7 (V19 m ρ) c
  rw [show V19 m ρ c main_v69 = (Cert.ReferenceIdeal.Spec.agg160 (F := Ideal) (Cert.ReferenceIdeal.Spec.dot3 (F := Ideal) (Cert.ReferenceIdeal.Spec.scale256 (F := Ideal) (Cert.ReferenceIdeal.Spec.layer2 (F := Ideal) (Cert.ReferenceIdeal.Spec.agg256 (F := Ideal) (Cert.ReferenceIdeal.Spec.dot2 (F := Ideal) (Cert.ReferenceIdeal.Spec.scale512 (F := Ideal) (Cert.ReferenceIdeal.Spec.layer1 (F := Ideal) (Cert.ReferenceIdeal.Spec.agg256 (F := Ideal) (Cert.ReferenceIdeal.Spec.scale256 (F := Ideal) (m ((c : Thread nD τ).loc main_arg0)) (Cert.ReferenceIdeal.Spec.normCol (F := Ideal) (m ((c : Thread nD τ).loc main_arg2)))) (m ((c : Thread nD τ).loc main_arg1)) (m ((c : Thread nD τ).loc main_arg2)) (m ((c : Thread nD τ).loc main_arg3))) (m ((c : Thread nD τ).loc main_arg8)) (Cert.ReferenceIdeal.Spec.normCol (F := Ideal) (m ((c : Thread nD τ).loc main_arg3))) (Cert.ReferenceIdeal.Spec.row512 (F := Ideal) (m ((c : Thread nD τ).loc main_arg9)))) (Cert.ReferenceIdeal.Spec.normCol (F := Ideal) (m ((c : Thread nD τ).loc main_arg2)))) (m ((c : Thread nD τ).loc main_arg10))) (m ((c : Thread nD τ).loc main_arg1)) (m ((c : Thread nD τ).loc main_arg2)) (m ((c : Thread nD τ).loc main_arg3))) (Cert.ReferenceIdeal.Spec.normCol (F := Ideal) (m ((c : Thread nD τ).loc main_arg3))) (Cert.ReferenceIdeal.Spec.row256 (F := Ideal) (m ((c : Thread nD τ).loc main_arg11)))) (Cert.ReferenceIdeal.Spec.normCol (F := Ideal) (m ((c : Thread nD τ).loc main_arg2)))) (m ((c : Thread nD τ).loc main_arg12))) (m ((c : Thread nD τ).loc main_arg1)) (m ((c : Thread nD τ).loc main_arg2)) (m ((c : Thread nD τ).loc main_arg3))) from W19_v69 m ρ c,
    show V19 m ρ c main_v14 = (Cert.ReferenceIdeal.Spec.normCol (F := Ideal) (m ((c : Thread nD τ).loc main_arg3))) from (W19_v14 m ρ c).trans (W5_ni m ρ c),
    show V19 m ρ c main_v70 = (Cert.ReferenceIdeal.Spec.row160 (F := Ideal) (m ((c : Thread nD τ).loc main_arg13))) from W19_v70 m ρ c] at h
  exact (W20_arr m ρ c 3).trans h

end Cert.KernelIdeal.Val

end
-- ==== Proof.KHost2.lean ====
/-
  The host stretches around the last blocked call: the embedding's rows gathered at the endpoints of the scored
  pairs — positive pairs first, negative pairs after them — and stacked; the three predictor biases cast to rows;
  and, after the call, the two halves of the stacked scores.
-/
import proofs.«108703_j40132174414142_2_alg».proof.Proof.Gen.KernelIdeal.Frame
import proofs.«108703_j40132174414142_2_alg».proof.Proof.Gen.ReferenceIdeal
import proofs.«108703_j40132174414142_2_alg».proof.Proof.Spec
import Idealize.ShloMosaic.Lib.StableHlo.Run
import Idealize.ShloMosaic.PureOps.Ideal
import Idealize.ShloMosaic.Lib.ValueIdx

set_option maxRecDepth 16384
set_option Elab.async false

noncomputable section

namespace Cert.KernelIdeal.Val

open Idealize.ShloMosaic Idealize.ShloMosaic.TcCoe Idealize.SL.Sem
open Cert.KernelIdeal Cert.KernelIdeal.Gen

attribute [local irreducible] Host.gather concatenate

set_option maxHeartbeats 4000000 in
/-- The source endpoints' rows, positive pairs then negative pairs. -/
theorem host8_a_any {F : FTy → Type} [FloatOps F] (V : Valuation τ sig (Elt F)) :
    StableHlo.after hostOps8 V (Proc.devRef .tc main_v86)
      = (concatenate S400000x160 0 [⟨S200000x160, (Host.gather gather_S50000x160_S200000x1_S200000x160_1_0_n_n_0_1_1160 (V (Proc.devRef .tc main_v71)) (Cert.ReferenceIdeal.Spec.pairIdx (F := F) (V (Proc.devRef .tc main_arg4))))⟩, ⟨S200000x160, (Host.gather gather_S50000x160_S200000x1_S200000x160_1_0_n_n_0_1_1160 (V (Proc.devRef .tc main_v71)) (Cert.ReferenceIdeal.Spec.pairIdx (F := F) (V (Proc.devRef .tc main_arg6))))⟩] concatenates_S200000x160_S200000x160_S400000x160_d0) := by
  simp only [hostOps8]
  after_results_simp
  all_goals rfl

theorem host8_a (V : Valuation τ sig (Elt Ideal)) :
    StableHlo.after hostOps8 V (Proc.devRef .tc main_v86)
      = (concatenate S400000x160 0 [⟨S200000x160, (Host.gather gather_S50000x160_S200000x1_S200000x160_1_0_n_n_0_1_1160 (V (Proc.devRef .tc main_v71)) (Cert.ReferenceIdeal.Spec.pairIdx (F := Ideal) (V (Proc.devRef .tc main_arg4))))⟩, ⟨S200000x160, (Host.gather gather_S50000x160_S200000x1_S200000x160_1_0_n_n_0_1_1160 (V (Proc.devRef .tc main_v71)) (Cert.ReferenceIdeal.Spec.pairIdx (F := Ideal) (V (Proc.devRef .tc main_arg6))))⟩] concatenates_S200000x160_S200000x160_S400000x160_d0) :=
  host8_a_any V

set_option maxHeartbeats 4000000 in
/-- The destination endpoints' rows, positive pairs then negative pairs. -/
theorem host8_b_any {F : FTy → Type} [FloatOps F] (V : Valuation τ sig (Elt F)) :
    StableHlo.after hostOps8 V (Proc.devRef .tc main_v101)
      = (concatenate S400000x160 0 [⟨S200000x160, (Host.gather gather_S50000x160_S200000x1_S200000x160_1_0_n_n_0_1_1160 (V (Proc.devRef .tc main_v71)) (Cert.ReferenceIdeal.Spec.pairIdx (F := F) (V (Proc.devRef .tc main_arg5))))⟩, ⟨S200000x160, (Host.gather gather_S50000x160_S200000x1_S200000x160_1_0_n_n_0_1_1160 (V (Proc.devRef .tc main_v71)) (Cert.ReferenceIdeal.Spec.pairIdx (F := F) (V (Proc.devRef .tc main_arg7))))⟩] concatenates_S200000x160_S200000x160_S400000x160_d0) := by
  simp only [hostOps8]
  after_results_simp
  all_goals rfl

theorem host8_b (V : Valuation τ sig (Elt Ideal)) :
    StableHlo.after hostOps8 V (Proc.devRef .tc main_v101)
      = (concatenate S400000x160 0 [⟨S200000x160, (Host.gather gather_S50000x160_S200000x1_S200000x160_1_0_n_n_0_1_1160 (V (Proc.devRef .tc main_v71)) (Cert.ReferenceIdeal.Spec.pairIdx (F := Ideal) (V (Proc.devRef .tc main_arg5))))⟩, ⟨S200000x160, (Host.gather gather_S50000x160_S200000x1_S200000x160_1_0_n_n_0_1_1160 (V (Proc.devRef .tc main_v71)) (Cert.ReferenceIdeal.Spec.pairIdx (F := Ideal) (V (Proc.devRef .tc main_arg7))))⟩] concatenates_S200000x160_S200000x160_S400000x160_d0) :=
  host8_b_any V

set_option maxHeartbeats 4000000 in
theorem host8_r1_any {F : FTy → Type} [FloatOps F] (V : Valuation τ sig (Elt F)) :
    StableHlo.after hostOps8 V (Proc.devRef .tc main_v102) = shapeCast S1x80 (V (Proc.devRef .tc main_arg15)) shapeCasts_S80_S1x80 := by
  simp only [hostOps8]
  after_results_simp
  all_goals rfl

theorem host8_r1 (V : Valuation τ sig (Elt Ideal)) :
    StableHlo.after hostOps8 V (Proc.devRef .tc main_v102) = shapeCast S1x80 (V (Proc.devRef .tc main_arg15)) shapeCasts_S80_S1x80 :=
  host8_r1_any V

set_option maxHeartbeats 4000000 in
theorem host8_r2_any {F : FTy → Type} [FloatOps F] (V : Valuation τ sig (Elt F)) :
    StableHlo.after hostOps8 V (Proc.devRef .tc main_v103) = shapeCast S1x40 (V (Proc.devRef .tc main_arg17)) shapeCasts_S40_S1x40 := by
  simp only [hostOps8]
  after_results_simp
  all_goals rfl

theorem host8_r2 (V : Valuation τ sig (Elt Ideal)) :
    StableHlo.after hostOps8 V (Proc.devRef .tc main_v103) = shapeCast S1x40 (V (Proc.devRef .tc main_arg17)) shapeCasts_S40_S1x40 :=
  host8_r2_any V

set_option maxHeartbeats 4000000 in
theorem host8_r3_any {F : FTy → Type} [FloatOps F] (V : Valuation τ sig (Elt F)) :
    StableHlo.after hostOps8 V (Proc.devRef .tc main_v104) = shapeCast S1x1 (V (Proc.devRef .tc main_arg19)) shapeCasts_S1_S1x1 := by
  simp only [hostOps8]
  after_results_simp
  all_goals rfl

theorem host8_r3 (V : Valuation τ sig (Elt Ideal)) :
    StableHlo.after hostOps8 V (Proc.devRef .tc main_v104) = shapeCast S1x1 (V (Proc.devRef .tc main_arg19)) shapeCasts_S1_S1x1 :=
  host8_r3_any V

set_option maxHeartbeats 4000000 in
/-- The first half of the stacked scores. -/
theorem host9_pos_any {F : FTy → Type} [FloatOps F] (V : Valuation τ sig (Elt F)) :
    StableHlo.after hostOps9 V (Proc.devRef .tc main_v106)
      = extractStridedSlice S200000x1 ![0, 0] (V (Proc.devRef .tc main_v105)) slices_S400000x1_S200000x1_0_0 := by
  simp only [hostOps9]
  after_results_simp
  all_goals rfl

theorem host9_pos (V : Valuation τ sig (Elt Ideal)) :
    StableHlo.after hostOps9 V (Proc.devRef .tc main_v106)
      = extractStridedSlice S200000x1 ![0, 0] (V (Proc.devRef .tc main_v105)) slices_S400000x1_S200000x1_0_0 :=
  host9_pos_any V

set_option maxHeartbeats 4000000 in
/-- The second half of the stacked scores. -/
theorem host9_neg_any {F : FTy → Type} [FloatOps F] (V : Valuation τ sig (Elt F)) :
    StableHlo.after hostOps9 V (Proc.devRef .tc main_v107)
      = extractStridedSlice S200000x1 ![200000, 0] (V (Proc.devRef .tc main_v105)) slices_S400000x1_S200000x1_200000_0 := by
  simp only [hostOps9]
  after_results_simp
  all_goals rfl

theorem host9_neg (V : Valuation τ sig (Elt Ideal)) :
    StableHlo.after hostOps9 V (Proc.devRef .tc main_v107)
      = extractStridedSlice S200000x1 ![200000, 0] (V (Proc.devRef .tc main_v105)) slices_S400000x1_S200000x1_200000_0 :=
  host9_neg_any V

end Cert.KernelIdeal.Val

end
-- ==== Proof.KReg8.lean ====
/-
  The link predictor, row block by row block.

  Row r of the output is a function of rows r of the two operands alone: with z = a (r, ·) · b (r, ·) entry by entry,
    score r = leaky (leaky (z · P1 + c1) · P2 + c2) · P3 + c3,      leaky y = if 0 < y then y else c · y,
  three products of a row by a matrix, each followed by the addition of a bias row. A block is 5000 consecutive rows:
  entry (p, 0) of block t is entry (5000 t + p, 0) of the array, and the weights and bias rows are read whole at every
  point, so what the blocked call leaves in its output array is the whole-array function, index by index.
-/
import proofs.«108703_j40132174414142_2_alg».proof.Proof.Gen.KernelIdeal.Frame
import proofs.«108703_j40132174414142_2_alg».proof.Proof.LibPlainDot
import Idealize.ShloMosaic.Lib.Pipeline.Value
import Idealize.ShloMosaic.Lib.ValueIdx
import Idealize.ShloMosaic.Lib.ValueLayout

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen
open Idealize.ShloMosaic.Pipeline (Dat Cfg Window)
open scoped BigOperators

/-- The leaky rectifier in the form the blocked call computes it: the value itself where it is positive, the slope
    times the value elsewhere. The slope stays the word the program carries. -/
def lk (z : EReal) : EReal := if 0 < z then z else Ideal.ofBits .f32 0x3E4CCCCD#32 * z

/-- First layer before its rectifier, at row r and column j: the product of the two rows against column j, plus the bias. -/
def pre1 (a b : S400000x160.Idx → EReal) (P1 : S160x80.Idx → EReal) (c1 : S1x80.Idx → EReal) (r : Fin 400000) (j : Fin 80) : EReal :=
  (∑ k : Fin 160, (a (ix2 r k) * b (ix2 r k)) * P1 (ix2 k j)) + c1 (ix2 (0 : Fin 1) j)

/-- Second layer before its rectifier, at row r and column j. -/
def pre2 (a b : S400000x160.Idx → EReal) (P1 : S160x80.Idx → EReal) (c1 : S1x80.Idx → EReal) (P2 : S80x40.Idx → EReal) (c2 : S1x40.Idx → EReal)
    (r : Fin 400000) (j : Fin 40) : EReal :=
  (∑ k : Fin 80, lk (pre1 a b P1 c1 r k) * P2 (ix2 k j)) + c2 (ix2 (0 : Fin 1) j)

/-- The score of row r. -/
def predRow (a b : S400000x160.Idx → EReal) (P1 : S160x80.Idx → EReal) (c1 : S1x80.Idx → EReal) (P2 : S80x40.Idx → EReal) (c2 : S1x40.Idx → EReal)
    (P3 : S40x1.Idx → EReal) (c3 : S1x1.Idx → EReal) (r : Fin 400000) : EReal :=
  (∑ k : Fin 40, lk (pre2 a b P1 c1 P2 c2 r k) * P3 (ix2 k (0 : Fin 1))) + c3 (ix2 (0 : Fin 1) (0 : Fin 1))

/-- The predictor row by row: entry (r, 0) is the score of rows r of the two operands. -/
def predRows (a b : S400000x160.Idx → EReal) (P1 : S160x80.Idx → EReal) (c1 : S1x80.Idx → EReal) (P2 : S80x40.Idx → EReal) (c2 : S1x40.Idx → EReal)
    (P3 : S40x1.Idx → EReal) (c3 : S1x1.Idx → EReal) : S400000x1.Idx → EReal :=
  fun i => predRow a b P1 c1 P2 c2 P3 c3 (i 0)

theorem predRows_apply (a b : S400000x160.Idx → EReal) (P1 : S160x80.Idx → EReal) (c1 : S1x80.Idx → EReal) (P2 : S80x40.Idx → EReal) (c2 : S1x40.Idx → EReal)
    (P3 : S40x1.Idx → EReal) (c3 : S1x1.Idx → EReal) (r : Fin 400000) (u : Fin 1) :
    predRows a b P1 c1 P2 c2 P3 c3 (ix2 r u) = predRow a b P1 c1 P2 c2 P3 c3 r := rfl

/-- A value chosen by the comparison "z is ordered and greater than zero" is the first where 0 < z, else the second. -/
theorem select_ogt_zero {α : Type} (z : EReal) (x y : α) :
    Scalar.select (Ideal.cmp .ogt z 0) x y = if 0 < z then x else y := by
  unfold Scalar.select Ideal.cmp
  by_cases h : (0 : EReal) < z <;> simp [h]

/-- The rectifier as the body spells it, a choice between the value and the slope times the value on the comparison
    with a splat zero, read at an index. -/
theorem leaky_ogt_apply {s : Shape} (z : FVec Ideal s .f32) (i : s.Idx) :
    select (cmpf .ogt z (broadcast s (Scalar.ofBits (F := Ideal) .f32 0x00000000#32))) z
      (mulf (broadcast s (Scalar.ofBits (F := Ideal) .f32 0x3E4CCCCD#32)) z) i = lk (z i) := by
  rw [select_apply, cmpf_apply, mulf_apply, broadcast_apply, broadcast_apply]
  show Scalar.select (Ideal.cmp .ogt (z i) (Ideal.ofBits .f32 0x00000000#32)) (z i) (Ideal.ofBits .f32 0x3E4CCCCD#32 * z i) = _
  rw [Ideal.ofBits_zero_f32, select_ogt_zero]
  rfl

variable (V : (c : Dev nD) → (b : Ref sig .tc) → Buf (Elt Ideal) ((c : Thread nD τ).loc b))

theorem hz8 : (![0, 0] : Fin 2 → Nat) = fun _ => 0 := funext fun a => by fin_cases a <;> rfl

/-- The body at an entry: the three layers on the block's row p, which is the array's row r. -/
theorem pay8_spec (x0 x1 : Vec Ideal S5000x160 .f32) (x2 : Vec Ideal S160x80 .f32) (x3 : Vec Ideal S1x80 .f32) (x4 : Vec Ideal S80x40 .f32)
    (x5 : Vec Ideal S1x40 .f32) (x6 : Vec Ideal S40x1 .f32) (x7 : Vec Ideal S1x1 .f32)
    (a b : S400000x160.Idx → EReal) (P1 : S160x80.Idx → EReal) (c1 : S1x80.Idx → EReal) (P2 : S80x40.Idx → EReal) (c2 : S1x40.Idx → EReal)
    (P3 : S40x1.Idx → EReal) (c3 : S1x1.Idx → EReal)
    (p : Fin 5000) (r : Fin 400000)
    (h0 : ∀ k : Fin 160, x0 (ix2 p k) = a (ix2 r k)) (h1 : ∀ k : Fin 160, x1 (ix2 p k) = b (ix2 r k))
    (h2 : ∀ (k : Fin 160) (j : Fin 80), x2 (ix2 k j) = P1 (ix2 k j)) (h3 : ∀ j : Fin 80, x3 (ix2 (0 : Fin 1) j) = c1 (ix2 (0 : Fin 1) j))
    (h4 : ∀ (k : Fin 80) (j : Fin 40), x4 (ix2 k j) = P2 (ix2 k j)) (h5 : ∀ j : Fin 40, x5 (ix2 (0 : Fin 1) j) = c2 (ix2 (0 : Fin 1) j))
    (h6 : ∀ k : Fin 40, x6 (ix2 k (0 : Fin 1)) = P3 (ix2 k (0 : Fin 1))) (h7 : x7 (ix2 (0 : Fin 1) (0 : Fin 1)) = c3 (ix2 (0 : Fin 1) (0 : Fin 1))) :
    k8_pay1 (k8_pay2 x0 x1 x2 x3 x4 x5 x6) x7 (ix2 p (0 : Fin 1)) = predRow a b P1 c1 P2 c2 P3 c3 r := by
  unfold k8_pay1 k8_pay2 predRow
  dsimp only
  simp only [shapeCast_self]
  rw [addf_apply, broadcastTo_1b_ab_apply, h7]
  refine (congrArg (· + c3 (ix2 (0 : Fin 1) (0 : Fin 1))) (Cert.LibPlainDot.matmul_plain_apply dot_S5000x40_S40x1_S5000x1_1_0_0_1_n_n rfl rfl rfl rfl rfl rfl none _ _ p (0 : Fin 1))).trans ?_
  refine congrArg (· + c3 (ix2 (0 : Fin 1) (0 : Fin 1))) (Finset.sum_congr rfl fun k3 _ => ?_)
  rw [truncf_apply, truncf_apply, h6 k3, leaky_ogt_apply, addf_apply, broadcastTo_1b_ab_apply, h5 k3]
  unfold pre2
  refine congrArg (fun z => lk (z + c2 (ix2 (0 : Fin 1) k3)) * P3 (ix2 k3 (0 : Fin 1)))
    ((Cert.LibPlainDot.matmul_plain_apply dot_S5000x80_S80x40_S5000x40_1_0_0_1_n_n rfl rfl rfl rfl rfl rfl none _ _ p k3).trans
      (Finset.sum_congr rfl fun k2 _ => ?_))
  rw [truncf_apply, truncf_apply, h4 k2 k3, leaky_ogt_apply, addf_apply, broadcastTo_1b_ab_apply, h3 k2]
  unfold pre1
  refine congrArg (fun z => lk (z + c1 (ix2 (0 : Fin 1) k2)) * P2 (ix2 k2 k3))
    ((Cert.LibPlainDot.matmul_plain_apply dot_S5000x160_S160x80_S5000x80_1_0_0_1_n_n rfl rfl rfl rfl rfl rfl none _ _ p k2).trans
      (Finset.sum_congr rfl fun k1 _ => ?_))
  rw [truncf_apply, truncf_apply, mulf_apply, h0 k1, h1 k1, h2 k1 k2]

/-- The printed index maps over the 80 points: a row-blocked window is at block t, a whole one at block 0. -/
theorem idx_facts8 : ∀ t : Fin cfg8.N, win8_0.index t (0 : Fin 2) = t.val
    ∧ win8_0.index t (1 : Fin 2) = 0
    ∧ win8_1.index t (0 : Fin 2) = t.val
    ∧ win8_1.index t (1 : Fin 2) = 0
    ∧ win8_2.index t (0 : Fin 2) = 0
    ∧ win8_2.index t (1 : Fin 2) = 0
    ∧ win8_3.index t (0 : Fin 2) = 0
    ∧ win8_3.index t (1 : Fin 2) = 0
    ∧ win8_4.index t (0 : Fin 2) = 0
    ∧ win8_4.index t (1 : Fin 2) = 0
    ∧ win8_5.index t (0 : Fin 2) = 0
    ∧ win8_5.index t (1 : Fin 2) = 0
    ∧ win8_6.index t (0 : Fin 2) = 0
    ∧ win8_6.index t (1 : Fin 2) = 0
    ∧ win8_7.index t (0 : Fin 2) = 0
    ∧ win8_7.index t (1 : Fin 2) = 0
    ∧ win8_8.index t (0 : Fin 2) = t.val
    ∧ win8_8.index t (1 : Fin 2) = 0 :=
  (by decide +kernel : ∀ t : Fin grid8.N, _)

theorem idx_onto8 : ∀ q0 : Fin 80, ∃ t : Fin cfg8.N, win8_8.index t = ![q0.val, 0] :=
  (by decide +kernel : ∀ q0 : Fin 80, ∃ t : Fin grid8.N, win8_8.index t = ![q0.val, 0])

/-- What point t writes back is block t of the whole-array function. -/
theorem flushed8_eq (c : Dev nD) (t : Fin cfg8.N) :
    (dat8 V c).flushed 8 t = ((cfg8.win 8).blk t).view.read (Elt Ideal)
      (predRows (V c main_v86) (V c main_v101) (V c main_arg14) (V c main_v102) (V c main_arg16) (V c main_v103) (V c main_arg18) (V c main_v104)) := by
  show (cfg8.win 8).cut (grid8.coords t) ((dat8 V c).after 8 t) = _
  rw [after8_8]
  unfold out8_8
  rw [View.canon_unit_zero hz8]
  simp only [View.ld_unit_zero (S := S5000x160) hz8, View.ld_unit_zero (S := S160x80) hz8, View.ld_unit_zero (S := S1x80) hz8,
    View.ld_unit_zero (S := S80x40) hz8, View.ld_unit_zero (S := S1x40) hz8, View.ld_unit_zero (S := S40x1) hz8, View.ld_unit_zero (S := S1x1) hz8]
  obtain ⟨e00, e01, e10, e11, e20, e21, e30, e31, e40, e41, e50, e51, e60, e61, e70, e71, e80, e81⟩ := idx_facts8 t
  have ht : t.val < 80 := lt_of_lt_of_eq t.isLt N_8
  funext j
  obtain ⟨p, u, rfl⟩ : ∃ (p : Fin 5000) (u : Fin 1), j = ix2 p u := ⟨j 0, j 1, eq_ix2 j⟩
  obtain rfl : u = (0 : Fin 1) := Subsingleton.elim _ _
  have hr : t.val * 5000 + p.val < 400000 := by have := p.isLt; omega
  have hemb : ((cfg8.win 8).blk t).view.emb (ix2 p (0 : Fin 1)) = ix2 (⟨t.val * 5000 + p.val, hr⟩ : Fin 400000) (0 : Fin 1) := by
    funext a; apply Fin.ext
    match a with
    | ⟨0, _⟩ => show win8_8.index t (0 : Fin 2) * 5000 + 1 * p.val = t.val * 5000 + p.val; omega
    | ⟨1, _⟩ => show win8_8.index t (1 : Fin 2) * 1 + 1 * 0 = 0; omega
  show k8_pay1 (k8_pay2 (iblk8 V c 0 t) (iblk8 V c 1 t) (iblk8 V c 2 t) (iblk8 V c 3 t) (iblk8 V c 4 t) (iblk8 V c 5 t) (iblk8 V c 6 t)) (iblk8 V c 7 t) (ix2 p (0 : Fin 1))
    = (predRows (V c main_v86) (V c main_v101) (V c main_arg14) (V c main_v102) (V c main_arg16) (V c main_v103) (V c main_arg18) (V c main_v104)) (((cfg8.win 8).blk t).view.emb (ix2 p (0 : Fin 1)))
  rw [hemb, predRows_apply]
  refine pay8_spec _ _ _ _ _ _ _ _ _ _ _ _ _ _ _ _ p _ ?_ ?_ ?_ ?_ ?_ ?_ ?_ ?_
  · intro k'
    show V c main_v86 (((cfg8.win 0).blk t).view.emb (ix2 p k')) = V c main_v86 (ix2 (⟨t.val * 5000 + p.val, hr⟩ : Fin 400000) k')
    refine congrArg _ ?_
    funext a; apply Fin.ext
    match a with
    | ⟨0, _⟩ => show win8_0.index t (0 : Fin 2) * 5000 + 1 * p.val = t.val * 5000 + p.val; omega
    | ⟨1, _⟩ => show win8_0.index t (1 : Fin 2) * 160 + 1 * k'.val = k'.val; omega
  · intro k'
    show V c main_v101 (((cfg8.win 1).blk t).view.emb (ix2 p k')) = V c main_v101 (ix2 (⟨t.val * 5000 + p.val, hr⟩ : Fin 400000) k')
    refine congrArg _ ?_
    funext a; apply Fin.ext
    match a with
    | ⟨0, _⟩ => show win8_1.index t (0 : Fin 2) * 5000 + 1 * p.val = t.val * 5000 + p.val; omega
    | ⟨1, _⟩ => show win8_1.index t (1 : Fin 2) * 160 + 1 * k'.val = k'.val; omega
  · intro k' j'
    show V c main_arg14 (((cfg8.win 2).blk t).view.emb (ix2 k' j')) = V c main_arg14 (ix2 k' j')
    refine congrArg _ ?_
    funext a; apply Fin.ext
    match a with
    | ⟨0, _⟩ => show win8_2.index t (0 : Fin 2) * 160 + 1 * k'.val = k'.val; omega
    | ⟨1, _⟩ => show win8_2.index t (1 : Fin 2) * 80 + 1 * j'.val = j'.val; omega
  · intro j'
    show V c main_v102 (((cfg8.win 3).blk t).view.emb (ix2 (0 : Fin 1) j')) = V c main_v102 (ix2 (0 : Fin 1) j')
    refine congrArg _ ?_
    funext a; apply Fin.ext
    match a with
    | ⟨0, _⟩ => show win8_3.index t (0 : Fin 2) * 1 + 1 * 0 = 0; omega
    | ⟨1, _⟩ => show win8_3.index t (1 : Fin 2) * 80 + 1 * j'.val = j'.val; omega
  · intro k' j'
    show V c main_arg16 (((cfg8.win 4).blk t).view.emb (ix2 k' j')) = V c main_arg16 (ix2 k' j')
    refine congrArg _ ?_
    funext a; apply Fin.ext
    match a with
    | ⟨0, _⟩ => show win8_4.index t (0 : Fin 2) * 80 + 1 * k'.val = k'.val; omega
    | ⟨1, _⟩ => show win8_4.index t (1 : Fin 2) * 40 + 1 * j'.val = j'.val; omega
  · intro j'
    show V c main_v103 (((cfg8.win 5).blk t).view.emb (ix2 (0 : Fin 1) j')) = V c main_v103 (ix2 (0 : Fin 1) j')
    refine congrArg _ ?_
    funext a; apply Fin.ext
    match a with
    | ⟨0, _⟩ => show win8_5.index t (0 : Fin 2) * 1 + 1 * 0 = 0; omega
    | ⟨1, _⟩ => show win8_5.index t (1 : Fin 2) * 40 + 1 * j'.val = j'.val; omega
  · intro k'
    show V c main_arg18 (((cfg8.win 6).blk t).view.emb (ix2 k' (0 : Fin 1))) = V c main_arg18 (ix2 k' (0 : Fin 1))
    refine congrArg _ ?_
    funext a; apply Fin.ext
    match a with
    | ⟨0, _⟩ => show win8_6.index t (0 : Fin 2) * 40 + 1 * k'.val = k'.val; omega
    | ⟨1, _⟩ => show win8_6.index t (1 : Fin 2) * 1 + 1 * 0 = 0; omega
  · show V c main_v104 (((cfg8.win 7).blk t).view.emb (ix2 (0 : Fin 1) (0 : Fin 1))) = V c main_v104 (ix2 (0 : Fin 1) (0 : Fin 1))
    refine congrArg _ ?_
    funext a; apply Fin.ext
    match a with
    | ⟨0, _⟩ => show win8_7.index t (0 : Fin 2) * 1 + 1 * 0 = 0; omega
    | ⟨1, _⟩ => show win8_7.index t (1 : Fin 2) * 1 + 1 * 0 = 0; omega

/-- An index of the array is in point t's block iff each coordinate is in the block's range on its axis. -/
theorem mem_blk8 (t : Fin cfg8.N) (i : S400000x1.Idx) :
    i ∈ ((cfg8.win 8).blk t).view.set ↔ ∀ a : Fin 2, win8_8.index t a * S5000x1.size a ≤ (i a).val ∧ (i a).val < win8_8.index t a * S5000x1.size a + S5000x1.size a := by
  show i ∈ ((View.whole main_v105).slice (win8_8.rect t)).set ↔ _
  rw [View.set_slice_whole, Rect.mem_set_unit]
  exact Iff.rfl

/-- Every row lies in the block of its quotient by 5000. -/
theorem cover8 (i : S400000x1.Idx) : ∃ t : Fin cfg8.N, (cfg8.win 8).flush t = true ∧ i ∈ ((cfg8.win 8).blk t).view.set := by
  have hi0 : (i 0).val < 400000 := (i 0).isLt
  have hi1 : (i 1).val < 1 := (i 1).isLt
  obtain ⟨t, ht⟩ := idx_onto8 ⟨(i 0).val / 5000, by omega⟩
  have q0 : win8_8.index t (0 : Fin 2) = (i 0).val / 5000 := congrFun ht 0
  have q1 : win8_8.index t (1 : Fin 2) = 0 := congrFun ht 1
  refine ⟨t, flush8_8 t, ?_⟩
  rw [mem_blk8]
  intro a
  match a with
  | ⟨0, _⟩ => show win8_8.index t (0 : Fin 2) * 5000 ≤ (i 0).val ∧ (i 0).val < win8_8.index t (0 : Fin 2) * 5000 + 5000; omega
  | ⟨1, _⟩ => show win8_8.index t (1 : Fin 2) * 1 ≤ (i 1).val ∧ (i 1).val < win8_8.index t (1 : Fin 2) * 1 + 1; omega

/-- The output array after the call, as one whole-array function of the arrays the call finds. -/
theorem final8 (c : Dev nD) :
    (dat8 V c).arrAt 8 cfg8.N = predRows (V c main_v86) (V c main_v101) (V c main_arg14) (V c main_v102) (V c main_arg16) (V c main_v103) (V c main_arg18) (V c main_v104) :=
  (dat8 V c).arrAt_eq_of_cover 8 _ (fun t _ => flushed8_eq V c t) (cover8)

end Cert.KernelIdeal.Val

end
-- ==== Proof.LibLeaky.lean ====
/-
  The leaky rectifier on the extended reals, and a choice made by comparing with zero.

  For a real slope `0 < c ≤ 1` and EVERY extended real `z`, the infinite ones too, `max z (c · z)` is `z` where
  `0 ≤ z` and `c · z` elsewhere: for a real `z ≥ 0` one has `c·z ≤ z`, for a real `z < 0` one has `z ≤ c·z`, and
  `c · (±∞) = ±∞`. So a rectifier written with `max` and one written as a choice on the sign agree with no
  finiteness assumption. The second lemma reads that choice as the float comparison "ordered and at least" prints it.
-/
import Idealize.ShloMosaic.PureOps.Ideal

namespace Cert.LibLeaky

open Idealize.ShloMosaic

/-- `max z (c · z) = if 0 ≤ z then z else c · z` on the extended reals, for a real slope `0 < c ≤ 1`. -/
theorem max_mul_eq_ite {c : ℝ} (hc0 : 0 < c) (hc1 : c ≤ 1) (z : EReal) :
    max z ((c : EReal) * z) = if 0 ≤ z then z else (c : EReal) * z := by
  induction z using EReal.rec with
  | bot => rw [EReal.coe_mul_bot_of_pos hc0, if_neg (by simp), max_self]
  | top => rw [EReal.coe_mul_top_of_pos hc0, if_pos le_top, max_self]
  | coe r =>
    rw [← EReal.coe_mul]
    by_cases h : 0 ≤ r
    · rw [if_pos (by exact_mod_cast h)]
      exact max_eq_left (by exact_mod_cast (by nlinarith : c * r ≤ r))
    · rw [if_neg (by intro h'; exact h (by exact_mod_cast h'))]
      exact max_eq_right (by exact_mod_cast (by nlinarith : r ≤ c * r))

/-- A value chosen by the comparison "`z` is ordered and at least zero" is the first where `0 ≤ z`, else the second. -/
theorem select_oge_zero {α : Type} (z : EReal) (a b : α) :
    Scalar.select (Ideal.cmp .oge z 0) a b = if 0 ≤ z then a else b := by
  unfold Scalar.select Ideal.cmp
  by_cases h : (0 : EReal) ≤ z <;> simp [h]

end Cert.LibLeaky
-- ==== Proof.LibRow.lean ====
/-
  A vector laid out as a row.

  Casting a vector of n entries to the shape [1, n] keeps the entries in order: entry (0, j) of the row is entry j of
  the vector, because both sit at row-major position j.
-/
import Idealize.ShloMosaic.Lib.Pipeline.Value
import Idealize.ShloMosaic.Lib.ValueIdx

noncomputable section

namespace Cert.LibRow

open Idealize.ShloMosaic Idealize.ShloMosaic.ValueIdx

/-- An [n] vector cast to the row [1, n], read at (0, j), is the vector at j — for any element type and any n. -/
theorem row_apply {α : Type} {n : Nat} (v : (⟨1, ![n]⟩ : Shape).Idx → α) (h : (⟨1, ![n]⟩ : Shape).ShapeCasts ⟨2, ![1, n]⟩) (j : Fin n) :
    shapeCast (⟨2, ![1, n]⟩ : Shape) v h (ix2 (0 : Fin 1) j) = v (ix1 j) := by
  refine shapeCast_apply v h (ix2 (0 : Fin 1) j) (ix1 j) ?_
  rw [Shape.rowMajor_val_one, Shape.rowMajor_val_two]
  show j.val = (0 : Fin 1).val * n + j.val
  simp

end Cert.LibRow

end
-- ==== Proof.KScore.lean ====
/-
  The two halves of the predictor's output are the reference's scores.

  The blocked call scores 400000 rows at once: the first 200000 are the pairs (a, b), the last 200000 the pairs
  (c, d), each operand being two gathered arrays of 200000 rows laid one after the other. Row r of the first half
  therefore depends on rows r of the first parts alone, and row r of the second half on rows r of the second parts.
  Against the reference, which scores each list of pairs by three dense layers on the host: the products are the same
  sums, a bias vector cast to a row and a bias vector broadcast to a row read the same entry, and the two spellings of
  the rectifier, "z where 0 < z" and "z where 0 ≤ z", differ only at z = 0, where the slope times zero is zero.
  The gathered rows are the same term on both sides and are never opened.
-/
import proofs.«108703_j40132174414142_2_alg».proof.Proof.KReg8
import proofs.«108703_j40132174414142_2_alg».proof.Proof.Gen.ReferenceIdeal
import proofs.«108703_j40132174414142_2_alg».proof.Proof.Spec
import proofs.«108703_j40132174414142_2_alg».proof.Proof.LibHostDense
import proofs.«108703_j40132174414142_2_alg».proof.Proof.LibLeaky
import proofs.«108703_j40132174414142_2_alg».proof.Proof.LibRow
import Idealize.ShloMosaic.Lib.Pipeline.Value
import Idealize.ShloMosaic.Lib.ValueIdx
import Idealize.ShloMosaic.Lib.ValueLayout

set_option maxRecDepth 16384

noncomputable section

namespace Cert.KernelIdeal.Val

open Idealize.ShloMosaic Idealize.ShloMosaic.ValueIdx
open Cert.KernelIdeal Cert.KernelIdeal.Gen
open scoped BigOperators

/-- The two spellings of the rectifier agree on every extended real: they differ only at zero, and the slope times
    zero is zero. -/
theorem lk_eq_ite_le (z : EReal) : lk z = if 0 ≤ z then z else Ideal.ofBits .f32 0x3E4CCCCD#32 * z := by
  unfold lk
  by_cases h : 0 < z
  · rw [if_pos h, if_pos h.le]
  · rw [if_neg h]
    by_cases h' : 0 ≤ z
    · rw [if_pos h']
      have e : z = 0 := le_antisymm (not_lt.mp h) h'
      rw [e, mul_zero]
    · rw [if_neg h']

/-- The rectifier as the host spells it, a choice on "ordered and at least" a repeated scalar zero between the value
    and a repeated scalar slope times the value, read at an index. -/
theorem leaky_oge_apply {s : Shape} (h0 : (⟨0, ![]⟩ : Shape).BroadcastsInDim s (![] : Fin 0 → Fin s.rank)) (z : FVec Ideal s .f32) (i : s.Idx) :
    select (cmpf .oge z (broadcastInDim s ![] h0 (constant (F := Ideal) ⟨0, ![]⟩ .f32 0x00000000#32))) z
      (mulf (broadcastInDim s ![] h0 (constant (F := Ideal) ⟨0, ![]⟩ .f32 0x3E4CCCCD#32)) z) i = lk (z i) := by
  rw [select_apply, cmpf_apply, mulf_apply, Cert.LibHostDense.bcastScalar_apply, Cert.LibHostDense.bcastScalar_apply, constant_apply, constant_apply]
  show Scalar.select (Ideal.cmp .oge (z i) (Ideal.ofBits .f32 0x00000000#32)) (z i) (Ideal.ofBits .f32 0x3E4CCCCD#32 * z i) = _
  rw [Ideal.ofBits_zero_f32, Cert.LibLeaky.select_oge_zero, lk_eq_ite_le]

/-- The two programs name the same gather. -/
theorem gatherRec_eq : gather_S50000x160_S200000x1_S200000x160_1_0_n_n_0_1_1160
    = Cert.ReferenceIdeal.gather_S50000x160_S200000x1_S200000x160_1_0_n_n_0_1_1160 := rfl

/-- The reference's score of pair r is the row score of any two arrays whose rows r' are the gathered rows r. -/
theorem scoreIdx_row (h : S50000x160.Idx → EReal) (ia ib : (⟨S200000x1, .i32⟩ : BufTy).Contents (Elt Ideal))
    (P1 : S160x80.Idx → EReal) (pb1 : S80.Idx → EReal) (P2 : S80x40.Idx → EReal) (pb2 : S40.Idx → EReal) (P3 : S40x1.Idx → EReal) (pb3 : S1.Idx → EReal)
    (A B : S400000x160.Idx → EReal) (r : Fin 200000) (r' : Fin 400000)
    (hA : ∀ k : Fin 160, A (ix2 r' k) = Host.gather Cert.ReferenceIdeal.gather_S50000x160_S200000x1_S200000x160_1_0_n_n_0_1_1160 h ia (ix2 r k))
    (hB : ∀ k : Fin 160, B (ix2 r' k) = Host.gather Cert.ReferenceIdeal.gather_S50000x160_S200000x1_S200000x160_1_0_n_n_0_1_1160 h ib (ix2 r k)) :
    Cert.ReferenceIdeal.Spec.scoreIdx (F := Ideal) h ia ib P1 pb1 P2 pb2 P3 pb3 (ix2 r (0 : Fin 1))
      = predRow A B P1 (shapeCast S1x80 pb1 shapeCasts_S80_S1x80) P2 (shapeCast S1x40 pb2 shapeCasts_S40_S1x40) P3 (shapeCast S1x1 pb3 shapeCasts_S1_S1x1) r' := by
  unfold Cert.ReferenceIdeal.Spec.scoreIdx Cert.ReferenceIdeal.Spec.leaky40 Cert.ReferenceIdeal.Spec.leaky80 predRow
  rw [addf_apply, Cert.LibHostDense.bcastRows_apply, Cert.LibHostDense.bcastRow_apply, Cert.LibRow.row_apply]
  refine congrArg (· + pb3 (ix1 (0 : Fin 1)))
    ((Cert.LibHostDense.hostDot_plain_apply Cert.ReferenceIdeal.dot_S200000x40_S40x1_S200000x1_1_0_0_1_n_n rfl rfl rfl rfl rfl rfl none _ _ r (0 : Fin 1)).trans
      (Finset.sum_congr rfl fun k3 _ => ?_))
  rw [leaky_oge_apply, addf_apply, Cert.LibHostDense.bcastRows_apply, Cert.LibHostDense.bcastRow_apply]
  unfold pre2
  rw [Cert.LibRow.row_apply]
  refine congrArg (fun z => lk (z + pb2 (ix1 k3)) * P3 (ix2 k3 (0 : Fin 1)))
    ((Cert.LibHostDense.hostDot_plain_apply Cert.ReferenceIdeal.dot_S200000x80_S80x40_S200000x40_1_0_0_1_n_n rfl rfl rfl rfl rfl rfl none _ _ r k3).trans
      (Finset.sum_congr rfl fun k2 _ => ?_))
  rw [leaky_oge_apply, addf_apply, Cert.LibHostDense.bcastRows_apply, Cert.LibHostDense.bcastRow_apply]
  unfold pre1
  rw [Cert.LibRow.row_apply]
  refine congrArg (fun z => lk (z + pb1 (ix1 k2)) * P2 (ix2 k2 k3))
    ((Cert.LibHostDense.hostDot_plain_apply Cert.ReferenceIdeal.dot_S200000x160_S160x80_S200000x80_1_0_0_1_n_n rfl rfl rfl rfl rfl rfl none _ _ r k2).trans
      (Finset.sum_congr rfl fun k1 _ => ?_))
  rw [mulf_apply, hA k1, hB k1]

/-- The first 200000 rows of the predictor's output are the reference's scores of the pairs (a, b). -/
theorem score_pos (h : S50000x160.Idx → EReal) (ia ib ic ie : (⟨S200000x1, .i32⟩ : BufTy).Contents (Elt Ideal))
    (P1 : S160x80.Idx → EReal) (pb1 : S80.Idx → EReal) (P2 : S80x40.Idx → EReal) (pb2 : S40.Idx → EReal) (P3 : S40x1.Idx → EReal) (pb3 : S1.Idx → EReal) :
    extractStridedSlice S200000x1 ![0, 0]
      (predRows
        (concatenate S400000x160 0 [⟨S200000x160, Host.gather gather_S50000x160_S200000x1_S200000x160_1_0_n_n_0_1_1160 h ia⟩,
          ⟨S200000x160, Host.gather gather_S50000x160_S200000x1_S200000x160_1_0_n_n_0_1_1160 h ic⟩] concatenates_S200000x160_S200000x160_S400000x160_d0)
        (concatenate S400000x160 0 [⟨S200000x160, Host.gather gather_S50000x160_S200000x1_S200000x160_1_0_n_n_0_1_1160 h ib⟩,
          ⟨S200000x160, Host.gather gather_S50000x160_S200000x1_S200000x160_1_0_n_n_0_1_1160 h ie⟩] concatenates_S200000x160_S200000x160_S400000x160_d0)
        P1 (shapeCast S1x80 pb1 shapeCasts_S80_S1x80) P2 (shapeCast S1x40 pb2 shapeCasts_S40_S1x40) P3 (shapeCast S1x1 pb3 shapeCasts_S1_S1x1))
      slices_S400000x1_S200000x1_0_0
      = Cert.ReferenceIdeal.Spec.scoreIdx (F := Ideal) h ia ib P1 pb1 P2 pb2 P3 pb3 := by
  funext i
  obtain ⟨r, u, rfl⟩ : ∃ (r : Fin 200000) (u : Fin 1), i = ix2 r u := ⟨i 0, i 1, eq_ix2 i⟩
  obtain rfl : u = (0 : Fin 1) := Subsingleton.elim _ _
  have hr : r.val < 400000 := by have := r.isLt; omega
  refine (slice2_axis0_apply 0 _ _ r (0 : Fin 1) (⟨r.val, hr⟩ : Fin 400000) (Nat.zero_add _).symm).trans ?_
  rw [predRows_apply]
  refine (scoreIdx_row h ia ib P1 pb1 P2 pb2 P3 pb3 _ _ r ⟨r.val, hr⟩ (fun k => ?_) (fun k => ?_)).symm
  · rw [← gatherRec_eq]
    exact concatenate_pair_apply_left (t := S400000x160) (s₁ := S200000x160) (s₂ := S200000x160) 0 _ _ _ (ix2 (⟨r.val, hr⟩ : Fin 400000) k) rfl (ix2 r k)
      (fun b => by match b with | ⟨0, _⟩ => rfl | ⟨1, _⟩ => rfl)
  · rw [← gatherRec_eq]
    exact concatenate_pair_apply_left (t := S400000x160) (s₁ := S200000x160) (s₂ := S200000x160) 0 _ _ _ (ix2 (⟨r.val, hr⟩ : Fin 400000) k) rfl (ix2 r k)
      (fun b => by match b with | ⟨0, _⟩ => rfl | ⟨1, _⟩ => rfl)

/-- The last 200000 rows of the predictor's output are the reference's scores of the pairs (c, d). -/
theorem score_neg (h : S50000x160.Idx → EReal) (ia ib ic ie : (⟨S200000x1, .i32⟩ : BufTy).Contents (Elt Ideal))
    (P1 : S160x80.Idx → EReal) (pb1 : S80.Idx → EReal) (P2 : S80x40.Idx → EReal) (pb2 : S40.Idx → EReal) (P3 : S40x1.Idx → EReal) (pb3 : S1.Idx → EReal) :
    extractStridedSlice S200000x1 ![200000, 0]
      (predRows
        (concatenate S400000x160 0 [⟨S200000x160, Host.gather gather_S50000x160_S200000x1_S200000x160_1_0_n_n_0_1_1160 h ia⟩,
          ⟨S200000x160, Host.gather gather_S50000x160_S200000x1_S200000x160_1_0_n_n_0_1_1160 h ic⟩] concatenates_S200000x160_S200000x160_S400000x160_d0)
        (concatenate S400000x160 0 [⟨S200000x160, Host.gather gather_S50000x160_S200000x1_S200000x160_1_0_n_n_0_1_1160 h ib⟩,
          ⟨S200000x160, Host.gather gather_S50000x160_S200000x1_S200000x160_1_0_n_n_0_1_1160 h ie⟩] concatenates_S200000x160_S200000x160_S400000x160_d0)
        P1 (shapeCast S1x80 pb1 shapeCasts_S80_S1x80) P2 (shapeCast S1x40 pb2 shapeCasts_S40_S1x40) P3 (shapeCast S1x1 pb3 shapeCasts_S1_S1x1))
      slices_S400000x1_S200000x1_200000_0
      = Cert.ReferenceIdeal.Spec.scoreIdx (F := Ideal) h ic ie P1 pb1 P2 pb2 P3 pb3 := by
  funext i
  obtain ⟨r, u, rfl⟩ : ∃ (r : Fin 200000) (u : Fin 1), i = ix2 r u := ⟨i 0, i 1, eq_ix2 i⟩
  obtain rfl : u = (0 : Fin 1) := Subsingleton.elim _ _
  have hr : 200000 + r.val < 400000 := by have := r.isLt; omega
  refine (slice2_axis0_apply 200000 _ _ r (0 : Fin 1) (⟨200000 + r.val, hr⟩ : Fin 400000) rfl).trans ?_
  rw [predRows_apply]
  refine (scoreIdx_row h ic ie P1 pb1 P2 pb2 P3 pb3 _ _ r ⟨200000 + r.val, hr⟩ (fun k => ?_) (fun k => ?_)).symm
  · rw [← gatherRec_eq]
    exact concatenate_pair_apply_right (t := S400000x160) (s₁ := S200000x160) (s₂ := S200000x160) 0 _ _ _ (ix2 (⟨200000 + r.val, hr⟩ : Fin 400000) k) rfl rfl (ix2 r k)
      (fun b hb => by match b, hb with | ⟨0, _⟩, hb => exact absurd rfl hb | ⟨1, _⟩, _ => rfl)
      (by show r.val + 200000 = 200000 + r.val; omega)
  · rw [← gatherRec_eq]
    exact concatenate_pair_apply_right (t := S400000x160) (s₁ := S200000x160) (s₂ := S200000x160) 0 _ _ _ (ix2 (⟨200000 + r.val, hr⟩ : Fin 400000) k) rfl rfl (ix2 r k)
      (fun b hb => by match b, hb with | ⟨0, _⟩, hb => exact absurd rfl hb | ⟨1, _⟩, _ => rfl)
      (by show r.val + 200000 = 200000 + r.val; omega)

end Cert.KernelIdeal.Val

end
-- ==== Proof.KRun.lean ====
/-
  The whole program run once, with its three results named: every weakly fair execution ends with each result
  buffer at the last boundary's contents of the fold through the host stretches and the nine blocked calls,
  and the arguments as launched.
-/
import proofs.«108703_j40132174414142_2_alg».proof.Proof.Gen.KernelIdeal.Frame

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_all : θ_run defs (onTc (τ := τ) (main (F := F))) ⟨m, fun _ => 0, ρ⟩ (fun r => ∀ c : Dev nD,
      r.2.mem ((c.tc : Thread nD τ).loc main_v106) = W23 m ρ c (Proc.devRef .tc main_v106)
      ∧ r.2.mem ((c.tc : Thread nD τ).loc main_v107) = W23 m ρ c (Proc.devRef .tc main_v107)
      ∧ r.2.mem ((c.tc : Thread nD τ).loc main_v71) = W23 m ρ c (Proc.devRef .tc main_v71)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
    Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W23 m ρ c b)
    (hfin := fun c s' => by
      iintro ⟨⟨Hh, -⟩, HSI⟩
      unfold StableHlo.held
      imodintro
      iapply (pointsTo_read_all (Pipeline.ucRefs τ sig) (fun b => (((c : Thread nD τ)).1, b)) (W23 m ρ c) s')
      isplitl [Hh] <;> iassumption)
    (hQ := fun s h c =>
      ⟨h c _ (mem_uc main_v106 (by decide)),
       h c _ (mem_uc main_v107 (by decide)),
       h c _ (mem_uc main_v71 (by decide)),
       (h c _ (mem_uc main_arg0 (by decide))).trans (W23_main_arg0 m ρ c),
       (h c _ (mem_uc main_arg1 (by decide))).trans (W23_main_arg1 m ρ c),
       (h c _ (mem_uc main_arg2 (by decide))).trans (W23_main_arg2 m ρ c),
       (h c _ (mem_uc main_arg3 (by decide))).trans (W23_main_arg3 m ρ c),
       (h c _ (mem_uc main_arg4 (by decide))).trans (W23_main_arg4 m ρ c),
       (h c _ (mem_uc main_arg5 (by decide))).trans (W23_main_arg5 m ρ c),
       (h c _ (mem_uc main_arg6 (by decide))).trans (W23_main_arg6 m ρ c),
       (h c _ (mem_uc main_arg7 (by decide))).trans (W23_main_arg7 m ρ c),
       (h c _ (mem_uc main_arg8 (by decide))).trans (W23_main_arg8 m ρ c),
       (h c _ (mem_uc main_arg9 (by decide))).trans (W23_main_arg9 m ρ c),
       (h c _ (mem_uc main_arg10 (by decide))).trans (W23_main_arg10 m ρ c),
       (h c _ (mem_uc main_arg11 (by decide))).trans (W23_main_arg11 m ρ c),
       (h c _ (mem_uc main_arg12 (by decide))).trans (W23_main_arg12 m ρ c),
       (h c _ (mem_uc main_arg13 (by decide))).trans (W23_main_arg13 m ρ c),
       (h c _ (mem_uc main_arg14 (by decide))).trans (W23_main_arg14 m ρ c),
       (h c _ (mem_uc main_arg15 (by decide))).trans (W23_main_arg15 m ρ c),
       (h c _ (mem_uc main_arg16 (by decide))).trans (W23_main_arg16 m ρ c),
       (h c _ (mem_uc main_arg17 (by decide))).trans (W23_main_arg17 m ρ c),
       (h c _ (mem_uc main_arg18 (by decide))).trans (W23_main_arg18 m ρ c),
       (h c _ (mem_uc main_arg19 (by decide))).trans (W23_main_arg19 m ρ c)⟩)

end Cert.KernelIdeal.Val

end
-- ==== Proof.KFinal.lean ====
/-
  The program's three results as functions of its arguments: the node embedding, and the scores of the positive
  and of the negative pairs — the two halves of the one stacked call of the predictor, row by row the same three-layer
  score the reference computes pair list by pair list.
-/
import proofs.«108703_j40132174414142_2_alg».proof.Proof.KValue
import proofs.«108703_j40132174414142_2_alg».proof.Proof.KHost2
import proofs.«108703_j40132174414142_2_alg».proof.Proof.KReg8
import proofs.«108703_j40132174414142_2_alg».proof.Proof.KScore
import proofs.«108703_j40132174414142_2_alg».proof.Proof.KRun

set_option maxRecDepth 16384

noncomputable section

namespace Cert.KernelIdeal.Val

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg) (c : Dev nD)

/-- The embedding is not touched after the eighth blocked call. -/
theorem W23_v71 : W23 m ρ c (Proc.devRef .tc main_v71) = (Cert.ReferenceIdeal.Spec.embed (F := Ideal) (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) :=
  (keep23 m ρ c main_v71 (by decide)).trans ((keep22 m ρ c main_v71 (by decide)).trans ((keep21 m ρ c main_v71 (by decide)).trans (W20_v71 m ρ c)))

theorem W21_v86 : W21 m ρ c (Proc.devRef .tc main_v86) = (concatenate S400000x160 0 [⟨S200000x160, (Host.gather gather_S50000x160_S200000x1_S200000x160_1_0_n_n_0_1_1160 (Cert.ReferenceIdeal.Spec.embed (F := Ideal) (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) (Cert.ReferenceIdeal.Spec.pairIdx (F := Ideal) (m ((c : Thread nD τ).loc main_arg4))))⟩, ⟨S200000x160, (Host.gather gather_S50000x160_S200000x1_S200000x160_1_0_n_n_0_1_1160 (Cert.ReferenceIdeal.Spec.embed (F := Ideal) (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) (Cert.ReferenceIdeal.Spec.pairIdx (F := Ideal) (m ((c : Thread nD τ).loc main_arg6))))⟩] concatenates_S200000x160_S200000x160_S400000x160_d0) := by
  refine (host8_a (W20 m ρ c)).trans ?_
  rw [W20_v71 m ρ c, W20_arg m ρ c main_arg4 (by decide), W20_arg m ρ c main_arg6 (by decide)]

theorem W21_v101 : W21 m ρ c (Proc.devRef .tc main_v101) = (concatenate S400000x160 0 [⟨S200000x160, (Host.gather gather_S50000x160_S200000x1_S200000x160_1_0_n_n_0_1_1160 (Cert.ReferenceIdeal.Spec.embed (F := Ideal) (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) (Cert.ReferenceIdeal.Spec.pairIdx (F := Ideal) (m ((c : Thread nD τ).loc main_arg5))))⟩, ⟨S200000x160, (Host.gather gather_S50000x160_S200000x1_S200000x160_1_0_n_n_0_1_1160 (Cert.ReferenceIdeal.Spec.embed (F := Ideal) (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) (Cert.ReferenceIdeal.Spec.pairIdx (F := Ideal) (m ((c : Thread nD τ).loc main_arg7))))⟩] concatenates_S200000x160_S200000x160_S400000x160_d0) := by
  refine (host8_b (W20 m ρ c)).trans ?_
  rw [W20_v71 m ρ c, W20_arg m ρ c main_arg5 (by decide), W20_arg m ρ c main_arg7 (by decide)]

theorem W21_v102 : W21 m ρ c (Proc.devRef .tc main_v102) = (shapeCast S1x80 (m ((c : Thread nD τ).loc main_arg15)) shapeCasts_S80_S1x80) := by
  refine (host8_r1 (W20 m ρ c)).trans ?_
  rw [W20_arg m ρ c main_arg15 (by decide)]

theorem W21_v103 : W21 m ρ c (Proc.devRef .tc main_v103) = (shapeCast S1x40 (m ((c : Thread nD τ).loc main_arg17)) shapeCasts_S40_S1x40) := by
  refine (host8_r2 (W20 m ρ c)).trans ?_
  rw [W20_arg m ρ c main_arg17 (by decide)]

theorem W21_v104 : W21 m ρ c (Proc.devRef .tc main_v104) = (shapeCast S1x1 (m ((c : Thread nD τ).loc main_arg19)) shapeCasts_S1_S1x1) := by
  refine (host8_r3 (W20 m ρ c)).trans ?_
  rw [W20_arg m ρ c main_arg19 (by decide)]

/-- After the last blocked call: the stacked scores. -/
theorem W22_v105 : W22 m ρ c (Proc.devRef .tc main_v105) = (predRows (concatenate S400000x160 0 [⟨S200000x160, (Host.gather gather_S50000x160_S200000x1_S200000x160_1_0_n_n_0_1_1160 (Cert.ReferenceIdeal.Spec.embed (F := Ideal) (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) (Cert.ReferenceIdeal.Spec.pairIdx (F := Ideal) (m ((c : Thread nD τ).loc main_arg4))))⟩, ⟨S200000x160, (Host.gather gather_S50000x160_S200000x1_S200000x160_1_0_n_n_0_1_1160 (Cert.ReferenceIdeal.Spec.embed (F := Ideal) (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) (Cert.ReferenceIdeal.Spec.pairIdx (F := Ideal) (m ((c : Thread nD τ).loc main_arg6))))⟩] concatenates_S200000x160_S200000x160_S400000x160_d0) (concatenate S400000x160 0 [⟨S200000x160, (Host.gather gather_S50000x160_S200000x1_S200000x160_1_0_n_n_0_1_1160 (Cert.ReferenceIdeal.Spec.embed (F := Ideal) (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) (Cert.ReferenceIdeal.Spec.pairIdx (F := Ideal) (m ((c : Thread nD τ).loc main_arg5))))⟩, ⟨S200000x160, (Host.gather gather_S50000x160_S200000x1_S200000x160_1_0_n_n_0_1_1160 (Cert.ReferenceIdeal.Spec.embed (F := Ideal) (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) (Cert.ReferenceIdeal.Spec.pairIdx (F := Ideal) (m ((c : Thread nD τ).loc main_arg7))))⟩] concatenates_S200000x160_S200000x160_S400000x160_d0) (m ((c : Thread nD τ).loc main_arg14)) (shapeCast S1x80 (m ((c : Thread nD τ).loc main_arg15)) shapeCasts_S80_S1x80) (m ((c : Thread nD τ).loc main_arg16)) (shapeCast S1x40 (m ((c : Thread nD τ).loc main_arg17)) shapeCasts_S40_S1x40) (m ((c : Thread nD τ).loc main_arg18)) (shapeCast S1x1 (m ((c : Thread nD τ).loc main_arg19)) shapeCasts_S1_S1x1)) := by
  have h := final8 (V21 m ρ) c
  rw [show V21 m ρ c main_v86 = (concatenate S400000x160 0 [⟨S200000x160, (Host.gather gather_S50000x160_S200000x1_S200000x160_1_0_n_n_0_1_1160 (Cert.ReferenceIdeal.Spec.embed (F := Ideal) (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) (Cert.ReferenceIdeal.Spec.pairIdx (F := Ideal) (m ((c : Thread nD τ).loc main_arg4))))⟩, ⟨S200000x160, (Host.gather gather_S50000x160_S200000x1_S200000x160_1_0_n_n_0_1_1160 (Cert.ReferenceIdeal.Spec.embed (F := Ideal) (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) (Cert.ReferenceIdeal.Spec.pairIdx (F := Ideal) (m ((c : Thread nD τ).loc main_arg6))))⟩] concatenates_S200000x160_S200000x160_S400000x160_d0) from W21_v86 m ρ c,
    show V21 m ρ c main_v101 = (concatenate S400000x160 0 [⟨S200000x160, (Host.gather gather_S50000x160_S200000x1_S200000x160_1_0_n_n_0_1_1160 (Cert.ReferenceIdeal.Spec.embed (F := Ideal) (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) (Cert.ReferenceIdeal.Spec.pairIdx (F := Ideal) (m ((c : Thread nD τ).loc main_arg5))))⟩, ⟨S200000x160, (Host.gather gather_S50000x160_S200000x1_S200000x160_1_0_n_n_0_1_1160 (Cert.ReferenceIdeal.Spec.embed (F := Ideal) (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) (Cert.ReferenceIdeal.Spec.pairIdx (F := Ideal) (m ((c : Thread nD τ).loc main_arg7))))⟩] concatenates_S200000x160_S200000x160_S400000x160_d0) from W21_v101 m ρ c,
    show V21 m ρ c main_arg14 = (m ((c : Thread nD τ).loc main_arg14)) from W21_arg m ρ c main_arg14 (by decide),
    show V21 m ρ c main_v102 = (shapeCast S1x80 (m ((c : Thread nD τ).loc main_arg15)) shapeCasts_S80_S1x80) from W21_v102 m ρ c,
    show V21 m ρ c main_arg16 = (m ((c : Thread nD τ).loc main_arg16)) from W21_arg m ρ c main_arg16 (by decide),
    show V21 m ρ c main_v103 = (shapeCast S1x40 (m ((c : Thread nD τ).loc main_arg17)) shapeCasts_S40_S1x40) from W21_v103 m ρ c,
    show V21 m ρ c main_arg18 = (m ((c : Thread nD τ).loc main_arg18)) from W21_arg m ρ c main_arg18 (by decide),
    show V21 m ρ c main_v104 = (shapeCast S1x1 (m ((c : Thread nD τ).loc main_arg19)) shapeCasts_S1_S1x1) from W21_v104 m ρ c] at h
  exact (W22_arr m ρ c 8).trans h

theorem W23_v106 : W23 m ρ c (Proc.devRef .tc main_v106) = (Cert.ReferenceIdeal.Spec.score (F := Ideal) (Cert.ReferenceIdeal.Spec.embed (F := Ideal) (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) (m ((c : Thread nD τ).loc main_arg4)) (m ((c : Thread nD τ).loc main_arg5)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19))) := by
  refine (host9_pos (W22 m ρ c)).trans ?_
  rw [W22_v105 m ρ c]
  exact score_pos (Cert.ReferenceIdeal.Spec.embed (F := Ideal) (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) (Cert.ReferenceIdeal.Spec.pairIdx (F := Ideal) (m ((c : Thread nD τ).loc main_arg4))) (Cert.ReferenceIdeal.Spec.pairIdx (F := Ideal) (m ((c : Thread nD τ).loc main_arg5))) (Cert.ReferenceIdeal.Spec.pairIdx (F := Ideal) (m ((c : Thread nD τ).loc main_arg6))) (Cert.ReferenceIdeal.Spec.pairIdx (F := Ideal) (m ((c : Thread nD τ).loc main_arg7))) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19))

theorem W23_v107 : W23 m ρ c (Proc.devRef .tc main_v107) = (Cert.ReferenceIdeal.Spec.score (F := Ideal) (Cert.ReferenceIdeal.Spec.embed (F := Ideal) (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) (m ((c : Thread nD τ).loc main_arg6)) (m ((c : Thread nD τ).loc main_arg7)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19))) := by
  refine (host9_neg (W22 m ρ c)).trans ?_
  rw [W22_v105 m ρ c]
  exact score_neg (Cert.ReferenceIdeal.Spec.embed (F := Ideal) (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) (Cert.ReferenceIdeal.Spec.pairIdx (F := Ideal) (m ((c : Thread nD τ).loc main_arg4))) (Cert.ReferenceIdeal.Spec.pairIdx (F := Ideal) (m ((c : Thread nD τ).loc main_arg5))) (Cert.ReferenceIdeal.Spec.pairIdx (F := Ideal) (m ((c : Thread nD τ).loc main_arg6))) (Cert.ReferenceIdeal.Spec.pairIdx (F := Ideal) (m ((c : Thread nD τ).loc main_arg7))) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19))

/-- Every weakly fair execution of the program ends with the scores of the positive pairs, the scores of the negative
    pairs and the embedding in its three result buffers, and the arguments as launched. -/
theorem kernel_run : θ_run defs (onTc (τ := τ) (main (F := Ideal))) ⟨m, fun _ => 0, ρ⟩ (fun r => ∀ c : Dev nD,
      r.2.mem ((c.tc : Thread nD τ).loc main_v106) = (Cert.ReferenceIdeal.Spec.score (F := Ideal) (Cert.ReferenceIdeal.Spec.embed (F := Ideal) (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) (m ((c : Thread nD τ).loc main_arg4)) (m ((c : Thread nD τ).loc main_arg5)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)))
      ∧ r.2.mem ((c.tc : Thread nD τ).loc main_v107) = (Cert.ReferenceIdeal.Spec.score (F := Ideal) (Cert.ReferenceIdeal.Spec.embed (F := Ideal) (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) (m ((c : Thread nD τ).loc main_arg6)) (m ((c : Thread nD τ).loc main_arg7)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)))
      ∧ r.2.mem ((c.tc : Thread nD τ).loc main_v71) = (Cert.ReferenceIdeal.Spec.embed (F := Ideal) (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun r h c => ⟨(h c).1.trans (W23_v106 m ρ c), (h c).2.1.trans (W23_v107 m ρ c),
      (h c).2.2.1.trans (W23_v71 m ρ c), (h c).2.2.2⟩) (run_all m ρ)

end Cert.KernelIdeal.Val

end
-- ==== Proof.RefOps.lean ====
/-
  The reference program's run: @main as one straight line of host operations, and what every buffer holds after it.

  @main is three parts run in order, and it calls eight small functions (the two clips of the degree vectors, the
  two rectifiers of the graph layers, and four leaky rectifiers, each of which selects through a further
  function). A call means its callee's operations, run on the call's own buffers; substituted at the call sites
  they make @main a sequence of 198 operations with no call left. The sequence is listed below in eight consecutive
  pieces, cut where a stage of the network ends (and where a part of @main ends): each part is the concatenation of
  its pieces and equals the run of that list, so @main equals the run of the whole list, and a straight line of
  host operations ends with every buffer at the fold of the operations' results over the launch contents.
-/
import proofs.«108703_j40132174414142_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The operations, stage by stage -/

/-- The two degree columns: ones scattered onto the source numbers and onto the destination numbers, each clipped below at one and raised to the power -1/2, as a column (`%11` from the sources, `%14` from the destinations). 26 operations. -/
abbrev nrm : List (HloOp τ sig (Elt F)) :=
  [ StableHlo.nullary main_cst (constant S_ .f32 0x3F800000#32),
    StableHlo.unary main_cst main_v0 (broadcastInDim S800000 ![] bcast_S_S800000 : (⟨S_, .f32⟩ : BufTy).Contents (Elt F) → (⟨S800000, .f32⟩ : BufTy).Contents (Elt F)),
    StableHlo.nullary main_cst_0 (constant S_ .f32 0x00000000#32),
    StableHlo.unary main_cst_0 main_v1 (broadcastInDim S50000 ![] bcast_S_S50000 : (⟨S_, .f32⟩ : BufTy).Contents (Elt F) → (⟨S50000, .f32⟩ : BufTy).Contents (Elt F)),
    StableHlo.unary main_arg2 main_v2 (broadcastInDim S800000x1 ![0] bcast_S800000_S800000x1_0 : (⟨S800000, .i32⟩ : BufTy).Contents (Elt F) → (⟨S800000x1, .i32⟩ : BufTy).Contents (Elt F)),
    StableHlo.ternary main_v1 main_v2 main_v0 main_v3 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_1 (constant S_ .f32 0x3F800000#32),
    StableHlo.TRef.unary (.of main_cst_1 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S50000, .f32⟩) (broadcastInDim S50000 ![] bcast_S_S50000),
    StableHlo.TRef.binary (.of main_call0_v1 : StableHlo.TRef sig ⟨S50000, .f32⟩) (.of main_v3 : StableHlo.TRef sig ⟨S50000, .f32⟩) (.of main_v4 : StableHlo.TRef sig ⟨S50000, .f32⟩) maximumf,
    StableHlo.nullary main_cst_2 (constant S_ .f32 0x00000000#32),
    StableHlo.unary main_cst_2 main_v5 (broadcastInDim S50000 ![] bcast_S_S50000 : (⟨S_, .f32⟩ : BufTy).Contents (Elt F) → (⟨S50000, .f32⟩ : BufTy).Contents (Elt F)),
    StableHlo.unary main_arg3 main_v6 (broadcastInDim S800000x1 ![0] bcast_S800000_S800000x1_0 : (⟨S800000, .i32⟩ : BufTy).Contents (Elt F) → (⟨S800000x1, .i32⟩ : BufTy).Contents (Elt F)),
    StableHlo.ternary main_v5 main_v6 main_v0 main_v7 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_3 (constant S_ .f32 0x3F800000#32),
    StableHlo.TRef.unary (.of main_cst_3 : StableHlo.TRef sig ⟨S_, .f32⟩) (.of main_call1_v0 : StableHlo.TRef sig ⟨S_, .f32⟩) id,
    StableHlo.TRef.unary (.of main_call1_v0 : StableHlo.TRef sig ⟨S_, .f32⟩) (.of main_call1_v1 : StableHlo.TRef sig ⟨S50000, .f32⟩) (broadcastInDim S50000 ![] bcast_S_S50000),
    StableHlo.TRef.binary (.of main_call1_v1 : StableHlo.TRef sig ⟨S50000, .f32⟩) (.of main_v7 : StableHlo.TRef sig ⟨S50000, .f32⟩) (.of main_v8 : StableHlo.TRef sig ⟨S50000, .f32⟩) maximumf,
    StableHlo.nullary main_cst_4 (constant S_ .f32 0xBF000000#32),
    StableHlo.unary main_cst_4 main_v9 (broadcastInDim S50000 ![] bcast_S_S50000 : (⟨S_, .f32⟩ : BufTy).Contents (Elt F) → (⟨S50000, .f32⟩ : BufTy).Contents (Elt F)),
    StableHlo.binary main_v4 main_v9 main_v10 (Host.powf : (⟨S50000, .f32⟩ : BufTy).Contents (Elt F) → (⟨S50000, .f32⟩ : BufTy).Contents (Elt F) → (⟨S50000, .f32⟩ : BufTy).Contents (Elt F)),
    StableHlo.unary main_v10 main_v11 (broadcastInDim S50000x1 ![0] bcast_S50000_S50000x1_0 : (⟨S50000, .f32⟩ : BufTy).Contents (Elt F) → (⟨S50000x1, .f32⟩ : BufTy).Contents (Elt F)),
    StableHlo.nullary main_cst_5 (constant S_ .f32 0xBF000000#32),
    StableHlo.unary main_cst_5 main_v12 (broadcastInDim S50000 ![] bcast_S_S50000 : (⟨S_, .f32⟩ : BufTy).Contents (Elt F) → (⟨S50000, .f32⟩ : BufTy).Contents (Elt F)),
    StableHlo.binary main_v8 main_v12 main_v13 (Host.powf : (⟨S50000, .f32⟩ : BufTy).Contents (Elt F) → (⟨S50000, .f32⟩ : BufTy).Contents (Elt F) → (⟨S50000, .f32⟩ : BufTy).Contents (Elt F)),
    StableHlo.unary main_v13 main_v14 (broadcastInDim S50000x1 ![0] bcast_S50000_S50000x1_0 : (⟨S50000, .f32⟩ : BufTy).Contents (Elt F) → (⟨S50000x1, .f32⟩ : BufTy).Contents (Elt F)) ]

/-- Layer one: the input rows scaled by the source column, aggregated along the edges, multiplied by the first weight matrix, scaled by the destination column, the bias added, rectified (`%36`). 27 operations. -/
abbrev lay1 : List (HloOp τ sig (Elt F)) :=
  [ StableHlo.unary main_v11 main_v15 (broadcastInDim S50000x256 ![0, 1] bcast_S50000x1_S50000x256_0_1 : (⟨S50000x1, .f32⟩ : BufTy).Contents (Elt F) → (⟨S50000x256, .f32⟩ : BufTy).Contents (Elt F)),
    StableHlo.binary main_arg0 main_v15 main_v16 (mulf : (⟨S50000x256, .f32⟩ : BufTy).Contents (Elt F) → (⟨S50000x256, .f32⟩ : BufTy).Contents (Elt F) → (⟨S50000x256, .f32⟩ : BufTy).Contents (Elt F)),
    StableHlo.nullary main_c (constantI S_ 32 0#32),
    StableHlo.unary main_c main_v17 (broadcastInDim S800000 ![] bcast_S_S800000 : (⟨S_, .i32⟩ : BufTy).Contents (Elt F) → (⟨S800000, .i32⟩ : BufTy).Contents (Elt F)),
    StableHlo.binary main_arg2 main_v17 main_v18 (cmpi .slt : (⟨S800000, .i32⟩ : BufTy).Contents (Elt F) → (⟨S800000, .i32⟩ : BufTy).Contents (Elt F) → (⟨S800000, .i1⟩ : BufTy).Contents (Elt F)),
    StableHlo.nullary main_c_6 (constantI S_ 32 50000#32),
    StableHlo.unary main_c_6 main_v19 (broadcastInDim S800000 ![] bcast_S_S800000 : (⟨S_, .i32⟩ : BufTy).Contents (Elt F) → (⟨S800000, .i32⟩ : BufTy).Contents (Elt F)),
    StableHlo.binary main_arg2 main_v19 main_v20 (addi : (⟨S800000, .i32⟩ : BufTy).Contents (Elt F) → (⟨S800000, .i32⟩ : BufTy).Contents (Elt F) → (⟨S800000, .i32⟩ : BufTy).Contents (Elt F)),
    StableHlo.ternary main_v18 main_v20 main_arg2 main_v21 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v21 main_v22 (broadcastInDim S800000x1 ![0] bcast_S800000_S800000x1_0 : (⟨S800000, .i32⟩ : BufTy).Contents (Elt F) → (⟨S800000x1, .i32⟩ : BufTy).Contents (Elt F)),
    StableHlo.binary main_v16 main_v22 main_v23 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    StableHlo.unary main_arg1 main_v24 (broadcastInDim S800000x1 ![0] bcast_S800000_S800000x1_0 : (⟨S800000, .f32⟩ : BufTy).Contents (Elt F) → (⟨S800000x1, .f32⟩ : BufTy).Contents (Elt F)),
    StableHlo.unary main_v24 main_v25 (broadcastInDim S800000x256 ![0, 1] bcast_S800000x1_S800000x256_0_1 : (⟨S800000x1, .f32⟩ : BufTy).Contents (Elt F) → (⟨S800000x256, .f32⟩ : BufTy).Contents (Elt F)),
    StableHlo.binary main_v23 main_v25 main_v26 (mulf : (⟨S800000x256, .f32⟩ : BufTy).Contents (Elt F) → (⟨S800000x256, .f32⟩ : BufTy).Contents (Elt F) → (⟨S800000x256, .f32⟩ : BufTy).Contents (Elt F)),
    StableHlo.nullary main_cst_7 (constant S_ .f32 0x00000000#32),
    StableHlo.unary main_cst_7 main_v27 (broadcastInDim S50000x256 ![] bcast_S_S50000x256 : (⟨S_, .f32⟩ : BufTy).Contents (Elt F) → (⟨S50000x256, .f32⟩ : BufTy).Contents (Elt F)),
    StableHlo.unary main_arg3 main_v28 (broadcastInDim S800000x1 ![0] bcast_S800000_S800000x1_0 : (⟨S800000, .i32⟩ : BufTy).Contents (Elt F) → (⟨S800000x1, .i32⟩ : BufTy).Contents (Elt F)),
    StableHlo.ternary main_v27 main_v28 main_v26 main_v29 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    StableHlo.binary main_v29 main_arg8 main_v30 ((fun l r => Host.dotGeneral dot_S50000x256_S256x512_S50000x512_1_0_0_1_n_n none l r) : (⟨S50000x256, .f32⟩ : BufTy).Contents (Elt F) → (⟨S256x512, .f32⟩ : BufTy).Contents (Elt F) → (⟨S50000x512, .f32⟩ : BufTy).Contents (Elt F)),
    StableHlo.unary main_v14 main_v31 (broadcastInDim S50000x512 ![0, 1] bcast_S50000x1_S50000x512_0_1 : (⟨S50000x1, .f32⟩ : BufTy).Contents (Elt F) → (⟨S50000x512, .f32⟩ : BufTy).Contents (Elt F)),
    StableHlo.binary main_v30 main_v31 main_v32 (mulf : (⟨S50000x512, .f32⟩ : BufTy).Contents (Elt F) → (⟨S50000x512, .f32⟩ : BufTy).Contents (Elt F) → (⟨S50000x512, .f32⟩ : BufTy).Contents (Elt F)),
    StableHlo.unary main_arg9 main_v33 (broadcastInDim S1x512 ![1] bcast_S512_S1x512_1 : (⟨S512, .f32⟩ : BufTy).Contents (Elt F) → (⟨S1x512, .f32⟩ : BufTy).Contents (Elt F)),
    StableHlo.unary main_v33 main_v34 (broadcastInDim S50000x512 ![0, 1] bcast_S1x512_S50000x512_0_1 : (⟨S1x512, .f32⟩ : BufTy).Contents (Elt F) → (⟨S50000x512, .f32⟩ : BufTy).Contents (Elt F)),
    StableHlo.binary main_v32 main_v34 main_v35 (addf : (⟨S50000x512, .f32⟩ : BufTy).Contents (Elt F) → (⟨S50000x512, .f32⟩ : BufTy).Contents (Elt F) → (⟨S50000x512, .f32⟩ : BufTy).Contents (Elt F)),
    StableHlo.TRef.nullary (.of main_call2_cst : StableHlo.TRef sig ⟨S_, .f32⟩) (constant S_ .f32 0x00000000#32),
    StableHlo.TRef.unary (.of main_call2_cst : StableHlo.TRef sig ⟨S_, .f32⟩) (.of main_call2_v0 : StableHlo.TRef sig ⟨S50000x512, .f32⟩) (broadcastInDim S50000x512 ![] bcast_S_S50000x512),
    StableHlo.TRef.binary (.of main_v35 : StableHlo.TRef sig ⟨S50000x512, .f32⟩) (.of main_call2_v0 : StableHlo.TRef sig ⟨S50000x512, .f32⟩) (.of main_v36 : StableHlo.TRef sig ⟨S50000x512, .f32⟩) maximumf ]

/-- Layer two, first half: layer one's rows scaled by the source column and multiplied by the second weight matrix, the edge rows gathered, the edge weights as a column. 13 operations. -/
abbrev lay2a : List (HloOp τ sig (Elt F)) :=
  [ StableHlo.unary main_v11 main_v37 (broadcastInDim S50000x512 ![0, 1] bcast_S50000x1_S50000x512_0_1 : (⟨S50000x1, .f32⟩ : BufTy).Contents (Elt F) → (⟨S50000x512, .f32⟩ : BufTy).Contents (Elt F)),
    StableHlo.binary main_v36 main_v37 main_v38 (mulf : (⟨S50000x512, .f32⟩ : BufTy).Contents (Elt F) → (⟨S50000x512, .f32⟩ : BufTy).Contents (Elt F) → (⟨S50000x512, .f32⟩ : BufTy).Contents (Elt F)),
    StableHlo.binary main_v38 main_arg10 main_v39 ((fun l r => Host.dotGeneral dot_S50000x512_S512x256_S50000x256_1_0_0_1_n_n none l r) : (⟨S50000x512, .f32⟩ : BufTy).Contents (Elt F) → (⟨S512x256, .f32⟩ : BufTy).Contents (Elt F) → (⟨S50000x256, .f32⟩ : BufTy).Contents (Elt F)),
    StableHlo.nullary main_c_8 (constantI S_ 32 0#32),
    StableHlo.unary main_c_8 main_v40 (broadcastInDim S800000 ![] bcast_S_S800000 : (⟨S_, .i32⟩ : BufTy).Contents (Elt F) → (⟨S800000, .i32⟩ : BufTy).Contents (Elt F)),
    StableHlo.binary main_arg2 main_v40 main_v41 (cmpi .slt : (⟨S800000, .i32⟩ : BufTy).Contents (Elt F) → (⟨S800000, .i32⟩ : BufTy).Contents (Elt F) → (⟨S800000, .i1⟩ : BufTy).Contents (Elt F)),
    StableHlo.nullary main_c_9 (constantI S_ 32 50000#32),
    StableHlo.unary main_c_9 main_v42 (broadcastInDim S800000 ![] bcast_S_S800000 : (⟨S_, .i32⟩ : BufTy).Contents (Elt F) → (⟨S800000, .i32⟩ : BufTy).Contents (Elt F)),
    StableHlo.binary main_arg2 main_v42 main_v43 (addi : (⟨S800000, .i32⟩ : BufTy).Contents (Elt F) → (⟨S800000, .i32⟩ : BufTy).Contents (Elt F) → (⟨S800000, .i32⟩ : BufTy).Contents (Elt F)),
    StableHlo.ternary main_v41 main_v43 main_arg2 main_v44 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v44 main_v45 (broadcastInDim S800000x1 ![0] bcast_S800000_S800000x1_0 : (⟨S800000, .i32⟩ : BufTy).Contents (Elt F) → (⟨S800000x1, .i32⟩ : BufTy).Contents (Elt F)),
    StableHlo.binary main_v39 main_v45 main_v46 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    StableHlo.unary main_arg1 main_v47 (broadcastInDim S800000x1 ![0] bcast_S800000_S800000x1_0 : (⟨S800000, .f32⟩ : BufTy).Contents (Elt F) → (⟨S800000x1, .f32⟩ : BufTy).Contents (Elt F)) ]

/-- Layer two, second half: the gathered rows weighted and aggregated, scaled by the destination column, the bias added, rectified (`%58`). 14 operations. -/
abbrev lay2b : List (HloOp τ sig (Elt F)) :=
  [ StableHlo.unary main_v47 main_v48 (broadcastInDim S800000x256 ![0, 1] bcast_S800000x1_S800000x256_0_1 : (⟨S800000x1, .f32⟩ : BufTy).Contents (Elt F) → (⟨S800000x256, .f32⟩ : BufTy).Contents (Elt F)),
    StableHlo.binary main_v46 main_v48 main_v49 (mulf : (⟨S800000x256, .f32⟩ : BufTy).Contents (Elt F) → (⟨S800000x256, .f32⟩ : BufTy).Contents (Elt F) → (⟨S800000x256, .f32⟩ : BufTy).Contents (Elt F)),
    StableHlo.nullary main_cst_10 (constant S_ .f32 0x00000000#32),
    StableHlo.unary main_cst_10 main_v50 (broadcastInDim S50000x256 ![] bcast_S_S50000x256 : (⟨S_, .f32⟩ : BufTy).Contents (Elt F) → (⟨S50000x256, .f32⟩ : BufTy).Contents (Elt F)),
    StableHlo.unary main_arg3 main_v51 (broadcastInDim S800000x1 ![0] bcast_S800000_S800000x1_0 : (⟨S800000, .i32⟩ : BufTy).Contents (Elt F) → (⟨S800000x1, .i32⟩ : BufTy).Contents (Elt F)),
    StableHlo.ternary main_v50 main_v51 main_v49 main_v52 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    StableHlo.unary main_v14 main_v53 (broadcastInDim S50000x256 ![0, 1] bcast_S50000x1_S50000x256_0_1 : (⟨S50000x1, .f32⟩ : BufTy).Contents (Elt F) → (⟨S50000x256, .f32⟩ : BufTy).Contents (Elt F)),
    StableHlo.binary main_v52 main_v53 main_v54 (mulf : (⟨S50000x256, .f32⟩ : BufTy).Contents (Elt F) → (⟨S50000x256, .f32⟩ : BufTy).Contents (Elt F) → (⟨S50000x256, .f32⟩ : BufTy).Contents (Elt F)),
    StableHlo.unary main_arg11 main_v55 (broadcastInDim S1x256 ![1] bcast_S256_S1x256_1 : (⟨S256, .f32⟩ : BufTy).Contents (Elt F) → (⟨S1x256, .f32⟩ : BufTy).Contents (Elt F)),
    StableHlo.unary main_v55 main_v56 (broadcastInDim S50000x256 ![0, 1] bcast_S1x256_S50000x256_0_1 : (⟨S1x256, .f32⟩ : BufTy).Contents (Elt F) → (⟨S50000x256, .f32⟩ : BufTy).Contents (Elt F)),
    StableHlo.binary main_v54 main_v56 main_v57 (addf : (⟨S50000x256, .f32⟩ : BufTy).Contents (Elt F) → (⟨S50000x256, .f32⟩ : BufTy).Contents (Elt F) → (⟨S50000x256, .f32⟩ : BufTy).Contents (Elt F)),
    StableHlo.TRef.nullary (.of main_call3_cst : StableHlo.TRef sig ⟨S_, .f32⟩) (constant S_ .f32 0x00000000#32),
    StableHlo.TRef.unary (.of main_call3_cst : StableHlo.TRef sig ⟨S_, .f32⟩) (.of main_call3_v0 : StableHlo.TRef sig ⟨S50000x256, .f32⟩) (broadcastInDim S50000x256 ![] bcast_S_S50000x256),
    StableHlo.TRef.binary (.of main_v57 : StableHlo.TRef sig ⟨S50000x256, .f32⟩) (.of main_call3_v0 : StableHlo.TRef sig ⟨S50000x256, .f32⟩) (.of main_v58 : StableHlo.TRef sig ⟨S50000x256, .f32⟩) maximumf ]

/-- Layer three: layer two's rows scaled, multiplied by the third weight matrix, aggregated, scaled by the destination column, the bias added (`%79`, the embedding). 24 operations. -/
abbrev lay3 : List (HloOp τ sig (Elt F)) :=
  [ StableHlo.unary main_v11 main_v59 (broadcastInDim S50000x256 ![0, 1] bcast_S50000x1_S50000x256_0_1 : (⟨S50000x1, .f32⟩ : BufTy).Contents (Elt F) → (⟨S50000x256, .f32⟩ : BufTy).Contents (Elt F)),
    StableHlo.binary main_v58 main_v59 main_v60 (mulf : (⟨S50000x256, .f32⟩ : BufTy).Contents (Elt F) → (⟨S50000x256, .f32⟩ : BufTy).Contents (Elt F) → (⟨S50000x256, .f32⟩ : BufTy).Contents (Elt F)),
    StableHlo.binary main_v60 main_arg12 main_v61 ((fun l r => Host.dotGeneral dot_S50000x256_S256x160_S50000x160_1_0_0_1_n_n none l r) : (⟨S50000x256, .f32⟩ : BufTy).Contents (Elt F) → (⟨S256x160, .f32⟩ : BufTy).Contents (Elt F) → (⟨S50000x160, .f32⟩ : BufTy).Contents (Elt F)),
    StableHlo.nullary main_c_11 (constantI S_ 32 0#32),
    StableHlo.unary main_c_11 main_v62 (broadcastInDim S800000 ![] bcast_S_S800000 : (⟨S_, .i32⟩ : BufTy).Contents (Elt F) → (⟨S800000, .i32⟩ : BufTy).Contents (Elt F)),
    StableHlo.binary main_arg2 main_v62 main_v63 (cmpi .slt : (⟨S800000, .i32⟩ : BufTy).Contents (Elt F) → (⟨S800000, .i32⟩ : BufTy).Contents (Elt F) → (⟨S800000, .i1⟩ : BufTy).Contents (Elt F)),
    StableHlo.nullary main_c_12 (constantI S_ 32 50000#32),
    StableHlo.unary main_c_12 main_v64 (broadcastInDim S800000 ![] bcast_S_S800000 : (⟨S_, .i32⟩ : BufTy).Contents (Elt F) → (⟨S800000, .i32⟩ : BufTy).Contents (Elt F)),
    StableHlo.binary main_arg2 main_v64 main_v65 (addi : (⟨S800000, .i32⟩ : BufTy).Contents (Elt F) → (⟨S800000, .i32⟩ : BufTy).Contents (Elt F) → (⟨S800000, .i32⟩ : BufTy).Contents (Elt F)),
    StableHlo.ternary main_v63 main_v65 main_arg2 main_v66 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v66 main_v67 (broadcastInDim S800000x1 ![0] bcast_S800000_S800000x1_0 : (⟨S800000, .i32⟩ : BufTy).Contents (Elt F) → (⟨S800000x1, .i32⟩ : BufTy).Contents (Elt F)),
    StableHlo.binary main_v61 main_v67 main_v68 ((fun x i => Host.gather gather_S50000x160_S800000x1_S800000x160_1_0_n_n_0_1_1160 x i) : (⟨S50000x160, .f32⟩ : BufTy).Contents (Elt F) → (⟨S800000x1, .i32⟩ : BufTy).Contents (Elt F) → (⟨S800000x160, .f32⟩ : BufTy).Contents (Elt F)),
    StableHlo.unary main_arg1 main_v69 (broadcastInDim S800000x1 ![0] bcast_S800000_S800000x1_0 : (⟨S800000, .f32⟩ : BufTy).Contents (Elt F) → (⟨S800000x1, .f32⟩ : BufTy).Contents (Elt F)),
    StableHlo.unary main_v69 main_v70 (broadcastInDim S800000x160 ![0, 1] bcast_S800000x1_S800000x160_0_1 : (⟨S800000x1, .f32⟩ : BufTy).Contents (Elt F) → (⟨S800000x160, .f32⟩ : BufTy).Contents (Elt F)),
    StableHlo.binary main_v68 main_v70 main_v71 (mulf : (⟨S800000x160, .f32⟩ : BufTy).Contents (Elt F) → (⟨S800000x160, .f32⟩ : BufTy).Contents (Elt F) → (⟨S800000x160, .f32⟩ : BufTy).Contents (Elt F)),
    StableHlo.nullary main_cst_13 (constant S_ .f32 0x00000000#32),
    StableHlo.unary main_cst_13 main_v72 (broadcastInDim S50000x160 ![] bcast_S_S50000x160 : (⟨S_, .f32⟩ : BufTy).Contents (Elt F) → (⟨S50000x160, .f32⟩ : BufTy).Contents (Elt F)),
    StableHlo.unary main_arg3 main_v73 (broadcastInDim S800000x1 ![0] bcast_S800000_S800000x1_0 : (⟨S800000, .i32⟩ : BufTy).Contents (Elt F) → (⟨S800000x1, .i32⟩ : BufTy).Contents (Elt F)),
    StableHlo.ternary main_v72 main_v73 main_v71 main_v74 ((fun x i u => Host.scatterAdd scatter_S50000x160_S800000x1_S800000x160_1_0_0_1 x i u) : (⟨S50000x160, .f32⟩ : BufTy).Contents (Elt F) → (⟨S800000x1, .i32⟩ : BufTy).Contents (Elt F) → (⟨S800000x160, .f32⟩ : BufTy).Contents (Elt F) → (⟨S50000x160, .f32⟩ : BufTy).Contents (Elt F)),
    StableHlo.unary main_v14 main_v75 (broadcastInDim S50000x160 ![0, 1] bcast_S50000x1_S50000x160_0_1 : (⟨S50000x1, .f32⟩ : BufTy).Contents (Elt F) → (⟨S50000x160, .f32⟩ : BufTy).Contents (Elt F)),
    StableHlo.binary main_v74 main_v75 main_v76 (mulf : (⟨S50000x160, .f32⟩ : BufTy).Contents (Elt F) → (⟨S50000x160, .f32⟩ : BufTy).Contents (Elt F) → (⟨S50000x160, .f32⟩ : BufTy).Contents (Elt F)),
    StableHlo.unary main_arg13 main_v77 (broadcastInDim S1x160 ![1] bcast_S160_S1x160_1 : (⟨S160, .f32⟩ : BufTy).Contents (Elt F) → (⟨S1x160, .f32⟩ : BufTy).Contents (Elt F)),
    StableHlo.unary main_v77 main_v78 (broadcastInDim S50000x160 ![0, 1] bcast_S1x160_S50000x160_0_1 : (⟨S1x160, .f32⟩ : BufTy).Contents (Elt F) → (⟨S50000x160, .f32⟩ : BufTy).Contents (Elt F)),
    StableHlo.binary main_v76 main_v78 main_v79 (addf : (⟨S50000x160, .f32⟩ : BufTy).Contents (Elt F) → (⟨S50000x160, .f32⟩ : BufTy).Contents (Elt F) → (⟨S50000x160, .f32⟩ : BufTy).Contents (Elt F)) ]

/-- The positive pairs' score, first half: the two endpoint rows of the embedding gathered and multiplied, the first predictor product and its bias, the leak constant. 24 operations. -/
abbrev posA : List (HloOp τ sig (Elt F)) :=
  [ StableHlo.nullary main_c_14 (constantI S_ 32 0#32),
    StableHlo.unary main_c_14 main_v80 (broadcastInDim S200000 ![] bcast_S_S200000 : (⟨S_, .i32⟩ : BufTy).Contents (Elt F) → (⟨S200000, .i32⟩ : BufTy).Contents (Elt F)),
    StableHlo.binary main_arg4 main_v80 main_v81 (cmpi .slt : (⟨S200000, .i32⟩ : BufTy).Contents (Elt F) → (⟨S200000, .i32⟩ : BufTy).Contents (Elt F) → (⟨S200000, .i1⟩ : BufTy).Contents (Elt F)),
    StableHlo.nullary main_c_15 (constantI S_ 32 50000#32),
    StableHlo.unary main_c_15 main_v82 (broadcastInDim S200000 ![] bcast_S_S200000 : (⟨S_, .i32⟩ : BufTy).Contents (Elt F) → (⟨S200000, .i32⟩ : BufTy).Contents (Elt F)),
    StableHlo.binary main_arg4 main_v82 main_v83 (addi : (⟨S200000, .i32⟩ : BufTy).Contents (Elt F) → (⟨S200000, .i32⟩ : BufTy).Contents (Elt F) → (⟨S200000, .i32⟩ : BufTy).Contents (Elt F)),
    StableHlo.ternary main_v81 main_v83 main_arg4 main_v84 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v84 main_v85 (broadcastInDim S200000x1 ![0] bcast_S200000_S200000x1_0 : (⟨S200000, .i32⟩ : BufTy).Contents (Elt F) → (⟨S200000x1, .i32⟩ : BufTy).Contents (Elt F)),
    StableHlo.binary main_v79 main_v85 main_v86 ((fun x i => Host.gather gather_S50000x160_S200000x1_S200000x160_1_0_n_n_0_1_1160 x i) : (⟨S50000x160, .f32⟩ : BufTy).Contents (Elt F) → (⟨S200000x1, .i32⟩ : BufTy).Contents (Elt F) → (⟨S200000x160, .f32⟩ : BufTy).Contents (Elt F)),
    StableHlo.nullary main_c_16 (constantI S_ 32 0#32),
    StableHlo.unary main_c_16 main_v87 (broadcastInDim S200000 ![] bcast_S_S200000 : (⟨S_, .i32⟩ : BufTy).Contents (Elt F) → (⟨S200000, .i32⟩ : BufTy).Contents (Elt F)),
    StableHlo.binary main_arg5 main_v87 main_v88 (cmpi .slt : (⟨S200000, .i32⟩ : BufTy).Contents (Elt F) → (⟨S200000, .i32⟩ : BufTy).Contents (Elt F) → (⟨S200000, .i1⟩ : BufTy).Contents (Elt F)),
    StableHlo.nullary main_c_17 (constantI S_ 32 50000#32),
    StableHlo.unary main_c_17 main_v89 (broadcastInDim S200000 ![] bcast_S_S200000 : (⟨S_, .i32⟩ : BufTy).Contents (Elt F) → (⟨S200000, .i32⟩ : BufTy).Contents (Elt F)),
    StableHlo.binary main_arg5 main_v89 main_v90 (addi : (⟨S200000, .i32⟩ : BufTy).Contents (Elt F) → (⟨S200000, .i32⟩ : BufTy).Contents (Elt F) → (⟨S200000, .i32⟩ : BufTy).Contents (Elt F)),
    StableHlo.ternary main_v88 main_v90 main_arg5 main_v91 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v91 main_v92 (broadcastInDim S200000x1 ![0] bcast_S200000_S200000x1_0 : (⟨S200000, .i32⟩ : BufTy).Contents (Elt F) → (⟨S200000x1, .i32⟩ : BufTy).Contents (Elt F)),
    StableHlo.binary main_v79 main_v92 main_v93 ((fun x i => Host.gather gather_S50000x160_S200000x1_S200000x160_1_0_n_n_0_1_1160 x i) : (⟨S50000x160, .f32⟩ : BufTy).Contents (Elt F) → (⟨S200000x1, .i32⟩ : BufTy).Contents (Elt F) → (⟨S200000x160, .f32⟩ : BufTy).Contents (Elt F)),
    StableHlo.binary main_v86 main_v93 main_v94 (mulf : (⟨S200000x160, .f32⟩ : BufTy).Contents (Elt F) → (⟨S200000x160, .f32⟩ : BufTy).Contents (Elt F) → (⟨S200000x160, .f32⟩ : BufTy).Contents (Elt F)),
    StableHlo.binary main_v94 main_arg14 main_v95 ((fun l r => Host.dotGeneral dot_S200000x160_S160x80_S200000x80_1_0_0_1_n_n none l r) : (⟨S200000x160, .f32⟩ : BufTy).Contents (Elt F) → (⟨S160x80, .f32⟩ : BufTy).Contents (Elt F) → (⟨S200000x80, .f32⟩ : BufTy).Contents (Elt F)),
    StableHlo.unary main_arg15 main_v96 (broadcastInDim S1x80 ![1] bcast_S80_S1x80_1 : (⟨S80, .f32⟩ : BufTy).Contents (Elt F) → (⟨S1x80, .f32⟩ : BufTy).Contents (Elt F)),
    StableHlo.unary main_v96 main_v97 (broadcastInDim S200000x80 ![0, 1] bcast_S1x80_S200000x80_0_1 : (⟨S1x80, .f32⟩ : BufTy).Contents (Elt F) → (⟨S200000x80, .f32⟩ : BufTy).Contents (Elt F)),
    StableHlo.binary main_v95 main_v97 main_v98 (addf : (⟨S200000x80, .f32⟩ : BufTy).Contents (Elt F) → (⟨S200000x80, .f32⟩ : BufTy).Contents (Elt F) → (⟨S200000x80, .f32⟩ : BufTy).Contents (Elt F)),
    StableHlo.nullary main_cst_18 (constant S_ .f32 0x3E4CCCCD#32) ]

/-- The positive pairs' score, second half: the leaky rectifier, the second predictor product and bias, the leaky rectifier, the third product and bias (`%108`). 23 operations. -/
abbrev posB : List (HloOp τ sig (Elt F)) :=
  [ StableHlo.TRef.nullary (.of main_call4_cst : StableHlo.TRef sig ⟨S_, .f32⟩) (constant S_ .f32 0x00000000#32),
    StableHlo.TRef.unary (.of main_call4_cst : StableHlo.TRef sig ⟨S_, .f32⟩) (.of main_call4_v0 : StableHlo.TRef sig ⟨S200000x80, .f32⟩) (broadcastInDim S200000x80 ![] bcast_S_S200000x80),
    StableHlo.TRef.binary (.of main_v98 : StableHlo.TRef sig ⟨S200000x80, .f32⟩) (.of main_call4_v0 : StableHlo.TRef sig ⟨S200000x80, .f32⟩) (.of main_call4_v1 : StableHlo.TRef sig ⟨S200000x80, .i1⟩) (cmpf .oge),
    StableHlo.TRef.unary (.of main_cst_18 : StableHlo.TRef sig ⟨S_, .f32⟩) (.of main_call4_v2 : StableHlo.TRef sig ⟨S_, .f32⟩) id,
    StableHlo.TRef.unary (.of main_call4_v2 : StableHlo.TRef sig ⟨S_, .f32⟩) (.of main_call4_v3 : StableHlo.TRef sig ⟨S200000x80, .f32⟩) (broadcastInDim S200000x80 ![] bcast_S_S200000x80),
    StableHlo.TRef.binary (.of main_call4_v3 : StableHlo.TRef sig ⟨S200000x80, .f32⟩) (.of main_v98 : StableHlo.TRef sig ⟨S200000x80, .f32⟩) (.of main_call4_v4 : StableHlo.TRef sig ⟨S200000x80, .f32⟩) mulf,
    StableHlo.TRef.ternary (.of main_call4_v1 : StableHlo.TRef sig ⟨S200000x80, .i1⟩) (.of main_v98 : StableHlo.TRef sig ⟨S200000x80, .f32⟩) (.of main_call4_v4 : StableHlo.TRef sig ⟨S200000x80, .f32⟩) (.of main_v99 : StableHlo.TRef sig ⟨S200000x80, .f32⟩) select,
    StableHlo.binary main_v99 main_arg16 main_v100 ((fun l r => Host.dotGeneral dot_S200000x80_S80x40_S200000x40_1_0_0_1_n_n none l r) : (⟨S200000x80, .f32⟩ : BufTy).Contents (Elt F) → (⟨S80x40, .f32⟩ : BufTy).Contents (Elt F) → (⟨S200000x40, .f32⟩ : BufTy).Contents (Elt F)),
    StableHlo.unary main_arg17 main_v101 (broadcastInDim S1x40 ![1] bcast_S40_S1x40_1 : (⟨S40, .f32⟩ : BufTy).Contents (Elt F) → (⟨S1x40, .f32⟩ : BufTy).Contents (Elt F)),
    StableHlo.unary main_v101 main_v102 (broadcastInDim S200000x40 ![0, 1] bcast_S1x40_S200000x40_0_1 : (⟨S1x40, .f32⟩ : BufTy).Contents (Elt F) → (⟨S200000x40, .f32⟩ : BufTy).Contents (Elt F)),
    StableHlo.binary main_v100 main_v102 main_v103 (addf : (⟨S200000x40, .f32⟩ : BufTy).Contents (Elt F) → (⟨S200000x40, .f32⟩ : BufTy).Contents (Elt F) → (⟨S200000x40, .f32⟩ : BufTy).Contents (Elt F)),
    StableHlo.nullary main_cst_19 (constant S_ .f32 0x3E4CCCCD#32),
    StableHlo.TRef.nullary (.of main_call5_cst : StableHlo.TRef sig ⟨S_, .f32⟩) (constant S_ .f32 0x00000000#32),
    StableHlo.TRef.unary (.of main_call5_cst : StableHlo.TRef sig ⟨S_, .f32⟩) (.of main_call5_v0 : StableHlo.TRef sig ⟨S200000x40, .f32⟩) (broadcastInDim S200000x40 ![] bcast_S_S200000x40),
    StableHlo.TRef.binary (.of main_v103 : StableHlo.TRef sig ⟨S200000x40, .f32⟩) (.of main_call5_v0 : StableHlo.TRef sig ⟨S200000x40, .f32⟩) (.of main_call5_v1 : StableHlo.TRef sig ⟨S200000x40, .i1⟩) (cmpf .oge),
    StableHlo.TRef.unary (.of main_cst_19 : StableHlo.TRef sig ⟨S_, .f32⟩) (.of main_call5_v2 : StableHlo.TRef sig ⟨S_, .f32⟩) id,
    StableHlo.TRef.unary (.of main_call5_v2 : StableHlo.TRef sig ⟨S_, .f32⟩) (.of main_call5_v3 : StableHlo.TRef sig ⟨S200000x40, .f32⟩) (broadcastInDim S200000x40 ![] bcast_S_S200000x40),
    StableHlo.TRef.binary (.of main_call5_v3 : StableHlo.TRef sig ⟨S200000x40, .f32⟩) (.of main_v103 : StableHlo.TRef sig ⟨S200000x40, .f32⟩) (.of main_call5_v4 : StableHlo.TRef sig ⟨S200000x40, .f32⟩) mulf,
    StableHlo.TRef.ternary (.of main_call5_v1 : StableHlo.TRef sig ⟨S200000x40, .i1⟩) (.of main_v103 : StableHlo.TRef sig ⟨S200000x40, .f32⟩) (.of main_call5_v4 : StableHlo.TRef sig ⟨S200000x40, .f32⟩) (.of main_v104 : StableHlo.TRef sig ⟨S200000x40, .f32⟩) select,
    StableHlo.binary main_v104 main_arg18 main_v105 ((fun l r => Host.dotGeneral dot_S200000x40_S40x1_S200000x1_1_0_0_1_n_n none l r) : (⟨S200000x40, .f32⟩ : BufTy).Contents (Elt F) → (⟨S40x1, .f32⟩ : BufTy).Contents (Elt F) → (⟨S200000x1, .f32⟩ : BufTy).Contents (Elt F)),
    StableHlo.unary main_arg19 main_v106 (broadcastInDim S1x1 ![1] bcast_S1_S1x1_1 : (⟨S1, .f32⟩ : BufTy).Contents (Elt F) → (⟨S1x1, .f32⟩ : BufTy).Contents (Elt F)),
    StableHlo.unary main_v106 main_v107 (broadcastInDim S200000x1 ![0, 1] bcast_S1x1_S200000x1_0_1 : (⟨S1x1, .f32⟩ : BufTy).Contents (Elt F) → (⟨S200000x1, .f32⟩ : BufTy).Contents (Elt F)),
    StableHlo.binary main_v105 main_v107 main_v108 (addf : (⟨S200000x1, .f32⟩ : BufTy).Contents (Elt F) → (⟨S200000x1, .f32⟩ : BufTy).Contents (Elt F) → (⟨S200000x1, .f32⟩ : BufTy).Contents (Elt F)) ]

/-- The negative pairs' score: the same chain from the negative pairs' endpoints (`%137`). 47 operations. -/
abbrev neg : List (HloOp τ sig (Elt F)) :=
  [ StableHlo.nullary main_c_20 (constantI S_ 32 0#32),
    StableHlo.unary main_c_20 main_v109 (broadcastInDim S200000 ![] bcast_S_S200000 : (⟨S_, .i32⟩ : BufTy).Contents (Elt F) → (⟨S200000, .i32⟩ : BufTy).Contents (Elt F)),
    StableHlo.binary main_arg6 main_v109 main_v110 (cmpi .slt : (⟨S200000, .i32⟩ : BufTy).Contents (Elt F) → (⟨S200000, .i32⟩ : BufTy).Contents (Elt F) → (⟨S200000, .i1⟩ : BufTy).Contents (Elt F)),
    StableHlo.nullary main_c_21 (constantI S_ 32 50000#32),
    StableHlo.unary main_c_21 main_v111 (broadcastInDim S200000 ![] bcast_S_S200000 : (⟨S_, .i32⟩ : BufTy).Contents (Elt F) → (⟨S200000, .i32⟩ : BufTy).Contents (Elt F)),
    StableHlo.binary main_arg6 main_v111 main_v112 (addi : (⟨S200000, .i32⟩ : BufTy).Contents (Elt F) → (⟨S200000, .i32⟩ : BufTy).Contents (Elt F) → (⟨S200000, .i32⟩ : BufTy).Contents (Elt F)),
    StableHlo.ternary main_v110 main_v112 main_arg6 main_v113 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v113 main_v114 (broadcastInDim S200000x1 ![0] bcast_S200000_S200000x1_0 : (⟨S200000, .i32⟩ : BufTy).Contents (Elt F) → (⟨S200000x1, .i32⟩ : BufTy).Contents (Elt F)),
    StableHlo.binary main_v79 main_v114 main_v115 ((fun x i => Host.gather gather_S50000x160_S200000x1_S200000x160_1_0_n_n_0_1_1160 x i) : (⟨S50000x160, .f32⟩ : BufTy).Contents (Elt F) → (⟨S200000x1, .i32⟩ : BufTy).Contents (Elt F) → (⟨S200000x160, .f32⟩ : BufTy).Contents (Elt F)),
    StableHlo.nullary main_c_22 (constantI S_ 32 0#32),
    StableHlo.unary main_c_22 main_v116 (broadcastInDim S200000 ![] bcast_S_S200000 : (⟨S_, .i32⟩ : BufTy).Contents (Elt F) → (⟨S200000, .i32⟩ : BufTy).Contents (Elt F)),
    StableHlo.binary main_arg7 main_v116 main_v117 (cmpi .slt : (⟨S200000, .i32⟩ : BufTy).Contents (Elt F) → (⟨S200000, .i32⟩ : BufTy).Contents (Elt F) → (⟨S200000, .i1⟩ : BufTy).Contents (Elt F)),
    StableHlo.nullary main_c_23 (constantI S_ 32 50000#32),
    StableHlo.unary main_c_23 main_v118 (broadcastInDim S200000 ![] bcast_S_S200000 : (⟨S_, .i32⟩ : BufTy).Contents (Elt F) → (⟨S200000, .i32⟩ : BufTy).Contents (Elt F)),
    StableHlo.binary main_arg7 main_v118 main_v119 (addi : (⟨S200000, .i32⟩ : BufTy).Contents (Elt F) → (⟨S200000, .i32⟩ : BufTy).Contents (Elt F) → (⟨S200000, .i32⟩ : BufTy).Contents (Elt F)),
    StableHlo.ternary main_v117 main_v119 main_arg7 main_v120 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v120 main_v121 (broadcastInDim S200000x1 ![0] bcast_S200000_S200000x1_0 : (⟨S200000, .i32⟩ : BufTy).Contents (Elt F) → (⟨S200000x1, .i32⟩ : BufTy).Contents (Elt F)),
    StableHlo.binary main_v79 main_v121 main_v122 ((fun x i => Host.gather gather_S50000x160_S200000x1_S200000x160_1_0_n_n_0_1_1160 x i) : (⟨S50000x160, .f32⟩ : BufTy).Contents (Elt F) → (⟨S200000x1, .i32⟩ : BufTy).Contents (Elt F) → (⟨S200000x160, .f32⟩ : BufTy).Contents (Elt F)),
    StableHlo.binary main_v115 main_v122 main_v123 (mulf : (⟨S200000x160, .f32⟩ : BufTy).Contents (Elt F) → (⟨S200000x160, .f32⟩ : BufTy).Contents (Elt F) → (⟨S200000x160, .f32⟩ : BufTy).Contents (Elt F)),
    StableHlo.binary main_v123 main_arg14 main_v124 ((fun l r => Host.dotGeneral dot_S200000x160_S160x80_S200000x80_1_0_0_1_n_n none l r) : (⟨S200000x160, .f32⟩ : BufTy).Contents (Elt F) → (⟨S160x80, .f32⟩ : BufTy).Contents (Elt F) → (⟨S200000x80, .f32⟩ : BufTy).Contents (Elt F)),
    StableHlo.unary main_arg15 main_v125 (broadcastInDim S1x80 ![1] bcast_S80_S1x80_1 : (⟨S80, .f32⟩ : BufTy).Contents (Elt F) → (⟨S1x80, .f32⟩ : BufTy).Contents (Elt F)),
    StableHlo.unary main_v125 main_v126 (broadcastInDim S200000x80 ![0, 1] bcast_S1x80_S200000x80_0_1 : (⟨S1x80, .f32⟩ : BufTy).Contents (Elt F) → (⟨S200000x80, .f32⟩ : BufTy).Contents (Elt F)),
    StableHlo.binary main_v124 main_v126 main_v127 (addf : (⟨S200000x80, .f32⟩ : BufTy).Contents (Elt F) → (⟨S200000x80, .f32⟩ : BufTy).Contents (Elt F) → (⟨S200000x80, .f32⟩ : BufTy).Contents (Elt F)),
    StableHlo.nullary main_cst_24 (constant S_ .f32 0x3E4CCCCD#32),
    StableHlo.TRef.nullary (.of main_call6_cst : StableHlo.TRef sig ⟨S_, .f32⟩) (constant S_ .f32 0x00000000#32),
    StableHlo.TRef.unary (.of main_call6_cst : StableHlo.TRef sig ⟨S_, .f32⟩) (.of main_call6_v0 : StableHlo.TRef sig ⟨S200000x80, .f32⟩) (broadcastInDim S200000x80 ![] bcast_S_S200000x80),
    StableHlo.TRef.binary (.of main_v127 : StableHlo.TRef sig ⟨S200000x80, .f32⟩) (.of main_call6_v0 : StableHlo.TRef sig ⟨S200000x80, .f32⟩) (.of main_call6_v1 : StableHlo.TRef sig ⟨S200000x80, .i1⟩) (cmpf .oge),
    StableHlo.TRef.unary (.of main_cst_24 : StableHlo.TRef sig ⟨S_, .f32⟩) (.of main_call6_v2 : StableHlo.TRef sig ⟨S_, .f32⟩) id,
    StableHlo.TRef.unary (.of main_call6_v2 : StableHlo.TRef sig ⟨S_, .f32⟩) (.of main_call6_v3 : StableHlo.TRef sig ⟨S200000x80, .f32⟩) (broadcastInDim S200000x80 ![] bcast_S_S200000x80),
    StableHlo.TRef.binary (.of main_call6_v3 : StableHlo.TRef sig ⟨S200000x80, .f32⟩) (.of main_v127 : StableHlo.TRef sig ⟨S200000x80, .f32⟩) (.of main_call6_v4 : StableHlo.TRef sig ⟨S200000x80, .f32⟩) mulf,
    StableHlo.TRef.ternary (.of main_call6_v1 : StableHlo.TRef sig ⟨S200000x80, .i1⟩) (.of main_v127 : StableHlo.TRef sig ⟨S200000x80, .f32⟩) (.of main_call6_v4 : StableHlo.TRef sig ⟨S200000x80, .f32⟩) (.of main_v128 : StableHlo.TRef sig ⟨S200000x80, .f32⟩) select,
    StableHlo.binary main_v128 main_arg16 main_v129 ((fun l r => Host.dotGeneral dot_S200000x80_S80x40_S200000x40_1_0_0_1_n_n none l r) : (⟨S200000x80, .f32⟩ : BufTy).Contents (Elt F) → (⟨S80x40, .f32⟩ : BufTy).Contents (Elt F) → (⟨S200000x40, .f32⟩ : BufTy).Contents (Elt F)),
    StableHlo.unary main_arg17 main_v130 (broadcastInDim S1x40 ![1] bcast_S40_S1x40_1 : (⟨S40, .f32⟩ : BufTy).Contents (Elt F) → (⟨S1x40, .f32⟩ : BufTy).Contents (Elt F)),
    StableHlo.unary main_v130 main_v131 (broadcastInDim S200000x40 ![0, 1] bcast_S1x40_S200000x40_0_1 : (⟨S1x40, .f32⟩ : BufTy).Contents (Elt F) → (⟨S200000x40, .f32⟩ : BufTy).Contents (Elt F)),
    StableHlo.binary main_v129 main_v131 main_v132 (addf : (⟨S200000x40, .f32⟩ : BufTy).Contents (Elt F) → (⟨S200000x40, .f32⟩ : BufTy).Contents (Elt F) → (⟨S200000x40, .f32⟩ : BufTy).Contents (Elt F)),
    StableHlo.nullary main_cst_25 (constant S_ .f32 0x3E4CCCCD#32),
    StableHlo.TRef.nullary (.of main_call7_cst : StableHlo.TRef sig ⟨S_, .f32⟩) (constant S_ .f32 0x00000000#32),
    StableHlo.TRef.unary (.of main_call7_cst : StableHlo.TRef sig ⟨S_, .f32⟩) (.of main_call7_v0 : StableHlo.TRef sig ⟨S200000x40, .f32⟩) (broadcastInDim S200000x40 ![] bcast_S_S200000x40),
    StableHlo.TRef.binary (.of main_v132 : StableHlo.TRef sig ⟨S200000x40, .f32⟩) (.of main_call7_v0 : StableHlo.TRef sig ⟨S200000x40, .f32⟩) (.of main_call7_v1 : StableHlo.TRef sig ⟨S200000x40, .i1⟩) (cmpf .oge),
    StableHlo.TRef.unary (.of main_cst_25 : StableHlo.TRef sig ⟨S_, .f32⟩) (.of main_call7_v2 : StableHlo.TRef sig ⟨S_, .f32⟩) id,
    StableHlo.TRef.unary (.of main_call7_v2 : StableHlo.TRef sig ⟨S_, .f32⟩) (.of main_call7_v3 : StableHlo.TRef sig ⟨S200000x40, .f32⟩) (broadcastInDim S200000x40 ![] bcast_S_S200000x40),
    StableHlo.TRef.binary (.of main_call7_v3 : StableHlo.TRef sig ⟨S200000x40, .f32⟩) (.of main_v132 : StableHlo.TRef sig ⟨S200000x40, .f32⟩) (.of main_call7_v4 : StableHlo.TRef sig ⟨S200000x40, .f32⟩) mulf,
    StableHlo.TRef.ternary (.of main_call7_v1 : StableHlo.TRef sig ⟨S200000x40, .i1⟩) (.of main_v132 : StableHlo.TRef sig ⟨S200000x40, .f32⟩) (.of main_call7_v4 : StableHlo.TRef sig ⟨S200000x40, .f32⟩) (.of main_v133 : StableHlo.TRef sig ⟨S200000x40, .f32⟩) select,
    StableHlo.binary main_v133 main_arg18 main_v134 ((fun l r => Host.dotGeneral dot_S200000x40_S40x1_S200000x1_1_0_0_1_n_n none l r) : (⟨S200000x40, .f32⟩ : BufTy).Contents (Elt F) → (⟨S40x1, .f32⟩ : BufTy).Contents (Elt F) → (⟨S200000x1, .f32⟩ : BufTy).Contents (Elt F)),
    StableHlo.unary main_arg19 main_v135 (broadcastInDim S1x1 ![1] bcast_S1_S1x1_1 : (⟨S1, .f32⟩ : BufTy).Contents (Elt F) → (⟨S1x1, .f32⟩ : BufTy).Contents (Elt F)),
    StableHlo.unary main_v135 main_v136 (broadcastInDim S200000x1 ![0, 1] bcast_S1x1_S200000x1_0_1 : (⟨S1x1, .f32⟩ : BufTy).Contents (Elt F) → (⟨S200000x1, .f32⟩ : BufTy).Contents (Elt F)),
    StableHlo.binary main_v134 main_v136 main_v137 (addf : (⟨S200000x1, .f32⟩ : BufTy).Contents (Elt F) → (⟨S200000x1, .f32⟩ : BufTy).Contents (Elt F) → (⟨S200000x1, .f32⟩ : BufTy).Contents (Elt F)) ]

/-! ## The three parts of @main as concatenations of their pieces -/

/-- The operations of @main's first part, the calls substituted. -/
abbrev ops0 : List (HloOp τ sig (Elt F)) := nrm ++ lay1 ++ lay2a

/-- The operations of @main's second part, the calls substituted. -/
abbrev ops1 : List (HloOp τ sig (Elt F)) := lay2b ++ lay3 ++ posA

/-- The operations of @main's third part, the calls substituted. -/
abbrev ops2 : List (HloOp τ sig (Elt F)) := posB ++ neg

/-! ## Each part is the run of its list

Both sides are chains of single host steps: on the left the callee bodies unfold at the call sites and the
sequencing re-associates by the monad's own computation; on the right the run of a list unfolds one step per
operation. -/

set_option maxRecDepth 8192 in
theorem part0_eq (c : Dev nD) : main_part0 (F := F) c = seq ops0 := rfl

set_option maxRecDepth 8192 in
theorem part1_eq (c : Dev nD) : main_part1 (F := F) c = seq ops1 := rfl

set_option maxRecDepth 8192 in
theorem part2_eq (c : Dev nD) : main_part2 (F := F) c = seq ops2 := rfl

/-- @main, the three parts in order, is the run of the three lists in order: a concatenation of lists runs as
    the parts one after the other, and sequencing is associative. -/
theorem main_eq (c : Dev nD) : main (F := F) c = seq (ops0 ++ ops1 ++ ops2) := by
  have h : main (F := F) c = main_part0 c >>= fun _ => main_part1 c >>= fun _ => main_part2 c := rfl
  rw [h, part0_eq c, part1_eq c, part2_eq c, seq_append (ops0 ++ ops1) ops2, seq_append ops0 ops1, bind_assoc]

theorem scopedRefs_eq : (Finset.univ.filter fun b : Ref sig .tc => b.isScoped) = ∅ := by decide
theorem scopedSems_eq : (Finset.univ.filter fun sm : SemLoc sig => sm.isScoped .tc) = ∅ := by decide

/-! ## Every operation touches TensorCore buffers only -/

theorem nrm_sub : (nrm : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., unary_bufs_sub .., binary_bufs_sub .., nullary_bufs_sub .., unary_bufs_sub .., unary_bufs_sub .., ternary_bufs_sub .., nullary_bufs_sub .., unary_bufs_sub .., unary_bufs_sub .., binary_bufs_sub .., nullary_bufs_sub .., unary_bufs_sub .., binary_bufs_sub .., unary_bufs_sub .., nullary_bufs_sub .., unary_bufs_sub .., binary_bufs_sub .., unary_bufs_sub ..⟩

theorem lay1_sub : (lay1 : List (HloOp τ sig (Elt F))).Forall fun op => op.bufs ⊆ tcRefs τ sig :=
  ⟨unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., binary_bufs_sub .., unary_bufs_sub .., binary_bufs_sub .., unary_bufs_sub .., unary_bufs_sub .., binary_bufs_sub .., nullary_bufs_sub .., unary_bufs_sub .., binary_bufs_sub ..⟩

theorem lay2a_sub : (lay2a : List (HloOp τ sig (Elt F))).Forall fun op => op.bufs ⊆ tcRefs τ sig :=
  ⟨unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub ..⟩

theorem lay2b_sub : (lay2b : List (HloOp τ sig (Elt F))).Forall fun op => op.bufs ⊆ tcRefs τ sig :=
  ⟨unary_bufs_sub .., binary_bufs_sub .., nullary_bufs_sub .., unary_bufs_sub .., unary_bufs_sub .., ternary_bufs_sub .., unary_bufs_sub .., binary_bufs_sub .., unary_bufs_sub .., unary_bufs_sub .., binary_bufs_sub .., nullary_bufs_sub .., unary_bufs_sub .., binary_bufs_sub ..⟩

theorem lay3_sub : (lay3 : List (HloOp τ sig (Elt F))).Forall fun op => op.bufs ⊆ tcRefs τ sig :=
  ⟨unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., binary_bufs_sub .., unary_bufs_sub .., unary_bufs_sub .., binary_bufs_sub ..⟩

theorem posA_sub : (posA : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., unary_bufs_sub .., unary_bufs_sub .., binary_bufs_sub .., nullary_bufs_sub ..⟩

theorem posB_sub : (posB : List (HloOp τ sig (Elt F))).Forall fun op => op.bufs ⊆ tcRefs τ sig :=
  ⟨nullary_bufs_sub .., unary_bufs_sub .., binary_bufs_sub .., unary_bufs_sub .., unary_bufs_sub .., binary_bufs_sub .., ternary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., unary_bufs_sub .., unary_bufs_sub .., binary_bufs_sub ..⟩

theorem neg_sub : (neg : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., unary_bufs_sub .., unary_bufs_sub .., binary_bufs_sub ..⟩

theorem ops0_sub : (ops0 : List (HloOp τ sig (Elt F))).Forall fun op => op.bufs ⊆ tcRefs τ sig :=
  List.forall_append.mpr ⟨List.forall_append.mpr ⟨nrm_sub, lay1_sub⟩, lay2a_sub⟩

theorem ops1_sub : (ops1 : List (HloOp τ sig (Elt F))).Forall fun op => op.bufs ⊆ tcRefs τ sig :=
  List.forall_append.mpr ⟨List.forall_append.mpr ⟨lay2b_sub, lay3_sub⟩, posA_sub⟩

theorem ops2_sub : (ops2 : List (HloOp τ sig (Elt F))).Forall fun op => op.bufs ⊆ tcRefs τ sig :=
  List.forall_append.mpr ⟨posB_sub, neg_sub⟩

theorem ops_sub : (ops0 ++ ops1 ++ ops2 : List (HloOp τ sig (Elt F))).Forall fun op => op.bufs ⊆ tcRefs τ sig :=
  List.forall_append.mpr ⟨List.forall_append.mpr ⟨ops0_sub, ops1_sub⟩, ops2_sub⟩

/-- The contents after a concatenation are the contents after the second list, from the contents after the first. -/
theorem after_app (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- At the compiled mesh, for any float values, from any memory with zero counters: every weakly fair execution of
    @main on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b)
        = StableHlo.after (ops0 ++ ops1 ++ ops2) (StableHlo.launchContents m c) (b : DevRef τ sig) :=
  run_seq scopedRefs_eq scopedSems_eq defs main (fun _ => ops0 ++ ops1 ++ ops2) main_eq (fun _ => ops_sub) m ρ

end Cert.ReferenceIdeal.RefRun

end
-- ==== Proof.RefRead.lean ====
/-
  What the reference program computes: its three results as the network's whole-array functions of the arguments.

  The 198 operations are read stage by stage. From any contents, the first piece leaves the two degree columns
  (of the sources and of the destinations) in their buffers; the next three stages each leave one layer of the
  graph convolution, computed from the layer before, the two columns and the arguments; the last two leave the
  scores of the positive and of the negative pairs, computed from the embedding. A stage writes only its own
  buffers, so everything a later stage reads — an argument, a column, the layer before — is still what it was.
  Composing the stages gives the three results as `Spec.score` and `Spec.embed` of the argument contents, and the
  arguments unchanged.
-/
import proofs.«108703_j40132174414142_2_alg».proof.Proof.RefOps
import proofs.«108703_j40132174414142_2_alg».proof.Proof.Spec

noncomputable section

namespace Cert.ReferenceIdeal.RefRun

open Cert.ReferenceIdeal Idealize.ShloMosaic Idealize.ShloMosaic.TcCoe Idealize.SL.Sem Idealize.ShloMosaic.StableHlo

variable {F : FTy → Type} [FloatOps F]
variable [Facts]
open Facts₀ Facts

/-! ## The buffers each piece writes, and that it writes no other -/

/-- The buffers the piece `nrm` writes. -/
abbrev nrm_W : List (Ref sig .tc) := [main_cst, main_v0, main_cst_0, main_v1, main_v2, main_v3, main_cst_1, main_call0_v0, main_call0_v1, main_v4, main_cst_2, main_v5, main_v6, main_v7, main_cst_3, main_call1_v0, main_call1_v1, main_v8, main_cst_4, main_v9, main_v10, main_v11, main_cst_5, main_v12, main_v13, main_v14]
set_option maxRecDepth 8192 in
theorem nrm_writes : (nrm : List (HloOp τ sig (Elt F))).Forall fun op => op.writes ⊆ (nrm_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The buffers the piece `lay1` writes. -/
abbrev lay1_W : List (Ref sig .tc) := [main_v15, main_v16, main_c, main_v17, main_v18, main_c_6, main_v19, main_v20, main_v21, main_v22, main_v23, main_v24, main_v25, main_v26, main_cst_7, main_v27, main_v28, main_v29, main_v30, main_v31, main_v32, main_v33, main_v34, main_v35, main_call2_cst, main_call2_v0, main_v36]
set_option maxRecDepth 8192 in
theorem lay1_writes : (lay1 : List (HloOp τ sig (Elt F))).Forall fun op => op.writes ⊆ (lay1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The buffers the piece `lay2a` writes. -/
abbrev lay2a_W : List (Ref sig .tc) := [main_v37, main_v38, main_v39, main_c_8, main_v40, main_v41, main_c_9, main_v42, main_v43, main_v44, main_v45, main_v46, main_v47]
set_option maxRecDepth 8192 in
theorem lay2a_writes : (lay2a : List (HloOp τ sig (Elt F))).Forall fun op => op.writes ⊆ (lay2a_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The buffers the piece `lay2b` writes. -/
abbrev lay2b_W : List (Ref sig .tc) := [main_v48, main_v49, main_cst_10, main_v50, main_v51, main_v52, main_v53, main_v54, main_v55, main_v56, main_v57, main_call3_cst, main_call3_v0, main_v58]
set_option maxRecDepth 8192 in
theorem lay2b_writes : (lay2b : List (HloOp τ sig (Elt F))).Forall fun op => op.writes ⊆ (lay2b_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The buffers the piece `lay3` writes. -/
abbrev lay3_W : List (Ref sig .tc) := [main_v59, main_v60, main_v61, main_c_11, main_v62, main_v63, main_c_12, main_v64, main_v65, main_v66, main_v67, main_v68, main_v69, main_v70, main_v71, main_cst_13, main_v72, main_v73, main_v74, main_v75, main_v76, main_v77, main_v78, main_v79]
set_option maxRecDepth 8192 in
theorem lay3_writes : (lay3 : List (HloOp τ sig (Elt F))).Forall fun op => op.writes ⊆ (lay3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The buffers the piece `posA` writes. -/
abbrev posA_W : List (Ref sig .tc) := [main_c_14, main_v80, main_v81, main_c_15, main_v82, main_v83, main_v84, main_v85, main_v86, main_c_16, main_v87, main_v88, main_c_17, main_v89, main_v90, main_v91, main_v92, main_v93, main_v94, main_v95, main_v96, main_v97, main_v98, main_cst_18]
set_option maxRecDepth 8192 in
theorem posA_writes : (posA : List (HloOp τ sig (Elt F))).Forall fun op => op.writes ⊆ (posA_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The buffers the piece `posB` writes. -/
abbrev posB_W : List (Ref sig .tc) := [main_call4_cst, main_call4_v0, main_call4_v1, main_call4_v2, main_call4_v3, main_call4_v4, main_v99, main_v100, main_v101, main_v102, main_v103, main_cst_19, main_call5_cst, main_call5_v0, main_call5_v1, main_call5_v2, main_call5_v3, main_call5_v4, main_v104, main_v105, main_v106, main_v107, main_v108]
set_option maxRecDepth 8192 in
theorem posB_writes : (posB : List (HloOp τ sig (Elt F))).Forall fun op => op.writes ⊆ (posB_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The buffers the piece `neg` writes. -/
abbrev neg_W : List (Ref sig .tc) := [main_c_20, main_v109, main_v110, main_c_21, main_v111, main_v112, main_v113, main_v114, main_v115, main_c_22, main_v116, main_v117, main_c_23, main_v118, main_v119, main_v120, main_v121, main_v122, main_v123, main_v124, main_v125, main_v126, main_v127, main_cst_24, main_call6_cst, main_call6_v0, main_call6_v1, main_call6_v2, main_call6_v3, main_call6_v4, main_v128, main_v129, main_v130, main_v131, main_v132, main_cst_25, main_call7_cst, main_call7_v0, main_call7_v1, main_call7_v2, main_call7_v3, main_call7_v4, main_v133, main_v134, main_v135, main_v136, main_v137]
set_option maxRecDepth 8192 in
theorem neg_writes : (neg : List (HloOp τ sig (Elt F))).Forall fun op => op.writes ⊆ (neg_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-! ## The contents after each stage -/

/-- The device's buffer contents after the degree columns. -/
def val1 (V0 : Valuation τ sig (Elt F)) : Valuation τ sig (Elt F) := after nrm V0
/-- The device's buffer contents after layer one. -/
def val2 (V0 : Valuation τ sig (Elt F)) : Valuation τ sig (Elt F) := after lay1 (val1 V0)
/-- The device's buffer contents after layer two. -/
def val3 (V0 : Valuation τ sig (Elt F)) : Valuation τ sig (Elt F) := after lay2b (after lay2a (val2 V0))
/-- The device's buffer contents after layer three. -/
def val4 (V0 : Valuation τ sig (Elt F)) : Valuation τ sig (Elt F) := after lay3 (val3 V0)
/-- The device's buffer contents after the positive pairs' score. -/
def val5 (V0 : Valuation τ sig (Elt F)) : Valuation τ sig (Elt F) := after posB (after posA (val4 V0))
/-- The device's buffer contents after the negative pairs' score. -/
def val6 (V0 : Valuation τ sig (Elt F)) : Valuation τ sig (Elt F) := after neg (val5 V0)

/-- The whole list read as the six stages in order. -/
theorem after_all (V0 : Valuation τ sig (Elt F)) : after (ops0 ++ ops1 ++ ops2) V0 = val6 V0 := by
  simp only [ops0, ops1, ops2, after_app]
  rfl

/-! ## A buffer no piece so far writes still holds its launch contents -/

theorem val1_base (V0 : Valuation τ sig (Elt F)) (r : Ref sig .tc) (h0 : r ∉ nrm_W) :
    val1 V0 (Proc.devRef .tc r) = V0 (Proc.devRef .tc r) :=
  (after_of_writes_sub nrm _ nrm_writes h0)

theorem val2_base (V0 : Valuation τ sig (Elt F)) (r : Ref sig .tc) (h0 : r ∉ nrm_W) (h1 : r ∉ lay1_W) :
    val2 V0 (Proc.devRef .tc r) = V0 (Proc.devRef .tc r) :=
  ((after_of_writes_sub lay1 _ lay1_writes h1)).trans (val1_base V0 r h0)
theorem val2_keep (V0 : Valuation τ sig (Elt F)) (r : Ref sig .tc) (h0 : r ∉ lay1_W) :
    val2 V0 (Proc.devRef .tc r) = val1 V0 (Proc.devRef .tc r) :=
  (after_of_writes_sub lay1 _ lay1_writes h0)

theorem val3_base (V0 : Valuation τ sig (Elt F)) (r : Ref sig .tc) (h0 : r ∉ nrm_W) (h1 : r ∉ lay1_W) (h2 : r ∉ lay2a_W) (h3 : r ∉ lay2b_W) :
    val3 V0 (Proc.devRef .tc r) = V0 (Proc.devRef .tc r) :=
  (((after_of_writes_sub lay2b _ lay2b_writes h3)).trans (after_of_writes_sub lay2a _ lay2a_writes h2)).trans (val2_base V0 r h0 h1)
theorem val3_keep (V0 : Valuation τ sig (Elt F)) (r : Ref sig .tc) (h0 : r ∉ lay2a_W) (h1 : r ∉ lay2b_W) :
    val3 V0 (Proc.devRef .tc r) = val2 V0 (Proc.devRef .tc r) :=
  ((after_of_writes_sub lay2b _ lay2b_writes h1)).trans (after_of_writes_sub lay2a _ lay2a_writes h0)

theorem val4_base (V0 : Valuation τ sig (Elt F)) (r : Ref sig .tc) (h0 : r ∉ nrm_W) (h1 : r ∉ lay1_W) (h2 : r ∉ lay2a_W) (h3 : r ∉ lay2b_W) (h4 : r ∉ lay3_W) :
    val4 V0 (Proc.devRef .tc r) = V0 (Proc.devRef .tc r) :=
  ((after_of_writes_sub lay3 _ lay3_writes h4)).trans (val3_base V0 r h0 h1 h2 h3)
theorem val4_keep (V0 : Valuation τ sig (Elt F)) (r : Ref sig .tc) (h0 : r ∉ lay3_W) :
    val4 V0 (Proc.devRef .tc r) = val3 V0 (Proc.devRef .tc r) :=
  (after_of_writes_sub lay3 _ lay3_writes h0)

theorem val5_base (V0 : Valuation τ sig (Elt F)) (r : Ref sig .tc) (h0 : r ∉ nrm_W) (h1 : r ∉ lay1_W) (h2 : r ∉ lay2a_W) (h3 : r ∉ lay2b_W) (h4 : r ∉ lay3_W) (h5 : r ∉ posA_W) (h6 : r ∉ posB_W) :
    val5 V0 (Proc.devRef .tc r) = V0 (Proc.devRef .tc r) :=
  (((after_of_writes_sub posB _ posB_writes h6)).trans (after_of_writes_sub posA _ posA_writes h5)).trans (val4_base V0 r h0 h1 h2 h3 h4)
theorem val5_keep (V0 : Valuation τ sig (Elt F)) (r : Ref sig .tc) (h0 : r ∉ posA_W) (h1 : r ∉ posB_W) :
    val5 V0 (Proc.devRef .tc r) = val4 V0 (Proc.devRef .tc r) :=
  ((after_of_writes_sub posB _ posB_writes h1)).trans (after_of_writes_sub posA _ posA_writes h0)

theorem val6_base (V0 : Valuation τ sig (Elt F)) (r : Ref sig .tc) (h0 : r ∉ nrm_W) (h1 : r ∉ lay1_W) (h2 : r ∉ lay2a_W) (h3 : r ∉ lay2b_W) (h4 : r ∉ lay3_W) (h5 : r ∉ posA_W) (h6 : r ∉ posB_W) (h7 : r ∉ neg_W) :
    val6 V0 (Proc.devRef .tc r) = V0 (Proc.devRef .tc r) :=
  ((after_of_writes_sub neg _ neg_writes h7)).trans (val5_base V0 r h0 h1 h2 h3 h4 h5 h6)
theorem val6_keep (V0 : Valuation τ sig (Elt F)) (r : Ref sig .tc) (h0 : r ∉ neg_W) :
    val6 V0 (Proc.devRef .tc r) = val5 V0 (Proc.devRef .tc r) :=
  (after_of_writes_sub neg _ neg_writes h0)

/-! ## The arguments each stage reads, still at their launch contents -/

theorem val1_arg0 (V0 : Valuation τ sig (Elt F)) : val1 V0 (no_index (Proc.devRef .tc main_arg0)) = V0 (Proc.devRef .tc main_arg0) :=
  val1_base V0 main_arg0 (by decide)
theorem val1_arg2 (V0 : Valuation τ sig (Elt F)) : val1 V0 (no_index (Proc.devRef .tc main_arg2)) = V0 (Proc.devRef .tc main_arg2) :=
  val1_base V0 main_arg2 (by decide)
theorem val1_arg1 (V0 : Valuation τ sig (Elt F)) : val1 V0 (no_index (Proc.devRef .tc main_arg1)) = V0 (Proc.devRef .tc main_arg1) :=
  val1_base V0 main_arg1 (by decide)
theorem val1_arg3 (V0 : Valuation τ sig (Elt F)) : val1 V0 (no_index (Proc.devRef .tc main_arg3)) = V0 (Proc.devRef .tc main_arg3) :=
  val1_base V0 main_arg3 (by decide)
theorem val1_arg8 (V0 : Valuation τ sig (Elt F)) : val1 V0 (no_index (Proc.devRef .tc main_arg8)) = V0 (Proc.devRef .tc main_arg8) :=
  val1_base V0 main_arg8 (by decide)
theorem val1_arg9 (V0 : Valuation τ sig (Elt F)) : val1 V0 (no_index (Proc.devRef .tc main_arg9)) = V0 (Proc.devRef .tc main_arg9) :=
  val1_base V0 main_arg9 (by decide)

theorem val2_arg10 (V0 : Valuation τ sig (Elt F)) : val2 V0 (no_index (Proc.devRef .tc main_arg10)) = V0 (Proc.devRef .tc main_arg10) :=
  val2_base V0 main_arg10 (by decide) (by decide)
theorem val2_arg2 (V0 : Valuation τ sig (Elt F)) : val2 V0 (no_index (Proc.devRef .tc main_arg2)) = V0 (Proc.devRef .tc main_arg2) :=
  val2_base V0 main_arg2 (by decide) (by decide)
theorem val2_arg1 (V0 : Valuation τ sig (Elt F)) : val2 V0 (no_index (Proc.devRef .tc main_arg1)) = V0 (Proc.devRef .tc main_arg1) :=
  val2_base V0 main_arg1 (by decide) (by decide)
theorem val2_arg3 (V0 : Valuation τ sig (Elt F)) : val2 V0 (no_index (Proc.devRef .tc main_arg3)) = V0 (Proc.devRef .tc main_arg3) :=
  val2_base V0 main_arg3 (by decide) (by decide)
theorem val2_arg11 (V0 : Valuation τ sig (Elt F)) : val2 V0 (no_index (Proc.devRef .tc main_arg11)) = V0 (Proc.devRef .tc main_arg11) :=
  val2_base V0 main_arg11 (by decide) (by decide)

theorem val3_arg12 (V0 : Valuation τ sig (Elt F)) : val3 V0 (no_index (Proc.devRef .tc main_arg12)) = V0 (Proc.devRef .tc main_arg12) :=
  val3_base V0 main_arg12 (by decide) (by decide) (by decide) (by decide)
theorem val3_arg2 (V0 : Valuation τ sig (Elt F)) : val3 V0 (no_index (Proc.devRef .tc main_arg2)) = V0 (Proc.devRef .tc main_arg2) :=
  val3_base V0 main_arg2 (by decide) (by decide) (by decide) (by decide)
theorem val3_arg1 (V0 : Valuation τ sig (Elt F)) : val3 V0 (no_index (Proc.devRef .tc main_arg1)) = V0 (Proc.devRef .tc main_arg1) :=
  val3_base V0 main_arg1 (by decide) (by decide) (by decide) (by decide)
theorem val3_arg3 (V0 : Valuation τ sig (Elt F)) : val3 V0 (no_index (Proc.devRef .tc main_arg3)) = V0 (Proc.devRef .tc main_arg3) :=
  val3_base V0 main_arg3 (by decide) (by decide) (by decide) (by decide)
theorem val3_arg13 (V0 : Valuation τ sig (Elt F)) : val3 V0 (no_index (Proc.devRef .tc main_arg13)) = V0 (Proc.devRef .tc main_arg13) :=
  val3_base V0 main_arg13 (by decide) (by decide) (by decide) (by decide)

theorem val4_arg4 (V0 : Valuation τ sig (Elt F)) : val4 V0 (no_index (Proc.devRef .tc main_arg4)) = V0 (Proc.devRef .tc main_arg4) :=
  val4_base V0 main_arg4 (by decide) (by decide) (by decide) (by decide) (by decide)
theorem val4_arg5 (V0 : Valuation τ sig (Elt F)) : val4 V0 (no_index (Proc.devRef .tc main_arg5)) = V0 (Proc.devRef .tc main_arg5) :=
  val4_base V0 main_arg5 (by decide) (by decide) (by decide) (by decide) (by decide)
theorem val4_arg14 (V0 : Valuation τ sig (Elt F)) : val4 V0 (no_index (Proc.devRef .tc main_arg14)) = V0 (Proc.devRef .tc main_arg14) :=
  val4_base V0 main_arg14 (by decide) (by decide) (by decide) (by decide) (by decide)
theorem val4_arg15 (V0 : Valuation τ sig (Elt F)) : val4 V0 (no_index (Proc.devRef .tc main_arg15)) = V0 (Proc.devRef .tc main_arg15) :=
  val4_base V0 main_arg15 (by decide) (by decide) (by decide) (by decide) (by decide)
theorem val4_arg16 (V0 : Valuation τ sig (Elt F)) : val4 V0 (no_index (Proc.devRef .tc main_arg16)) = V0 (Proc.devRef .tc main_arg16) :=
  val4_base V0 main_arg16 (by decide) (by decide) (by decide) (by decide) (by decide)
theorem val4_arg17 (V0 : Valuation τ sig (Elt F)) : val4 V0 (no_index (Proc.devRef .tc main_arg17)) = V0 (Proc.devRef .tc main_arg17) :=
  val4_base V0 main_arg17 (by decide) (by decide) (by decide) (by decide) (by decide)
theorem val4_arg18 (V0 : Valuation τ sig (Elt F)) : val4 V0 (no_index (Proc.devRef .tc main_arg18)) = V0 (Proc.devRef .tc main_arg18) :=
  val4_base V0 main_arg18 (by decide) (by decide) (by decide) (by decide) (by decide)
theorem val4_arg19 (V0 : Valuation τ sig (Elt F)) : val4 V0 (no_index (Proc.devRef .tc main_arg19)) = V0 (Proc.devRef .tc main_arg19) :=
  val4_base V0 main_arg19 (by decide) (by decide) (by decide) (by decide) (by decide)

theorem val5_arg6 (V0 : Valuation τ sig (Elt F)) : val5 V0 (no_index (Proc.devRef .tc main_arg6)) = V0 (Proc.devRef .tc main_arg6) :=
  val5_base V0 main_arg6 (by decide) (by decide) (by decide) (by decide) (by decide) (by decide) (by decide)
theorem val5_arg7 (V0 : Valuation τ sig (Elt F)) : val5 V0 (no_index (Proc.devRef .tc main_arg7)) = V0 (Proc.devRef .tc main_arg7) :=
  val5_base V0 main_arg7 (by decide) (by decide) (by decide) (by decide) (by decide) (by decide) (by decide)
theorem val5_arg14 (V0 : Valuation τ sig (Elt F)) : val5 V0 (no_index (Proc.devRef .tc main_arg14)) = V0 (Proc.devRef .tc main_arg14) :=
  val5_base V0 main_arg14 (by decide) (by decide) (by decide) (by decide) (by decide) (by decide) (by decide)
theorem val5_arg15 (V0 : Valuation τ sig (Elt F)) : val5 V0 (no_index (Proc.devRef .tc main_arg15)) = V0 (Proc.devRef .tc main_arg15) :=
  val5_base V0 main_arg15 (by decide) (by decide) (by decide) (by decide) (by decide) (by decide) (by decide)
theorem val5_arg16 (V0 : Valuation τ sig (Elt F)) : val5 V0 (no_index (Proc.devRef .tc main_arg16)) = V0 (Proc.devRef .tc main_arg16) :=
  val5_base V0 main_arg16 (by decide) (by decide) (by decide) (by decide) (by decide) (by decide) (by decide)
theorem val5_arg17 (V0 : Valuation τ sig (Elt F)) : val5 V0 (no_index (Proc.devRef .tc main_arg17)) = V0 (Proc.devRef .tc main_arg17) :=
  val5_base V0 main_arg17 (by decide) (by decide) (by decide) (by decide) (by decide) (by decide) (by decide)
theorem val5_arg18 (V0 : Valuation τ sig (Elt F)) : val5 V0 (no_index (Proc.devRef .tc main_arg18)) = V0 (Proc.devRef .tc main_arg18) :=
  val5_base V0 main_arg18 (by decide) (by decide) (by decide) (by decide) (by decide) (by decide) (by decide)
theorem val5_arg19 (V0 : Valuation τ sig (Elt F)) : val5 V0 (no_index (Proc.devRef .tc main_arg19)) = V0 (Proc.devRef .tc main_arg19) :=
  val5_base V0 main_arg19 (by decide) (by decide) (by decide) (by decide) (by decide) (by decide) (by decide)

/-! ## The stages' results

Each is read off the fold: an operation's result at its own buffer is its function of the contents it reads, and
at any other buffer what was there. The array operations themselves (gather, scatter-add, matrix product, power)
are never opened: the two sides are the same composition of them. -/

attribute [local irreducible] Host.gather Host.scatterAdd Host.powf

set_option maxRecDepth 8192 in
set_option maxHeartbeats 4000000 in
/-- The source-degree column. -/
theorem val1_v11 (V0 : Valuation τ sig (Elt F)) : val1 V0 (no_index (Proc.devRef .tc main_v11)) = Spec.normCol (V0 (Proc.devRef .tc main_arg2)) := by
  unfold val1
  simp only [nrm]
  after_results_simp
  all_goals rfl

set_option maxRecDepth 8192 in
set_option maxHeartbeats 4000000 in
/-- The destination-degree column. -/
theorem val1_v14 (V0 : Valuation τ sig (Elt F)) : val1 V0 (no_index (Proc.devRef .tc main_v14)) = Spec.normCol (V0 (Proc.devRef .tc main_arg3)) := by
  unfold val1
  simp only [nrm]
  after_results_simp
  all_goals rfl

theorem val2_v11 (V0 : Valuation τ sig (Elt F)) : val2 V0 (no_index (Proc.devRef .tc main_v11)) = Spec.normCol (V0 (Proc.devRef .tc main_arg2)) :=
  (val2_keep V0 main_v11 (by decide)).trans (val1_v11 V0)

theorem val2_v14 (V0 : Valuation τ sig (Elt F)) : val2 V0 (no_index (Proc.devRef .tc main_v14)) = Spec.normCol (V0 (Proc.devRef .tc main_arg3)) :=
  (val2_keep V0 main_v14 (by decide)).trans (val1_v14 V0)

set_option maxRecDepth 8192 in
set_option maxHeartbeats 4000000 in
/-- Layer one. -/
theorem val2_v36 (V0 : Valuation τ sig (Elt F)) : val2 V0 (no_index (Proc.devRef .tc main_v36)) = Spec.layer1 (Spec.agg256 (Spec.scale256 (V0 (Proc.devRef .tc main_arg0)) (Spec.normCol (V0 (Proc.devRef .tc main_arg2)))) (V0 (Proc.devRef .tc main_arg1)) (V0 (Proc.devRef .tc main_arg2)) (V0 (Proc.devRef .tc main_arg3))) (V0 (Proc.devRef .tc main_arg8)) (Spec.normCol (V0 (Proc.devRef .tc main_arg3))) (Spec.row512 (V0 (Proc.devRef .tc main_arg9))) := by
  unfold val2
  simp only [lay1]
  after_results_simp
  simp only [val1_v11, val1_arg0, val1_arg2, val1_arg1, val1_arg3, val1_arg8, val1_v14, val1_arg9] <;> rfl

theorem val3_v11 (V0 : Valuation τ sig (Elt F)) : val3 V0 (no_index (Proc.devRef .tc main_v11)) = Spec.normCol (V0 (Proc.devRef .tc main_arg2)) :=
  (val3_keep V0 main_v11 (by decide) (by decide)).trans (val2_v11 V0)

theorem val3_v14 (V0 : Valuation τ sig (Elt F)) : val3 V0 (no_index (Proc.devRef .tc main_v14)) = Spec.normCol (V0 (Proc.devRef .tc main_arg3)) :=
  (val3_keep V0 main_v14 (by decide) (by decide)).trans (val2_v14 V0)

set_option maxRecDepth 8192 in
set_option maxHeartbeats 4000000 in
/-- Layer two. -/
theorem val3_v58 (V0 : Valuation τ sig (Elt F)) : val3 V0 (no_index (Proc.devRef .tc main_v58)) = Spec.layer2 (Spec.agg256 (Spec.dot2 (Spec.scale512 (Spec.layer1 (Spec.agg256 (Spec.scale256 (V0 (Proc.devRef .tc main_arg0)) (Spec.normCol (V0 (Proc.devRef .tc main_arg2)))) (V0 (Proc.devRef .tc main_arg1)) (V0 (Proc.devRef .tc main_arg2)) (V0 (Proc.devRef .tc main_arg3))) (V0 (Proc.devRef .tc main_arg8)) (Spec.normCol (V0 (Proc.devRef .tc main_arg3))) (Spec.row512 (V0 (Proc.devRef .tc main_arg9)))) (Spec.normCol (V0 (Proc.devRef .tc main_arg2)))) (V0 (Proc.devRef .tc main_arg10))) (V0 (Proc.devRef .tc main_arg1)) (V0 (Proc.devRef .tc main_arg2)) (V0 (Proc.devRef .tc main_arg3))) (Spec.normCol (V0 (Proc.devRef .tc main_arg3))) (Spec.row256 (V0 (Proc.devRef .tc main_arg11))) := by
  unfold val3
  simp only [lay2a, lay2b]
  after_results_simp
  simp only [val2_v11, val2_v36, val2_arg10, val2_arg2, val2_arg1, val2_arg3, val2_v14, val2_arg11] <;> rfl

set_option maxRecDepth 8192 in
set_option maxHeartbeats 4000000 in
/-- Layer three: the embedding. -/
theorem val4_v79 (V0 : Valuation τ sig (Elt F)) : val4 V0 (no_index (Proc.devRef .tc main_v79)) = Spec.embed (V0 (Proc.devRef .tc main_arg0)) (V0 (Proc.devRef .tc main_arg1)) (V0 (Proc.devRef .tc main_arg2)) (V0 (Proc.devRef .tc main_arg3)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) := by
  unfold val4
  simp only [lay3]
  after_results_simp
  simp only [val3_v11, val3_v58, val3_arg12, val3_arg2, val3_arg1, val3_arg3, val3_v14, val3_arg13] <;> rfl

set_option maxRecDepth 8192 in
set_option maxHeartbeats 4000000 in
/-- The positive pairs' scores. -/
theorem val5_v108 (V0 : Valuation τ sig (Elt F)) : val5 V0 (no_index (Proc.devRef .tc main_v108)) = Spec.score (Spec.embed (V0 (Proc.devRef .tc main_arg0)) (V0 (Proc.devRef .tc main_arg1)) (V0 (Proc.devRef .tc main_arg2)) (V0 (Proc.devRef .tc main_arg3)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13))) (V0 (Proc.devRef .tc main_arg4)) (V0 (Proc.devRef .tc main_arg5)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) := by
  unfold val5
  simp only [posA, posB]
  after_results_simp
  simp only [val4_arg4, val4_v79, val4_arg5, val4_arg14, val4_arg15, val4_arg16, val4_arg17, val4_arg18, val4_arg19] <;> rfl

theorem val5_v79 (V0 : Valuation τ sig (Elt F)) : val5 V0 (no_index (Proc.devRef .tc main_v79)) = Spec.embed (V0 (Proc.devRef .tc main_arg0)) (V0 (Proc.devRef .tc main_arg1)) (V0 (Proc.devRef .tc main_arg2)) (V0 (Proc.devRef .tc main_arg3)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) :=
  (val5_keep V0 main_v79 (by decide) (by decide)).trans (val4_v79 V0)

set_option maxRecDepth 8192 in
set_option maxHeartbeats 4000000 in
/-- The negative pairs' scores. -/
theorem val6_v137 (V0 : Valuation τ sig (Elt F)) : val6 V0 (no_index (Proc.devRef .tc main_v137)) = Spec.score (Spec.embed (V0 (Proc.devRef .tc main_arg0)) (V0 (Proc.devRef .tc main_arg1)) (V0 (Proc.devRef .tc main_arg2)) (V0 (Proc.devRef .tc main_arg3)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13))) (V0 (Proc.devRef .tc main_arg6)) (V0 (Proc.devRef .tc main_arg7)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) := by
  unfold val6
  simp only [neg]
  after_results_simp
  simp only [val5_arg6, val5_v79, val5_arg7, val5_arg14, val5_arg15, val5_arg16, val5_arg17, val5_arg18, val5_arg19] <;> rfl

theorem val6_v79 (V0 : Valuation τ sig (Elt F)) : val6 V0 (no_index (Proc.devRef .tc main_v79)) = Spec.embed (V0 (Proc.devRef .tc main_arg0)) (V0 (Proc.devRef .tc main_arg1)) (V0 (Proc.devRef .tc main_arg2)) (V0 (Proc.devRef .tc main_arg3)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) :=
  (val6_keep V0 main_v79 (by decide)).trans (val5_v79 V0)

theorem val6_v108 (V0 : Valuation τ sig (Elt F)) : val6 V0 (no_index (Proc.devRef .tc main_v108)) = Spec.score (Spec.embed (V0 (Proc.devRef .tc main_arg0)) (V0 (Proc.devRef .tc main_arg1)) (V0 (Proc.devRef .tc main_arg2)) (V0 (Proc.devRef .tc main_arg3)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13))) (V0 (Proc.devRef .tc main_arg4)) (V0 (Proc.devRef .tc main_arg5)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) :=
  (val6_keep V0 main_v108 (by decide)).trans (val5_v108 V0)

/-! ## The run -/

/-- At the compiled mesh, for any float values, from any memory with zero counters: every weakly fair execution of
    @main terminates; the positive and the negative pairs' scores and the embedding end as the network's functions
    of the argument contents, and the twenty arguments end unchanged. -/
theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v108) = Spec.score (Spec.embed (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))) (m ((c.tc : Thread nD τ).loc main_arg4)) (m ((c.tc : Thread nD τ).loc main_arg5)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19))
      ∧ r.2.mem ((c.tc : Thread nD τ).loc main_v137) = Spec.score (Spec.embed (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))) (m ((c.tc : Thread nD τ).loc main_arg6)) (m ((c.tc : Thread nD τ).loc main_arg7)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19))
      ∧ r.2.mem ((c.tc : Thread nD τ).loc main_v79) = Spec.embed (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19) :=
  (θ_run defs _ _).mono (fun _ h c => ⟨(h c main_v108).trans (by rw [after_all]; exact val6_v108 (launchContents m c)),
      (h c main_v137).trans (by rw [after_all]; exact val6_v137 (launchContents m c)),
      (h c main_v79).trans (by rw [after_all]; exact val6_v79 (launchContents m c)),
      (h c main_arg0).trans (by rw [after_all]; exact val6_base (launchContents m c) main_arg0 (by decide) (by decide) (by decide) (by decide) (by decide) (by decide) (by decide) (by decide)),
      (h c main_arg1).trans (by rw [after_all]; exact val6_base (launchContents m c) main_arg1 (by decide) (by decide) (by decide) (by decide) (by decide) (by decide) (by decide) (by decide)),
      (h c main_arg2).trans (by rw [after_all]; exact val6_base (launchContents m c) main_arg2 (by decide) (by decide) (by decide) (by decide) (by decide) (by decide) (by decide) (by decide)),
      (h c main_arg3).trans (by rw [after_all]; exact val6_base (launchContents m c) main_arg3 (by decide) (by decide) (by decide) (by decide) (by decide) (by decide) (by decide) (by decide)),
      (h c main_arg4).trans (by rw [after_all]; exact val6_base (launchContents m c) main_arg4 (by decide) (by decide) (by decide) (by decide) (by decide) (by decide) (by decide) (by decide)),
      (h c main_arg5).trans (by rw [after_all]; exact val6_base (launchContents m c) main_arg5 (by decide) (by decide) (by decide) (by decide) (by decide) (by decide) (by decide) (by decide)),
      (h c main_arg6).trans (by rw [after_all]; exact val6_base (launchContents m c) main_arg6 (by decide) (by decide) (by decide) (by decide) (by decide) (by decide) (by decide) (by decide)),
      (h c main_arg7).trans (by rw [after_all]; exact val6_base (launchContents m c) main_arg7 (by decide) (by decide) (by decide) (by decide) (by decide) (by decide) (by decide) (by decide)),
      (h c main_arg8).trans (by rw [after_all]; exact val6_base (launchContents m c) main_arg8 (by decide) (by decide) (by decide) (by decide) (by decide) (by decide) (by decide) (by decide)),
      (h c main_arg9).trans (by rw [after_all]; exact val6_base (launchContents m c) main_arg9 (by decide) (by decide) (by decide) (by decide) (by decide) (by decide) (by decide) (by decide)),
      (h c main_arg10).trans (by rw [after_all]; exact val6_base (launchContents m c) main_arg10 (by decide) (by decide) (by decide) (by decide) (by decide) (by decide) (by decide) (by decide)),
      (h c main_arg11).trans (by rw [after_all]; exact val6_base (launchContents m c) main_arg11 (by decide) (by decide) (by decide) (by decide) (by decide) (by decide) (by decide) (by decide)),
      (h c main_arg12).trans (by rw [after_all]; exact val6_base (launchContents m c) main_arg12 (by decide) (by decide) (by decide) (by decide) (by decide) (by decide) (by decide) (by decide)),
      (h c main_arg13).trans (by rw [after_all]; exact val6_base (launchContents m c) main_arg13 (by decide) (by decide) (by decide) (by decide) (by decide) (by decide) (by decide) (by decide)),
      (h c main_arg14).trans (by rw [after_all]; exact val6_base (launchContents m c) main_arg14 (by decide) (by decide) (by decide) (by decide) (by decide) (by decide) (by decide) (by decide)),
      (h c main_arg15).trans (by rw [after_all]; exact val6_base (launchContents m c) main_arg15 (by decide) (by decide) (by decide) (by decide) (by decide) (by decide) (by decide) (by decide)),
      (h c main_arg16).trans (by rw [after_all]; exact val6_base (launchContents m c) main_arg16 (by decide) (by decide) (by decide) (by decide) (by decide) (by decide) (by decide) (by decide)),
      (h c main_arg17).trans (by rw [after_all]; exact val6_base (launchContents m c) main_arg17 (by decide) (by decide) (by decide) (by decide) (by decide) (by decide) (by decide) (by decide)),
      (h c main_arg18).trans (by rw [after_all]; exact val6_base (launchContents m c) main_arg18 (by decide) (by decide) (by decide) (by decide) (by decide) (by decide) (by decide) (by decide)),
      (h c main_arg19).trans (by rw [after_all]; exact val6_base (launchContents m c) main_arg19 (by decide) (by decide) (by decide) (by decide) (by decide) (by decide) (by decide) (by decide))⟩)
    (run_main m ρ)

end Cert.ReferenceIdeal.RefRun

end
-- ==== Proof.lean ====
/-
  A graph convolution of three layers and a link predictor, computed two ways: by nine blocked calls among host
  operations, and by host operations alone.  Both are the same composition of whole-array functions of the
  arguments (Proof/Spec.lean):

    h1 = relu ((A (x · no)) · W1 · ni + b1),   h2 = relu (A ((h1 · no) · W2) · ni + b2),   h = A ((h2 · no) · W3) · ni + b3,
    score (a, b) = leaky (leaky ((h[a] · h[b]) · P1 + pb1) · P2 + pb2) · P3 + pb3,

  with `no`, `ni` the degree columns to the power -1/2 and `A` the weighted aggregation over the edges.  Every
  blocked call is one of these pieces row block by row block (Proof/KReg0 … KReg8); the host operations between the
  calls are the reference's own (Proof/KHost, KHost2); a matrix product into a zero accumulator is the host's product,
  a change of float format is the identity, and the two spellings of the leaky rectifier (`z > 0` against `z ≥ 0`)
  agree at zero because `c · 0 = 0`.  The one stacked call of the predictor over positive then negative pairs is, half
  by half, the reference's two calls (Proof/KScore).  No law used needs the inputs finite.
-/
import proofs.«108703_j40132174414142_2_alg».proof.Defs
import proofs.«108703_j40132174414142_2_alg».proof.Proof.Gen.Kernel
import proofs.«108703_j40132174414142_2_alg».proof.Proof.Gen.Kernel.Frame
import proofs.«108703_j40132174414142_2_alg».proof.Proof.Gen.KernelIdeal
import proofs.«108703_j40132174414142_2_alg».proof.Proof.Gen.KernelIdeal.Frame
import proofs.«108703_j40132174414142_2_alg».proof.Proof.Gen.ReferenceIdeal
import proofs.«108703_j40132174414142_2_alg».proof.Proof.Gen.Pre_finite_inputs
import proofs.«108703_j40132174414142_2_alg».proof.Proof.KFinal
import proofs.«108703_j40132174414142_2_alg».proof.Proof.RefRead
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run with its three results dropped. -/
theorem frame_ri : Cert.frame_ReferenceIdeal := fun m ρ _ =>
  (θ_run Cert.ReferenceIdeal.defs _ _).mono (fun _ h c => (h c).2.2.2) (Cert.ReferenceIdeal.RefRun.ref_run (F := Ideal) m ρ)

/-- Both programs end with the same three functions of arguments that agree. -/
theorem algebraic : Cert.algebraic_KernelIdeal_ReferenceIdeal := by
  intro m ρ m' ρ' _ hagree
  refine ⟨_, _, _, Cert.KernelIdeal.Val.kernel_run m ρ, ?_⟩
  refine (θ_run Cert.ReferenceIdeal.defs _ _).mono (fun r h c => ?_) (Cert.ReferenceIdeal.RefRun.ref_run (F := Ideal) m' ρ')
  obtain ⟨a0, a1, a2, a3, a4, a5, a6, a7, a8, a9, a10, a11, a12, a13, a14, a15, a16, a17, a18, a19⟩ := hagree c
  obtain ⟨r1, r2, r3, rest⟩ := h c
  refine ⟨r1.trans ?_, r2.trans ?_, r3.trans ?_, rest⟩
  all_goals simp only [a0, a1, a2, a3, a4, a5, a6, a7, a8, a9, a10, a11, a12, a13, a14, a15, a16, a17, a18, a19]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
